-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S60000x25 : Shape := ⟨2, ![60000, 25]⟩
abbrev S60000 : Shape := ⟨1, ![60000]⟩
abbrev S30000x25 : Shape := ⟨2, ![30000, 25]⟩
abbrev S30000 : Shape := ⟨1, ![30000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x256 .f32) (main_arg8 : FVec F S128 .f32) (main_arg9 : FVec F S128 .f32) (main_arg10 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x256 .f32) (main_arg6 : FVec F S128 .f32) (main_arg7 : FVec F S128x256 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x256 .f32) (main_arg6 : FVec F S128 .f32) (main_arg7 : FVec F S128x256 .f32) (main_arg8 : FVec F S128 .f32) (main_arg9 : FVec F S128 .f32) (main_arg10 : FVec F S128 .f32) (main_arg11 : IVec S60000x25 32) (main_arg12 : IVec S60000 32) (main_arg13 : IVec S30000x25 32) (main_arg14 : IVec S30000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S60000x25 : Shape := ⟨2, ![60000, 25]⟩
abbrev S60000 : Shape := ⟨1, ![60000]⟩
abbrev S30000x25 : Shape := ⟨2, ![30000, 25]⟩
abbrev S30000 : Shape := ⟨1, ![30000]⟩
abbrev S1x128 : Shape := ⟨2, ![1, 128]⟩
abbrev S2000x128 : Shape := ⟨2, ![2000, 128]⟩
abbrev S_ : Shape := ⟨0, ![]⟩
abbrev S60000x25x1 : Shape := ⟨3, ![60000, 25, 1]⟩
abbrev S60000x25x128 : Shape := ⟨3, ![60000, 25, 128]⟩
abbrev S60000x1 : Shape := ⟨2, ![60000, 1]⟩
abbrev S60000x128 : Shape := ⟨2, ![60000, 128]⟩
abbrev S1000x25x128 : Shape := ⟨3, ![1000, 25, 128]⟩
abbrev S1000x128 : Shape := ⟨2, ![1000, 128]⟩
abbrev S1000x1x128 : Shape := ⟨3, ![1000, 1, 128]⟩
abbrev S1000x256 : Shape := ⟨2, ![1000, 256]⟩
abbrev S256x128 : Shape := ⟨2, ![256, 128]⟩
abbrev S3000x128 : Shape := ⟨2, ![3000, 128]⟩
abbrev S3000 : Shape := ⟨1, ![3000]⟩
abbrev S3000x1 : Shape := ⟨2, ![3000, 1]⟩
abbrev S30000x25x1 : Shape := ⟨3, ![30000, 25, 1]⟩
abbrev S30000x25x128 : Shape := ⟨3, ![30000, 25, 128]⟩
abbrev S30000x1 : Shape := ⟨2, ![30000, 1]⟩
abbrev S30000x128 : Shape := ⟨2, ![30000, 128]⟩

abbrev nBuf : Space → Nat
  | .hbm => 86
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S60000x25, .i32⟩
  | .hbm, ⟨12, _⟩ => ⟨S60000, .i32⟩
  | .hbm, ⟨13, _⟩ => ⟨S30000x25, .i32⟩
  | .hbm, ⟨14, _⟩ => ⟨S30000, .i32⟩
  | .hbm, ⟨15, _⟩ => ⟨S1x128, .f32⟩
  | .hbm, ⟨16, _⟩ => ⟨S100000x128, .bf16⟩
  | .hbm, ⟨17, _⟩ => ⟨S_, .i32⟩
  | .hbm, ⟨18, _⟩ => ⟨S60000x25, .i32⟩
  | .hbm, ⟨19, _⟩ => ⟨S60000x25, .i1⟩
  | .hbm, ⟨20, _⟩ => ⟨S_, .i32⟩
  | .hbm, ⟨21, _⟩ => ⟨S60000x25, .i32⟩
  | .hbm, ⟨22, _⟩ => ⟨S60000x25, .i32⟩
  | .hbm, ⟨23, _⟩ => ⟨S60000x25, .i32⟩
  | .hbm, ⟨24, _⟩ => ⟨S60000x25x1, .i32⟩
  | .hbm, ⟨25, _⟩ => ⟨S60000x25x128, .bf16⟩
  | .hbm, ⟨26, _⟩ => ⟨S_, .i32⟩
  | .hbm, ⟨27, _⟩ => ⟨S60000, .i32⟩
  | .hbm, ⟨28, _⟩ => ⟨S60000, .i1⟩
  | .hbm, ⟨29, _⟩ => ⟨S_, .i32⟩
  | .hbm, ⟨30, _⟩ => ⟨S60000, .i32⟩
  | .hbm, ⟨31, _⟩ => ⟨S60000, .i32⟩
  | .hbm, ⟨32, _⟩ => ⟨S60000, .i32⟩
  | .hbm, ⟨33, _⟩ => ⟨S60000x1, .i32⟩
  | .hbm, ⟨34, _⟩ => ⟨S60000x128, .f32⟩
  | .hbm, ⟨35, _⟩ => ⟨S1x128, .f32⟩
  | .hbm, ⟨36, _⟩ => ⟨S60000x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S60000x128, .f32⟩
  | .hbm, ⟨64, _⟩ => ⟨S1x128, .f32⟩
  | .hbm, ⟨65, _⟩ => ⟨S60000x128, .bf16⟩
  | .hbm, ⟨66, _⟩ => ⟨S_, .i32⟩
  | .hbm, ⟨67, _⟩ => ⟨S30000x25, .i32⟩
  | .hbm, ⟨68, _⟩ => ⟨S30000x25, .i1⟩
  | .hbm, ⟨69, _⟩ => ⟨S_, .i32⟩
  | .hbm, ⟨70, _⟩ => ⟨S30000x25, .i32⟩
  | .hbm, ⟨71, _⟩ => ⟨S30000x25, .i32⟩
  | .hbm, ⟨72, _⟩ => ⟨S30000x25, .i32⟩
  | .hbm, ⟨73, _⟩ => ⟨S30000x25x1, .i32⟩
  | .hbm, ⟨74, _⟩ => ⟨S30000x25x128, .bf16⟩
  | .hbm, ⟨75, _⟩ => ⟨S_, .i32⟩
  | .hbm, ⟨76, _⟩ => ⟨S30000, .i32⟩
  | .hbm, ⟨77, _⟩ => ⟨S30000, .i1⟩
  | .hbm, ⟨78, _⟩ => ⟨S_, .i32⟩
  | .hbm, ⟨79, _⟩ => ⟨S30000, .i32⟩
  | .hbm, ⟨80, _⟩ => ⟨S30000, .i32⟩
  | .hbm, ⟨81, _⟩ => ⟨S30000, .i32⟩
  | .hbm, ⟨82, _⟩ => ⟨S30000x1, .i32⟩
  | .hbm, ⟨83, _⟩ => ⟨S30000x128, .f32⟩
  | .hbm, ⟨84, _⟩ => ⟨S1x128, .f32⟩
  | .hbm, ⟨85, _⟩ => ⟨S30000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .bf16⟩
  | .local _ .vmem, ⟨5, _⟩ => ⟨S2000x128, .bf16⟩
  | .local _ .vmem, ⟨6, _⟩ => ⟨S1000x25x128, .bf16⟩
  | .local _ .vmem, ⟨7, _⟩ => ⟨S1000x25x128, .bf16⟩
  | .local _ .vmem, ⟨8, _⟩ => ⟨S1000x128, .f32⟩
  | .local _ .vmem, ⟨9, _⟩ => ⟨S1000x128, .f32⟩
  | .local _ .vmem, ⟨10, _⟩ => ⟨S128x256, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | .local _ .vmem, ⟨14, _⟩ => ⟨S3000x128, .f32⟩
  | .local _ .vmem, ⟨15, _⟩ => ⟨S3000x128, .f32⟩
  | .local _ .vmem, ⟨16, _⟩ => ⟨S1x128, .f32⟩
  | .local _ .vmem, ⟨17, _⟩ => ⟨S1x128, .f32⟩
  | .local _ .vmem, ⟨18, _⟩ => ⟨S3000x128, .f32⟩
  | .local _ .vmem, ⟨19, _⟩ => ⟨S3000x128, .f32⟩
  | .local _ .vmem, ⟨20, _⟩ => ⟨S1x128, .f32⟩
  | .local _ .vmem, ⟨21, _⟩ => ⟨S1x128, .f32⟩
  | .local _ .vmem, ⟨22, _⟩ => ⟨S3000x128, .f32⟩
  | .local _ .vmem, ⟨23, _⟩ => ⟨S3000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S2000x128, .bf16⟩
  | .local _ .vmem, ⟨29, _⟩ => ⟨S2000x128, .bf16⟩
  | .local _ .vmem, ⟨30, _⟩ => ⟨S1000x25x128, .bf16⟩
  | .local _ .vmem, ⟨31, _⟩ => ⟨S1000x25x128, .bf16⟩
  | .local _ .vmem, ⟨32, _⟩ => ⟨S1000x128, .f32⟩
  | .local _ .vmem, ⟨33, _⟩ => ⟨S1000x128, .f32⟩
  | .local _ .vmem, ⟨34, _⟩ => ⟨S128x256, .f32⟩
  | .local _ .vmem, ⟨35, _⟩ => ⟨S1x128, .f32⟩
  | .local _ .vmem, ⟨36, _⟩ => ⟨S1000x128, .f32⟩
  | .local _ .vmem, ⟨37, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem4_0 : DmaSem sig := 36
abbrev cc5_sem4_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![60], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x25x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S3000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![30], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x25x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S60000x25 : S_.BroadcastsInDim S60000x25 (![] : Fin 0 → Fin S60000x25.rank)
  bcast_S60000x25_S60000x25x1_0_1 : S60000x25.BroadcastsInDim S60000x25x1 (![0, 1] : Fin 2 → Fin S60000x25x1.rank)
  bcast_S_S60000 : S_.BroadcastsInDim S60000 (![] : Fin 0 → Fin S60000.rank)
  bcast_S60000_S60000x1_0 : S60000.BroadcastsInDim S60000x1 (![0] : Fin 1 → Fin S60000x1.rank)
  inb_S1000x25x128_S1000x25x128_0_0_0 : ∀ a, (![0, 0, 0] : Fin 3 → Nat) a + S1000x25x128.size a ≤ S1000x25x128.size a
  h_S1000x25x128 : 0 < S1000x25x128.numel
  shapeCasts_S1000x25x128_S1000x25x128 : S1000x25x128.ShapeCasts S1000x25x128
  slices_S1000x25x128_o0_0_0_S1000x1x128 : S1000x25x128.Slices ![0, 0, 0] S1000x1x128
  shapeCasts_S1000x1x128_S1000x128 : S1000x1x128.ShapeCasts S1000x128
  slices_S1000x25x128_o0_1_0_S1000x1x128 : S1000x25x128.Slices ![0, 1, 0] S1000x1x128
  slices_S1000x25x128_o0_2_0_S1000x1x128 : S1000x25x128.Slices ![0, 2, 0] S1000x1x128
  slices_S1000x25x128_o0_3_0_S1000x1x128 : S1000x25x128.Slices ![0, 3, 0] S1000x1x128
  slices_S1000x25x128_o0_4_0_S1000x1x128 : S1000x25x128.Slices ![0, 4, 0] S1000x1x128
  slices_S1000x25x128_o0_5_0_S1000x1x128 : S1000x25x128.Slices ![0, 5, 0] S1000x1x128
  slices_S1000x25x128_o0_6_0_S1000x1x128 : S1000x25x128.Slices ![0, 6, 0] S1000x1x128
  slices_S1000x25x128_o0_7_0_S1000x1x128 : S1000x25x128.Slices ![0, 7, 0] S1000x1x128
  slices_S1000x25x128_o0_8_0_S1000x1x128 : S1000x25x128.Slices ![0, 8, 0] S1000x1x128
  slices_S1000x25x128_o0_9_0_S1000x1x128 : S1000x25x128.Slices ![0, 9, 0] S1000x1x128
  slices_S1000x25x128_o0_10_0_S1000x1x128 : S1000x25x128.Slices ![0, 10, 0] S1000x1x128
  slices_S1000x25x128_o0_11_0_S1000x1x128 : S1000x25x128.Slices ![0, 11, 0] S1000x1x128
  slices_S1000x25x128_o0_12_0_S1000x1x128 : S1000x25x128.Slices ![0, 12, 0] S1000x1x128
  slices_S1000x25x128_o0_13_0_S1000x1x128 : S1000x25x128.Slices ![0, 13, 0] S1000x1x128
  slices_S1000x25x128_o0_14_0_S1000x1x128 : S1000x25x128.Slices ![0, 14, 0] S1000x1x128
  slices_S1000x25x128_o0_15_0_S1000x1x128 : S1000x25x128.Slices ![0, 15, 0] S1000x1x128
  slices_S1000x25x128_o0_16_0_S1000x1x128 : S1000x25x128.Slices ![0, 16, 0] S1000x1x128
  slices_S1000x25x128_o0_17_0_S1000x1x128 : S1000x25x128.Slices ![0, 17, 0] S1000x1x128
  slices_S1000x25x128_o0_18_0_S1000x1x128 : S1000x25x128.Slices ![0, 18, 0] S1000x1x128
  slices_S1000x25x128_o0_19_0_S1000x1x128 : S1000x25x128.Slices ![0, 19, 0] S1000x1x128
  slices_S1000x25x128_o0_20_0_S1000x1x128 : S1000x25x128.Slices ![0, 20, 0] S1000x1x128
  slices_S1000x25x128_o0_21_0_S1000x1x128 : S1000x25x128.Slices ![0, 21, 0] S1000x1x128
  slices_S1000x25x128_o0_22_0_S1000x1x128 : S1000x25x128.Slices ![0, 22, 0] S1000x1x128
  slices_S1000x25x128_o0_23_0_S1000x1x128 : S1000x25x128.Slices ![0, 23, 0] S1000x1x128
  slices_S1000x25x128_o0_24_0_S1000x1x128 : S1000x25x128.Slices ![0, 24, 0] S1000x1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  concatenates_S1000x128_S1000x128_S1000x256_d1 : Shape.Concatenates [S1000x128, S1000x128] S1000x256 1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  broadcasts_S1x128_S1000x128 : S1x128.Broadcasts S1000x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  reduces_S3000x128_S128 : S3000x128.Reduces [0] S128
  bcast_S_S1x128 : S_.BroadcastsInDim S1x128 (![] : Fin 0 → Fin S1x128.rank)
  shapeCasts_S1x128_S128 : S1x128.ShapeCasts S128
  broadcasts_S1x128_S3000x128 : S1x128.Broadcasts S3000x128
  reduces_S3000x128_S3000 : S3000x128.Reduces [1] S3000
  shapeCasts_S3000_S3000x1 : S3000.ShapeCasts S3000x1
  broadcasts_S3000x1_S3000x128 : S3000x1.Broadcasts S3000x128
  shapeCasts_S2000x128_S2000x128 : S2000x128.ShapeCasts S2000x128
  bcast_S_S30000x25 : S_.BroadcastsInDim S30000x25 (![] : Fin 0 → Fin S30000x25.rank)
  bcast_S30000x25_S30000x25x1_0_1 : S30000x25.BroadcastsInDim S30000x25x1 (![0, 1] : Fin 2 → Fin S30000x25x1.rank)
  bcast_S_S30000 : S_.BroadcastsInDim S30000 (![] : Fin 0 → Fin S30000.rank)
  bcast_S30000_S30000x1_0 : S30000.BroadcastsInDim S30000x1 (![0] : Fin 1 → Fin S30000x1.rank)
  dot_S2000x128_S128x128_S2000x128_1_0_0_1_n_n_wf : DotDims.WF S2000x128 S128x128 S2000x128 [1] [0] [0] [1] [] []
  gather_S100000x128_S60000x25x1_S60000x25x128_2_0_n_n_0_2_1128_wf : GatherDims.WF S100000x128 S60000x25x1 S60000x25x128 [2] [0] [] [0] [] 2 ![1, 128]
  gather_S100000x128_S60000x1_S60000x128_1_0_n_n_0_1_1128_wf : GatherDims.WF S100000x128 S60000x1 S60000x128 [1] [0] [] [0] [] 1 ![1, 128]
  dot_S1000x256_S256x128_S1000x128_1_0_0_1_n_n_wf : DotDims.WF S1000x256 S256x128 S1000x128 [1] [0] [0] [1] [] []
  gather_S60000x128_S30000x25x1_S30000x25x128_2_0_n_n_0_2_1128_wf : GatherDims.WF S60000x128 S30000x25x1 S30000x25x128 [2] [0] [] [0] [] 2 ![1, 128]
  gather_S60000x128_S30000x1_S30000x128_1_0_n_n_0_1_1128_wf : GatherDims.WF S60000x128 S30000x1 S30000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x25x128.size a ≤ S60000x25x128.size a
  hwx1_0 : ∀ i : grid1.Coords, EltTy.bits .bf16 = 32 ∨ (Rect.block (s := S60000x25x128) S1000x25x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S60000x128.size a
  hwx1_1 : ∀ i : grid1.Coords, EltTy.bits .f32 = 32 ∨ (Rect.block (s := S60000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S60000x128.size a
  hwx1_4 : ∀ i : grid1.Coords, EltTy.bits .f32 = 32 ∨ (Rect.block (s := S60000x128) S1000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S60000x128.size a
  hwx2_0 : ∀ i : grid2.Coords, EltTy.bits .f32 = 32 ∨ (Rect.block (s := S60000x128) S3000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x128.size a ≤ S60000x128.size a
  hwx3_0 : ∀ i : grid3.Coords, EltTy.bits .f32 = 32 ∨ (Rect.block (s := S60000x128) S3000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S3000x128.size a ≤ S60000x128.size a
  hwx3_3 : ∀ i : grid3.Coords, EltTy.bits .f32 = 32 ∨ (Rect.block (s := S60000x128) S3000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S60000x128.size a
  hwx4_0 : ∀ i : grid4.Coords, EltTy.bits .f32 = 32 ∨ (Rect.block (s := S60000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S60000x128.size a
  hwx4_3 : ∀ i : grid4.Coords, EltTy.bits .bf16 = 32 ∨ (Rect.block (s := S60000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x25x128.size a ≤ S30000x25x128.size a
  hwx5_0 : ∀ i : grid5.Coords, EltTy.bits .bf16 = 32 ∨ (Rect.block (s := S30000x25x128) S1000x25x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S30000x128.size a
  hwx5_1 : ∀ i : grid5.Coords, EltTy.bits .f32 = 32 ∨ (Rect.block (s := S30000x128) S1000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x128.size a ≤ S30000x128.size a
  hwx5_4 : ∀ i : grid5.Coords, EltTy.bits .f32 = 32 ∨ (Rect.block (s := S30000x128) S1000x128.size (cc5_transform_4 i) (hinb5_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S60000x25x1_S60000x25x128_2_0_n_n_0_2_1128 : GatherDims S100000x128 S60000x25x1 S60000x25x128 where
  offsetDims := [2]
  collapsedSliceDims := [0]
  operandBatchingDims := []
  startIndicesBatchingDims := []
  startIndexMap := [0]
  indexVectorDim := 2
  sliceSizes := ![1, 128]
  wf := gather_S100000x128_S60000x25x1_S60000x25x128_2_0_n_n_0_2_1128_wf
def gather_S100000x128_S60000x1_S60000x128_1_0_n_n_0_1_1128 : GatherDims S100000x128 S60000x1 S60000x128 where
  offsetDims := [1]
  collapsedSliceDims := [0]
  operandBatchingDims := []
  startIndicesBatchingDims := []
  startIndexMap := [0]
  indexVectorDim := 1
  sliceSizes := ![1, 128]
  wf := gather_S100000x128_S60000x1_S60000x128_1_0_n_n_0_1_1128_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S60000x128_S30000x25x1_S30000x25x128_2_0_n_n_0_2_1128 : GatherDims S60000x128 S30000x25x1 S30000x25x128 where
  offsetDims := [2]
  collapsedSliceDims := [0]
  operandBatchingDims := []
  startIndicesBatchingDims := []
  startIndexMap := [0]
  indexVectorDim := 2
  sliceSizes := ![1, 128]
  wf := gather_S60000x128_S30000x25x1_S30000x25x128_2_0_n_n_0_2_1128_wf
def gather_S60000x128_S30000x1_S30000x128_1_0_n_n_0_1_1128 : GatherDims S60000x128 S30000x1 S30000x128 where
  offsetDims := [1]
  collapsedSliceDims := [0]
  operandBatchingDims := []
  startIndicesBatchingDims := []
  startIndexMap := [0]
  indexVectorDim := 1
  sliceSizes := ![1, 128]
  wf := gather_S60000x128_S30000x1_S30000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1000x25x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v17) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v17) S3000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S3000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v39) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v40) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S1000x25x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S60000x25 : Shape := ⟨2, ![60000, 25]⟩
abbrev S60000 : Shape := ⟨1, ![60000]⟩
abbrev S30000x25 : Shape := ⟨2, ![30000, 25]⟩
abbrev S30000 : Shape := ⟨1, ![30000]⟩
abbrev S1x128 : Shape := ⟨2, ![1, 128]⟩
abbrev S_ : Shape := ⟨0, ![]⟩
abbrev S60000x25x1 : Shape := ⟨3, ![60000, 25, 1]⟩
abbrev S60000x25x128 : Shape := ⟨3, ![60000, 25, 128]⟩
abbrev S60000x128 : Shape := ⟨2, ![60000, 128]⟩
abbrev S60000x1 : Shape := ⟨2, ![60000, 1]⟩
abbrev S60000x256 : Shape := ⟨2, ![60000, 256]⟩
abbrev S256x128 : Shape := ⟨2, ![256, 128]⟩
abbrev S30000x25x1 : Shape := ⟨3, ![30000, 25, 1]⟩
abbrev S30000x25x128 : Shape := ⟨3, ![30000, 25, 128]⟩
abbrev S30000x128 : Shape := ⟨2, ![30000, 128]⟩
abbrev S30000x1 : Shape := ⟨2, ![30000, 1]⟩
abbrev S30000x256 : Shape := ⟨2, ![30000, 256]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x256, .f32⟩
  | 6 => ⟨S128, .f32⟩
  | 7 => ⟨S128x256, .f32⟩
  | 8 => ⟨S128, .f32⟩
  | 9 => ⟨S128, .f32⟩
  | 10 => ⟨S128, .f32⟩
  | 11 => ⟨S60000x25, .i32⟩
  | 12 => ⟨S60000, .i32⟩
  | 13 => ⟨S30000x25, .i32⟩
  | 14 => ⟨S30000, .i32⟩
  | 15 => ⟨S128x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .i32⟩
  | 24 => ⟨S60000x25, .i32⟩
  | 25 => ⟨S60000x25, .i1⟩
  | 26 => ⟨S_, .i32⟩
  | 27 => ⟨S60000x25, .i32⟩
  | 28 => ⟨S60000x25, .i32⟩
  | 29 => ⟨S60000x25, .i32⟩
  | 30 => ⟨S60000x25x1, .i32⟩
  | 31 => ⟨S60000x25x128, .f32⟩
  | 32 => ⟨S_, .f32⟩
  | 33 => ⟨S60000x128, .f32⟩
  | 34 => ⟨S_, .i32⟩
  | 35 => ⟨S60000, .i32⟩
  | 36 => ⟨S60000, .i1⟩
  | 37 => ⟨S_, .i32⟩
  | 38 => ⟨S60000, .i32⟩
  | 39 => ⟨S60000, .i32⟩
  | 40 => ⟨S60000, .i32⟩
  | 41 => ⟨S60000x1, .i32⟩
  | 42 => ⟨S60000x128, .f32⟩
  | 43 => ⟨S60000x256, .f32⟩
  | 44 => ⟨S256x128, .f32⟩
  | 45 => ⟨S60000x128, .f32⟩
  | 46 => ⟨S1x128, .f32⟩
  | 47 => ⟨S60000x128, .f32⟩
  | 48 => ⟨S60000x128, .f32⟩
  | 49 => ⟨S_, .f32⟩
  | 50 => ⟨S60000x128, .f32⟩
  | 51 => ⟨S60000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S60000x128, .f32⟩
  | 65 => ⟨S60000x128, .f32⟩
  | 66 => ⟨S60000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S60000x128, .f32⟩
  | 82 => ⟨S60000x128, .f32⟩
  | 83 => ⟨S_, .f32⟩
  | 84 => ⟨S128, .f32⟩
  | 85 => ⟨S128, .f32⟩
  | 86 => ⟨S128, .f32⟩
  | 87 => ⟨S1x128, .f32⟩
  | 88 => ⟨S60000x128, .f32⟩
  | 89 => ⟨S60000x128, .f32⟩
  | 90 => ⟨S1x128, .f32⟩
  | 91 => ⟨S60000x128, .f32⟩
  | 92 => ⟨S60000x128, .f32⟩
  | 93 => ⟨S1x128, .f32⟩
  | 94 => ⟨S60000x128, .f32⟩
  | 95 => ⟨S60000x128, .f32⟩
  | 96 => ⟨S60000x128, .f32⟩
  | 97 => ⟨S_, .f32⟩
  | 98 => ⟨S60000, .f32⟩
  | 99 => ⟨S60000x1, .f32⟩
  | 100 => ⟨S60000x1, .f32⟩
  | 101 => ⟨S_, .f32⟩
  | 102 => ⟨S60000x1, .f32⟩
  | 103 => ⟨S60000x1, .f32⟩
  | 104 => ⟨S60000x128, .f32⟩
  | 105 => ⟨S60000x128, .f32⟩
  | 106 => ⟨S128x128, .f32⟩
  | 107 => ⟨S60000x128, .f32⟩
  | 108 => ⟨S1x128, .f32⟩
  | 109 => ⟨S60000x128, .f32⟩
  | 110 => ⟨S60000x128, .f32⟩
  | 111 => ⟨S_, .f32⟩
  | 112 => ⟨S60000x128, .f32⟩
  | 113 => ⟨S60000x128, .f32⟩
  | 114 => ⟨S_, .i32⟩
  | 115 => ⟨S30000x25, .i32⟩
  | 116 => ⟨S30000x25, .i1⟩
  | 117 => ⟨S_, .i32⟩
  | 118 => ⟨S30000x25, .i32⟩
  | 119 => ⟨S30000x25, .i32⟩
  | 120 => ⟨S30000x25, .i32⟩
  | 121 => ⟨S30000x25x1, .i32⟩
  | 122 => ⟨S30000x25x128, .f32⟩
  | 123 => ⟨S_, .f32⟩
  | 124 => ⟨S30000x128, .f32⟩
  | 125 => ⟨S_, .i32⟩
  | 126 => ⟨S30000, .i32⟩
  | 127 => ⟨S30000, .i1⟩
  | _ => ⟨S100000x128, .f32⟩

abbrev hbmTy0_1 (i : Nat) : BufTy := match i % 128 with
  | 0 => ⟨S_, .i32⟩
  | 1 => ⟨S30000, .i32⟩
  | 2 => ⟨S30000, .i32⟩
  | 3 => ⟨S30000, .i32⟩
  | 4 => ⟨S30000x1, .i32⟩
  | 5 => ⟨S30000x128, .f32⟩
  | 6 => ⟨S30000x256, .f32⟩
  | 7 => ⟨S256x128, .f32⟩
  | 8 => ⟨S30000x128, .f32⟩
  | 9 => ⟨S1x128, .f32⟩
  | 10 => ⟨S30000x128, .f32⟩
  | 11 => ⟨S30000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_cst : Ref sig .tc := ⟨.hbm, 49, rfl⟩
abbrev main_call1_v0 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_cst_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_cst_1 : Ref sig .tc := ⟨.hbm, 68, rfl⟩
abbrev main_call2_v8 : Ref sig .tc := ⟨.hbm, 69, rfl⟩
abbrev main_call2_cst_2 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_cst_3 : Ref sig .tc := ⟨.hbm, 74, rfl⟩
abbrev main_call2_v12 : Ref sig .tc := ⟨.hbm, 75, rfl⟩
abbrev main_call2_cst_4 : Ref sig .tc := ⟨.hbm, 76, rfl⟩
abbrev main_call2_call0_v0 : Ref sig .tc := ⟨.hbm, 77, rfl⟩
abbrev main_call2_call0_v1 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_6 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_call3_v0 : Ref sig .tc := ⟨.hbm, 96, rfl⟩
abbrev main_call3_cst : Ref sig .tc := ⟨.hbm, 97, rfl⟩
abbrev main_call3_v1 : Ref sig .tc := ⟨.hbm, 98, rfl⟩
abbrev main_call3_v2 : Ref sig .tc := ⟨.hbm, 99, rfl⟩
abbrev main_v47 : Ref sig .tc := ⟨.hbm, 100, rfl⟩
abbrev main_cst_7 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_call4_cst : Ref sig .tc := ⟨.hbm, 111, rfl⟩
abbrev main_call4_v0 : Ref sig .tc := ⟨.hbm, 112, rfl⟩
abbrev main_v57 : Ref sig .tc := ⟨.hbm, 113, rfl⟩
abbrev main_c_8 : Ref sig .tc := ⟨.hbm, 114, rfl⟩
abbrev main_v58 : Ref sig .tc := ⟨.hbm, 115, rfl⟩
abbrev main_v59 : Ref sig .tc := ⟨.hbm, 116, rfl⟩
abbrev main_c_9 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_cst_10 : Ref sig .tc := ⟨.hbm, 123, rfl⟩
abbrev main_v65 : Ref sig .tc := ⟨.hbm, 124, rfl⟩
abbrev main_c_11 : Ref sig .tc := ⟨.hbm, 125, rfl⟩
abbrev main_v66 : Ref sig .tc := ⟨.hbm, 126, rfl⟩
abbrev main_v67 : Ref sig .tc := ⟨.hbm, 127, rfl⟩
abbrev main_c_12 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S60000x25 : S_.BroadcastsInDim S60000x25 (![] : Fin 0 → Fin S60000x25.rank)
  bcast_S60000x25_S60000x25x1_0_1 : S60000x25.BroadcastsInDim S60000x25x1 (![0, 1] : Fin 2 → Fin S60000x25x1.rank)
  reducesTo_S60000x25x128_S60000x128_d1 : S60000x25x128.ReducesTo [1] S60000x128
  h_S_ : 0 < S_.numel
  bcast_S_S60000 : S_.BroadcastsInDim S60000 (![] : Fin 0 → Fin S60000.rank)
  bcast_S60000_S60000x1_0 : S60000.BroadcastsInDim S60000x1 (![0] : Fin 1 → Fin S60000x1.rank)
  concatenates_S60000x128_S60000x128_S60000x256_d1 : Shape.Concatenates [S60000x128, S60000x128] S60000x256 1
  transposes_S128x256_S256x128_1_0 : S128x256.Transposes [1, 0] S256x128
  bcast_S1x128_S60000x128_0_1 : S1x128.BroadcastsInDim S60000x128 (![0, 1] : Fin 2 → Fin S60000x128.rank)
  bcast_S_S60000x128 : S_.BroadcastsInDim S60000x128 (![] : Fin 0 → Fin S60000x128.rank)
  reducesTo_S60000x128_S128_d0 : S60000x128.ReducesTo [0] S128
  bcast_S_S128 : S_.BroadcastsInDim S128 (![] : Fin 0 → Fin S128.rank)
  bcast_S_S1x128 : S_.BroadcastsInDim S1x128 (![] : Fin 0 → Fin S1x128.rank)
  reducesTo_S60000x128_S60000_d1 : S60000x128.ReducesTo [1] S60000
  bcast_S_S60000x1 : S_.BroadcastsInDim S60000x1 (![] : Fin 0 → Fin S60000x1.rank)
  bcast_S60000x1_S60000x128_0_1 : S60000x1.BroadcastsInDim S60000x128 (![0, 1] : Fin 2 → Fin S60000x128.rank)
  bcast_S_S30000x25 : S_.BroadcastsInDim S30000x25 (![] : Fin 0 → Fin S30000x25.rank)
  bcast_S30000x25_S30000x25x1_0_1 : S30000x25.BroadcastsInDim S30000x25x1 (![0, 1] : Fin 2 → Fin S30000x25x1.rank)
  reducesTo_S30000x25x128_S30000x128_d1 : S30000x25x128.ReducesTo [1] S30000x128
  bcast_S_S30000 : S_.BroadcastsInDim S30000 (![] : Fin 0 → Fin S30000.rank)
  bcast_S30000_S30000x1_0 : S30000.BroadcastsInDim S30000x1 (![0] : Fin 1 → Fin S30000x1.rank)
  concatenates_S30000x128_S30000x128_S30000x256_d1 : Shape.Concatenates [S30000x128, S30000x128] S30000x256 1
  bcast_S1x128_S30000x128_0_1 : S1x128.BroadcastsInDim S30000x128 (![0, 1] : Fin 2 → Fin S30000x128.rank)
  dot_S100000x128_S128x128_S100000x128_1_0_0_1_n_n_wf : DotDims.WF S100000x128 S128x128 S100000x128 [1] [0] [0] [1] [] []
  gather_S100000x128_S60000x25x1_S60000x25x128_2_0_n_n_0_2_1128_wf : GatherDims.WF S100000x128 S60000x25x1 S60000x25x128 [2] [0] [] [0] [] 2 ![1, 128]
  gather_S100000x128_S60000x1_S60000x128_1_0_n_n_0_1_1128_wf : GatherDims.WF S100000x128 S60000x1 S60000x128 [1] [0] [] [0] [] 1 ![1, 128]
  dot_S60000x256_S256x128_S60000x128_1_0_0_1_n_n_wf : DotDims.WF S60000x256 S256x128 S60000x128 [1] [0] [0] [1] [] []
  dot_S60000x128_S128x128_S60000x128_1_0_0_1_n_n_wf : DotDims.WF S60000x128 S128x128 S60000x128 [1] [0] [0] [1] [] []
  gather_S60000x128_S30000x25x1_S30000x25x128_2_0_n_n_0_2_1128_wf : GatherDims.WF S60000x128 S30000x25x1 S30000x25x128 [2] [0] [] [0] [] 2 ![1, 128]
  gather_S60000x128_S30000x1_S30000x128_1_0_n_n_0_1_1128_wf : GatherDims.WF S60000x128 S30000x1 S30000x128 [1] [0] [] [0] [] 1 ![1, 128]
  dot_S30000x256_S256x128_S30000x128_1_0_0_1_n_n_wf : DotDims.WF S30000x256 S256x128 S30000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S60000x25x1_S60000x25x128_2_0_n_n_0_2_1128 : GatherDims S100000x128 S60000x25x1 S60000x25x128 where
  offsetDims := [2]
  collapsedSliceDims := [0]
  operandBatchingDims := []
  startIndicesBatchingDims := []
  startIndexMap := [0]
  indexVectorDim := 2
  sliceSizes := ![1, 128]
  wf := gather_S100000x128_S60000x25x1_S60000x25x128_2_0_n_n_0_2_1128_wf
def gather_S100000x128_S60000x1_S60000x128_1_0_n_n_0_1_1128 : GatherDims S100000x128 S60000x1 S60000x128 where
  offsetDims := [1]
  collapsedSliceDims := [0]
  operandBatchingDims := []
  startIndicesBatchingDims := []
  startIndexMap := [0]
  indexVectorDim := 1
  sliceSizes := ![1, 128]
  wf := gather_S100000x128_S60000x1_S60000x128_1_0_n_n_0_1_1128_wf
def dot_S60000x256_S256x128_S60000x128_1_0_0_1_n_n : DotDims S60000x256 S256x128 S60000x128 where
  lhsContracting := [1]
  rhsContracting := [0]
  lhsNonContracting := [0]
  rhsNonContracting := [1]
  lhsBatch := []
  rhsBatch := []
  wf := dot_S60000x256_S256x128_S60000x128_1_0_0_1_n_n_wf
def dot_S60000x128_S128x128_S60000x128_1_0_0_1_n_n : DotDims S60000x128 S128x128 S60000x128 where
  lhsContracting := [1]
  rhsContracting := [0]
  lhsNonContracting := [0]
  rhsNonContracting := [1]
  lhsBatch := []
  rhsBatch := []
  wf := dot_S60000x128_S128x128_S60000x128_1_0_0_1_n_n_wf
def gather_S60000x128_S30000x25x1_S30000x25x128_2_0_n_n_0_2_1128 : GatherDims S60000x128 S30000x25x1 S30000x25x128 where
  offsetDims := [2]
  collapsedSliceDims := [0]
  operandBatchingDims := []
  startIndicesBatchingDims := []
  startIndexMap := [0]
  indexVectorDim := 2
  sliceSizes := ![1, 128]
  wf := gather_S60000x128_S30000x25x1_S30000x25x128_2_0_n_n_0_2_1128_wf
def gather_S60000x128_S30000x1_S30000x128_1_0_n_n_0_1_1128 : GatherDims S60000x128 S30000x1 S30000x128 where
  offsetDims := [1]
  collapsedSliceDims := [0]
  operandBatchingDims := []
  startIndicesBatchingDims := []
  startIndexMap := [0]
  indexVectorDim := 1
  sliceSizes := ![1, 128]
  wf := gather_S60000x128_S30000x1_S30000x128_1_0_n_n_0_1_1128_wf
def dot_S30000x256_S256x128_S30000x128_1_0_0_1_n_n : DotDims S30000x256 S256x128 S30000x128 where
  lhsContracting := [1]
  rhsContracting := [0]
  lhsNonContracting := [0]
  rhsNonContracting := [1]
  lhsBatch := []
  rhsBatch := []
  wf := dot_S30000x256_S256x128_S30000x128_1_0_0_1_n_n_wf

class Facts : Prop extends Facts₀ where

variable [Facts]
-- ==== Proof.Spec.lean ====
/-
  The mathematics both programs compute, stage by stage, as functions of whole arrays read index by index on the
  extended reals: a two-layer neighbourhood-sampling graph network.

  A layer takes node features `x : [N, 128]`, projects every node (`proj`: the product with the transposed square
  weight, a bias row, a clip at zero), and for each of `M` output nodes takes the entrywise maximum of the projections
  of its 25 sampled neighbours (`nbrMax`), puts the node's own features (`selfRows`) beside that maximum (`cat`) and
  applies a second linear map with a bias (`lin2`). A node number is a 32-bit word: a negative one is first moved up by
  the table's length (`wrapWord`) and the result, read signed, is clamped into the table (`rowOf`).

  Between the two layers the first layer's output is clipped at zero (`hidden`), every column is normalised by its mean
  and variance over the 60000 rows, scaled by `γ` and shifted by `β`, and every row is divided by its Euclidean length
  plus a small constant (`l2n`). The column normalisation is written in the two ways the two programs write it:
  `bnRef` centres first — (x − mean) · rsqrt(mean of (x − mean)² + ε) · γ + β — and `bnKer` works from the two raw
  moments — x · s + (β − mean · s) with s = γ / sqrt(max(mean of x² − mean², 0) + ε). `GR` and `GK` are the whole
  network with the one and the other; that the two normalisations agree on arrays of real numbers is proved elsewhere.
-/
import Idealize.ShloMosaic.PureOps.Ideal
import Idealize.ShloMosaic.Lib.ValueIdx

noncomputable section

open scoped BigOperators

namespace Cert.Spec

open Idealize.ShloMosaic Idealize.ShloMosaic.ValueIdx

/-- A matrix, a vector, a matrix of node numbers and a vector of node numbers, each as a function of the index. -/
abbrev Mat (n d : ℕ) : Type := (⟨2, ![n, d]⟩ : Shape).Idx → EReal
abbrev Vct (d : ℕ) : Type := (⟨1, ![d]⟩ : Shape).Idx → EReal
abbrev IMat (n d : ℕ) : Type := (⟨2, ![n, d]⟩ : Shape).Idx → BitVec 32
abbrev IVct (n : ℕ) : Type := (⟨1, ![n]⟩ : Shape).Idx → BitVec 32

/-- A matrix given entry by entry. -/
def arr2 {α : Type} {n d : ℕ} (f : Fin n → Fin d → α) : (⟨2, ![n, d]⟩ : Shape).Idx → α := fun i => f (i 0) (i 1)

theorem arr2_ix2 {α : Type} {n d : ℕ} (f : Fin n → Fin d → α) (r : Fin n) (c : Fin d) : arr2 f (ix2 r c) = f r c := rfl

/-- The four float literals of the network: 0, the row count 60000, and the two small constants. -/
abbrev zero : EReal := Ideal.ofBits .f32 0x00000000#32
abbrev cnt : EReal := Ideal.ofBits .f32 0x476A6000#32
abbrev epsBN : EReal := Ideal.ofBits .f32 0x3727C5AC#32
abbrev epsL2 : EReal := Ideal.ofBits .f32 0x358637BD#32

/-- A negative node number is moved up by the table's length `N`. -/
def wrapWord (N w : BitVec 32) : BitVec 32 := Scalar.select (IntOp.cmpi .slt w 0#32) (IntOp.addi w N) w

/-- The table row a node number names: the word read signed, clamped into `0 … N − 1`. -/
def rowOf (N : ℕ) (hN : 0 < N) (w : BitVec 32) : Fin N := ⟨min w.toInt.toNat (N - 1), by omega⟩

/-- The projection of every node: x · Wpᵀ + bp, clipped at zero. -/
def proj {n : ℕ} (x : Mat n 128) (Wp : Mat 128 128) (bp : Vct 128) : Mat n 128 :=
  arr2 fun r c => max ((∑ k : Fin 128, x (ix2 r k) * Wp (ix2 c k)) + bp (ix1 c)) zero

/-- A `[1, 128]` array read as a vector, and a function of the column as a `[1, 128]` array. -/
def rowVec (b : Mat 1 128) : Vct 128 := fun i => b (ix2 (0 : Fin 1) (i 0))
def asRow (f : Fin 128 → EReal) : Mat 1 128 := arr2 fun _ c => f c

theorem rowVec_ix1 (b : Mat 1 128) (c : Fin 128) : rowVec b (ix1 c) = b (ix2 (0 : Fin 1) c) := rfl
theorem asRow_ix2 (f : Fin 128 → EReal) (u : Fin 1) (c : Fin 128) : asRow f (ix2 u c) = f c := rfl

/-- The 25 sampled neighbours' rows already laid out as `[M, 25, 128]`, and their entrywise maximum. -/
abbrev T3 (M : ℕ) : Type := (⟨3, ![M, 25, 128]⟩ : Shape).Idx → EReal
def maxS {M : ℕ} (nbr : T3 M) : Mat M 128 := arr2 fun r c => Finset.univ.sup fun s : Fin 25 => nbr (ix3 r s c)

/-- The entrywise maximum of the 25 sampled neighbours' rows of `h`. -/
def nbrMax {N M : ℕ} (hN : 0 < N) (Nw : BitVec 32) (h : Mat N 128) (idx : IMat M 25) : Mat M 128 :=
  arr2 fun r c => Finset.univ.sup fun s : Fin 25 => h (ix2 (rowOf N hN (wrapWord Nw (idx (ix2 r s)))) c)

/-- The node's own row of `x`. -/
def selfRows {N M : ℕ} (hN : 0 < N) (Nw : BitVec 32) (x : Mat N 128) (idx : IVct M) : Mat M 128 :=
  arr2 fun r c => x (ix2 (rowOf N hN (wrapWord Nw (idx (ix1 r)))) c)

/-- Two 128-column matrices side by side, read at row `r`, column `k` of the 256. -/
def cat {M : ℕ} (a b : Mat M 128) (r : Fin M) (k : Fin 256) : EReal :=
  if h : k.val < 128 then a (ix2 r ⟨k.val, h⟩) else b (ix2 r ⟨k.val - 128, by omega⟩)

/-- The maximum over a laid-out neighbour tensor whose slice `(r, s)` is row `idx (r, s)` of `h` is `nbrMax`. -/
theorem maxS_eq_nbrMax {N M : ℕ} (hN : 0 < N) (Nw : BitVec 32) (h : Mat N 128) (idx : IMat M 25) (nbr : T3 M)
    (hg : ∀ (r : Fin M) (s : Fin 25) (c : Fin 128), nbr (ix3 r s c) = h (ix2 (rowOf N hN (wrapWord Nw (idx (ix2 r s)))) c)) :
    maxS nbr = nbrMax hN Nw h idx := by
  unfold maxS nbrMax
  refine congrArg arr2 (funext fun r => funext fun c => Finset.sup_congr rfl fun s _ => hg r s c)

/-- The second linear map: [a | b] · Wᵀ + bias. -/
def lin2 {M : ℕ} (a b : Mat M 128) (W : Mat 128 256) (bias : Vct 128) : Mat M 128 :=
  arr2 fun r c => (∑ k : Fin 256, cat a b r k * W (ix2 c k)) + bias (ix1 c)

/-- A clip at zero, entry by entry. -/
def relu {n d : ℕ} (x : Mat n d) : Mat n d := fun i => max (x i) zero

/-- One layer, from `N` nodes to `M`. -/
def layer {N M : ℕ} (hN : 0 < N) (Nw : BitVec 32) (x : Mat N 128) (Wp : Mat 128 128) (bp : Vct 128) (W : Mat 128 256)
    (b : Vct 128) (nidx : IMat M 25) (sidx : IVct M) : Mat M 128 :=
  lin2 (selfRows hN Nw x sidx) (nbrMax hN Nw (proj x Wp bp) nidx) W b

/-! ## The column normalisation, two ways -/

/-- A column's sum and mean over the 60000 rows. -/
def colSum (X : Mat 60000 128) (c : Fin 128) : EReal := ∑ r : Fin 60000, X (ix2 r c)
def meanOf (X : Mat 60000 128) (c : Fin 128) : EReal := Ideal.div (colSum X c) cnt

/-- The variance as the mean of the squared deviations. -/
def varRef (X : Mat 60000 128) (c : Fin 128) : EReal :=
  Ideal.div (∑ r : Fin 60000, (X (ix2 r c) - meanOf X c) * (X (ix2 r c) - meanOf X c)) cnt

/-- Centre, multiply by the reciprocal square root, scale, shift. -/
def bnRef (X : Mat 60000 128) (γ β : Vct 128) : Mat 60000 128 :=
  arr2 fun r c => (X (ix2 r c) - meanOf X c) * Ideal.rsqrt (varRef X c + epsBN) * γ (ix1 c) + β (ix1 c)

/-- A column's sum of squares. -/
def sqSum (X : Mat 60000 128) (c : Fin 128) : EReal := ∑ r : Fin 60000, X (ix2 r c) * X (ix2 r c)

/-- The variance from the two raw moments, kept nonnegative. -/
def varKer (X : Mat 60000 128) (c : Fin 128) : EReal :=
  max (Ideal.div (sqSum X c) cnt - meanOf X c * meanOf X c) zero

def scaleKer (X : Mat 60000 128) (γ : Vct 128) (c : Fin 128) : EReal :=
  Ideal.div (γ (ix1 c)) (Ideal.sqrt (varKer X c + epsBN))

def shiftKer (X : Mat 60000 128) (γ β : Vct 128) (c : Fin 128) : EReal := β (ix1 c) - meanOf X c * scaleKer X γ c

/-- One multiplication and one addition per entry, by a scale row and a shift row. -/
def affine (X : Mat 60000 128) (sc sh : Mat 1 128) : Mat 60000 128 :=
  arr2 fun r c => X (ix2 r c) * sc (ix2 (0 : Fin 1) c) + sh (ix2 (0 : Fin 1) c)

/-- The normalisation by the precomputed scale and shift. -/
def bnKer (X : Mat 60000 128) (γ β : Vct 128) : Mat 60000 128 :=
  affine X (asRow (scaleKer X γ)) (asRow (shiftKer X γ β))

theorem bnKer_ix2 (X : Mat 60000 128) (γ β : Vct 128) (r : Fin 60000) (c : Fin 128) :
    bnKer X γ β (ix2 r c) = X (ix2 r c) * scaleKer X γ c + shiftKer X γ β c := rfl

/-- Every row divided by its Euclidean length plus a small constant. -/
def l2n (Y : Mat 60000 128) : Mat 60000 128 :=
  arr2 fun r c => Ideal.div (Y (ix2 r c)) (Ideal.sqrt (∑ k : Fin 128, Y (ix2 r k) * Y (ix2 r k)) + epsL2)

/-! ## The whole network -/

/-- The first layer's output, clipped at zero. -/
def hidden (x : Mat 100000 128) (Wp0 : Mat 128 128) (bp0 : Vct 128) (W0 : Mat 128 256) (b0 : Vct 128)
    (nidx0 : IMat 60000 25) (sidx0 : IVct 60000) : Mat 60000 128 :=
  relu (layer (N := 100000) (by norm_num) 100000#32 x Wp0 bp0 W0 b0 nidx0 sidx0)

/-- The second layer on the normalised hidden features `Z`. -/
def outOf (Z : Mat 60000 128) (Wp1 : Mat 128 128) (bp1 : Vct 128) (W1 : Mat 128 256) (b1 : Vct 128)
    (nidx1 : IMat 30000 25) (sidx1 : IVct 30000) : Mat 30000 128 :=
  layer (N := 60000) (by norm_num) 60000#32 (l2n Z) Wp1 bp1 W1 b1 nidx1 sidx1

/-- The network with the normalisation from the raw moments (arguments in the programs' order). -/
def GK (x : Mat 100000 128) (Wp0 : Mat 128 128) (bp0 : Vct 128) (Wp1 : Mat 128 128) (bp1 : Vct 128) (W0 : Mat 128 256)
    (b0 : Vct 128) (W1 : Mat 128 256) (b1 : Vct 128) (γ β : Vct 128) (nidx0 : IMat 60000 25) (sidx0 : IVct 60000)
    (nidx1 : IMat 30000 25) (sidx1 : IVct 30000) : Mat 30000 128 :=
  outOf (bnKer (hidden x Wp0 bp0 W0 b0 nidx0 sidx0) γ β) Wp1 bp1 W1 b1 nidx1 sidx1

/-- The network with the centred normalisation. -/
def GR (x : Mat 100000 128) (Wp0 : Mat 128 128) (bp0 : Vct 128) (Wp1 : Mat 128 128) (bp1 : Vct 128) (W0 : Mat 128 256)
    (b0 : Vct 128) (W1 : Mat 128 256) (b1 : Vct 128) (γ β : Vct 128) (nidx0 : IMat 60000 25) (sidx0 : IVct 60000)
    (nidx1 : IMat 30000 25) (sidx1 : IVct 30000) : Mat 30000 128 :=
  outOf (bnRef (hidden x Wp0 bp0 W0 b0 nidx0 sidx0) γ β) Wp1 bp1 W1 b1 nidx1 sidx1

end Cert.Spec

end
-- ==== Proof.Consts.lean ====
/-
  The float words whose values the proof needs, as the extended reals they denote: the row count 60000, the column
  normalisation's small constant 10995116 · 2⁻⁴⁰ (the 32-bit float nearest 10⁻⁵), and the two infinities. The bit
  pattern is read once, here; every other module cites these.
-/
import Idealize.ShloMosaic.PureOps.Ideal

noncomputable section

namespace Cert.Consts

open Idealize.ShloMosaic

/-- `6.0e4` denotes the real 60000. -/
theorem ofBits_60000 : Ideal.ofBits .f32 0x476A6000#32 = ((60000 : ℝ) : EReal) := by
  simp [Ideal.ofBits, Ideal.ieee, -EReal.coe_mul]; norm_num

/-- `9.99999974e-6` denotes the real 10995116 · 2⁻⁴⁰. -/
theorem ofBits_epsBN : Ideal.ofBits .f32 0x3727C5AC#32 = ((10995116 * (2 : ℝ) ^ (-40 : ℤ) : ℝ) : EReal) := by
  simp [Ideal.ofBits, Ideal.ieee, -EReal.coe_mul]

/-- The all-ones exponent with a zero fraction denotes +∞ … -/
theorem ofBits_inf : Ideal.ofBits .f32 0x7F800000#32 = (⊤ : EReal) := by
  simp [Ideal.ofBits, Ideal.ieee]

/-- … and, with the sign bit set, −∞. -/
theorem ofBits_neg_inf : Ideal.ofBits .f32 0xFF800000#32 = (⊥ : EReal) := by
  simp [Ideal.ofBits, Ideal.ieee]

end Cert.Consts

end
-- ==== Proof.Algebra.lean ====
/-
  The two spellings of the column normalisation agree on arrays of real numbers, and the first layer's output is
  such an array when the network's inputs are.

  Fix a column and write x₁ … x_N (N = 60000) for its entries, all real, μ = (Σ xᵢ)/N for their mean. One program
  takes the variance as the mean of the squared deviations, v = (Σ (xᵢ − μ)²)/N; the other as the second raw moment
  minus the squared mean, kept nonnegative, max((Σ xᵢ²)/N − μ², 0). Expanding the square, Σ (xᵢ − μ)² =
  Σ xᵢ² − 2μ Σ xᵢ + N μ² = Σ xᵢ² − N μ², so the two agree, and the maximum with 0 changes nothing because v ≥ 0.
  With ε > 0 the quantity v + ε is a positive real, so its reciprocal square root is the reciprocal of its square
  root s, and (x − μ) · s⁻¹ · γ + β = x · (γ/s) + (β − μ · (γ/s)) is an identity of real numbers.

  None of this survives an infinite entry (∞ − ∞ and 0 · ∞ are not what the real laws say), which is why the
  statement asks for real entries: sums, products, maxima and suprema of finitely many real numbers are real, a
  gathered row of a real array is real, and so the clipped first layer is real whenever the features, weights and
  biases are.
-/
import proofs.«178630_j29162827940511_2_alg».proof.Proof.Spec
import proofs.«178630_j29162827940511_2_alg».proof.Proof.Consts
import Idealize.ShloMosaic.PureOps.Ideal.Laws

noncomputable section

open scoped BigOperators

namespace Cert.Algebra

open Idealize.ShloMosaic Idealize.ShloMosaic.ValueIdx Cert.Spec

/-! ## The literal words -/

/-- The row count's word denotes the real 60000. -/
theorem cnt_eq : Spec.cnt = ((60000 : ℝ) : EReal) := Cert.Consts.ofBits_60000

/-- The normalisation's small constant denotes a positive real (10995116 · 2⁻⁴⁰, about 10⁻⁵). -/
theorem epsBN_eq : Spec.epsBN = ((10995116 * (2 : ℝ) ^ (-40 : ℤ) : ℝ) : EReal) := Cert.Consts.ofBits_epsBN

theorem epsBN_pos : (0 : ℝ) < 10995116 * (2 : ℝ) ^ (-40 : ℤ) := by positivity

/-- The zero word denotes 0. -/
theorem zero_eq : Spec.zero = ((0 : ℝ) : EReal) := by
  rw [EReal.coe_zero]; exact Ideal.ofBits_zero_f32

/-! ## Real numbers among the extended reals -/

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read in the extended reals, is the larger of the readings. -/
theorem coe_max (x y : ℝ) : ((Max.max x y : ℝ) : EReal) = Max.max (x : EReal) (y : EReal) :=
  EReal.coe_strictMono.monotone.map_max

/-- An extended real that is a real number. -/
def IsR (a : EReal) : Prop := ∃ y : ℝ, a = (y : EReal)

theorem IsR.add {a b : EReal} (ha : IsR a) (hb : IsR b) : IsR (a + b) := by
  obtain ⟨x, rfl⟩ := ha; obtain ⟨y, rfl⟩ := hb; exact ⟨x + y, (EReal.coe_add x y).symm⟩

theorem IsR.mul {a b : EReal} (ha : IsR a) (hb : IsR b) : IsR (a * b) := by
  obtain ⟨x, rfl⟩ := ha; obtain ⟨y, rfl⟩ := hb; exact ⟨x * y, (EReal.coe_mul x y).symm⟩

theorem IsR.max {a b : EReal} (ha : IsR a) (hb : IsR b) : IsR (max a b) := by
  obtain ⟨x, rfl⟩ := ha; obtain ⟨y, rfl⟩ := hb; exact ⟨Max.max x y, (coe_max x y).symm⟩

theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The supremum of finitely many (at least one) real numbers is one of them. -/
theorem IsR.sup_univ {n : ℕ} (f : Fin (n + 1) → EReal) (h : ∀ s, IsR (f s)) : IsR (Finset.univ.sup f) := by
  obtain ⟨i, _, hi⟩ := Finset.exists_mem_eq_sup Finset.univ ⟨0, Finset.mem_univ _⟩ f
  rw [hi]; exact h i

theorem zero_isR : IsR Spec.zero := ⟨0, zero_eq⟩

/-- Arrays all of whose entries are real. -/
def RealM {n d : ℕ} (A : Mat n d) : Prop := ∀ i, IsR (A i)
def RealV {d : ℕ} (v : Vct d) : Prop := ∀ i, IsR (v i)

/-! ## The first layer stays among the reals -/

theorem proj_real {n : ℕ} {x : Mat n 128} {Wp : Mat 128 128} {bp : Vct 128} (hx : RealM x) (hW : RealM Wp) (hb : RealV bp) :
    RealM (proj x Wp bp) := fun i =>
  IsR.max (IsR.add (IsR.sum _ _ fun k _ => IsR.mul (hx _) (hW _)) (hb _)) zero_isR

theorem nbrMax_real {N M : ℕ} (hN : 0 < N) (Nw : BitVec 32) {h : Mat N 128} (idx : IMat M 25) (hh : RealM h) :
    RealM (nbrMax hN Nw h idx) := by
  intro i
  unfold nbrMax arr2
  exact IsR.sup_univ (n := 24) _ fun s => hh _

theorem selfRows_real {N M : ℕ} (hN : 0 < N) (Nw : BitVec 32) {x : Mat N 128} (idx : IVct M) (hx : RealM x) :
    RealM (selfRows hN Nw x idx) := fun i => hx _

theorem cat_real {M : ℕ} {a b : Mat M 128} (ha : RealM a) (hb : RealM b) (r : Fin M) (k : Fin 256) : IsR (cat a b r k) := by
  unfold cat; split
  · exact ha _
  · exact hb _

theorem lin2_real {M : ℕ} {a b : Mat M 128} {W : Mat 128 256} {bias : Vct 128} (ha : RealM a) (hb : RealM b) (hW : RealM W)
    (hbias : RealV bias) : RealM (lin2 a b W bias) := fun i =>
  IsR.add (IsR.sum _ _ fun k _ => IsR.mul (cat_real ha hb _ k) (hW _)) (hbias _)

theorem relu_real {n d : ℕ} {x : Mat n d} (hx : RealM x) : RealM (relu x) := fun i => IsR.max (hx i) zero_isR

/-- The clipped first layer of real features under real weights and biases is real, whatever the node numbers. -/
theorem hidden_real {x : Mat 100000 128} {Wp0 : Mat 128 128} {bp0 : Vct 128} {W0 : Mat 128 256} {b0 : Vct 128}
    (nidx0 : IMat 60000 25) (sidx0 : IVct 60000) (hx : RealM x) (hWp : RealM Wp0) (hbp : RealV bp0) (hW : RealM W0)
    (hb : RealV b0) : RealM (hidden x Wp0 bp0 W0 b0 nidx0 sidx0) :=
  relu_real (lin2_real (selfRows_real _ _ _ hx) (nbrMax_real _ _ _ (proj_real hx hWp hbp)) hW hb)

/-! ## The two normalisations agree on real columns -/

/-- The second raw moment minus the squared mean is the mean squared deviation. -/
theorem moments (x : Fin 60000 → ℝ) :
    (∑ r, x r * x r) * (1 / 60000) - ((∑ r, x r) * (1 / 60000)) * ((∑ r, x r) * (1 / 60000))
      = (∑ r, (x r - (∑ r, x r) * (1 / 60000)) * (x r - (∑ r, x r) * (1 / 60000))) * (1 / 60000) := by
  have h : ∀ r, (x r - (∑ r, x r) * (1 / 60000)) * (x r - (∑ r, x r) * (1 / 60000))
      = x r * x r - 2 * ((∑ r, x r) * (1 / 60000)) * x r + ((∑ r, x r) * (1 / 60000)) * ((∑ r, x r) * (1 / 60000)) := fun r => by ring
  simp only [h, Finset.sum_add_distrib, Finset.sum_sub_distrib, ← Finset.mul_sum, Finset.sum_const, Finset.card_univ,
    Fintype.card_fin, nsmul_eq_mul]
  push_cast
  ring

/-- One entry: with the column's entries the reals `x`, and `γ`, `β` at that column the reals `g`, `b`. -/
theorem bn_entry (X : Mat 60000 128) (γ β : Vct 128) (c : Fin 128) (x : Fin 60000 → ℝ)
    (hx : ∀ r, X (ix2 r c) = (x r : EReal)) (g b : ℝ) (hg : γ (ix1 c) = (g : EReal)) (hb : β (ix1 c) = (b : EReal))
    (r : Fin 60000) : bnKer X γ β (ix2 r c) = bnRef X γ β (ix2 r c) := by
  have hN : (60000 : ℝ) ≠ 0 := by norm_num
  -- the mean
  have hmean : meanOf X c = (((∑ r, x r) * (1 / 60000) : ℝ) : EReal) := by
    unfold meanOf colSum
    simp only [hx]
    rw [← coe_sum, cnt_eq, Ideal.div_coe hN, ← EReal.coe_mul]
  -- the variance, as the mean squared deviation
  have hvarR : varRef X c
      = (((∑ r, (x r - (∑ r, x r) * (1 / 60000)) * (x r - (∑ r, x r) * (1 / 60000))) * (1 / 60000) : ℝ) : EReal) := by
    unfold varRef
    rw [hmean]
    simp only [hx, ← EReal.coe_sub, ← EReal.coe_mul]
    rw [← coe_sum, cnt_eq, Ideal.div_coe hN, ← EReal.coe_mul]
  have hv0 : 0 ≤ (∑ r, (x r - (∑ r, x r) * (1 / 60000)) * (x r - (∑ r, x r) * (1 / 60000))) * (1 / 60000) :=
    mul_nonneg (Finset.sum_nonneg fun r _ => mul_self_nonneg _) (by norm_num)
  -- the variance, from the raw moments
  have hvarK : varKer X c = varRef X c := by
    rw [hvarR]
    unfold varKer sqSum
    rw [hmean]
    simp only [hx, ← EReal.coe_mul]
    rw [← coe_sum, cnt_eq, Ideal.div_coe hN, ← EReal.coe_mul, ← EReal.coe_sub, zero_eq, ← coe_max, moments x,
      max_eq_left hv0]
  -- the square root and its reciprocal
  have hpos : 0 < (∑ r, (x r - (∑ r, x r) * (1 / 60000)) * (x r - (∑ r, x r) * (1 / 60000))) * (1 / 60000)
      + 10995116 * (2 : ℝ) ^ (-40 : ℤ) := add_pos_of_nonneg_of_pos hv0 epsBN_pos
  have hs : Real.sqrt ((∑ r, (x r - (∑ r, x r) * (1 / 60000)) * (x r - (∑ r, x r) * (1 / 60000))) * (1 / 60000)
      + 10995116 * (2 : ℝ) ^ (-40 : ℤ)) ≠ 0 := (Real.sqrt_pos.mpr hpos).ne'
  have hrs : Ideal.rsqrt (varRef X c + epsBN) = (((Real.sqrt ((∑ r, (x r - (∑ r, x r) * (1 / 60000)) * (x r - (∑ r, x r) * (1 / 60000))) * (1 / 60000)
      + 10995116 * (2 : ℝ) ^ (-40 : ℤ)))⁻¹ : ℝ) : EReal) := by
    rw [hvarR, epsBN_eq, ← EReal.coe_add, Ideal.rsqrt_coe, if_neg (not_lt.mpr hpos.le), if_neg hpos.ne']
  have hsq : Ideal.sqrt (varKer X c + epsBN) = ((Real.sqrt ((∑ r, (x r - (∑ r, x r) * (1 / 60000)) * (x r - (∑ r, x r) * (1 / 60000))) * (1 / 60000)
      + 10995116 * (2 : ℝ) ^ (-40 : ℤ)) : ℝ) : EReal) := by
    rw [hvarK, hvarR, epsBN_eq, ← EReal.coe_add, Ideal.sqrt_coe, if_neg (not_lt.mpr hpos.le)]
  -- both sides as one real number
  rw [bnKer_ix2]
  unfold shiftKer scaleKer bnRef
  rw [arr2_ix2, hsq, hrs, hmean, hx r, hg, hb, Ideal.div_coe hs]
  simp only [← EReal.coe_mul, ← EReal.coe_sub, ← EReal.coe_add]
  refine congrArg _ ?_
  rw [one_div]
  ring

/-- **The two normalisations agree** on a real array with real scale and shift vectors. -/
theorem bn_eq (X : Mat 60000 128) (γ β : Vct 128) (hX : RealM X) (hγ : RealV γ) (hβ : RealV β) :
    bnKer X γ β = bnRef X γ β := by
  funext i
  obtain ⟨r, c, rfl⟩ : ∃ (r : Fin 60000) (c : Fin 128), i = ix2 r c := ⟨i 0, i 1, eq_ix2 i⟩
  choose x hx using fun r' : Fin 60000 => hX (ix2 r' c)
  obtain ⟨g, hg⟩ := hγ (ix1 c)
  obtain ⟨b, hb⟩ := hβ (ix1 c)
  exact bn_entry X γ β c x hx g b hg hb r

/-- **The two networks agree** when the features, the first layer's weights and biases and the normalisation's scale
    and shift are real (the second layer's parameters and all node numbers are arbitrary). -/
theorem GK_eq_GR (x : Mat 100000 128) (Wp0 : Mat 128 128) (bp0 : Vct 128) (Wp1 : Mat 128 128) (bp1 : Vct 128)
    (W0 : Mat 128 256) (b0 : Vct 128) (W1 : Mat 128 256) (b1 : Vct 128) (γ β : Vct 128) (nidx0 : IMat 60000 25)
    (sidx0 : IVct 60000) (nidx1 : IMat 30000 25) (sidx1 : IVct 30000)
    (hx : RealM x) (hWp0 : RealM Wp0) (hbp0 : RealV bp0) (hW0 : RealM W0) (hb0 : RealV b0) (hγ : RealV γ) (hβ : RealV β) :
    GK x Wp0 bp0 Wp1 bp1 W0 b0 W1 b1 γ β nidx0 sidx0 nidx1 sidx1
      = GR x Wp0 bp0 Wp1 bp1 W0 b0 W1 b1 γ β nidx0 sidx0 nidx1 sidx1 := by
  unfold GK GR
  rw [bn_eq _ γ β (hidden_real nidx0 sidx0 hx hWp0 hbp0 hW0 hb0) hγ hβ]

end Cert.Algebra

end
-- ==== Proof.PreReal.lean ====
/-
  What the precondition says: every float argument array holds real numbers.

  The precondition is the conjunction, over the eleven float arguments, of "every entry x has |x| < +∞", each conjunct
  an `and`-reduction of the entrywise comparisons over the whole array. A conjunction that is 1 has every conjunct 1; an
  `and`-reduction over all axes that is 1 has every compared entry 1; and |x| = max(x, −x) < +∞ rules out both
  infinities, which leaves a real number.
-/
import proofs.«178630_j29162827940511_2_alg».proof.Pre_finite_inputs
import proofs.«178630_j29162827940511_2_alg».proof.Proof.Gen.Pre_finite_inputs
import proofs.«178630_j29162827940511_2_alg».proof.Proof.Algebra
import Idealize.ShloMosaic.Lib.ReduceAll
import Idealize.ShloMosaic.Lib.Pipeline.Value

noncomputable section

namespace Cert.PreReal

open Idealize.ShloMosaic Cert.Pre_finite_inputs Cert.Algebra

instance : Subsingleton S_.Idx := ⟨fun _ _ => funext fun d => d.elim0⟩

/-- The word 0x7F800000 denotes +∞. -/
theorem inf_eq : Ideal.ofBits .f32 0x7F800000#32 = (⊤ : EReal) := Cert.Consts.ofBits_inf

/-- An extended real whose absolute value is below +∞ is a real number. -/
theorem isR_of_abs_lt (x : EReal) (h : Ideal.cmp .olt (max x (-x)) (Ideal.ofBits .f32 0x7F800000#32) = 1#1) : IsR x := by
  rw [inf_eq] at h
  induction x using EReal.rec with
  | bot => simp [Ideal.cmp] at h
  | top => simp [Ideal.cmp] at h
  | coe r => exact ⟨r, rfl⟩

/-- An array whose `all(|x| < +∞)` is 1 has real entries. -/
theorem real_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : IsR (x i) := by
  have h1 := Host.reduce_andi_all _ _ hr hu _ e i
  refine isR_of_abs_lt (x i) ?_
  rw [← h1]
  show _ = FloatOps.cmpf .olt (FloatOps.hostAbsf (x i)) (broadcastInDim s ![] hb (constant (F := Ideal) S_ .f32 0x7F800000#32) i)
  rw [broadcastInDim_apply _ hb _ i ValueIdx.ix0 (fun a => a.elim0)]
  rfl

/-- **The precondition, decoded**: each of the eleven float arguments has real entries. -/
theorem real_args (a0 : FVec Ideal S100000x128 .f32) (a1 : FVec Ideal S128x128 .f32) (a2 : FVec Ideal S128 .f32)
    (a3 : FVec Ideal S128x128 .f32) (a4 : FVec Ideal S128 .f32) (a5 : FVec Ideal S128x256 .f32) (a6 : FVec Ideal S128 .f32)
    (a7 : FVec Ideal S128x256 .f32) (a8 : FVec Ideal S128 .f32) (a9 : FVec Ideal S128 .f32) (a10 : FVec Ideal S128 .f32)
    (a11 : IVec S60000x25 32) (a12 : IVec S60000 32) (a13 : IVec S30000x25 32) (a14 : IVec S30000 32)
    (h : fn (F := Ideal) a0 a1 a2 a3 a4 a5 a6 a7 a8 a9 a10 a11 a12 a13 a14 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) ∧ (∀ i, IsR (a8 i)) ∧ (∀ i, IsR (a9 i)) ∧ (∀ i, IsR (a10 i)) := by
  have h0 := congrFun h ValueIdx.ix0
  dsimp only [fn, fn_part1, fn_part2, fn_part3, andi] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9, real_of_all a10 _ _ _ e10⟩

end Cert.PreReal

end
-- ==== Proof.KerRun.lean ====
/-
  The kernel program's run with its result named: every weakly fair execution of the program on the TensorCores ends,
  nothing faulting, in a state whose result buffer holds what the last boundary of the walk through the program holds
  there, and whose argument arrays are as launched.
-/
import proofs.«178630_j29162827940511_2_alg».proof.Proof.KernelIdealFrameP
import Idealize.ShloMosaic.PureOps.Ideal

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result buffer ends at the last boundary's contents, every argument array as launched. -/
theorem run_named : θ_run (Cert.KernelIdeal.defs (F := Ideal)) (onTc (τ := τ) (main (F := Ideal))) ⟨m, fun _ => 0, ρ⟩ (fun r => ∀ c : Dev nD,
      r.2.mem ((c.tc : Thread nD τ).loc main_v57) = W11 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v57 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩)

end Cert.KernelIdeal.Val

end
-- ==== Proof.KerKeep.lean ====
/-
  What the host operations between the regions leave alone: a buffer that is the result of none of a stretch's
  operations holds after the stretch what it held before.
-/
import proofs.«178630_j29162827940511_2_alg».proof.Proof.KernelIdealFrameP
import Idealize.ShloMosaic.PureOps.Ideal

set_option maxRecDepth 16384

noncomputable section

namespace Cert.KernelIdeal.Val

open Idealize.ShloMosaic Idealize.ShloMosaic.TcCoe Idealize.SL.Sem Cert.KernelIdeal Cert.KernelIdeal.Gen

variable (W : Valuation τ sig (Elt Ideal))

/-- A buffer none of the operations of this stretch writes keeps its contents. -/
theorem host0_keep (b : Ref sig .tc) (hb : b ∉ [main_v0]) :
    StableHlo.after (hostOps0 (F := Ideal)) W (Proc.devRef .tc b) = W (Proc.devRef .tc b) :=
  StableHlo.after_of_writes_sub (W := [main_v0]) _ _ (by
    simp only [hostOps0, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb

/-- A buffer none of the operations of this stretch writes keeps its contents. -/
theorem host1_keep (b : Ref sig .tc) (hb : b ∉ [main_c, main_v2, main_v3, main_c_0, main_v4, main_v5, main_v6, main_v7, main_v8, main_c_1, main_v9, main_v10, main_c_2, main_v11, main_v12, main_v13, main_v14, main_v15, main_v16]) :
    StableHlo.after (hostOps1 (F := Ideal)) W (Proc.devRef .tc b) = W (Proc.devRef .tc b) :=
  StableHlo.after_of_writes_sub (W := [main_c, main_v2, main_v3, main_c_0, main_v4, main_v5, main_v6, main_v7, main_v8, main_c_1, main_v9, main_v10, main_c_2, main_v11, main_v12, main_v13, main_v14, main_v15, main_v16]) _ _ (by
    simp only [hostOps1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb

/-- A buffer none of the operations of this stretch writes keeps its contents. -/
theorem host3_keep (b : Ref sig .tc) (hb : b ∉ [main_cst, main_v19, main_v20, main_cst_3, main_v21, main_v22, main_v23, main_v24, main_cst_4, main_v25, main_v26, main_v27, main_cst_5, main_v28, main_v29, main_v30, main_v31, main_v32, main_v33, main_v34, main_v35, main_v36, main_v37, main_v38]) :
    StableHlo.after (hostOps3 (F := Ideal)) W (Proc.devRef .tc b) = W (Proc.devRef .tc b) :=
  StableHlo.after_of_writes_sub (W := [main_cst, main_v19, main_v20, main_cst_3, main_v21, main_v22, main_v23, main_v24, main_cst_4, main_v25, main_v26, main_v27, main_cst_5, main_v28, main_v29, main_v30, main_v31, main_v32, main_v33, main_v34, main_v35, main_v36, main_v37, main_v38]) _ _ (by
    simp only [hostOps3, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb

/-- A buffer none of the operations of this stretch writes keeps its contents. -/
theorem host4_keep (b : Ref sig .tc) (hb : b ∉ [main_v40]) :
    StableHlo.after (hostOps4 (F := Ideal)) W (Proc.devRef .tc b) = W (Proc.devRef .tc b) :=
  StableHlo.after_of_writes_sub (W := [main_v40]) _ _ (by
    simp only [hostOps4, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb

/-- A buffer none of the operations of this stretch writes keeps its contents. -/
theorem host5_keep (b : Ref sig .tc) (hb : b ∉ [main_c_6, main_v42, main_v43, main_c_7, main_v44, main_v45, main_v46, main_v47, main_v48, main_c_8, main_v49, main_v50, main_c_9, main_v51, main_v52, main_v53, main_v54, main_v55, main_v56]) :
    StableHlo.after (hostOps5 (F := Ideal)) W (Proc.devRef .tc b) = W (Proc.devRef .tc b) :=
  StableHlo.after_of_writes_sub (W := [main_c_6, main_v42, main_v43, main_c_7, main_v44, main_v45, main_v46, main_v47, main_v48, main_c_8, main_v49, main_v50, main_c_9, main_v51, main_v52, main_v53, main_v54, main_v55, main_v56]) _ _ (by
    simp only [hostOps5, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map.mpr ⟨_, by decide, rfl⟩))) hb

end Cert.KernelIdeal.Val

end
-- ==== Proof.LibGatherSampled.lean ====
/-
  Whole rows of a table gathered at a matrix of row numbers, read at an index, for any extents.

  What `table[rows]` lowers to for a table `[N, C]` and row numbers `[R, S]` held as an `[R, S, 1]` array: a gather with
  one offset axis (the columns, the result's last axis), the row axis collapsed, slices of one row. Result entry
  `(r, s, k)` is the table at column `k` of the row whose number is `rows (r, s, 0)`, read as a signed integer and
  clamped into `0 … N − 1`; the column passes through.
-/
import Idealize.ShloMosaic.Lib.ValueIdx

noncomputable section

namespace Cert.LibGatherSampled

open Idealize.ShloMosaic Idealize.ShloMosaic.ValueIdx

variable {α : Type}

/-- The dimension numbers of that gather; their conditions are decided on a program's literal shapes. -/
abbrev sampledDims (N R S C : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- The gather read at `(r, s, k)`: column `k` of the row numbered `rows (r, s, 0)`, read signed and clamped into the table. -/
theorem gather_sampled_apply {N R S C w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (r : Fin R) (s : Fin S) (k : Fin C) :
    Host.gather (sampledDims N R S C wf) x idx (ix3 r s k)
      = x (ix2 ⟨min (idx (ix3 r s (0 : Fin 1))).toInt.toNat (N - 1), by omega⟩ k) := by
  unfold Host.gather
  refine congrArg x (funext fun a => Fin.ext ?_)
  match a with
  | ⟨0, _⟩ =>
    show (sampledDims N R S C wf).start (ix3 r s k) idx 0 + (sampledDims N R S C wf).batchCoord (ix3 r s k) 0
      + (sampledDims N R S C wf).offCoord (ix3 r s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (sampledDims N R S C wf).startIndexMap from List.mem_singleton.mpr rfl)]
    have hsi : (sampledDims N R S C wf).siIdx (ix3 r s k) ⟨List.idxOf (0 : Fin 2) (sampledDims N R S C wf).startIndexMap,
        List.idxOf_lt_length_iff.2 (List.mem_singleton.mpr rfl)⟩ = ix3 r s (0 : Fin 1) := by
      funext b; refine Fin.ext ?_
      match b with
      | ⟨0, _⟩ => rfl
      | ⟨1, _⟩ => rfl
      | ⟨2, _⟩ => rfl
    rw [hsi]
    rfl
  | ⟨1, _⟩ =>
    show (sampledDims N R S C wf).start (ix3 r s k) idx 1 + (sampledDims N R S C wf).batchCoord (ix3 r s k) 1
      + (sampledDims N R S C wf).offCoord (ix3 r s k) 1 = k.val
    rw [GatherDims.batchCoord_eq_zero _ _ _ List.not_mem_nil]
    unfold GatherDims.start
    rw [dif_neg (show ¬ (1 : Fin 2) ∈ (sampledDims N R S C wf).startIndexMap from
      fun h => Nat.one_ne_zero (congrArg Fin.val (List.mem_singleton.mp h)))]
    simp only [Nat.add_zero, Nat.zero_add]
    rfl

end Cert.LibGatherSampled

end
-- ==== Proof.LibUnitLast.lean ====
/-
  A matrix given a trailing unit axis, read at an index, for any extents.

  To look rows of a table up at a matrix of row numbers `[R, S]` the host first regards the numbers as `[R, S, 1]` (a
  `broadcast_in_dim` with dimension map `[0, 1]`): entry `(r, s, 0)` of the result is entry `(r, s)` of the matrix.
-/
import Idealize.ShloMosaic.Lib.Pipeline.Value
import Idealize.ShloMosaic.Lib.ValueIdx

noncomputable section

namespace Cert.LibUnitLast

open Idealize.ShloMosaic Idealize.ShloMosaic.ValueIdx

/-- A matrix given a trailing unit axis reads, at `(r, s, u)`, the matrix's entry `(r, s)`. -/
theorem unitLast_apply {α : Type} {R S : ℕ} (x : (⟨2, ![R, S]⟩ : Shape).Idx → α)
    (h : (⟨2, ![R, S]⟩ : Shape).BroadcastsInDim ⟨3, ![R, S, 1]⟩ (![0, 1] : Fin 2 → Fin 3)) (r : Fin R) (s : Fin S) (u : Fin 1) :
    broadcastInDim ⟨3, ![R, S, 1]⟩ ![0, 1] h x (ix3 r s u) = x (ix2 r s) := by
  refine broadcastInDim_apply _ h x (ix3 r s u) (ix2 r s) fun a => ?_
  match a with
  | ⟨0, _⟩ =>
    show r.val = if R = 1 then 0 else r.val
    split
    · have := r.isLt; omega
    · rfl
  | ⟨1, _⟩ =>
    show s.val = if S = 1 then 0 else s.val
    split
    · have := s.isLt; omega
    · rfl

end Cert.LibUnitLast

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.KerHostGather.lean ====
/-
  The host's table look-ups read at an index: a node number that may be negative is first moved up by the table's
  length, then given a trailing unit axis, then whole rows of the table are gathered at it. For a matrix of node numbers
  `[R, S]` the result `[R, S, C]` reads at `(r, s, k)` the table at column `k` of the row the number `(r, s)` names; for
  a vector of node numbers `[R]` the result `[R, C]` reads at `(r, k)` column `k` of the row the number `r` names. A
  length-128 vector regarded as one row and read back as a vector is the vector.
-/
import proofs.«178630_j29162827940511_2_alg».proof.Proof.Spec
import proofs.«178630_j29162827940511_2_alg».proof.Proof.LibGatherSampled
import proofs.«178630_j29162827940511_2_alg».proof.Proof.LibUnitLast
import proofs.«178630_j29162827940511_2_alg».proof.Proof.LibGatherRows
import proofs.«178630_j29162827940511_2_alg».proof.Proof.LibHostRow
import proofs.«178630_j29162827940511_2_alg».proof.Proof.LibHostColumn
import Idealize.ShloMosaic.Lib.ValueLayout

noncomputable section

namespace Cert.KernelIdeal.Val

open Idealize.ShloMosaic Idealize.ShloMosaic.ValueIdx

variable {α : Type}

/-- The wrap of a node number, entry by entry: compare with a splat zero, add a splat table length, select. -/
theorem wrap_apply {t : Shape} (Nw : BitVec 32) (idx : IVec t 32)
    (h0 h1 : (⟨0, ![]⟩ : Shape).BroadcastsInDim t (![] : Fin 0 → Fin t.rank)) (j : t.Idx) :
    select (cmpi .slt idx (broadcastInDim t ![] h0 (constantI ⟨0, ![]⟩ 32 0#32)))
        (addi idx (broadcastInDim t ![] h1 (constantI ⟨0, ![]⟩ 32 Nw))) idx j
      = Spec.wrapWord Nw (idx j) := by
  show Scalar.select (IntOp.cmpi .slt (idx j) (broadcastInDim t ![] h0 (constantI ⟨0, ![]⟩ 32 0#32) j))
      (IntOp.addi (idx j) (broadcastInDim t ![] h1 (constantI ⟨0, ![]⟩ 32 Nw) j)) (idx j) = _
  rw [LibHostRow.scalar_apply, LibHostRow.scalar_apply]
  rfl

/-- The sampled neighbours' rows: the gather at the wrapped numbers, read at `(r, s, k)`. -/
theorem nbr_gather_apply {N R S C : ℕ} (hN : 0 < N) (Nw : BitVec 32)
    (wf : GatherDims.WF ⟨2, ![N, C]⟩ ⟨3, ![R, S, 1]⟩ ⟨3, ![R, S, C]⟩ [2] [0] [] [0] [] 2 ![1, C])
    (hb : (⟨2, ![R, S]⟩ : Shape).BroadcastsInDim ⟨3, ![R, S, 1]⟩ (![0, 1] : Fin 2 → Fin 3))
    (h0 h1 : (⟨0, ![]⟩ : Shape).BroadcastsInDim ⟨2, ![R, S]⟩ (![] : Fin 0 → Fin 2))
    (x : (⟨2, ![N, C]⟩ : Shape).Idx → α) (idx : IVec ⟨2, ![R, S]⟩ 32) (r : Fin R) (s : Fin S) (k : Fin C) :
    Host.gather (LibGatherSampled.sampledDims N R S C wf) x
        (broadcastInDim ⟨3, ![R, S, 1]⟩ ![0, 1] hb
          (select (cmpi .slt idx (broadcastInDim ⟨2, ![R, S]⟩ ![] h0 (constantI ⟨0, ![]⟩ 32 0#32)))
            (addi idx (broadcastInDim ⟨2, ![R, S]⟩ ![] h1 (constantI ⟨0, ![]⟩ 32 Nw))) idx)) (ix3 r s k)
      = x (ix2 (Spec.rowOf N hN (Spec.wrapWord Nw (idx (ix2 r s)))) k) :=
  (LibGatherSampled.gather_sampled_apply hN wf x _ r s k).trans
    (congrArg (fun w => x (ix2 (Spec.rowOf N hN w) k))
      ((LibUnitLast.unitLast_apply _ hb r s 0).trans (wrap_apply Nw idx h0 h1 (ix2 r s))))

/-- The nodes' own rows: the gather at the wrapped numbers, read at `(r, k)`. -/
theorem self_gather_apply {N R C : ℕ} (hN : 0 < N) (Nw : BitVec 32)
    (wf : GatherDims.WF ⟨2, ![N, C]⟩ ⟨2, ![R, 1]⟩ ⟨2, ![R, C]⟩ [1] [0] [] [0] [] 1 ![1, C])
    (hb : (⟨1, ![R]⟩ : Shape).BroadcastsInDim ⟨2, ![R, 1]⟩ (![0] : Fin 1 → Fin 2))
    (h0 h1 : (⟨0, ![]⟩ : Shape).BroadcastsInDim ⟨1, ![R]⟩ (![] : Fin 0 → Fin 1))
    (x : (⟨2, ![N, C]⟩ : Shape).Idx → α) (idx : IVec ⟨1, ![R]⟩ 32) (r : Fin R) (k : Fin C) :
    Host.gather (LibGatherRows.rowDims N R C wf) x
        (broadcastInDim ⟨2, ![R, 1]⟩ ![0] hb
          (select (cmpi .slt idx (broadcastInDim ⟨1, ![R]⟩ ![] h0 (constantI ⟨0, ![]⟩ 32 0#32)))
            (addi idx (broadcastInDim ⟨1, ![R]⟩ ![] h1 (constantI ⟨0, ![]⟩ 32 Nw))) idx)) (ix2 r k)
      = x (ix2 (Spec.rowOf N hN (Spec.wrapWord Nw (idx (ix1 r)))) k) :=
  (LibGatherRows.gather_rows_apply hN wf x _ r k).trans
    (congrArg (fun w => x (ix2 (Spec.rowOf N hN w) k))
      ((LibHostColumn.column_apply _ hb r 0).trans (wrap_apply Nw idx h0 h1 (ix1 r))))

/-- A length-128 vector regarded as one row, read back as a vector, is the vector. -/
theorem rowVec_reshape (x : Spec.Vct 128) (h : (⟨1, ![128]⟩ : Shape).ShapeCasts ⟨2, ![1, 128]⟩) :
    Spec.rowVec (shapeCast ⟨2, ![1, 128]⟩ x h) = x := by
  funext i
  obtain ⟨q, rfl⟩ : ∃ q : Fin 128, i = ix1 q := ⟨i 0, eq_ix1 i⟩
  rw [Spec.rowVec_ix1]
  exact shapeCast_a_1a_apply x h 0 q

end Cert.KernelIdeal.Val

end
-- ==== Proof.KerHost1.lean ====
/-
  The first layer's host operations, read from the contents `W` they start from: the bias vectors regarded as rows,
  the sampled neighbours' rows of the projected features laid out as `[60000, 25, 128]` (so that their entrywise maximum
  is the neighbourhood maximum of the specification), the nodes' own rows of the input features, and the buffers the
  operations leave alone.
-/
import proofs.«178630_j29162827940511_2_alg».proof.Proof.KernelIdealFrameP
import proofs.«178630_j29162827940511_2_alg».proof.Proof.KerHostGather

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

variable (W : Valuation τ sig (Elt Ideal))

set_option maxHeartbeats 1000000 in
/-- Before the first region: the projection's bias as a row. -/
theorem host0_v0 : Spec.rowVec (StableHlo.after (hostOps0 (F := Ideal)) W (Proc.devRef .tc main_v0)) = W (Proc.devRef .tc main_arg2) := by
  after_results_simp
  exact rowVec_reshape _ _

set_option maxHeartbeats 1000000 in
/-- The neighbours' tensor at `(r, s, k)`: column `k` of the projected row the node number `(r, s)` names. -/
theorem host1_v8 (r : Fin 60000) (s : Fin 25) (k : Fin 128) :
    StableHlo.after (hostOps1 (F := Ideal)) W (Proc.devRef .tc main_v8) (ix3 r s k)
      = W (Proc.devRef .tc main_v1) (ix2 (Spec.rowOf 100000 (by norm_num) (Spec.wrapWord 100000#32 (W (Proc.devRef .tc main_arg11) (ix2 r s)))) k) := by
  after_results_simp
  exact nbr_gather_apply (by norm_num) 100000#32 _ _ _ _ _ _ r s k

set_option maxHeartbeats 1000000 in
/-- Its entrywise maximum over the 25 samples is the neighbourhood maximum. -/
theorem host1_maxS : Spec.maxS (StableHlo.after (hostOps1 (F := Ideal)) W (Proc.devRef .tc main_v8))
      = Spec.nbrMax (N := 100000) (by norm_num) 100000#32 (W (Proc.devRef .tc main_v1)) (W (Proc.devRef .tc main_arg11)) :=
  Spec.maxS_eq_nbrMax _ _ _ _ _ (host1_v8 W)

set_option maxHeartbeats 1000000 in
/-- The nodes' own rows of the input features. -/
theorem host1_v15 : StableHlo.after (hostOps1 (F := Ideal)) W (Proc.devRef .tc main_v15)
      = Spec.selfRows (N := 100000) (by norm_num) 100000#32 (W (Proc.devRef .tc main_arg0)) (W (Proc.devRef .tc main_arg12)) := by
  after_results_simp
  funext i
  obtain ⟨r, k, rfl⟩ : ∃ (r : Fin 60000) (k : Fin 128), i = ix2 r k := ⟨i 0, i 1, eq_ix2 i⟩
  exact self_gather_apply (by norm_num) 100000#32 _ _ _ _ _ _ r k

set_option maxHeartbeats 1000000 in
/-- The second linear map's bias as a row. -/
theorem host1_v16 : Spec.rowVec (StableHlo.after (hostOps1 (F := Ideal)) W (Proc.devRef .tc main_v16)) = W (Proc.devRef .tc main_arg6) := by
  after_results_simp
  exact rowVec_reshape _ _

end Cert.KernelIdeal.Val

end
-- ==== Proof.KerHost3.lean ====
/-
  The column normalisation's scalar arithmetic on the host, read from the contents `W` it starts from. The region before
  it leaves the two rows of column sums — of the hidden features `X` and of their squares —; from them the host forms,
  column by column, the mean and the mean square (each sum divided by the row count), the variance kept nonnegative, the
  scale `γ / sqrt (variance + ε)` and the shift `β − mean · scale`, every step entry by entry on `[1, 128]` rows, and
  passes the two rows on through a cast to a vector and back. These are the specification's `scaleKer` and `shiftKer`.
-/
import proofs.«178630_j29162827940511_2_alg».proof.Proof.KernelIdealFrameP
import proofs.«178630_j29162827940511_2_alg».proof.Proof.Spec
import Idealize.ShloMosaic.Lib.IdealHost
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

/-- The host's square root at an index is the square root of the element. -/
theorem hostSqrt_apply {s : Shape} {φ : FTy} (a : FVec Ideal s φ) (i : s.Idx) : Host.sqrt a i = Ideal.sqrt (a i) := rfl

/-- A float literal spread to any shape reads, everywhere, the extended real its word encodes. -/
theorem splat_apply {t : Shape} (h : (⟨0, ![]⟩ : Shape).BroadcastsInDim t (![] : Fin 0 → Fin t.rank)) (bits : BitVec 32) (j : t.Idx) :
    broadcastInDim t ![] h (constant (F := Ideal) ⟨0, ![]⟩ .f32 bits) j = Ideal.ofBits .f32 bits :=
  broadcastInDim_scalar_apply h _ j

variable (W : Valuation τ sig (Elt Ideal))

set_option maxHeartbeats 2000000 in
/-- The scale row. -/
theorem host3_v37 (X : Spec.Mat 60000 128)
    (hA : W (Proc.devRef .tc main_v18_0) = Spec.asRow (Spec.colSum X))
    (hB : W (Proc.devRef .tc main_v18_1) = Spec.asRow (Spec.sqSum X)) :
    StableHlo.after (hostOps3 (F := Ideal)) W (Proc.devRef .tc main_v37)
      = Spec.asRow (Spec.scaleKer X (W (Proc.devRef .tc main_arg9))) := by
  after_results_simp
  rw [hA, hB]
  funext i
  obtain ⟨u, c, rfl⟩ : ∃ (u : Fin 1) (c : Fin 128), i = ix2 u c := ⟨i 0, i 1, eq_ix2 i⟩
  rw [Spec.asRow_ix2]
  refine (shapeCast_a_1a_apply _ _ u c).trans ?_
  refine (shapeCast_1a_a_apply _ _ c).trans ?_
  simp only [hostDivf_apply, hostSqrt_apply, addf_apply, maximumf_apply, subf_apply, mulf_apply,
    Spec.asRow_ix2]
  rw [splat_apply, splat_apply, splat_apply]
  erw [shapeCast_a_1a_apply]
  rfl

set_option maxHeartbeats 2000000 in
/-- The shift row. -/
theorem host3_v38 (X : Spec.Mat 60000 128)
    (hA : W (Proc.devRef .tc main_v18_0) = Spec.asRow (Spec.colSum X))
    (hB : W (Proc.devRef .tc main_v18_1) = Spec.asRow (Spec.sqSum X)) :
    StableHlo.after (hostOps3 (F := Ideal)) W (Proc.devRef .tc main_v38)
      = Spec.asRow (Spec.shiftKer X (W (Proc.devRef .tc main_arg9)) (W (Proc.devRef .tc main_arg10))) := by
  after_results_simp
  rw [hA, hB]
  funext i
  obtain ⟨u, c, rfl⟩ : ∃ (u : Fin 1) (c : Fin 128), i = ix2 u c := ⟨i 0, i 1, eq_ix2 i⟩
  rw [Spec.asRow_ix2]
  refine (shapeCast_a_1a_apply _ _ u c).trans ?_
  refine (shapeCast_1a_a_apply _ _ c).trans ?_
  simp only [hostDivf_apply, hostSqrt_apply, addf_apply, maximumf_apply, subf_apply, mulf_apply,
    Spec.asRow_ix2]
  rw [splat_apply, splat_apply, splat_apply]
  erw [shapeCast_a_1a_apply, shapeCast_a_1a_apply]
  rfl

end Cert.KernelIdeal.Val

end
-- ==== Proof.KerHost5.lean ====
/-
  The second layer's host operations, read from the contents `W` they start from: the bias vectors regarded as rows,
  the sampled neighbours' rows of the projected hidden features laid out as `[30000, 25, 128]`, the nodes' own rows of
  the normalised hidden features, and the buffers the operations leave alone.
-/
import proofs.«178630_j29162827940511_2_alg».proof.Proof.KernelIdealFrameP
import proofs.«178630_j29162827940511_2_alg».proof.Proof.KerHostGather

set_option maxRecDepth 16384

noncomputable section

namespace Cert.KernelIdeal.Val

open Idealize.ShloMosaic Idealize.ShloMosaic.TcCoe Idealize.ShloMosaic.ValueIdx Idealize.SL.Sem Cert.KernelIdeal Cert.KernelIdeal.Gen

variable (W : Valuation τ sig (Elt Ideal))

set_option maxHeartbeats 1000000 in
/-- Before the second projection: its bias as a row. -/
theorem host4_v40 : Spec.rowVec (StableHlo.after (hostOps4 (F := Ideal)) W (Proc.devRef .tc main_v40)) = W (Proc.devRef .tc main_arg4) := by
  after_results_simp
  exact rowVec_reshape _ _

set_option maxHeartbeats 1000000 in
/-- The neighbours' tensor at `(r, s, k)`: column `k` of the projected row the node number `(r, s)` names. -/
theorem host5_v48 (r : Fin 30000) (s : Fin 25) (k : Fin 128) :
    StableHlo.after (hostOps5 (F := Ideal)) W (Proc.devRef .tc main_v48) (ix3 r s k)
      = W (Proc.devRef .tc main_v41) (ix2 (Spec.rowOf 60000 (by norm_num) (Spec.wrapWord 60000#32 (W (Proc.devRef .tc main_arg13) (ix2 r s)))) k) := by
  after_results_simp
  exact nbr_gather_apply (by norm_num) 60000#32 _ _ _ _ _ _ r s k

set_option maxHeartbeats 1000000 in
/-- Its entrywise maximum over the 25 samples is the neighbourhood maximum. -/
theorem host5_maxS : Spec.maxS (StableHlo.after (hostOps5 (F := Ideal)) W (Proc.devRef .tc main_v48))
      = Spec.nbrMax (N := 60000) (by norm_num) 60000#32 (W (Proc.devRef .tc main_v41)) (W (Proc.devRef .tc main_arg13)) :=
  Spec.maxS_eq_nbrMax _ _ _ _ _ (host5_v48 W)

set_option maxHeartbeats 1000000 in
/-- The nodes' own rows of the normalised hidden features. -/
theorem host5_v55 : StableHlo.after (hostOps5 (F := Ideal)) W (Proc.devRef .tc main_v55)
      = Spec.selfRows (N := 60000) (by norm_num) 60000#32 (W (Proc.devRef .tc main_v39)) (W (Proc.devRef .tc main_arg14)) := by
  after_results_simp
  funext i
  obtain ⟨r, k, rfl⟩ : ∃ (r : Fin 30000) (k : Fin 128), i = ix2 r k := ⟨i 0, i 1, eq_ix2 i⟩
  exact self_gather_apply (by norm_num) 60000#32 _ _ _ _ _ _ r k

set_option maxHeartbeats 1000000 in
/-- The second linear map's bias as a row. -/
theorem host5_v56 : Spec.rowVec (StableHlo.after (hostOps5 (F := Ideal)) W (Proc.devRef .tc main_v56)) = W (Proc.devRef .tc main_arg8) := by
  after_results_simp
  exact rowVec_reshape _ _

end Cert.KernelIdeal.Val

end
-- ==== Proof.KerFold.lean ====
/-
  The walk through the kernel program read back: the contents of the buffers at every boundary between a stretch of host
  operations and a region, from the launch memory to the result. Given what each of the six regions computes from the
  contents it is entered with (`RegionFacts`), the first projection's output is the specification's `proj` of the input
  features, the first layer's output its `hidden`, the two rows of column sums those of `hidden`, the scale and shift
  rows `scaleKer` and `shiftKer`, the normalised features `l2n (bnKer hidden γ β)`, the second projection's output their
  `proj`, and the result the whole network `GK` of the argument arrays as launched.
-/
import proofs.«178630_j29162827940511_2_alg».proof.Proof.KernelIdealFrameP
import proofs.«178630_j29162827940511_2_alg».proof.Proof.KerKeep
import proofs.«178630_j29162827940511_2_alg».proof.Proof.KerHost1
import proofs.«178630_j29162827940511_2_alg».proof.Proof.KerHost3
import proofs.«178630_j29162827940511_2_alg».proof.Proof.KerHost5

set_option maxRecDepth 16384

noncomputable section

namespace Cert.KernelIdeal.Val

open Idealize.ShloMosaic Idealize.ShloMosaic.TcCoe Idealize.SL.Sem Cert.KernelIdeal Cert.KernelIdeal.Gen

/-- What the six regions compute, each as a function of the contents `V` it is entered with. -/
structure RegionFacts : Prop where
  r0 : ∀ (V : (c : Dev nD) → (b : Ref sig .tc) → Buf (Elt Ideal) ((c : Thread nD τ).loc b)) (c : Dev nD),
    (dat0 (F := Ideal) V c).arrAt 3 cfg0.N = Spec.proj (V c main_arg0) (V c main_arg1) (Spec.rowVec (V c main_v0))
  r1 : ∀ (V : (c : Dev nD) → (b : Ref sig .tc) → Buf (Elt Ideal) ((c : Thread nD τ).loc b)) (c : Dev nD),
    (dat1 (F := Ideal) V c).arrAt 4 cfg1.N
      = Spec.relu (Spec.lin2 (V c main_v15) (Spec.maxS (V c main_v8)) (V c main_arg5) (Spec.rowVec (V c main_v16)))
  r2 : ∀ (V : (c : Dev nD) → (b : Ref sig .tc) → Buf (Elt Ideal) ((c : Thread nD τ).loc b)) (c : Dev nD),
    (dat2 (F := Ideal) V c).arrAt 1 cfg2.N = Spec.asRow (Spec.colSum (V c main_v17))
    ∧ (dat2 (F := Ideal) V c).arrAt 2 cfg2.N = Spec.asRow (Spec.sqSum (V c main_v17))
  r3 : ∀ (V : (c : Dev nD) → (b : Ref sig .tc) → Buf (Elt Ideal) ((c : Thread nD τ).loc b)) (c : Dev nD),
    (dat3 (F := Ideal) V c).arrAt 3 cfg3.N = Spec.l2n (Spec.affine (V c main_v17) (V c main_v37) (V c main_v38))
  r4 : ∀ (V : (c : Dev nD) → (b : Ref sig .tc) → Buf (Elt Ideal) ((c : Thread nD τ).loc b)) (c : Dev nD),
    (dat4 (F := Ideal) V c).arrAt 3 cfg4.N = Spec.proj (V c main_v39) (V c main_arg3) (Spec.rowVec (V c main_v40))
  r5 : ∀ (V : (c : Dev nD) → (b : Ref sig .tc) → Buf (Elt Ideal) ((c : Thread nD τ).loc b)) (c : Dev nD),
    (dat5 (F := Ideal) V c).arrAt 4 cfg5.N
      = Spec.lin2 (V c main_v55) (Spec.maxS (V c main_v48)) (V c main_arg7) (Spec.rowVec (V c main_v56))

variable (m : (ℓ : Loc nD τ sig) → Buf (Elt Ideal) ℓ) (ρ : Dev nD → PrngReg) (c : Dev nD)

/-! ## The argument arrays at the boundaries where they are read: as launched -/

theorem carry_W2_arg0 : W2 m ρ c (Proc.devRef .tc main_arg0) = m ((c.tc : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := host0_keep (W0 m ρ c) main_arg0 (by decide)
    _ = m ((c.tc : Thread nD τ).loc main_arg0) := rfl

theorem carry_W2_arg12 : W2 m ρ c (Proc.devRef .tc main_arg12) = m ((c.tc : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := host0_keep (W0 m ρ c) main_arg12 (by decide)
    _ = m ((c.tc : Thread nD τ).loc main_arg12) := rfl

theorem carry_W2_arg11 : W2 m ρ c (Proc.devRef .tc main_arg11) = m ((c.tc : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := host0_keep (W0 m ρ c) main_arg11 (by decide)
    _ = m ((c.tc : Thread nD τ).loc main_arg11) := rfl

theorem carry_W2_arg5 : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := host0_keep (W0 m ρ c) main_arg5 (by decide)
    _ = m ((c.tc : Thread nD τ).loc main_arg5) := rfl

theorem carry_W2_arg6 : W2 m ρ c (Proc.devRef .tc main_arg6) = m ((c.tc : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := host0_keep (W0 m ρ c) main_arg6 (by decide)
    _ = m ((c.tc : Thread nD τ).loc main_arg6) := rfl

theorem carry_W5_arg9 : W5 m ρ c (Proc.devRef .tc main_arg9) = m ((c.tc : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := host1_keep (W2 m ρ c) main_arg9 (by decide)
    _ = W1 m ρ c (Proc.devRef .tc main_arg9) := W2_of_ne m ρ c main_arg9 (by decide)
    _ = W0 m ρ c (Proc.devRef .tc main_arg9) := host0_keep (W0 m ρ c) main_arg9 (by decide)
    _ = m ((c.tc : Thread nD τ).loc main_arg9) := rfl

theorem carry_W5_arg10 : W5 m ρ c (Proc.devRef .tc main_arg10) = m ((c.tc : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := host1_keep (W2 m ρ c) main_arg10 (by decide)
    _ = W1 m ρ c (Proc.devRef .tc main_arg10) := W2_of_ne m ρ c main_arg10 (by decide)
    _ = W0 m ρ c (Proc.devRef .tc main_arg10) := host0_keep (W0 m ρ c) main_arg10 (by decide)
    _ = m ((c.tc : Thread nD τ).loc main_arg10) := rfl

theorem carry_W7_arg3 : W7 m ρ c (Proc.devRef .tc main_arg3) = m ((c.tc : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := host3_keep (W5 m ρ c) main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := host1_keep (W2 m ρ c) main_arg3 (by decide)
    _ = W1 m ρ c (Proc.devRef .tc main_arg3) := W2_of_ne m ρ c main_arg3 (by decide)
    _ = W0 m ρ c (Proc.devRef .tc main_arg3) := host0_keep (W0 m ρ c) main_arg3 (by decide)
    _ = m ((c.tc : Thread nD τ).loc main_arg3) := rfl

theorem carry_W7_arg4 : W7 m ρ c (Proc.devRef .tc main_arg4) = m ((c.tc : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := host3_keep (W5 m ρ c) main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := host1_keep (W2 m ρ c) main_arg4 (by decide)
    _ = W1 m ρ c (Proc.devRef .tc main_arg4) := W2_of_ne m ρ c main_arg4 (by decide)
    _ = W0 m ρ c (Proc.devRef .tc main_arg4) := host0_keep (W0 m ρ c) main_arg4 (by decide)
    _ = m ((c.tc : Thread nD τ).loc main_arg4) := rfl

theorem carry_W9_arg13 : W9 m ρ c (Proc.devRef .tc main_arg13) = m ((c.tc : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := host4_keep (W7 m ρ c) main_arg13 (by decide)
    _ = W6 m ρ c (Proc.devRef .tc main_arg13) := W7_of_ne m ρ c main_arg13 (by decide)
    _ = W5 m ρ c (Proc.devRef .tc main_arg13) := host3_keep (W5 m ρ c) main_arg13 (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := host1_keep (W2 m ρ c) main_arg13 (by decide)
    _ = W1 m ρ c (Proc.devRef .tc main_arg13) := W2_of_ne m ρ c main_arg13 (by decide)
    _ = W0 m ρ c (Proc.devRef .tc main_arg13) := host0_keep (W0 m ρ c) main_arg13 (by decide)
    _ = m ((c.tc : Thread nD τ).loc main_arg13) := rfl

theorem carry_W9_arg14 : W9 m ρ c (Proc.devRef .tc main_arg14) = m ((c.tc : Thread nD τ).loc main_arg14) :=
  calc W9 m ρ c (Proc.devRef .tc main_arg14)
    _ = W8 m ρ c (Proc.devRef .tc main_arg14) := W9_of_ne m ρ c main_arg14 (by decide)
    _ = W7 m ρ c (Proc.devRef .tc main_arg14) := host4_keep (W7 m ρ c) main_arg14 (by decide)
    _ = W6 m ρ c (Proc.devRef .tc main_arg14) := W7_of_ne m ρ c main_arg14 (by decide)
    _ = W5 m ρ c (Proc.devRef .tc main_arg14) := host3_keep (W5 m ρ c) main_arg14 (by decide)
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := host1_keep (W2 m ρ c) main_arg14 (by decide)
    _ = W1 m ρ c (Proc.devRef .tc main_arg14) := W2_of_ne m ρ c main_arg14 (by decide)
    _ = W0 m ρ c (Proc.devRef .tc main_arg14) := host0_keep (W0 m ρ c) main_arg14 (by decide)
    _ = m ((c.tc : Thread nD τ).loc main_arg14) := rfl

theorem carry_W9_arg7 : W9 m ρ c (Proc.devRef .tc main_arg7) = m ((c.tc : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := host4_keep (W7 m ρ c) main_arg7 (by decide)
    _ = W6 m ρ c (Proc.devRef .tc main_arg7) := W7_of_ne m ρ c main_arg7 (by decide)
    _ = W5 m ρ c (Proc.devRef .tc main_arg7) := host3_keep (W5 m ρ c) main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := host1_keep (W2 m ρ c) main_arg7 (by decide)
    _ = W1 m ρ c (Proc.devRef .tc main_arg7) := W2_of_ne m ρ c main_arg7 (by decide)
    _ = W0 m ρ c (Proc.devRef .tc main_arg7) := host0_keep (W0 m ρ c) main_arg7 (by decide)
    _ = m ((c.tc : Thread nD τ).loc main_arg7) := rfl

theorem carry_W9_arg8 : W9 m ρ c (Proc.devRef .tc main_arg8) = m ((c.tc : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := host4_keep (W7 m ρ c) main_arg8 (by decide)
    _ = W6 m ρ c (Proc.devRef .tc main_arg8) := W7_of_ne m ρ c main_arg8 (by decide)
    _ = W5 m ρ c (Proc.devRef .tc main_arg8) := host3_keep (W5 m ρ c) main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := host1_keep (W2 m ρ c) main_arg8 (by decide)
    _ = W1 m ρ c (Proc.devRef .tc main_arg8) := W2_of_ne m ρ c main_arg8 (by decide)
    _ = W0 m ρ c (Proc.devRef .tc main_arg8) := host0_keep (W0 m ρ c) main_arg8 (by decide)
    _ = m ((c.tc : Thread nD τ).loc main_arg8) := rfl

/-! ## The first layer -/

theorem V1_arg0 : V1 m ρ c main_arg0 = m ((c.tc : Thread nD τ).loc main_arg0) := host0_keep (W0 m ρ c) main_arg0 (by decide)
theorem V1_arg1 : V1 m ρ c main_arg1 = m ((c.tc : Thread nD τ).loc main_arg1) := host0_keep (W0 m ρ c) main_arg1 (by decide)
theorem V1_v0 : Spec.rowVec (V1 m ρ c main_v0) = m ((c.tc : Thread nD τ).loc main_arg2) := host0_v0 (W0 m ρ c)

/-- The first projection's output. -/
theorem W2_v1 (R : RegionFacts) : W2 m ρ c (Proc.devRef .tc main_v1) = (Spec.proj (m ((c.tc : Thread nD τ).loc main_arg0)) (m ((c.tc : Thread nD τ).loc main_arg1)) (m ((c.tc : Thread nD τ).loc main_arg2))) :=
  calc W2 m ρ c (Proc.devRef .tc main_v1)
    _ = (dat0 (V1 m ρ) c).arrAt 3 cfg0.N := W2_arr m ρ c 3
    _ = Spec.proj (V1 m ρ c main_arg0) (V1 m ρ c main_arg1) (Spec.rowVec (V1 m ρ c main_v0)) := R.r0 (V1 m ρ) c
    _ = (Spec.proj (m ((c.tc : Thread nD τ).loc main_arg0)) (m ((c.tc : Thread nD τ).loc main_arg1)) (m ((c.tc : Thread nD τ).loc main_arg2))) := by rw [V1_arg0 m ρ c, V1_arg1 m ρ c, V1_v0 m ρ c]

theorem V3_v15 : V3 m ρ c main_v15 = Spec.selfRows (N := 100000) (by norm_num) 100000#32 (m ((c.tc : Thread nD τ).loc main_arg0)) (m ((c.tc : Thread nD τ).loc main_arg12)) :=
  (host1_v15 (W2 m ρ c)).trans (by rw [carry_W2_arg0 m ρ c, carry_W2_arg12 m ρ c])
theorem V3_maxS (R : RegionFacts) : Spec.maxS (V3 m ρ c main_v8)
      = Spec.nbrMax (N := 100000) (by norm_num) 100000#32 (Spec.proj (m ((c.tc : Thread nD τ).loc main_arg0)) (m ((c.tc : Thread nD τ).loc main_arg1)) (m ((c.tc : Thread nD τ).loc main_arg2))) (m ((c.tc : Thread nD τ).loc main_arg11)) :=
  (host1_maxS (W2 m ρ c)).trans (by rw [W2_v1 m ρ c R, carry_W2_arg11 m ρ c])
theorem V3_arg5 : V3 m ρ c main_arg5 = m ((c.tc : Thread nD τ).loc main_arg5) :=
  (host1_keep (W2 m ρ c) main_arg5 (by decide)).trans (carry_W2_arg5 m ρ c)
theorem V3_v16 : Spec.rowVec (V3 m ρ c main_v16) = m ((c.tc : Thread nD τ).loc main_arg6) := (host1_v16 (W2 m ρ c)).trans (carry_W2_arg6 m ρ c)

/-- The first layer's output, clipped at zero. -/
theorem W4_v17 (R : RegionFacts) : W4 m ρ c (Proc.devRef .tc main_v17) = (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) :=
  calc W4 m ρ c (Proc.devRef .tc main_v17)
    _ = (dat1 (V3 m ρ) c).arrAt 4 cfg1.N := W4_arr m ρ c 4
    _ = Spec.relu (Spec.lin2 (V3 m ρ c main_v15) (Spec.maxS (V3 m ρ c main_v8)) (V3 m ρ c main_arg5) (Spec.rowVec (V3 m ρ c main_v16))) :=
      R.r1 (V3 m ρ) c
    _ = Spec.relu (Spec.lin2 (Spec.selfRows (N := 100000) (by norm_num) 100000#32 (m ((c.tc : Thread nD τ).loc main_arg0)) (m ((c.tc : Thread nD τ).loc main_arg12)))
          (Spec.nbrMax (N := 100000) (by norm_num) 100000#32 (Spec.proj (m ((c.tc : Thread nD τ).loc main_arg0)) (m ((c.tc : Thread nD τ).loc main_arg1)) (m ((c.tc : Thread nD τ).loc main_arg2))) (m ((c.tc : Thread nD τ).loc main_arg11))) (m ((c.tc : Thread nD τ).loc main_arg5)) (m ((c.tc : Thread nD τ).loc main_arg6))) := by
      rw [V3_v15 m ρ c, V3_maxS m ρ c R, V3_arg5 m ρ c, V3_v16 m ρ c]
    _ = (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) := rfl

/-! ## The column normalisation -/

theorem W5_v17 (R : RegionFacts) : W5 m ρ c (Proc.devRef .tc main_v17) = (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) :=
  ((W5_arr m ρ c 0).trans (((dat2 (V4 m ρ) c).arrAt_in 0 rfl _).trans (A_eq2 (V4 m ρ) c 0))).trans (W4_v17 m ρ c R)
theorem W5_v18_0 (R : RegionFacts) : W5 m ρ c (Proc.devRef .tc main_v18_0) = Spec.asRow (Spec.colSum (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12)))) :=
  (W5_arr m ρ c 1).trans ((R.r2 (V4 m ρ) c).1.trans (by rw [show V4 m ρ c main_v17 = (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) from W4_v17 m ρ c R]))
theorem W5_v18_1 (R : RegionFacts) : W5 m ρ c (Proc.devRef .tc main_v18_1) = Spec.asRow (Spec.sqSum (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12)))) :=
  (W5_arr m ρ c 2).trans ((R.r2 (V4 m ρ) c).2.trans (by rw [show V4 m ρ c main_v17 = (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) from W4_v17 m ρ c R]))

theorem V6_v37 (R : RegionFacts) : V6 m ρ c main_v37 = Spec.asRow (Spec.scaleKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9))) :=
  (host3_v37 (W5 m ρ c) (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (W5_v18_0 m ρ c R) (W5_v18_1 m ρ c R)).trans (by rw [carry_W5_arg9 m ρ c])
theorem V6_v38 (R : RegionFacts) : V6 m ρ c main_v38 = Spec.asRow (Spec.shiftKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10))) :=
  (host3_v38 (W5 m ρ c) (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (W5_v18_0 m ρ c R) (W5_v18_1 m ρ c R)).trans (by rw [carry_W5_arg9 m ρ c, carry_W5_arg10 m ρ c])
theorem V6_v17 (R : RegionFacts) : V6 m ρ c main_v17 = (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) :=
  (host3_keep (W5 m ρ c) main_v17 (by decide)).trans (W5_v17 m ρ c R)

/-- The normalised hidden features. -/
theorem W7_v39 (R : RegionFacts) : W7 m ρ c (Proc.devRef .tc main_v39) = (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) :=
  calc W7 m ρ c (Proc.devRef .tc main_v39)
    _ = (dat3 (V6 m ρ) c).arrAt 3 cfg3.N := W7_arr m ρ c 3
    _ = Spec.l2n (Spec.affine (V6 m ρ c main_v17) (V6 m ρ c main_v37) (V6 m ρ c main_v38)) := R.r3 (V6 m ρ) c
    _ = Spec.l2n (Spec.affine (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (Spec.asRow (Spec.scaleKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)))) (Spec.asRow (Spec.shiftKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10))))) := by
      rw [V6_v17 m ρ c R, V6_v37 m ρ c R, V6_v38 m ρ c R]
    _ = (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) := rfl

/-! ## The second layer -/

theorem V8_v39 (R : RegionFacts) : V8 m ρ c main_v39 = (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) :=
  (host4_keep (W7 m ρ c) main_v39 (by decide)).trans (W7_v39 m ρ c R)
theorem V8_arg3 : V8 m ρ c main_arg3 = m ((c.tc : Thread nD τ).loc main_arg3) :=
  (host4_keep (W7 m ρ c) main_arg3 (by decide)).trans (carry_W7_arg3 m ρ c)
theorem V8_v40 : Spec.rowVec (V8 m ρ c main_v40) = m ((c.tc : Thread nD τ).loc main_arg4) := (host4_v40 (W7 m ρ c)).trans (carry_W7_arg4 m ρ c)

/-- The second projection's output. -/
theorem W9_v41 (R : RegionFacts) : W9 m ρ c (Proc.devRef .tc main_v41) = (Spec.proj (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) (m ((c.tc : Thread nD τ).loc main_arg3)) (m ((c.tc : Thread nD τ).loc main_arg4))) :=
  calc W9 m ρ c (Proc.devRef .tc main_v41)
    _ = (dat4 (V8 m ρ) c).arrAt 3 cfg4.N := W9_arr m ρ c 3
    _ = Spec.proj (V8 m ρ c main_v39) (V8 m ρ c main_arg3) (Spec.rowVec (V8 m ρ c main_v40)) := R.r4 (V8 m ρ) c
    _ = (Spec.proj (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) (m ((c.tc : Thread nD τ).loc main_arg3)) (m ((c.tc : Thread nD τ).loc main_arg4))) := by rw [V8_v39 m ρ c R, V8_arg3 m ρ c, V8_v40 m ρ c]
theorem W9_v39 (R : RegionFacts) : W9 m ρ c (Proc.devRef .tc main_v39) = (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) :=
  ((W9_arr m ρ c 0).trans (((dat4 (V8 m ρ) c).arrAt_in 0 rfl _).trans (A_eq4 (V8 m ρ) c 0))).trans (V8_v39 m ρ c R)

theorem V10_v55 (R : RegionFacts) : V10 m ρ c main_v55
      = Spec.selfRows (N := 60000) (by norm_num) 60000#32 (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) (m ((c.tc : Thread nD τ).loc main_arg14)) :=
  (host5_v55 (W9 m ρ c)).trans (by rw [W9_v39 m ρ c R, carry_W9_arg14 m ρ c])
theorem V10_maxS (R : RegionFacts) : Spec.maxS (V10 m ρ c main_v48)
      = Spec.nbrMax (N := 60000) (by norm_num) 60000#32 (Spec.proj (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) (m ((c.tc : Thread nD τ).loc main_arg3)) (m ((c.tc : Thread nD τ).loc main_arg4))) (m ((c.tc : Thread nD τ).loc main_arg13)) :=
  (host5_maxS (W9 m ρ c)).trans (by rw [W9_v41 m ρ c R, carry_W9_arg13 m ρ c])
theorem V10_arg7 : V10 m ρ c main_arg7 = m ((c.tc : Thread nD τ).loc main_arg7) :=
  (host5_keep (W9 m ρ c) main_arg7 (by decide)).trans (carry_W9_arg7 m ρ c)
theorem V10_v56 : Spec.rowVec (V10 m ρ c main_v56) = m ((c.tc : Thread nD τ).loc main_arg8) := (host5_v56 (W9 m ρ c)).trans (carry_W9_arg8 m ρ c)

/-- The result: the whole network of the argument arrays as launched. -/
theorem W11_v57 (R : RegionFacts) : W11 m ρ c (Proc.devRef .tc main_v57)
      = Spec.GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  calc W11 m ρ c (Proc.devRef .tc main_v57)
    _ = (dat5 (V10 m ρ) c).arrAt 4 cfg5.N := W11_arr m ρ c 4
    _ = Spec.lin2 (V10 m ρ c main_v55) (Spec.maxS (V10 m ρ c main_v48)) (V10 m ρ c main_arg7) (Spec.rowVec (V10 m ρ c main_v56)) :=
      R.r5 (V10 m ρ) c
    _ = Spec.lin2 (Spec.selfRows (N := 60000) (by norm_num) 60000#32 (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) (m ((c.tc : Thread nD τ).loc main_arg14)))
          (Spec.nbrMax (N := 60000) (by norm_num) 60000#32 (Spec.proj (Spec.l2n (Spec.bnKer (Spec.hidden (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg9)) (m ((c.tc : Thread nD τ).loc main_arg10)))) (m ((c.tc : Thread nD τ).loc main_arg3)) (m ((c.tc : Thread nD τ).loc main_arg4))) (m ((c.tc : Thread nD τ).loc main_arg13))) (m ((c.tc : Thread nD τ).loc main_arg7)) (m ((c.tc : Thread nD τ).loc main_arg8)) := by
      rw [V10_v55 m ρ c R, V10_maxS m ρ c R, V10_arg7 m ρ c, V10_v56 m ρ c]
    _ = _ := rfl

end Cert.KernelIdeal.Val

end
-- ==== Proof.KerRunOf.lean ====
/-
  The kernel program's run with its result as the specification's network: from what each of the six regions computes
  (`RegionFacts`), every weakly fair execution of the program ends, nothing faulting, with the result buffer holding
  `Spec.GK` of the argument arrays as launched and the argument arrays unchanged.
-/
import proofs.«178630_j29162827940511_2_alg».proof.Proof.KerRun
import proofs.«178630_j29162827940511_2_alg».proof.Proof.KerFold

set_option maxRecDepth 16384

noncomputable section

namespace Cert.KernelIdeal.Val

open Idealize.ShloMosaic Idealize.ShloMosaic.TcCoe Idealize.SL.Sem Cert.KernelIdeal Cert.KernelIdeal.Gen

/-- The run, given the six regions' values: the named run's result read back through the boundaries. -/
theorem run_of (R : RegionFacts) (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v57) = Spec.GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run _ _ _).mono (fun r h c => ⟨(h c).1.trans (W11_v57 m ρ c R), (h c).2⟩) (run_named m ρ)

end Cert.KernelIdeal.Val

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.KerDensePay.lean ====
/-
  The dense projection's arithmetic on one block, read at an entry.

  The body takes a `[2000, 128]` block of node features, the whole `[128, 128]` weight and the bias as a `[1, 128]` row.
  It transposes the weight, multiplies the block by it into a zero accumulator, adds the bias row to every row and
  clips at zero. On the extended reals the two changes of float format are the identity, so entry `(r, c)` of the
  result is max (∑ₖ x(r, k) · W(c, k) + b(0, c)) 0: row `r` of the features against ROW `c` of the weight, because the
  product contracts the transposed weight's rows.
-/
import proofs.«178630_j29162827940511_2_alg».proof.Proof.Gen.KernelIdeal.Skeleton
import proofs.«178630_j29162827940511_2_alg».proof.Proof.Spec
import proofs.«178630_j29162827940511_2_alg».proof.Proof.LibPlainDot
import proofs.«178630_j29162827940511_2_alg».proof.Proof.LibDotLastAxes

noncomputable section

open scoped BigOperators

namespace Cert.KernelIdeal.Val.Dense

open Idealize.ShloMosaic Idealize.ShloMosaic.ValueIdx Cert.KernelIdeal Cert.KernelIdeal.Gen

/-- The transposed square weight at `(k, c)` is the weight at `(c, k)`. -/
theorem transposeW_apply (h : S128x128.Transposes [1, 0] S128x128) (w : S128x128.Idx → EReal) (k c : Fin 128) :
    transpose S128x128 [1, 0] w h (ix2 k c) = w (ix2 c k) :=
  transpose_apply [1, 0] w h (ix2 k c) (ix2 c k) (fun b => by
    match b with
    | ⟨0, _⟩ => rfl
    | ⟨1, _⟩ => rfl)

/-- One block of the dense projection at entry `(r, c)`: the row `r` of the features against row `c` of the weight, plus
    the bias entry `c`, clipped at zero. The changes of float format are the identity on the extended reals. -/
theorem pay0_apply (x0 : Vec Ideal S2000x128 .f32) (x1 : Vec Ideal S128x128 .f32) (x2 : Vec Ideal S1x128 .f32)
    (r : Fin 2000) (c : Fin 128) :
    k0_pay1 (F := Ideal) x0 x1 x2 (ix2 r c)
      = max ((∑ k : Fin 128, x0 (ix2 r k) * x1 (ix2 c k)) + x2 (ix2 (0 : Fin 1) c)) Spec.zero := by
  unfold k0_pay1
  refine congrArg₂ max (congrArg₂ (· + ·) ?_ ?_) rfl
  · refine (Cert.Sage.matmul_plain_zero_apply (M := 2000) (K := 128) (N := 128) none _ _ r c).trans ?_
    refine Finset.sum_congr rfl fun k _ => ?_
    exact congrArg (x0 (ix2 r k) * ·) (transposeW_apply _ _ k c)
  · exact DotLastAxes.rowBroadcast_apply _ _ x2 r c

/-- The same block arithmetic as the second projection's body spells it (the features first cast to their own shape). -/
theorem pay4_apply (x0 : Vec Ideal S2000x128 .f32) (x1 : Vec Ideal S128x128 .f32) (x2 : Vec Ideal S1x128 .f32)
    (r : Fin 2000) (c : Fin 128) :
    k4_pay1 (F := Ideal) x0 x1 x2 (ix2 r c)
      = max ((∑ k : Fin 128, x0 (ix2 r k) * x1 (ix2 c k)) + x2 (ix2 (0 : Fin 1) c)) Spec.zero := by
  unfold k4_pay1
  refine congrArg₂ max (congrArg₂ (· + ·) ?_ ?_) rfl
  · refine (Cert.Sage.matmul_plain_zero_apply (M := 2000) (K := 128) (N := 128) none _ _ r c).trans ?_
    refine Finset.sum_congr rfl fun k _ => ?_
    exact congrArg₂ (· * ·) (congrFun (shapeCast_self x0 _) (ix2 r k)) (transposeW_apply _ _ k c)
  · exact DotLastAxes.rowBroadcast_apply _ _ x2 r c

end Cert.KernelIdeal.Val.Dense

end
-- ==== Proof.KerDense.lean ====
/-
  The two dense projections' result arrays after their regions.

  Each projection runs over blocks of 2000 rows of its feature array (50 blocks of the 100000 nodes for the first, 30
  blocks of the 60000 hidden rows for the second), with the whole square weight and the whole bias row present at
  every point. Point `t` reads rows `2000 t … 2000 t + 1999` of the features and writes the same rows of the result:
  a block's coordinate is its index times its size plus the coordinate inside the block. Entry `(p, q)` of what the
  point writes is the block arithmetic at `(p, q)`, which is entry `(2000 t + p, q)` of the projection of the WHOLE
  arrays, because that entry depends on row `2000 t + p` of the features only. Row `r` of the result lies in the block
  of point `r / 2000`, so the blocks cover the array and the array after the region is the projection.
-/
import proofs.«178630_j29162827940511_2_alg».proof.Proof.KernelIdealFrameP
import proofs.«178630_j29162827940511_2_alg».proof.Proof.Spec
import proofs.«178630_j29162827940511_2_alg».proof.Proof.KerDensePay
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

namespace Dense

/-- The zero offset of a whole-block access, as a function. -/
theorem hz2 : (![0, 0] : Fin 2 → Nat) = fun _ => 0 := funext fun a => by fin_cases a <;> rfl

/-! ## The first projection: 50 blocks of 2000 rows of the 100000 nodes -/

/-- The printed index maps over the 50 points: the features' and the result's block is the point's number along the
    rows and 0 along the columns; the weight and the bias row are always block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t` is rows `2000 t … 2000 t + 1999` of the node features. -/
theorem iblk0_0_apply (c : Dev nD) (t : Fin cfg0.N) (p : Fin 2000) (k : Fin 128) (R : Fin 100000)
    (hR : R.val = t.val * 2000 + p.val) :
    (iblk0 (F := Ideal) V c 0 t : Vec Ideal S2000x128 .f32) (ix2 p k) = (V c main_arg0 : S100000x128.Idx → EReal) (ix2 R k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * p.val = R.val; rw [e0, hR]; omega
  | ⟨1, _⟩ => show win0_0.index t 1 * 128 + 1 * k.val = k.val; rw [e1]; omega

/-- The weight's block at every point is the whole weight. -/
theorem iblk0_1_apply (c : Dev nD) (t : Fin cfg0.N) (a b : Fin 128) :
    (iblk0 (F := Ideal) V c 1 t : Vec Ideal S128x128 .f32) (ix2 a b) = (V c main_arg1 : S128x128.Idx → EReal) (ix2 a b) := by
  obtain ⟨-, -, e2, e3, -⟩ := idx_facts0 t
  unfold iblk0
  rw [View.read_apply]
  show V c main_arg1 _ = V c main_arg1 _
  congr 1
  funext ax
  apply Fin.ext
  match ax with
  | ⟨0, _⟩ => show win0_1.index t 0 * 128 + 1 * a.val = a.val; rw [e2]; omega
  | ⟨1, _⟩ => show win0_1.index t 1 * 128 + 1 * b.val = b.val; rw [e3]; omega

/-- The bias row's block at every point is the whole row. -/
theorem iblk0_2_apply (c : Dev nD) (t : Fin cfg0.N) (b : Fin 128) :
    (iblk0 (F := Ideal) V c 2 t : Vec Ideal S1x128 .f32) (ix2 (0 : Fin 1) b) = (V c main_v0 : S1x128.Idx → EReal) (ix2 (0 : Fin 1) b) := by
  obtain ⟨-, -, -, -, e4, e5, -⟩ := idx_facts0 t
  unfold iblk0
  rw [View.read_apply]
  show V c main_v0 _ = V c main_v0 _
  congr 1
  funext ax
  apply Fin.ext
  match ax with
  | ⟨0, _⟩ => show win0_2.index t 0 * 1 + 1 * 0 = 0; rw [e4]
  | ⟨1, _⟩ => show win0_2.index t 1 * 128 + 1 * b.val = b.val; rw [e5]; omega

/-- What point `t` writes back is block `t` of the projection of the whole arrays. -/
theorem flushed0_eq (c : Dev nD) (t : Fin cfg0.N) :
    (dat0 (F := Ideal) V c).flushed 3 t
      = ((cfg0.win 3).blk t).view.read (Elt Ideal) (Spec.proj (V c main_arg0) (V c main_arg1) (Spec.rowVec (V c main_v0))) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S1x128) hz2]
  obtain ⟨-, -, -, -, -, -, e6, e7⟩ := idx_facts0 t
  have hN : cfg0.N = 50 := N_0
  funext j
  obtain ⟨p, q, rfl⟩ : ∃ (p : Fin 2000) (q : Fin 128), j = ix2 p q := ⟨j 0, j 1, eq_ix2 j⟩
  have hR : t.val * 2000 + p.val < 100000 := by have := t.isLt; omega
  have hemb : ((cfg0.win 3).blk t).view.emb (ix2 p q) = ix2 (⟨t.val * 2000 + p.val, hR⟩ : Fin 100000) q := by
    funext a
    apply Fin.ext
    match a with
    | ⟨0, _⟩ => show win0_3.index t 0 * 2000 + 1 * p.val = t.val * 2000 + p.val; rw [e6]; omega
    | ⟨1, _⟩ => show win0_3.index t 1 * 128 + 1 * q.val = q.val; rw [e7]; omega
  show k0_pay1 (F := Ideal) (iblk0 V c 0 t) (iblk0 V c 1 t) (iblk0 V c 2 t) (ix2 p q)
    = Spec.proj (V c main_arg0) (V c main_arg1) (Spec.rowVec (V c main_v0)) (((cfg0.win 3).blk t).view.emb (ix2 p q))
  rw [hemb]
  refine (pay0_apply (iblk0 V c 0 t) (iblk0 V c 1 t) (iblk0 V c 2 t) p q).trans ?_
  exact congrArg₂ max (congrArg₂ (· + ·)
    (Finset.sum_congr rfl fun k _ => congrArg₂ (· * ·) (iblk0_0_apply V c t p k _ rfl) (iblk0_1_apply V c t q k))
    (iblk0_2_apply V c t q)) rfl

/-- An index of the result is in point `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1).slice (win0_3.rect t)).set ↔ _
  rw [View.set_slice_whole, Rect.mem_set_unit]
  exact Iff.rfl

/-- Row `r` of the result is in the block of point `r / 2000`: the 50 blocks cover the array. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, e6, e7⟩ := idx_facts0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ 0 * 2000 ≤ (i 0).val ∧ (i 0).val < win0_3.index ⟨(i 0).val / 2000, ht⟩ 0 * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ 1 * 128 ≤ (i 1).val ∧ (i 1).val < win0_3.index ⟨(i 0).val / 2000, ht⟩ 1 * 128 + 128
    rw [e7]; omega

/-! ## The second projection: 30 blocks of 2000 rows of the 60000 normalised hidden rows -/

/-- The printed index maps over the 30 points: the features' and the result's block is the point's number along the
    rows and 0 along the columns; the weight and the bias row are always block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The features' block at point `t` is rows `2000 t … 2000 t + 1999` of the normalised hidden features. -/
theorem iblk4_0_apply (c : Dev nD) (t : Fin cfg4.N) (p : Fin 2000) (k : Fin 128) (R : Fin 60000)
    (hR : R.val = t.val * 2000 + p.val) :
    (iblk4 (F := Ideal) V c 0 t : Vec Ideal S2000x128 .f32) (ix2 p k) = (V c main_v39 : S60000x128.Idx → EReal) (ix2 R k) := by
  obtain ⟨e0, e1, -⟩ := idx_facts4 t
  unfold iblk4
  rw [View.read_apply]
  show V c main_v39 _ = V c main_v39 _
  congr 1
  funext a
  apply Fin.ext
  match a with
  | ⟨0, _⟩ => show win4_0.index t 0 * 2000 + 1 * p.val = R.val; rw [e0, hR]; omega
  | ⟨1, _⟩ => show win4_0.index t 1 * 128 + 1 * k.val = k.val; rw [e1]; omega

/-- The weight's block at every point is the whole weight. -/
theorem iblk4_1_apply (c : Dev nD) (t : Fin cfg4.N) (a b : Fin 128) :
    (iblk4 (F := Ideal) V c 1 t : Vec Ideal S128x128 .f32) (ix2 a b) = (V c main_arg3 : S128x128.Idx → EReal) (ix2 a b) := by
  obtain ⟨-, -, e2, e3, -⟩ := idx_facts4 t
  unfold iblk4
  rw [View.read_apply]
  show V c main_arg3 _ = V c main_arg3 _
  congr 1
  funext ax
  apply Fin.ext
  match ax with
  | ⟨0, _⟩ => show win4_1.index t 0 * 128 + 1 * a.val = a.val; rw [e2]; omega
  | ⟨1, _⟩ => show win4_1.index t 1 * 128 + 1 * b.val = b.val; rw [e3]; omega

/-- The bias row's block at every point is the whole row. -/
theorem iblk4_2_apply (c : Dev nD) (t : Fin cfg4.N) (b : Fin 128) :
    (iblk4 (F := Ideal) V c 2 t : Vec Ideal S1x128 .f32) (ix2 (0 : Fin 1) b) = (V c main_v40 : S1x128.Idx → EReal) (ix2 (0 : Fin 1) b) := by
  obtain ⟨-, -, -, -, e4, e5, -⟩ := idx_facts4 t
  unfold iblk4
  rw [View.read_apply]
  show V c main_v40 _ = V c main_v40 _
  congr 1
  funext ax
  apply Fin.ext
  match ax with
  | ⟨0, _⟩ => show win4_2.index t 0 * 1 + 1 * 0 = 0; rw [e4]
  | ⟨1, _⟩ => show win4_2.index t 1 * 128 + 1 * b.val = b.val; rw [e5]; omega

/-- What point `t` writes back is block `t` of the projection of the whole arrays. -/
theorem flushed4_eq (c : Dev nD) (t : Fin cfg4.N) :
    (dat4 (F := Ideal) V c).flushed 3 t
      = ((cfg4.win 3).blk t).view.read (Elt Ideal) (Spec.proj (V c main_v39) (V c main_arg3) (Spec.rowVec (V c main_v40))) := by
  show (cfg4.win 3).cut (grid4.coords t) ((dat4 V c).after 3 t) = _
  rw [after4_3]
  unfold out4_3
  rw [View.canon_unit_zero hz2]
  simp only [View.ld_unit_zero (S := S2000x128) hz2, View.ld_unit_zero (S := S128x128) hz2, View.ld_unit_zero (S := S1x128) hz2]
  obtain ⟨-, -, -, -, -, -, e6, e7⟩ := idx_facts4 t
  have hN : cfg4.N = 30 := N_4
  funext j
  obtain ⟨p, q, rfl⟩ : ∃ (p : Fin 2000) (q : Fin 128), j = ix2 p q := ⟨j 0, j 1, eq_ix2 j⟩
  have hR : t.val * 2000 + p.val < 60000 := by have := t.isLt; omega
  have hemb : ((cfg4.win 3).blk t).view.emb (ix2 p q) = ix2 (⟨t.val * 2000 + p.val, hR⟩ : Fin 60000) q := by
    funext a
    apply Fin.ext
    match a with
    | ⟨0, _⟩ => show win4_3.index t 0 * 2000 + 1 * p.val = t.val * 2000 + p.val; rw [e6]; omega
    | ⟨1, _⟩ => show win4_3.index t 1 * 128 + 1 * q.val = q.val; rw [e7]; omega
  show k4_pay1 (F := Ideal) (iblk4 V c 0 t) (iblk4 V c 1 t) (iblk4 V c 2 t) (ix2 p q)
    = Spec.proj (V c main_v39) (V c main_arg3) (Spec.rowVec (V c main_v40)) (((cfg4.win 3).blk t).view.emb (ix2 p q))
  rw [hemb]
  refine (pay4_apply (iblk4 V c 0 t) (iblk4 V c 1 t) (iblk4 V c 2 t) p q).trans ?_
  exact congrArg₂ max (congrArg₂ (· + ·)
    (Finset.sum_congr rfl fun k _ => congrArg₂ (· * ·) (iblk4_0_apply V c t p k _ rfl) (iblk4_1_apply V c t q k))
    (iblk4_2_apply V c t q)) rfl

/-- An index of the result is in point `t`'s block iff each coordinate is in the block's range on its axis. -/
theorem mem_blk4 (t : Fin cfg4.N) (i : S60000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v41).slice (win4_3.rect t)).set ↔ _
  rw [View.set_slice_whole, Rect.mem_set_unit]
  exact Iff.rfl

/-- Row `r` of the result is in the block of point `r / 2000`: the 30 blocks cover the array. -/
theorem cover4 (i : S60000x128.Idx) : ∃ t : Fin cfg4.N, (cfg4.win 3).flush t = true ∧ i ∈ ((cfg4.win 3).blk t).view.set := by
  have hi0 : (i 0).val < 60000 := (i 0).isLt
  have hi1 : (i 1).val < 128 := (i 1).isLt
  have hN : cfg4.N = 30 := N_4
  have ht : (i 0).val / 2000 < cfg4.N := by rw [hN]; omega
  obtain ⟨-, -, -, -, -, -, e6, e7⟩ := idx_facts4 ⟨(i 0).val / 2000, ht⟩
  refine ⟨⟨(i 0).val / 2000, ht⟩, flush4_3 _, ?_⟩
  rw [mem_blk4]
  intro a
  match a with
  | ⟨0, _⟩ =>
    show win4_3.index ⟨(i 0).val / 2000, ht⟩ 0 * 2000 ≤ (i 0).val ∧ (i 0).val < win4_3.index ⟨(i 0).val / 2000, ht⟩ 0 * 2000 + 2000
    rw [e6]; show (i 0).val / 2000 * 2000 ≤ (i 0).val ∧ (i 0).val < (i 0).val / 2000 * 2000 + 2000; omega
  | ⟨1, _⟩ =>
    show win4_3.index ⟨(i 0).val / 2000, ht⟩ 1 * 128 ≤ (i 1).val ∧ (i 1).val < win4_3.index ⟨(i 0).val / 2000, ht⟩ 1 * 128 + 128
    rw [e7]; omega

end Dense

/-- The first projection's result array after its region: the projection of the node features. -/
theorem region0_value (c : Dev nD) :
    (dat0 (F := Ideal) V c).arrAt 3 cfg0.N = Spec.proj (V c main_arg0) (V c main_arg1) (Spec.rowVec (V c main_v0)) :=
  (dat0 (F := Ideal) V c).arrAt_eq_of_cover 3 _ (fun t _ => Dense.flushed0_eq V c t) Dense.cover0

/-- The second projection's result array after its region: the projection of the normalised hidden features. -/
theorem region4_value (c : Dev nD) :
    (dat4 (F := Ideal) V c).arrAt 3 cfg4.N = Spec.proj (V c main_v39) (V c main_arg3) (Spec.rowVec (V c main_v40)) :=
  (dat4 (F := Ideal) V c).arrAt_eq_of_cover 3 _ (fun t _ => Dense.flushed4_eq V c t) Dense.cover4

end Cert.KernelIdeal.Val

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.KerNormPay.lean ====
/-
  The row normalisation's arithmetic on one block, read at an entry.

  The body takes a `[3000, 128]` block `x`, a scale row and a shift row (each `[1, 128]`). It forms y = x · scale + shift
  entry by entry, sums y · y along each row, takes the square root of that sum, adds a small constant and divides every
  entry of the row by the result. The row sum comes back as a vector of 3000 entries, is regarded as a column and
  spread along the 128 columns again; so entry `(r, c)` of the result is y(r, c) / (sqrt (∑ₖ y(r, k)²) + ε).
-/
import proofs.«178630_j29162827940511_2_alg».proof.Proof.Gen.KernelIdeal.Skeleton
import proofs.«178630_j29162827940511_2_alg».proof.Proof.Spec
import proofs.«178630_j29162827940511_2_alg».proof.Proof.LibDotLastAxes
import proofs.«178630_j29162827940511_2_alg».proof.Proof.LibLayout

noncomputable section

open scoped BigOperators

namespace Cert.KernelIdeal.Val.Norm

open Idealize.ShloMosaic Idealize.ShloMosaic.ValueIdx Cert.KernelIdeal Cert.KernelIdeal.Gen

/-- A `[3000, 128]` block multiplied by a scale row and shifted by a shift row, at an entry. -/
theorem affine_blk_apply (hc0 : S3000x128.ShapeCasts S3000x128) (hc1 : S1x128.ShapeCasts S1x128) (hb : S1x128.Broadcasts S3000x128)
    (x0 : FVec Ideal S3000x128 .f32) (x1 x2 : FVec Ideal S1x128 .f32) (i : S3000x128.Idx) (r : Fin 3000) (k : Fin 128)
    (hi : i = ix2 r k) :
    addf (mulf (shapeCast S3000x128 x0 hc0) (broadcastTo S3000x128 (shapeCast S1x128 x1 hc1) hb))
        (broadcastTo S3000x128 (shapeCast S1x128 x2 hc1) hb) i
      = x0 (ix2 r k) * x1 (ix2 (0 : Fin 1) k) + x2 (ix2 (0 : Fin 1) k) := by
  subst hi
  exact congrArg₂ (· + ·)
    (congrArg₂ (· * ·) (congrFun (shapeCast_self x0 hc0) (ix2 r k)) (DotLastAxes.rowBroadcast_apply hc1 hb x1 r k))
    (DotLastAxes.rowBroadcast_apply hc1 hb x2 r k)

/-- One block of the row normalisation at entry `(r, c)`: the scaled and shifted entry over the Euclidean length of
    its scaled and shifted row plus the small constant. -/
theorem pay3_apply (x0 : Vec Ideal S3000x128 .f32) (x1 x2 : Vec Ideal S1x128 .f32) (r : Fin 3000) (c : Fin 128) :
    k3_pay1 (F := Ideal) x0 x1 x2 (ix2 r c)
      = Ideal.div (x0 (ix2 r c) * x1 (ix2 (0 : Fin 1) c) + x2 (ix2 (0 : Fin 1) c))
          (Ideal.sqrt (∑ k : Fin 128, (x0 (ix2 r k) * x1 (ix2 (0 : Fin 1) k) + x2 (ix2 (0 : Fin 1) k))
              * (x0 (ix2 r k) * x1 (ix2 (0 : Fin 1) k) + x2 (ix2 (0 : Fin 1) k))) + Spec.epsL2) := by
  unfold k3_pay1
  refine congrArg₂ Ideal.div ?_ ?_
  · exact affine_blk_apply _ _ _ x0 x1 x2 _ r c rfl
  · refine (Cert.LibLayout.broadcastTo_a1_ab_apply _ _ r c).trans ?_
    refine congrArg₂ (· + ·) (congrArg Ideal.sqrt ?_) rfl
    refine (Cert.LibLayout.shapeCast_a_a1_apply _ _ r (0 : Fin 1)).trans ?_
    refine (Ideal.multiReduction_add_single _ _ _ _ _ (ix1 r)).trans ?_
    show ∑ k : Fin 128, _ = _
    refine Finset.sum_congr rfl fun k _ => ?_
    have hl : (reduces_S3000x128_S3000).lift (ix1 r) k = ix2 r k :=
      funext fun a => Fin.ext (by
        match a with
        | ⟨0, _⟩ => rfl
        | ⟨1, _⟩ => rfl)
    exact congrArg₂ (· * ·) (affine_blk_apply _ _ _ x0 x1 x2 _ r k hl) (affine_blk_apply _ _ _ x0 x1 x2 _ r k hl)

end Cert.KernelIdeal.Val.Norm

end
-- ==== Proof.KerNorm.lean ====
/-
  The row normalisation's result array after its region.

  The region runs over 20 blocks of 3000 rows of the 60000 hidden rows, with the whole scale row and the whole shift row
  present at every point. Point `t` reads rows `3000 t … 3000 t + 2999` and writes the same rows of the result. Entry
  `(p, q)` of what it writes is the block arithmetic at `(p, q)`: the scaled and shifted entry over the Euclidean length
  of its scaled and shifted row plus the small constant. That is entry `(3000 t + p, q)` of the normalisation of the
  WHOLE scaled and shifted array, because a row's length depends on that row only. Row `r` lies in the block of point
  `r / 3000`, so the blocks cover the array.
-/
import proofs.«178630_j29162827940511_2_alg».proof.Proof.KernelIdealFrameP
import proofs.«178630_j29162827940511_2_alg».proof.Proof.Spec
import proofs.«178630_j29162827940511_2_alg».proof.Proof.KerNormPay
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

namespace Norm

/-- The zero offset of a whole-block access, as a function. -/
theorem hz2 : (![0, 0] : Fin 2 → Nat) = fun _ => 0 := funext fun a => by fin_cases a <;> rfl

/-- A block's arithmetic at entry `(p, q)` is the normalisation of a whole array at entry `(R, q)` once row `p` of the
    block is row `R` of the array and the two rows are the array's scale and shift rows: the entry and its row's length
    depend on that row only. -/
theorem pay3_eq_l2n (x0 : Vec Ideal S3000x128 .f32) (x1 x2 : Vec Ideal S1x128 .f32) (X : Spec.Mat 60000 128)
    (sc sh : Spec.Mat 1 128) (p : Fin 3000) (q : Fin 128) (R : Fin 60000)
    (h0 : ∀ k : Fin 128, x0 (ix2 p k) = X (ix2 R k))
    (h1 : ∀ k : Fin 128, x1 (ix2 (0 : Fin 1) k) = sc (ix2 (0 : Fin 1) k))
    (h2 : ∀ k : Fin 128, x2 (ix2 (0 : Fin 1) k) = sh (ix2 (0 : Fin 1) k)) :
    k3_pay1 (F := Ideal) x0 x1 x2 (ix2 p q) = Spec.l2n (Spec.affine X sc sh) (ix2 R q) := by
  refine (pay3_apply x0 x1 x2 p q).trans ?_
  have hy : ∀ k : Fin 128, x0 (ix2 p k) * x1 (ix2 (0 : Fin 1) k) + x2 (ix2 (0 : Fin 1) k) = Spec.affine X sc sh (ix2 R k) :=
    fun k => congrArg₂ (· + ·) (congrArg₂ (· * ·) (h0 k) (h1 k)) (h2 k)
  exact congrArg₂ Ideal.div (hy q)
    (congrArg₂ (· + ·) (congrArg Ideal.sqrt (Finset.sum_congr rfl fun k _ => congrArg₂ (· * ·) (hy k) (hy k))) rfl)

/-- The printed index maps over the 20 points: the hidden rows' and the result's block is the point's number along the
    rows and 0 along the columns; the scale row and the shift row are always block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The hidden rows' block at point `t` is rows `3000 t … 3000 t + 2999`. -/
theorem iblk3_0_apply (c : Dev nD) (t : Fin cfg3.N) (p : Fin 3000) (k : Fin 128) (R : Fin 60000)
    (hR : R.val = t.val * 3000 + p.val) :
    (iblk3 (F := Ideal) V c 0 t : Vec Ideal S3000x128 .f32) (ix2 p k) = (V c main_v17 : S60000x128.Idx → EReal) (ix2 R k) := by
  obtain ⟨e0, e1, -⟩ := idx_facts3 t
  unfold iblk3
  rw [View.read_apply]
  show V c main_v17 _ = V c main_v17 _
  congr 1
  funext a
  apply Fin.ext
  match a with
  | ⟨0, _⟩ => show win3_0.index t 0 * 3000 + 1 * p.val = R.val; rw [e0, hR]; omega
  | ⟨1, _⟩ => show win3_0.index t 1 * 128 + 1 * k.val = k.val; rw [e1]; omega

/-- The scale row's block at every point is the whole row. -/
theorem iblk3_1_apply (c : Dev nD) (t : Fin cfg3.N) (b : Fin 128) :
    (iblk3 (F := Ideal) V c 1 t : Vec Ideal S1x128 .f32) (ix2 (0 : Fin 1) b) = (V c main_v37 : S1x128.Idx → EReal) (ix2 (0 : Fin 1) b) := by
  obtain ⟨-, -, e2, e3, -⟩ := idx_facts3 t
  unfold iblk3
  rw [View.read_apply]
  show V c main_v37 _ = V c main_v37 _
  congr 1
  funext ax
  apply Fin.ext
  match ax with
  | ⟨0, _⟩ => show win3_1.index t 0 * 1 + 1 * 0 = 0; rw [e2]
  | ⟨1, _⟩ => show win3_1.index t 1 * 128 + 1 * b.val = b.val; rw [e3]; omega

/-- The shift row's block at every point is the whole row. -/
theorem iblk3_2_apply (c : Dev nD) (t : Fin cfg3.N) (b : Fin 128) :
    (iblk3 (F := Ideal) V c 2 t : Vec Ideal S1x128 .f32) (ix2 (0 : Fin 1) b) = (V c main_v38 : S1x128.Idx → EReal) (ix2 (0 : Fin 1) b) := by
  obtain ⟨-, -, -, -, e4, e5, -⟩ := idx_facts3 t
  unfold iblk3
  rw [View.read_apply]
  show V c main_v38 _ = V c main_v38 _
  congr 1
  funext ax
  apply Fin.ext
  match ax with
  | ⟨0, _⟩ => show win3_2.index t 0 * 1 + 1 * 0 = 0; rw [e4]
  | ⟨1, _⟩ => show win3_2.index t 1 * 128 + 1 * b.val = b.val; rw [e5]; omega

/-- What point `t` writes back is block `t` of the normalisation of the whole scaled and shifted array. -/
theorem flushed3_eq (c : Dev nD) (t : Fin cfg3.N) :
    (dat3 (F := Ideal) V c).flushed 3 t
      = ((cfg3.win 3).blk t).view.read (Elt Ideal) (Spec.l2n (Spec.affine (V c main_v17) (V c main_v37) (V c main_v38))) := by
  show (cfg3.win 3).cut (grid3.coords t) ((dat3 V c).after 3 t) = _
  rw [after3_3]
  unfold out3_3
  rw [View.canon_unit_zero hz2]
  simp only [View.ld_unit_zero (S := S3000x128) hz2, View.ld_unit_zero (S := S1x128) hz2]
  obtain ⟨-, -, -, -, -, -, e6, e7⟩ := idx_facts3 t
  have hN : cfg3.N = 20 := N_3
  funext j
  obtain ⟨p, q, rfl⟩ : ∃ (p : Fin 3000) (q : Fin 128), j = ix2 p q := ⟨j 0, j 1, eq_ix2 j⟩
  have hR : t.val * 3000 + p.val < 60000 := by have := t.isLt; omega
  have hemb : ((cfg3.win 3).blk t).view.emb (ix2 p q) = ix2 (⟨t.val * 3000 + p.val, hR⟩ : Fin 60000) q := by
    funext a
    apply Fin.ext
    match a with
    | ⟨0, _⟩ => show win3_3.index t 0 * 3000 + 1 * p.val = t.val * 3000 + p.val; rw [e6]; omega
    | ⟨1, _⟩ => show win3_3.index t 1 * 128 + 1 * q.val = q.val; rw [e7]; omega
  show k3_pay1 (F := Ideal) (iblk3 V c 0 t) (iblk3 V c 1 t) (iblk3 V c 2 t) (ix2 p q)
    = Spec.l2n (Spec.affine (V c main_v17) (V c main_v37) (V c main_v38)) (((cfg3.win 3).blk t).view.emb (ix2 p q))
  rw [hemb]
  exact pay3_eq_l2n (iblk3 V c 0 t) (iblk3 V c 1 t) (iblk3 V c 2 t) (V c main_v17) (V c main_v37) (V c main_v38) p q
    (⟨t.val * 3000 + p.val, hR⟩ : Fin 60000)
    (fun k => iblk3_0_apply V c t p k (⟨t.val * 3000 + p.val, hR⟩ : Fin 60000) rfl)
    (fun k => iblk3_1_apply V c t k) (fun k => iblk3_2_apply V c t k)

/-- An index of the result is in point `t`'s block iff each coordinate is in the block's range on its axis. -/
theorem mem_blk3 (t : Fin cfg3.N) (i : S60000x128.Idx) :
    i ∈ ((cfg3.win 3).blk t).view.set ↔ ∀ a : Fin 2, win3_3.index t a * S3000x128.size a ≤ (i a).val
      ∧ (i a).val < win3_3.index t a * S3000x128.size a + S3000x128.size a := by
  show i ∈ ((View.whole main_v39).slice (win3_3.rect t)).set ↔ _
  rw [View.set_slice_whole, Rect.mem_set_unit]
  exact Iff.rfl

/-- Row `r` of the result is in the block of point `r / 3000`: the 20 blocks cover the array. -/
theorem cover3 (i : S60000x128.Idx) : ∃ t : Fin cfg3.N, (cfg3.win 3).flush t = true ∧ i ∈ ((cfg3.win 3).blk t).view.set := by
  have hi0 : (i 0).val < 60000 := (i 0).isLt
  have hi1 : (i 1).val < 128 := (i 1).isLt
  have hN : cfg3.N = 20 := N_3
  have ht : (i 0).val / 3000 < cfg3.N := by rw [hN]; omega
  obtain ⟨-, -, -, -, -, -, e6, e7⟩ := idx_facts3 ⟨(i 0).val / 3000, ht⟩
  refine ⟨⟨(i 0).val / 3000, ht⟩, flush3_3 _, ?_⟩
  rw [mem_blk3]
  intro a
  match a with
  | ⟨0, _⟩ =>
    show win3_3.index ⟨(i 0).val / 3000, ht⟩ 0 * 3000 ≤ (i 0).val ∧ (i 0).val < win3_3.index ⟨(i 0).val / 3000, ht⟩ 0 * 3000 + 3000
    rw [e6]; show (i 0).val / 3000 * 3000 ≤ (i 0).val ∧ (i 0).val < (i 0).val / 3000 * 3000 + 3000; omega
  | ⟨1, _⟩ =>
    show win3_3.index ⟨(i 0).val / 3000, ht⟩ 1 * 128 ≤ (i 1).val ∧ (i 1).val < win3_3.index ⟨(i 0).val / 3000, ht⟩ 1 * 128 + 128
    rw [e7]; omega

end Norm

/-- The row normalisation's result array after its region: every row of the scaled and shifted hidden features divided
    by its Euclidean length plus the small constant. -/
theorem region3_value (c : Dev nD) :
    (dat3 (F := Ideal) V c).arrAt 3 cfg3.N = Spec.l2n (Spec.affine (V c main_v17) (V c main_v37) (V c main_v38)) :=
  (dat3 (F := Ideal) V c).arrAt_eq_of_cover 3 _ (fun t _ => Norm.flushed3_eq V c t) Norm.cover3

end Cert.KernelIdeal.Val

end
-- ==== Proof.LibMaxChain.lean ====
/-
  A chain of binary maxima is a supremum over a finite index set.

  For `f 0, …, f n` in a join-semilattice with a least element, the maximum taken left to right —
  max (… max (max (f 0) (f 1)) (f 2) …) (f n) — is the supremum of `f` over all of `Fin (n + 1)`: the index set is
  the last index joined to the image of the first `n`, and a supremum over a set with one more element is the join of
  that element's value with the supremum over the rest. Only the lattice laws are used.
-/
import Mathlib.Data.Fintype.Basic
import Mathlib.Data.Finset.Lattice.Fold

namespace Cert.LibMaxChain

/-- The maximum of `f 0, …, f n`, taken left to right. -/
def chain {α : Type} [Max α] : (n : ℕ) → (Fin (n + 1) → α) → α
  | 0, f => f 0
  | n + 1, f => max (chain n fun i => f i.castSucc) (f (Fin.last (n + 1)))

theorem chain_zero {α : Type} [Max α] (f : Fin 1 → α) : chain 0 f = f 0 := rfl

theorem chain_succ {α : Type} [Max α] (n : ℕ) (f : Fin (n + 2) → α) :
    chain (n + 1) f = max (chain n fun i => f i.castSucc) (f (Fin.last (n + 1))) := rfl

/-- The left-to-right maximum is the supremum over every index. -/
theorem chain_eq_sup {α : Type} [SemilatticeSup α] [OrderBot α] :
    ∀ (n : ℕ) (f : Fin (n + 1) → α), chain n f = Finset.univ.sup f
  | 0, f =>
    le_antisymm (Finset.le_sup (f := f) (Finset.mem_univ (0 : Fin (0 + 1))))
      (Finset.sup_le fun i _ => le_of_eq (congrArg f (Fin.fin_one_eq_zero i)))
  | n + 1, f => by
    rw [chain_succ, chain_eq_sup n, Fin.univ_castSuccEmb (n + 1), Finset.sup_cons, Finset.sup_map, sup_comm]
    rfl

end Cert.LibMaxChain
-- ==== Proof.LibSliceRows.lean ====
/-
  One slice of the middle axis of a rank-3 array, read as a matrix.

  An `[a, n, c]` array cut along its middle axis to the single position `o` is an `[a, 1, c]` array; cast to `[a, c]`
  (the unit axis dropped, the row-major position kept) its entry `(i, l)` is the source's entry `(i, o, l)`.
-/
import Idealize.ShloMosaic.Lib.ValueIdx
import Idealize.ShloMosaic.Lib.ValueLayout
import Idealize.ShloMosaic.Lib.Pipeline.Value

noncomputable section

namespace Cert.LibSliceRows

open Idealize.ShloMosaic Idealize.ShloMosaic.ValueIdx

variable {α : Type}

/-- An `[a, 1, c]` array cast to `[a, c]` reads, at `(i, l)`, the operand at `(i, 0, l)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (l : Fin c) :
    shapeCast ⟨2, ![a, c]⟩ x h (ix2 i l) = x (ix3 i (0 : Fin 1) l) :=
  shapeCast_apply x h _ _ (by
    rw [Shape.rowMajor_val_three, Shape.rowMajor_val_two]
    show (i.val * 1 + 0) * c + l.val = i.val * c + l.val
    rw [Nat.mul_one, Nat.add_zero])

/-- Position `k` of the middle axis, as a matrix: entry `(i, l)` is the source's entry `(i, k, l)`. -/
theorem slice_mid_apply {a n c : ℕ} (o : ℕ) (X : (⟨3, ![a, n, c]⟩ : Shape).Idx → α)
    (hs : (⟨3, ![a, n, c]⟩ : Shape).Slices ![0, o, 0] ⟨3, ![a, 1, c]⟩)
    (hc : (⟨3, ![a, 1, c]⟩ : Shape).ShapeCasts ⟨2, ![a, c]⟩) (i : Fin a) (l : Fin c) (k : Fin n) (hk : k.val = o) :
    shapeCast ⟨2, ![a, c]⟩ (extractStridedSlice ⟨3, ![a, 1, c]⟩ ![0, o, 0] X hs) hc (ix2 i l) = X (ix3 i k l) :=
  (shapeCast_a1c_ac_apply _ hc i l).trans (slice3_axis1_apply o X hs i (0 : Fin 1) l k (by rw [hk]; rfl))

end Cert.LibSliceRows

end
-- ==== Proof.LibJoins.lean ====
/-
  A few layout operations read at an index, for any extents.

  A vector regarded as a column (`[a]` to `[a, 1]`); two matrices put side by side (`[m, n1]` and `[m, n2]` joined
  along the columns): a column below `n1` comes from the first, a column at or past it from the second; two
  vectors joined end to end, the same way.
-/
import Idealize.ShloMosaic.Lib.ValueIdx
import Idealize.ShloMosaic.Lib.ValueLayout
import Idealize.ShloMosaic.Lib.Pipeline.Value

noncomputable section

namespace Cert.Joins

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two matrices side by side: a column of the first. -/
theorem join_cols_left {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n1) (hc : c.val = q.val) :
    concatenate ⟨2, ![m, n1 + n2]⟩ 1 [⟨⟨2, ![m, n1]⟩, x1⟩, ⟨⟨2, ![m, n2]⟩, x2⟩] h (ix2 r q) = x1 (ix2 r c) :=
  concatenate_pair_apply_left 1 x1 x2 h (ix2 r q) rfl (ix2 r c) (fun b => by
    match b with
    | ⟨0, _⟩ => rfl
    | ⟨1, _⟩ => exact hc)

/-- Two matrices side by side: a column of the second. -/
theorem join_cols_right {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n2) (hc : c.val + n1 = q.val) :
    concatenate ⟨2, ![m, n1 + n2]⟩ 1 [⟨⟨2, ![m, n1]⟩, x1⟩, ⟨⟨2, ![m, n2]⟩, x2⟩] h (ix2 r q) = x2 (ix2 r c) :=
  concatenate_pair_apply_right 1 x1 x2 h (ix2 r q) rfl rfl (ix2 r c) (fun b hb => by
    match b with
    | ⟨0, _⟩ => rfl
    | ⟨1, _⟩ => exact absurd rfl hb) hc

/-- Two vectors end to end: an entry of the first. -/
theorem join_vec_left {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n1) (hc : c.val = q.val) :
    concatenate ⟨1, ![n1 + n2]⟩ 0 [⟨⟨1, ![n1]⟩, x1⟩, ⟨⟨1, ![n2]⟩, x2⟩] h (ix1 q) = x1 (ix1 c) :=
  concatenate_pair_apply_left 0 x1 x2 h (ix1 q) rfl (ix1 c) (fun b => by
    match b with
    | ⟨0, _⟩ => exact hc)

/-- Two vectors end to end: an entry of the second. -/
theorem join_vec_right {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n2) (hc : c.val + n1 = q.val) :
    concatenate ⟨1, ![n1 + n2]⟩ 0 [⟨⟨1, ![n1]⟩, x1⟩, ⟨⟨1, ![n2]⟩, x2⟩] h (ix1 q) = x2 (ix1 c) :=
  concatenate_pair_apply_right 0 x1 x2 h (ix1 q) rfl rfl (ix1 c) (fun b hb => by
    match b with
    | ⟨0, _⟩ => exact absurd rfl hb) hc

end Cert.Joins

end
-- ==== Proof.KerJoinPay.lean ====
/-
  The body of the max-over-neighbours, join and linear kernel, read at an index on the extended reals.

  A block holds 1000 rows. The body takes the entrywise maximum of the 25 slices of the neighbour block along its middle
  axis (a chain of 24 binary maxima: positions 0…17, then 18, then 19…24), puts the block of own rows beside it (256
  columns), multiplies by the transposed [128, 256] weight into a zero accumulator, adds the bias row's entry of the
  column, and in the first of the two kernels clips at zero. A change of float format is the identity here. The chain of
  binary maxima is the supremum over the 25 positions (only the lattice laws are used), the join at a column below 128
  is the own row's entry and at a column from 128 on the maximum's, and the product at `(r, c)` is the sum over the 256
  joined columns. So each kernel's payload is the specification's stage applied to the block.
-/
import proofs.«178630_j29162827940511_2_alg».proof.Proof.Gen.KernelIdeal.Skeleton
import proofs.«178630_j29162827940511_2_alg».proof.Proof.Spec
import proofs.«178630_j29162827940511_2_alg».proof.Proof.LibMaxChain
import proofs.«178630_j29162827940511_2_alg».proof.Proof.LibSliceRows
import proofs.«178630_j29162827940511_2_alg».proof.Proof.LibJoins
import proofs.«178630_j29162827940511_2_alg».proof.Proof.LibPlainDot
import Idealize.ShloMosaic.Lib.ValueLayout

noncomputable section
namespace Cert.KernelIdeal.Val
open Idealize.ShloMosaic Idealize.ShloMosaic.ValueIdx Cert.KernelIdeal Cert.KernelIdeal.Gen
open Cert.LibMaxChain (chain chain_eq_sup)

/-! ## The first kernel (with the clip at zero) -/

/-- The cast of the neighbour block to its own shape changes nothing. -/
theorem k1_pay2_eq (x0 : Vec Ideal S1000x25x128 .bf16) : k1_pay2 x0 = x0 := shapeCast_self x0 _

/-- Position `o` of the block's neighbour axis, as a matrix: entry `(r, c)` is the block's entry `(r, o, c)`. -/
theorem k1_nbr_slice (x0 : Vec Ideal S1000x25x128 .bf16) (r : Fin 1000) (c : Fin 128) (o : ℕ) (ho : o < 25)
    (hs : S1000x25x128.Slices ![0, o, 0] S1000x1x128) (hc : S1000x1x128.ShapeCasts S1000x128) :
    shapeCast S1000x128 (extractStridedSlice S1000x1x128 ![0, o, 0] (k1_pay2 x0) hs) hc (ix2 r c) = x0 (ix3 r ⟨o, ho⟩ c) := by
  rw [k1_pay2_eq]
  exact Cert.LibSliceRows.slice_mid_apply o x0 hs hc r c ⟨o, ho⟩ rfl

/-- The running maximum over all 25 positions of the neighbour axis — positions 0…17, then 18, then 19…24 — read at
    `(r, q)`, is the supremum over the 25 positions of the block's entries `(r, s, q)`: the chain of binary maxima is
    the left-to-right maximum of those 25 entries. -/
theorem k1_nbrmax (x0 : Vec Ideal S1000x25x128 .bf16) (r : Fin 1000) (q : Fin 128)
    (h19 h20 h21 h22 h23 h24 hc) :
    maximumf (maximumf (maximumf (maximumf (maximumf (maximumf
      (maximumf (k1_pay3 x0) (shapeCast S1000x128 (k1_pay4 x0) hc))
        (shapeCast S1000x128 (extractStridedSlice S1000x1x128 ![0, 19, 0] (k1_pay2 x0) h19) hc))
        (shapeCast S1000x128 (extractStridedSlice S1000x1x128 ![0, 20, 0] (k1_pay2 x0) h20) hc))
        (shapeCast S1000x128 (extractStridedSlice S1000x1x128 ![0, 21, 0] (k1_pay2 x0) h21) hc))
        (shapeCast S1000x128 (extractStridedSlice S1000x1x128 ![0, 22, 0] (k1_pay2 x0) h22) hc))
        (shapeCast S1000x128 (extractStridedSlice S1000x1x128 ![0, 23, 0] (k1_pay2 x0) h23) hc))
        (shapeCast S1000x128 (extractStridedSlice S1000x1x128 ![0, 24, 0] (k1_pay2 x0) h24) hc) (ix2 r q)
      = Spec.maxS x0 (ix2 r q) := by
  refine Eq.trans ?_ (chain_eq_sup 24 (fun s : Fin 25 => x0 (ix3 r s q)))
  have e := k1_nbr_slice x0 r q
  simp only [k1_pay3, k1_pay4, maximumf_apply]
  rw [e 0 (by omega), e 1 (by omega), e 2 (by omega), e 3 (by omega), e 4 (by omega), e 5 (by omega), e 6 (by omega), e 7 (by omega), e 8 (by omega), e 9 (by omega), e 10 (by omega), e 11 (by omega), e 12 (by omega), e 13 (by omega), e 14 (by omega), e 15 (by omega), e 16 (by omega), e 17 (by omega), e 18 (by omega), e 19 (by omega), e 20 (by omega), e 21 (by omega), e 22 (by omega), e 23 (by omega), e 24 (by omega)]
  rfl

/-- The payload at `(r, c)`: the sum over the 256 joined columns of [own | max over neighbours](r, k) · W(c, k), plus the bias at `c`, clipped at zero. -/
theorem k1_pay1_apply (x0 : Vec Ideal S1000x25x128 .bf16) (x1 : Vec Ideal S1000x128 .f32) (x2 : Vec Ideal S128x256 .f32)
    (x3 : Vec Ideal S1x128 .f32) (r : Fin 1000) (c : Fin 128) :
    k1_pay1 (k1_pay2 x0) (k1_pay3 x0) (k1_pay4 x0) x1 x2 x3 (ix2 r c)
      = max ((∑ k : Fin 256, Spec.cat x1 (Spec.maxS x0) r k * x2 (ix2 c k)) + x3 (ix2 (0 : Fin 1) c)) Spec.zero := by
  unfold k1_pay1
  refine congrArg₂ max (congrArg₂ (· + ·) ?_ ?_) rfl
  · refine (Cert.Sage.matmul_plain_zero_apply none _ _ r c).trans ?_
    refine Finset.sum_congr rfl fun k _ => ?_
    refine congrArg₂ (· * ·) ?_ ?_
    · refine Eq.trans (truncf_apply _ _ _) ?_
      unfold Spec.cat
      by_cases h : k.val < 128
      · rw [dif_pos h]
        exact (Cert.Joins.join_cols_left (m := 1000) (n1 := 128) (n2 := 128) _ _ _ r k ⟨k.val, h⟩ rfl).trans
          (congrFun (shapeCast_self x1 _) _)
      · rw [dif_neg h]
        refine (Cert.Joins.join_cols_right (m := 1000) (n1 := 128) (n2 := 128) _ _ _ r k ⟨k.val - 128, by omega⟩
          (by show k.val - 128 + 128 = k.val; omega)).trans ?_
        refine Eq.trans (extf_apply _ _ _) ?_
        exact k1_nbrmax x0 r ⟨k.val - 128, by omega⟩ _ _ _ _ _ _ _
    · exact transpose_ix2_apply _ _ k c
  · exact (broadcastTo_1b_ab_apply _ _ r c).trans (congrFun (shapeCast_self x3 _) _)

/-- So the payload of a block is the stage itself applied to the block: the clip at zero of [own | max over neighbours] · Wᵀ + bias. -/
theorem k1_pay1_eq (x0 : Vec Ideal S1000x25x128 .bf16) (x1 : Vec Ideal S1000x128 .f32) (x2 : Vec Ideal S128x256 .f32)
    (x3 : Vec Ideal S1x128 .f32) :
    k1_pay1 (k1_pay2 x0) (k1_pay3 x0) (k1_pay4 x0) x1 x2 x3
      = Spec.relu (Spec.lin2 x1 (Spec.maxS x0) x2 (Spec.rowVec x3)) := by
  funext j
  rw [eq_ix2 j]
  exact k1_pay1_apply x0 x1 x2 x3 (j 0) (j 1)

/-! ## The second kernel (no clip) -/

/-- The cast of the neighbour block to its own shape changes nothing. -/
theorem k5_pay2_eq (x0 : Vec Ideal S1000x25x128 .bf16) : k5_pay2 x0 = x0 := shapeCast_self x0 _

/-- Position `o` of the block's neighbour axis, as a matrix: entry `(r, c)` is the block's entry `(r, o, c)`. -/
theorem k5_nbr_slice (x0 : Vec Ideal S1000x25x128 .bf16) (r : Fin 1000) (c : Fin 128) (o : ℕ) (ho : o < 25)
    (hs : S1000x25x128.Slices ![0, o, 0] S1000x1x128) (hc : S1000x1x128.ShapeCasts S1000x128) :
    shapeCast S1000x128 (extractStridedSlice S1000x1x128 ![0, o, 0] (k5_pay2 x0) hs) hc (ix2 r c) = x0 (ix3 r ⟨o, ho⟩ c) := by
  rw [k5_pay2_eq]
  exact Cert.LibSliceRows.slice_mid_apply o x0 hs hc r c ⟨o, ho⟩ rfl

/-- The running maximum over all 25 positions of the neighbour axis — positions 0…17, then 18, then 19…24 — read at
    `(r, q)`, is the supremum over the 25 positions of the block's entries `(r, s, q)`: the chain of binary maxima is
    the left-to-right maximum of those 25 entries. -/
theorem k5_nbrmax (x0 : Vec Ideal S1000x25x128 .bf16) (r : Fin 1000) (q : Fin 128)
    (h19 h20 h21 h22 h23 h24 hc) :
    maximumf (maximumf (maximumf (maximumf (maximumf (maximumf
      (maximumf (k5_pay3 x0) (shapeCast S1000x128 (k5_pay4 x0) hc))
        (shapeCast S1000x128 (extractStridedSlice S1000x1x128 ![0, 19, 0] (k5_pay2 x0) h19) hc))
        (shapeCast S1000x128 (extractStridedSlice S1000x1x128 ![0, 20, 0] (k5_pay2 x0) h20) hc))
        (shapeCast S1000x128 (extractStridedSlice S1000x1x128 ![0, 21, 0] (k5_pay2 x0) h21) hc))
        (shapeCast S1000x128 (extractStridedSlice S1000x1x128 ![0, 22, 0] (k5_pay2 x0) h22) hc))
        (shapeCast S1000x128 (extractStridedSlice S1000x1x128 ![0, 23, 0] (k5_pay2 x0) h23) hc))
        (shapeCast S1000x128 (extractStridedSlice S1000x1x128 ![0, 24, 0] (k5_pay2 x0) h24) hc) (ix2 r q)
      = Spec.maxS x0 (ix2 r q) := by
  refine Eq.trans ?_ (chain_eq_sup 24 (fun s : Fin 25 => x0 (ix3 r s q)))
  have e := k5_nbr_slice x0 r q
  simp only [k5_pay3, k5_pay4, maximumf_apply]
  rw [e 0 (by omega), e 1 (by omega), e 2 (by omega), e 3 (by omega), e 4 (by omega), e 5 (by omega), e 6 (by omega), e 7 (by omega), e 8 (by omega), e 9 (by omega), e 10 (by omega), e 11 (by omega), e 12 (by omega), e 13 (by omega), e 14 (by omega), e 15 (by omega), e 16 (by omega), e 17 (by omega), e 18 (by omega), e 19 (by omega), e 20 (by omega), e 21 (by omega), e 22 (by omega), e 23 (by omega), e 24 (by omega)]
  rfl

/-- The payload at `(r, c)`: the sum over the 256 joined columns of [own | max over neighbours](r, k) · W(c, k), plus the bias at `c`. -/
theorem k5_pay1_apply (x0 : Vec Ideal S1000x25x128 .bf16) (x1 : Vec Ideal S1000x128 .f32) (x2 : Vec Ideal S128x256 .f32)
    (x3 : Vec Ideal S1x128 .f32) (r : Fin 1000) (c : Fin 128) :
    k5_pay1 (k5_pay2 x0) (k5_pay3 x0) (k5_pay4 x0) x1 x2 x3 (ix2 r c)
      = (∑ k : Fin 256, Spec.cat x1 (Spec.maxS x0) r k * x2 (ix2 c k)) + x3 (ix2 (0 : Fin 1) c) := by
  unfold k5_pay1
  refine congrArg₂ (· + ·) ?_ ?_
  · refine (Cert.Sage.matmul_plain_zero_apply none _ _ r c).trans ?_
    refine Finset.sum_congr rfl fun k _ => ?_
    refine congrArg₂ (· * ·) ?_ ?_
    · refine Eq.trans (truncf_apply _ _ _) ?_
      unfold Spec.cat
      by_cases h : k.val < 128
      · rw [dif_pos h]
        exact (Cert.Joins.join_cols_left (m := 1000) (n1 := 128) (n2 := 128) _ _ _ r k ⟨k.val, h⟩ rfl).trans
          (congrFun (shapeCast_self x1 _) _)
      · rw [dif_neg h]
        refine (Cert.Joins.join_cols_right (m := 1000) (n1 := 128) (n2 := 128) _ _ _ r k ⟨k.val - 128, by omega⟩
          (by show k.val - 128 + 128 = k.val; omega)).trans ?_
        refine Eq.trans (extf_apply _ _ _) ?_
        exact k5_nbrmax x0 r ⟨k.val - 128, by omega⟩ _ _ _ _ _ _ _
    · exact transpose_ix2_apply _ _ k c
  · exact (broadcastTo_1b_ab_apply _ _ r c).trans (congrFun (shapeCast_self x3 _) _)

/-- So the payload of a block is the stage itself applied to the block: [own | max over neighbours] · Wᵀ + bias. -/
theorem k5_pay1_eq (x0 : Vec Ideal S1000x25x128 .bf16) (x1 : Vec Ideal S1000x128 .f32) (x2 : Vec Ideal S128x256 .f32)
    (x3 : Vec Ideal S1x128 .f32) :
    k5_pay1 (k5_pay2 x0) (k5_pay3 x0) (k5_pay4 x0) x1 x2 x3
      = Spec.lin2 x1 (Spec.maxS x0) x2 (Spec.rowVec x3) := by
  funext j
  rw [eq_ix2 j]
  exact k5_pay1_apply x0 x1 x2 x3 (j 0) (j 1)

end Cert.KernelIdeal.Val

end
-- ==== Proof.KerJoinRows.lean ====
/-
  The join-and-linear stage reads one row at a time.

  Entry `(r, c)` of [a | b] · Wᵀ + bias uses row `r` of `a` and of `b` only, and entry `(r, c)` of the maximum over
  the 25 neighbour slices uses the slices' row `r` only. So a block of rows of the inputs gives the same rows of the
  result: when row `r` of a block is row `r'` of the whole array, the stage applied to the block, read at row `r`, is the
  stage applied to the whole array, read at row `r'`.
-/
import proofs.«178630_j29162827940511_2_alg».proof.Proof.Spec

noncomputable section

namespace Cert.KernelIdeal.Val

open Idealize.ShloMosaic Idealize.ShloMosaic.ValueIdx

/-- The joined row at column `k` is an entry of row `r` of one of the two matrices. -/
theorem cat_row {M M' : ℕ} (a b : Spec.Mat M 128) (a' b' : Spec.Mat M' 128) (r : Fin M) (r' : Fin M')
    (ha : ∀ c : Fin 128, a (ix2 r c) = a' (ix2 r' c)) (hb : ∀ c : Fin 128, b (ix2 r c) = b' (ix2 r' c)) (k : Fin 256) :
    Spec.cat a b r k = Spec.cat a' b' r' k := by
  unfold Spec.cat
  by_cases h : k.val < 128
  · rw [dif_pos h, dif_pos h]; exact ha _
  · rw [dif_neg h, dif_neg h]; exact hb _

/-- The linear stage at row `r` of a block is the linear stage at the row of the whole array it comes from. -/
theorem lin2_row {M M' : ℕ} (a b : Spec.Mat M 128) (a' b' : Spec.Mat M' 128) (W : Spec.Mat 128 256) (bias : Spec.Vct 128)
    (r : Fin M) (r' : Fin M') (ha : ∀ c : Fin 128, a (ix2 r c) = a' (ix2 r' c))
    (hb : ∀ c : Fin 128, b (ix2 r c) = b' (ix2 r' c)) (c : Fin 128) :
    Spec.lin2 a b W bias (ix2 r c) = Spec.lin2 a' b' W bias (ix2 r' c) := by
  show (∑ k : Fin 256, Spec.cat a b r k * W (ix2 c k)) + bias (ix1 c)
    = (∑ k : Fin 256, Spec.cat a' b' r' k * W (ix2 c k)) + bias (ix1 c)
  refine congrArg (· + bias (ix1 c)) (Finset.sum_congr rfl fun k _ => ?_)
  rw [cat_row a b a' b' r r' ha hb k]

/-- The maximum over the neighbour slices at row `r` of a block is the maximum at the row it comes from. -/
theorem maxS_row {M M' : ℕ} (x : Spec.T3 M) (x' : Spec.T3 M') (r : Fin M) (r' : Fin M')
    (hx : ∀ (s : Fin 25) (c : Fin 128), x (ix3 r s c) = x' (ix3 r' s c)) (c : Fin 128) :
    Spec.maxS x (ix2 r c) = Spec.maxS x' (ix2 r' c) := by
  show (Finset.univ.sup fun s : Fin 25 => x (ix3 r s c)) = Finset.univ.sup fun s : Fin 25 => x' (ix3 r' s c)
  exact Finset.sup_congr rfl fun s _ => hx s c

end Cert.KernelIdeal.Val

end
-- ==== Proof.KerJoin.lean ====
/-
  The two max-over-neighbours, join and linear regions, from blocks to arrays.

  Each grid point takes a block of 1000 rows of the gathered neighbour tensor and of the gathered own rows, the whole
  weight and the bias row, and writes the stage applied to those blocks as block `t` of the output. The stage reads one
  row at a time (the maximum over a row's 25 neighbour slices, that row's own features, the product with the weight, the
  bias), so block `t` of the stage applied to the whole arrays is the stage applied to the blocks; the blocks tile the
  output's rows (row `R` lies in block `R / 1000`), so the output array ends holding the stage of the whole arrays. The
  first region clips at zero, the second does not; the first has 60 blocks, the second 30.
-/
import proofs.«178630_j29162827940511_2_alg».proof.Proof.KernelIdealFrameP
import proofs.«178630_j29162827940511_2_alg».proof.Proof.Spec
import proofs.«178630_j29162827940511_2_alg».proof.Proof.KerJoinPay
import proofs.«178630_j29162827940511_2_alg».proof.Proof.KerJoinRows
import Idealize.ShloMosaic.Lib.Pipeline.Value

noncomputable section

namespace Cert.KernelIdeal.Val

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Region 1: 60 blocks of 1000 rows of the [60000, …] arrays -/

/-- The printed index maps, decided over the 60 grid points: the neighbour tensor, the own rows and the output move one
    block of 1000 rows per point; the weight and the bias row stay. -/
theorem idx1 : ∀ t : Fin cfg1.N, win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the output array ends holding: the stage applied to the whole arrays. -/
abbrev G1 (c : Dev nD) : Spec.Mat 60000 128 :=
  Spec.relu (Spec.lin2 (V c main_v15) (Spec.maxS (V c main_v8)) (V c main_arg5) (Spec.rowVec (V c main_v16)))

/-- Row `r` of the neighbour block at point `t` is row `1000 t + r` of the neighbour tensor. -/
theorem iblk1_0_apply (c : Dev nD) (t : Fin cfg1.N) (r : Fin 1000) (s : Fin 25) (q : Fin 128) (R : Fin 60000)
    (hR : R.val = t.val * 1000 + r.val) :
    (iblk1 V c 0 t : Vec Ideal S1000x25x128 .bf16) (ix3 r s q) = (V c main_v8 : Spec.T3 60000) (ix3 R s q) := by
  obtain ⟨e0, e1, e2, -⟩ := idx1 t
  unfold iblk1
  rw [View.read_apply]
  show V c main_v8 _ = V c main_v8 _
  congr 1
  funext a
  apply Fin.ext
  match a with
  | ⟨0, _⟩ => show win1_0.index t (0 : Fin 3) * 1000 + 1 * r.val = R.val; omega
  | ⟨1, _⟩ => show win1_0.index t (1 : Fin 3) * 25 + 1 * s.val = s.val; omega
  | ⟨2, _⟩ => show win1_0.index t (2 : Fin 3) * 128 + 1 * q.val = q.val; omega

/-- Row `r` of the own-rows block at point `t` is row `1000 t + r` of the own-rows array. -/
theorem iblk1_1_apply (c : Dev nD) (t : Fin cfg1.N) (r : Fin 1000) (q : Fin 128) (R : Fin 60000)
    (hR : R.val = t.val * 1000 + r.val) :
    (iblk1 V c 1 t : Vec Ideal S1000x128 .f32) (ix2 r q) = (V c main_v15 : Spec.Mat 60000 128) (ix2 R q) := by
  obtain ⟨-, -, -, e0, e1, -⟩ := idx1 t
  unfold iblk1
  rw [View.read_apply]
  show V c main_v15 _ = V c main_v15 _
  congr 1
  funext a
  apply Fin.ext
  match a with
  | ⟨0, _⟩ => show win1_1.index t (0 : Fin 2) * 1000 + 1 * r.val = R.val; omega
  | ⟨1, _⟩ => show win1_1.index t (1 : Fin 2) * 128 + 1 * q.val = q.val; omega

/-- The weight's one block is the weight. -/
theorem iblk1_2_eq (c : Dev nD) (t : Fin cfg1.N) :
    (iblk1 V c 2 t : Vec Ideal S128x256 .f32) = (V c main_arg5 : Spec.Mat 128 256) := by
  obtain ⟨-, -, -, -, -, e0, e1, -⟩ := idx1 t
  funext y
  unfold iblk1
  rw [View.read_apply]
  show V c main_arg5 _ = V c main_arg5 _
  congr 1
  funext a
  apply Fin.ext
  match a with
  | ⟨0, _⟩ => show win1_2.index t (0 : Fin 2) * 128 + 1 * (y 0).val = (y 0).val; omega
  | ⟨1, _⟩ => show win1_2.index t (1 : Fin 2) * 256 + 1 * (y 1).val = (y 1).val; omega

/-- The bias row's one block is the bias row. -/
theorem iblk1_3_eq (c : Dev nD) (t : Fin cfg1.N) :
    (iblk1 V c 3 t : Vec Ideal S1x128 .f32) = (V c main_v16 : Spec.Mat 1 128) := by
  obtain ⟨-, -, -, -, -, -, -, e0, e1, -⟩ := idx1 t
  funext y
  unfold iblk1
  rw [View.read_apply]
  show V c main_v16 _ = V c main_v16 _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The stage applied to the blocks at point `t`, read at row `r`, is the stage applied to the whole arrays, read at row
    `1000 t + r`: the stage reads one row at a time. -/
theorem block1_row (c : Dev nD) (t : Fin cfg1.N) (r : Fin 1000) (q : Fin 128) (R : Fin 60000)
    (hR : R.val = t.val * 1000 + r.val) :
    Spec.relu (Spec.lin2 (iblk1 V c 1 t) (Spec.maxS (iblk1 V c 0 t)) (iblk1 V c 2 t) (Spec.rowVec (iblk1 V c 3 t))) (ix2 r q)
      = G1 V c (ix2 R q) := by
  rw [iblk1_2_eq V c t, iblk1_3_eq V c t]
  show max (Spec.lin2 _ _ _ _ (ix2 r q)) Spec.zero = max (Spec.lin2 _ _ _ _ (ix2 R q)) Spec.zero
  refine congrArg (max · Spec.zero) ?_
  exact lin2_row _ _ _ _ _ _ r R (fun q' => iblk1_1_apply V c t r q' R hR)
    (fun q' => maxS_row _ _ r R (fun s q'' => iblk1_0_apply V c t r s q'' R hR) q') q

/-- WHAT POINT `t` WRITES BACK is block `t` of `G1`. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero hz2]
  simp only [View.ld_unit_zero (S := S1000x25x128) hz3, View.ld_unit_zero (S := S1000x128) hz2,
    View.ld_unit_zero (S := S128x256) hz2, View.ld_unit_zero (S := S1x128) hz2]
  refine (congrArg ((win1 4).cut (grid1.coords t))
    (k1_pay1_eq (iblk1 V c 0 t) (iblk1 V c 1 t) (iblk1 V c 2 t) (iblk1 V c 3 t))).trans ?_
  have ht : t.val < 60 := Nat.lt_of_lt_of_eq t.isLt N_1
  obtain ⟨-, -, -, -, -, -, -, -, -, e0, e1⟩ := idx1 t
  have key : ∀ j : S1000x128.Idx,
      Spec.relu (Spec.lin2 (iblk1 V c 1 t) (Spec.maxS (iblk1 V c 0 t)) (iblk1 V c 2 t) (Spec.rowVec (iblk1 V c 3 t))) j
        = G1 V c (((cfg1.win 4).blk t).view.emb j) := by
    intro j
    obtain ⟨r, q, rfl⟩ : ∃ (r : Fin 1000) (q : Fin 128), j = ix2 r q := ⟨j 0, j 1, eq_ix2 j⟩
    have hemb : ((cfg1.win 4).blk t).view.emb (ix2 r q)
        = ix2 (⟨t.val * 1000 + r.val, by have := r.isLt; omega⟩ : Fin 60000) q := by
      funext a
      apply Fin.ext
      match a with
      | ⟨0, _⟩ => show win1_4.index t (0 : Fin 2) * 1000 + 1 * r.val = t.val * 1000 + r.val; omega
      | ⟨1, _⟩ => show win1_4.index t (1 : Fin 2) * 128 + 1 * q.val = q.val; omega
    rw [hemb]
    exact block1_row V c t r q _ rfl
  exact funext key

/-- An index of the array is in point `t`'s block iff each coordinate is in the block's range on its axis. -/
theorem mem_blk1 (t : Fin cfg1.N) (i : S60000x128.Idx) :
    i ∈ ((cfg1.win 4).blk t).view.set ↔ ∀ a : Fin 2, win1_4.index t a * S1000x128.size a ≤ (i a).val
      ∧ (i a).val < win1_4.index t a * S1000x128.size a + S1000x128.size a := by
  show i ∈ ((View.whole main_v17).slice (win1_4.rect t)).set ↔ _
  rw [View.set_slice_whole, Rect.mem_set_unit]
  exact Iff.rfl

/-- Every row of the array is in some point's block: row `R` in block `R / 1000`. -/
theorem cover1 (i : S60000x128.Idx) :
    ∃ t : Fin cfg1.N, (cfg1.win 4).flush t = true ∧ i ∈ ((cfg1.win 4).blk t).view.set := by
  have hi0 : (i 0).val < 60000 := (i 0).isLt
  have hi1 : (i 1).val < 128 := (i 1).isLt
  have hN : cfg1.N = 60 := N_1
  let t : Fin cfg1.N := ⟨(i 0).val / 1000, by rw [hN]; omega⟩
  have htv : t.val = (i 0).val / 1000 := rfl
  obtain ⟨-, -, -, -, -, -, -, -, -, e0, e1⟩ := idx1 t
  refine ⟨t, flush1_4 t, ?_⟩
  rw [mem_blk1]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 128 ≤ (i 1).val ∧ (i 1).val < win1_4.index t (1 : Fin 2) * 128 + 128; omega

/-- THE ARRAY after region 1: the stage applied to the arrays the region finds. -/
theorem region1_value (c : Dev nD) :
    (dat1 (F := Ideal) V c).arrAt 4 cfg1.N
      = Spec.relu (Spec.lin2 (V c main_v15) (Spec.maxS (V c main_v8)) (V c main_arg5) (Spec.rowVec (V c main_v16))) :=
  (dat1 (F := Ideal) V c).arrAt_eq_of_cover 4 (G1 V c) (fun t _ => flushed1_eq V c t) (cover1)

/-! ## Region 5: 30 blocks of 1000 rows of the [30000, …] arrays -/

/-- The printed index maps, decided over the 30 grid points: the neighbour tensor, the own rows and the output move one
    block of 1000 rows per point; the weight and the bias row stay. -/
theorem idx5 : ∀ t : Fin cfg5.N, win5_0.index t (0 : Fin 3) = t.val ∧ win5_0.index t (1 : Fin 3) = 0 ∧ win5_0.index t (2 : Fin 3) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What the output array ends holding: the stage applied to the whole arrays. -/
abbrev G5 (c : Dev nD) : Spec.Mat 30000 128 :=
  Spec.lin2 (V c main_v55) (Spec.maxS (V c main_v48)) (V c main_arg7) (Spec.rowVec (V c main_v56))

/-- Row `r` of the neighbour block at point `t` is row `1000 t + r` of the neighbour tensor. -/
theorem iblk5_0_apply (c : Dev nD) (t : Fin cfg5.N) (r : Fin 1000) (s : Fin 25) (q : Fin 128) (R : Fin 30000)
    (hR : R.val = t.val * 1000 + r.val) :
    (iblk5 V c 0 t : Vec Ideal S1000x25x128 .bf16) (ix3 r s q) = (V c main_v48 : Spec.T3 30000) (ix3 R s q) := by
  obtain ⟨e0, e1, e2, -⟩ := idx5 t
  unfold iblk5
  rw [View.read_apply]
  show V c main_v48 _ = V c main_v48 _
  congr 1
  funext a
  apply Fin.ext
  match a with
  | ⟨0, _⟩ => show win5_0.index t (0 : Fin 3) * 1000 + 1 * r.val = R.val; omega
  | ⟨1, _⟩ => show win5_0.index t (1 : Fin 3) * 25 + 1 * s.val = s.val; omega
  | ⟨2, _⟩ => show win5_0.index t (2 : Fin 3) * 128 + 1 * q.val = q.val; omega

/-- Row `r` of the own-rows block at point `t` is row `1000 t + r` of the own-rows array. -/
theorem iblk5_1_apply (c : Dev nD) (t : Fin cfg5.N) (r : Fin 1000) (q : Fin 128) (R : Fin 30000)
    (hR : R.val = t.val * 1000 + r.val) :
    (iblk5 V c 1 t : Vec Ideal S1000x128 .f32) (ix2 r q) = (V c main_v55 : Spec.Mat 30000 128) (ix2 R q) := by
  obtain ⟨-, -, -, e0, e1, -⟩ := idx5 t
  unfold iblk5
  rw [View.read_apply]
  show V c main_v55 _ = V c main_v55 _
  congr 1
  funext a
  apply Fin.ext
  match a with
  | ⟨0, _⟩ => show win5_1.index t (0 : Fin 2) * 1000 + 1 * r.val = R.val; omega
  | ⟨1, _⟩ => show win5_1.index t (1 : Fin 2) * 128 + 1 * q.val = q.val; omega

/-- The weight's one block is the weight. -/
theorem iblk5_2_eq (c : Dev nD) (t : Fin cfg5.N) :
    (iblk5 V c 2 t : Vec Ideal S128x256 .f32) = (V c main_arg7 : Spec.Mat 128 256) := by
  obtain ⟨-, -, -, -, -, e0, e1, -⟩ := idx5 t
  funext y
  unfold iblk5
  rw [View.read_apply]
  show V c main_arg7 _ = V c main_arg7 _
  congr 1
  funext a
  apply Fin.ext
  match a with
  | ⟨0, _⟩ => show win5_2.index t (0 : Fin 2) * 128 + 1 * (y 0).val = (y 0).val; omega
  | ⟨1, _⟩ => show win5_2.index t (1 : Fin 2) * 256 + 1 * (y 1).val = (y 1).val; omega

/-- The bias row's one block is the bias row. -/
theorem iblk5_3_eq (c : Dev nD) (t : Fin cfg5.N) :
    (iblk5 V c 3 t : Vec Ideal S1x128 .f32) = (V c main_v56 : Spec.Mat 1 128) := by
  obtain ⟨-, -, -, -, -, -, -, e0, e1, -⟩ := idx5 t
  funext y
  unfold iblk5
  rw [View.read_apply]
  show V c main_v56 _ = V c main_v56 _
  congr 1
  funext a
  apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- The stage applied to the blocks at point `t`, read at row `r`, is the stage applied to the whole arrays, read at row
    `1000 t + r`: the stage reads one row at a time. -/
theorem block5_row (c : Dev nD) (t : Fin cfg5.N) (r : Fin 1000) (q : Fin 128) (R : Fin 30000)
    (hR : R.val = t.val * 1000 + r.val) :
    Spec.lin2 (iblk5 V c 1 t) (Spec.maxS (iblk5 V c 0 t)) (iblk5 V c 2 t) (Spec.rowVec (iblk5 V c 3 t)) (ix2 r q)
      = G5 V c (ix2 R q) := by
  rw [iblk5_2_eq V c t, iblk5_3_eq V c t]
  exact lin2_row _ _ _ _ _ _ r R (fun q' => iblk5_1_apply V c t r q' R hR)
    (fun q' => maxS_row _ _ r R (fun s q'' => iblk5_0_apply V c t r s q'' R hR) q') q

/-- WHAT POINT `t` WRITES BACK is block `t` of `G5`. -/
theorem flushed5_eq (c : Dev nD) (t : Fin cfg5.N) :
    (dat5 (F := Ideal) V c).flushed 4 t = ((cfg5.win 4).blk t).view.read (Elt Ideal) (G5 V c) := by
  show (cfg5.win 4).cut (grid5.coords t) ((dat5 V c).after 4 t) = _
  rw [after5_4]
  unfold out5_4
  rw [View.canon_unit_zero hz2]
  simp only [View.ld_unit_zero (S := S1000x25x128) hz3, View.ld_unit_zero (S := S1000x128) hz2,
    View.ld_unit_zero (S := S128x256) hz2, View.ld_unit_zero (S := S1x128) hz2]
  refine (congrArg ((win5 4).cut (grid5.coords t))
    (k5_pay1_eq (iblk5 V c 0 t) (iblk5 V c 1 t) (iblk5 V c 2 t) (iblk5 V c 3 t))).trans ?_
  have ht : t.val < 30 := Nat.lt_of_lt_of_eq t.isLt N_5
  obtain ⟨-, -, -, -, -, -, -, -, -, e0, e1⟩ := idx5 t
  have key : ∀ j : S1000x128.Idx,
      Spec.lin2 (iblk5 V c 1 t) (Spec.maxS (iblk5 V c 0 t)) (iblk5 V c 2 t) (Spec.rowVec (iblk5 V c 3 t)) j
        = G5 V c (((cfg5.win 4).blk t).view.emb j) := by
    intro j
    obtain ⟨r, q, rfl⟩ : ∃ (r : Fin 1000) (q : Fin 128), j = ix2 r q := ⟨j 0, j 1, eq_ix2 j⟩
    have hemb : ((cfg5.win 4).blk t).view.emb (ix2 r q)
        = ix2 (⟨t.val * 1000 + r.val, by have := r.isLt; omega⟩ : Fin 30000) q := by
      funext a
      apply Fin.ext
      match a with
      | ⟨0, _⟩ => show win5_4.index t (0 : Fin 2) * 1000 + 1 * r.val = t.val * 1000 + r.val; omega
      | ⟨1, _⟩ => show win5_4.index t (1 : Fin 2) * 128 + 1 * q.val = q.val; omega
    rw [hemb]
    exact block5_row V c t r q _ rfl
  exact funext key

/-- An index of the array is in point `t`'s block iff each coordinate is in the block's range on its axis. -/
theorem mem_blk5 (t : Fin cfg5.N) (i : S30000x128.Idx) :
    i ∈ ((cfg5.win 4).blk t).view.set ↔ ∀ a : Fin 2, win5_4.index t a * S1000x128.size a ≤ (i a).val
      ∧ (i a).val < win5_4.index t a * S1000x128.size a + S1000x128.size a := by
  show i ∈ ((View.whole main_v57).slice (win5_4.rect t)).set ↔ _
  rw [View.set_slice_whole, Rect.mem_set_unit]
  exact Iff.rfl

/-- Every row of the array is in some point's block: row `R` in block `R / 1000`. -/
theorem cover5 (i : S30000x128.Idx) :
    ∃ t : Fin cfg5.N, (cfg5.win 4).flush t = true ∧ i ∈ ((cfg5.win 4).blk t).view.set := by
  have hi0 : (i 0).val < 30000 := (i 0).isLt
  have hi1 : (i 1).val < 128 := (i 1).isLt
  have hN : cfg5.N = 30 := N_5
  let t : Fin cfg5.N := ⟨(i 0).val / 1000, by rw [hN]; omega⟩
  have htv : t.val = (i 0).val / 1000 := rfl
  obtain ⟨-, -, -, -, -, -, -, -, -, e0, e1⟩ := idx5 t
  refine ⟨t, flush5_4 t, ?_⟩
  rw [mem_blk5]
  intro a
  match a with
  | ⟨0, _⟩ => show win5_4.index t (0 : Fin 2) * 1000 ≤ (i 0).val ∧ (i 0).val < win5_4.index t (0 : Fin 2) * 1000 + 1000; omega
  | ⟨1, _⟩ => show win5_4.index t (1 : Fin 2) * 128 ≤ (i 1).val ∧ (i 1).val < win5_4.index t (1 : Fin 2) * 128 + 128; omega

/-- THE ARRAY after region 5: the stage applied to the arrays the region finds. -/
theorem region5_value (c : Dev nD) :
    (dat5 (F := Ideal) V c).arrAt 4 cfg5.N
      = Spec.lin2 (V c main_v55) (Spec.maxS (V c main_v48)) (V c main_arg7) (Spec.rowVec (V c main_v56)) :=
  (dat5 (F := Ideal) V c).arrAt_eq_of_cover 4 (G5 V c) (fun t _ => flushed5_eq V c t) (cover5)

end Cert.KernelIdeal.Val

end
-- ==== Proof.KerStatsPay.lean ====
/-
  The column-statistics kernel's body, case by case and at a column.

  The two outputs are `[1, 128]` rows kept in place from grid point to grid point. The first point stores a zero row
  into each, reads it back, and adds to it the block's column sums (first output) and the column sums of the block's
  squares (second output); every later point adds the same to what the row held. Read on the extended reals at column
  `q`, the first payload is the row's entry plus the sum over the block's 3000 rows of the entry `(b, q)`, the second the
  row's entry plus the sum of the squares.
-/
import proofs.«178630_j29162827940511_2_alg».proof.Proof.KernelIdealFrameP
import proofs.«178630_j29162827940511_2_alg».proof.Proof.Spec
import Idealize.ShloMosaic.Lib.Pipeline.Value
import Idealize.ShloMosaic.Lib.Tactic
import Idealize.ShloMosaic.Lib.ValueLayout
import Idealize.ShloMosaic.PureOps.Ideal.Laws

noncomputable section

namespace Cert.KernelIdeal.Val

open Idealize.ShloMosaic Idealize.ShloMosaic.TcCoe Idealize.SL.Sem Cert.KernelIdeal Cert.KernelIdeal.Gen
open Idealize.ShloMosaic.ValueIdx
open Idealize.ShloMosaic.Pipeline (Dat)

section Pieces
variable {F : FTy → Type} [FloatOps F]

theorem hzz : (![0, 0] : Fin 2 → Nat) = fun _ => 0 := funext fun a => by fin_cases a <;> rfl

/-- A later point leaves in the first output's buffer, holding `xo1`, the column-sum payload of the block and `xo1`. -/
theorem out2_B_1_eq (c : Dev nD) (i : grid2.Coords) (arg1 : Memref sig .tc .vmem S3000x128 .f32) (harg1 : arg1.IsWhole)
    (arg2 : Memref sig .tc .vmem S1x128 .f32) (harg2 : arg2.IsWhole) (arg3 : Memref sig .tc .vmem S1x128 .f32) (harg3 : arg3.IsWhole) (hc0 : ¬cond2_0 i)
    (x0 : Vec F S3000x128 .f32) (xo1 xo2 : Vec F S1x128 .f32) :
    out2_B_1 c i arg1 harg1 arg2 harg2 arg3 harg3 hc0 x0 xo1 xo2 = k2_pay4 x0 xo1 := by
  unfold out2_B_1
  rw [View.read_writes_eq_canon _ _ _ (cover2_B_1 c i arg1 harg1 arg2 harg2 arg3 harg3 hc0 x0 xo1 xo2)]
  unfold kernelRun2_B
  dsimp only
  rw [View.canon_unit_zero hzz]
  simp only [View.readAt_eq_ld, harg1.read_unread, harg2.read_unread, View.ld_unit_zero (S := S3000x128) hzz,
    View.ld_unit_zero (S := S1x128) hzz]

/-- A later point leaves in the second output's buffer, holding `xo2`, the sum-of-squares payload of the block and `xo2`. -/
theorem out2_B_2_eq (c : Dev nD) (i : grid2.Coords) (arg1 : Memref sig .tc .vmem S3000x128 .f32) (harg1 : arg1.IsWhole)
    (arg2 : Memref sig .tc .vmem S1x128 .f32) (harg2 : arg2.IsWhole) (arg3 : Memref sig .tc .vmem S1x128 .f32) (harg3 : arg3.IsWhole) (hc0 : ¬cond2_0 i)
    (x0 : Vec F S3000x128 .f32) (xo1 xo2 : Vec F S1x128 .f32) :
    out2_B_2 c i arg1 harg1 arg2 harg2 arg3 harg3 hc0 x0 xo1 xo2 = k2_pay5 x0 xo2 := by
  unfold out2_B_2
  rw [View.read_writes_eq_canon _ _ _ (cover2_B_2 c i arg1 harg1 arg2 harg2 arg3 harg3 hc0 x0 xo1 xo2)]
  unfold kernelRun2_B
  dsimp only
  rw [View.canon_unit_zero hzz]
  simp only [View.readAt_eq_ld, harg1.read_unread, harg3.read_unread, View.ld_unit_zero (S := S3000x128) hzz,
    View.ld_unit_zero (S := S1x128) hzz]

/-- The first point stores the zero row, reads it back, and leaves the column-sum payload of the block and that zero row. -/
theorem out2_A_1_eq (c : Dev nD) (i : grid2.Coords) (arg1 : Memref sig .tc .vmem S3000x128 .f32) (harg1 : arg1.IsWhole)
    (arg2 : Memref sig .tc .vmem S1x128 .f32) (harg2 : arg2.IsWhole) (arg3 : Memref sig .tc .vmem S1x128 .f32) (harg3 : arg3.IsWhole) (hc0 : cond2_0 i)
    (x0 : Vec F S3000x128 .f32) :
    out2_A_1 c i arg1 harg1 arg2 harg2 arg3 harg3 hc0 x0 = k2_pay4 x0 (k2_pay1 (F := F)) := by
  unfold out2_A_1
  rw [View.read_writes_eq_canon _ _ _ (cover2_A_1 c i arg1 harg1 arg2 harg2 arg3 harg3 hc0 x0)]
  unfold kernelRun2_A
  dsimp only
  sl_unfold_words
  rw [View.canon_cons_unit_zero (S := S1x128) hzz, View.readCov_unit_zero (S := S1x128) _ hzz]
  simp only [View.readAt_eq_ld, harg1.read_unread, View.ld_unit_zero (S := S3000x128) hzz,
    View.ld_unit_zero (S := S1x128) hzz]

/-- The first point likewise leaves the sum-of-squares payload of the block and the zero row. -/
theorem out2_A_2_eq (c : Dev nD) (i : grid2.Coords) (arg1 : Memref sig .tc .vmem S3000x128 .f32) (harg1 : arg1.IsWhole)
    (arg2 : Memref sig .tc .vmem S1x128 .f32) (harg2 : arg2.IsWhole) (arg3 : Memref sig .tc .vmem S1x128 .f32) (harg3 : arg3.IsWhole) (hc0 : cond2_0 i)
    (x0 : Vec F S3000x128 .f32) :
    out2_A_2 c i arg1 harg1 arg2 harg2 arg3 harg3 hc0 x0 = k2_pay5 x0 (k2_pay2 (F := F)) := by
  unfold out2_A_2
  rw [View.read_writes_eq_canon _ _ _ (cover2_A_2 c i arg1 harg1 arg2 harg2 arg3 harg3 hc0 x0)]
  unfold kernelRun2_A
  dsimp only
  sl_unfold_words
  rw [View.canon_cons_unit_zero (S := S1x128) hzz, View.readCov_unit_zero (S := S1x128) _ hzz]
  simp only [View.readAt_eq_ld, harg1.read_unread, View.ld_unit_zero (S := S3000x128) hzz,
    View.ld_unit_zero (S := S1x128) hzz]

end Pieces

/-! ## The two payloads at a column, on the extended reals -/

/-- The block cast to its own shape is the block. -/
theorem k2_pay3_eq (x : Vec Ideal S3000x128 .f32) : k2_pay3 x = x := shapeCast_self x _

/-- The sum along the rows of a `[3000, 128]` array at column `q`. -/
theorem colsum_block (y : FVec Ideal S3000x128 .f32) (q : Fin 128) (hφ hacc) :
    multiReduction .add [0] S128 y 0x00000000#32 reduces_S3000x128_S128 hφ hacc (ix1 q) = ∑ b : Fin 3000, y (ix2 b q) := by
  refine (Ideal.multiReduction_add_single y 0x00000000#32 reduces_S3000x128_S128 hφ hacc (ix1 q)).trans ?_
  exact Finset.sum_congr rfl fun k _ => congrArg y (funext fun a => by
    match a with
    | ⟨0, _⟩ => rfl
    | ⟨1, _⟩ => rfl)

/-- The column-sum payload at column `q`: the row held before plus the sum of the block's column `q`. -/
theorem k2_pay4_apply (x : Vec Ideal S3000x128 .f32) (xo : Vec Ideal S1x128 .f32) (u : Fin 1) (q : Fin 128) :
    k2_pay4 x xo (ix2 u q) = xo (ix2 u q) + ∑ b : Fin 3000, x (ix2 b q) := by
  unfold k2_pay4
  refine congrArg₂ (· + ·) (congrFun (shapeCast_self xo _) _) ?_
  refine (shapeCast_a_1a_apply _ _ u q).trans ?_
  refine (colsum_block (k2_pay3 x) q _ _).trans ?_
  rw [k2_pay3_eq]

/-- The sum-of-squares payload at column `q`: the row held before plus the sum of the squares of the block's column `q`. -/
theorem k2_pay5_apply (x : Vec Ideal S3000x128 .f32) (xo : Vec Ideal S1x128 .f32) (u : Fin 1) (q : Fin 128) :
    k2_pay5 x xo (ix2 u q) = xo (ix2 u q) + ∑ b : Fin 3000, x (ix2 b q) * x (ix2 b q) := by
  unfold k2_pay5
  refine congrArg₂ (· + ·) (congrFun (shapeCast_self xo _) _) ?_
  refine (shapeCast_a_1a_apply _ _ u q).trans ?_
  refine (colsum_block (mulf (k2_pay3 x) (k2_pay3 x)) q _ _).trans ?_
  rw [k2_pay3_eq]
  rfl

/-- The row the first point stores is zero at every column. -/
theorem k2_pay1_apply (j : S1x128.Idx) : (k2_pay1 (F := Ideal)) j = 0 := Ideal.ofBits_zero_f32
theorem k2_pay2_apply (j : S1x128.Idx) : (k2_pay2 (F := Ideal)) j = 0 := Ideal.ofBits_zero_f32

end Cert.KernelIdeal.Val

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.KerStatsSums.lean ====
/-
  Sixty thousand rows as twenty blocks of three thousand, and sums taken block after block.

  Row `b` of block `a` is row `b + 3000 a`. A sum over the 60000 rows is the sum over the 20 blocks of the blocks' sums
  (addition on the extended reals is commutative and associative: nothing has to be finite); and the sum of the first
  `n + 1` block sums, built by adding one block at a time, is at `n = 19` the sum over all 20 blocks.
-/
import proofs.«178630_j29162827940511_2_alg».proof.Proof.Spec
import proofs.«178630_j29162827940511_2_alg».proof.Proof.LibSumBlocks

noncomputable section

namespace Cert.KernelIdeal.Val

open Idealize.ShloMosaic Idealize.ShloMosaic.ValueIdx

/-- Row `b` of block `a`. -/
def rowOf20 (a : Fin 20) (b : Fin 3000) : Fin 60000 := ⟨b.val + 3000 * a.val, by omega⟩

theorem rowOf20_val (a : Fin 20) (b : Fin 3000) : (rowOf20 a b).val = b.val + 3000 * a.val := rfl

/-- A sum over the 60000 rows, block by block. -/
theorem sum_rows_blocks (f : Fin 60000 → EReal) :
    ∑ r : Fin 60000, f r = ∑ a : Fin 20, ∑ b : Fin 3000, f (rowOf20 a b) :=
  Cert.SumBlocks.sum_blocks 20 3000 f

/-- The sum of the first `n + 1` of twenty terms. -/
def pre (g : Fin 20 → EReal) (n : ℕ) (h : n < 20) : EReal := ∑ a : Fin (n + 1), g ⟨a.val, by omega⟩

theorem pre_zero (g : Fin 20 → EReal) (h : 0 < 20) : pre g 0 h = g ⟨0, h⟩ := by
  unfold pre
  rw [Fin.sum_univ_one]
  rfl

theorem pre_succ (g : Fin 20 → EReal) (n : ℕ) (h : n + 1 < 20) :
    pre g (n + 1) h = pre g n (Nat.lt_of_succ_lt h) + g ⟨n + 1, h⟩ := by
  unfold pre
  rw [Fin.sum_univ_castSucc]
  rfl

theorem pre_last (g : Fin 20 → EReal) (h : 19 < 20) : pre g 19 h = ∑ a : Fin 20, g a := rfl

/-- The sum of column `q` over block `a`'s rows, and of its squares. -/
def blkSum (X : Spec.Mat 60000 128) (a : Fin 20) (q : Fin 128) : EReal := ∑ b : Fin 3000, X (ix2 (rowOf20 a b) q)
def blkSq (X : Spec.Mat 60000 128) (a : Fin 20) (q : Fin 128) : EReal :=
  ∑ b : Fin 3000, X (ix2 (rowOf20 a b) q) * X (ix2 (rowOf20 a b) q)

/-- All twenty block sums make the column's sum over the 60000 rows. -/
theorem pre_blkSum (X : Spec.Mat 60000 128) (q : Fin 128) (h : 19 < 20) :
    pre (fun a => blkSum X a q) 19 h = Spec.colSum X q :=
  (pre_last _ h).trans (sum_rows_blocks fun r => X (ix2 r q)).symm

theorem pre_blkSq (X : Spec.Mat 60000 128) (q : Fin 128) (h : 19 < 20) :
    pre (fun a => blkSq X a q) 19 h = Spec.sqSum X q :=
  (pre_last _ h).trans (sum_rows_blocks fun r => X (ix2 r q) * X (ix2 r q)).symm

end Cert.KernelIdeal.Val

end
-- ==== Proof.KerStats.lean ====
/-
  The column-statistics region, from grid points to arrays.

  The region runs over 20 blocks of 3000 rows of a `[60000, 128]` array. Its two outputs are `[1, 128]` rows whose one
  block stays in place from point to point and is written back after the last point only. The first point starts both
  from zero; every point adds to the first the sums of its block's columns and to the second the sums of the squares. By
  induction on the point, after point `n` the rows hold the sums over the first `n + 1` blocks; after the last point,
  twenty blocks of three thousand rows being all sixty thousand rows, they hold each column's sum and sum of squares over
  the whole array. Addition on the extended reals is commutative and associative, so no entry has to be finite.
-/
import proofs.«178630_j29162827940511_2_alg».proof.Proof.KernelIdealFrameP
import proofs.«178630_j29162827940511_2_alg».proof.Proof.Spec
import proofs.«178630_j29162827940511_2_alg».proof.Proof.KerStatsPay
import proofs.«178630_j29162827940511_2_alg».proof.Proof.KerStatsSums
import Idealize.ShloMosaic.Lib.Pipeline.Value

noncomputable section

namespace Cert.KernelIdeal.Val

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The printed index map of the input window, decided over the 20 grid points: one block of 3000 rows per point. -/
theorem idx2 : ∀ t : Fin cfg2.N, win2_0.index t (0 : Fin 2) = t.val ∧ win2_0.index t (1 : Fin 2) = 0 :=
  (by decide +kernel : ∀ t : Fin grid2.N, _)

theorem lt20 {n : ℕ} (h : n < cfg2.N) : n < 20 := Nat.lt_of_lt_of_eq h N_2

/-- Row `b` of the input block at point `t` is row `b + 3000 t` of the array. -/
theorem iblk2_0_apply (c : Dev nD) (t : Fin cfg2.N) (b : Fin 3000) (q : Fin 128) :
    (iblk2 V c 0 t : Vec Ideal S3000x128 .f32) (ix2 b q)
      = (V c main_v17 : Spec.Mat 60000 128) (ix2 (rowOf20 ⟨t.val, lt20 t.isLt⟩ b) q) := by
  obtain ⟨e0, e1⟩ := idx2 t
  unfold iblk2
  rw [View.read_apply]
  show V c main_v17 _ = V c main_v17 _
  congr 1
  funext a
  apply Fin.ext
  match a with
  | ⟨0, _⟩ => show win2_0.index t (0 : Fin 2) * 3000 + 1 * b.val = b.val + 3000 * t.val; omega
  | ⟨1, _⟩ => show win2_0.index t (1 : Fin 2) * 128 + 1 * q.val = q.val; omega

/-- One point's update of the first row: a row holding `g` becomes `g` plus the block's column sums. -/
theorem sum_step (c : Dev nD) (t : Fin cfg2.N) (xo : Vec Ideal S1x128 .f32) (g : Fin 128 → EReal)
    (hxo : ∀ (u : Fin 1) (q : Fin 128), xo (ix2 u q) = g q) :
    k2_pay4 (iblk2 V c 0 t) xo = Spec.asRow fun q => g q + blkSum (V c main_v17) ⟨t.val, lt20 t.isLt⟩ q := by
  funext j
  obtain ⟨u, q, rfl⟩ : ∃ (u : Fin 1) (q : Fin 128), j = ix2 u q := ⟨j 0, j 1, eq_ix2 j⟩
  refine (k2_pay4_apply (iblk2 V c 0 t) xo u q).trans ?_
  show _ = g q + blkSum (V c main_v17) ⟨t.val, lt20 t.isLt⟩ q
  rw [hxo u q]
  exact congrArg (g q + ·) (Finset.sum_congr rfl fun b _ => iblk2_0_apply V c t b q)

/-- One point's update of the second row: a row holding `g` becomes `g` plus the block's column sums of squares. -/
theorem sq_step (c : Dev nD) (t : Fin cfg2.N) (xo : Vec Ideal S1x128 .f32) (g : Fin 128 → EReal)
    (hxo : ∀ (u : Fin 1) (q : Fin 128), xo (ix2 u q) = g q) :
    k2_pay5 (iblk2 V c 0 t) xo = Spec.asRow fun q => g q + blkSq (V c main_v17) ⟨t.val, lt20 t.isLt⟩ q := by
  funext j
  obtain ⟨u, q, rfl⟩ : ∃ (u : Fin 1) (q : Fin 128), j = ix2 u q := ⟨j 0, j 1, eq_ix2 j⟩
  refine (k2_pay5_apply (iblk2 V c 0 t) xo u q).trans ?_
  show _ = g q + blkSq (V c main_v17) ⟨t.val, lt20 t.isLt⟩ q
  rw [hxo u q]
  refine congrArg (g q + ·) (Finset.sum_congr rfl fun b _ => ?_)
  rw [iblk2_0_apply V c t b q]

/-- The first point: both rows start from zero. -/
theorem stepA (c : Dev nD) (t : Fin cfg2.N) (hA : t.val % 20 = 0) :
    outsAt2 V c t.val t.isLt
      = (Spec.asRow fun q => 0 + blkSum (V c main_v17) ⟨t.val, lt20 t.isLt⟩ q,
         Spec.asRow fun q => 0 + blkSq (V c main_v17) ⟨t.val, lt20 t.isLt⟩ q) := by
  rw [outsAt2_A V c t hA]
  refine Prod.ext ?_ ?_
  · dsimp only
    exact (out2_A_1_eq (F := Ideal) c (grid2.coords t) (ms2_0 t) (hs2_0 t) (ms2_1 t) (hs2_1 t) (ms2_2 t) (hs2_2 t) _ (iblk2 V c 0 t)).trans
      (sum_step V c t (k2_pay1 (F := Ideal)) (fun _ => 0) (fun u q => k2_pay1_apply _))
  · dsimp only
    exact (out2_A_2_eq (F := Ideal) c (grid2.coords t) (ms2_0 t) (hs2_0 t) (ms2_1 t) (hs2_1 t) (ms2_2 t) (hs2_2 t) _ (iblk2 V c 0 t)).trans
      (sq_step V c t (k2_pay2 (F := Ideal)) (fun _ => 0) (fun u q => k2_pay2_apply _))

/-- A later point: rows holding `g1`, `g2` after the point before get the block's column sums and sums of squares added. -/
theorem stepB (c : Dev nD) (t : Fin cfg2.N) (hB : ¬t.val % 20 = 0) (g1 g2 : Fin 128 → EReal)
    (h1 : (outsAt2 V c (t.val - 1) (Nat.lt_of_le_of_lt (Nat.sub_le _ _) t.isLt)).1 = Spec.asRow g1)
    (h2 : (outsAt2 V c (t.val - 1) (Nat.lt_of_le_of_lt (Nat.sub_le _ _) t.isLt)).2 = Spec.asRow g2) :
    outsAt2 V c t.val t.isLt
      = (Spec.asRow fun q => g1 q + blkSum (V c main_v17) ⟨t.val, lt20 t.isLt⟩ q,
         Spec.asRow fun q => g2 q + blkSq (V c main_v17) ⟨t.val, lt20 t.isLt⟩ q) := by
  rw [outsAt2_B V c t hB, h1, h2]
  refine Prod.ext ?_ ?_
  · dsimp only
    exact (out2_B_1_eq (F := Ideal) c (grid2.coords t) (ms2_0 t) (hs2_0 t) (ms2_1 t) (hs2_1 t) (ms2_2 t) (hs2_2 t) _ (iblk2 V c 0 t) (Spec.asRow g1) (Spec.asRow g2)).trans
      (sum_step V c t (Spec.asRow g1) g1 (fun u q => rfl))
  · dsimp only
    exact (out2_B_2_eq (F := Ideal) c (grid2.coords t) (ms2_0 t) (hs2_0 t) (ms2_1 t) (hs2_1 t) (ms2_2 t) (hs2_2 t) _ (iblk2 V c 0 t) (Spec.asRow g1) (Spec.asRow g2)).trans
      (sq_step V c t (Spec.asRow g2) g2 (fun u q => rfl))

/-- THE INVARIANT: after point `n` the first output's buffer is the row of the column sums over the first `n + 1` blocks
    and the second the row of the column sums of squares over them — by induction on the point. -/
theorem outsAt2_eq (c : Dev nD) : ∀ (n : ℕ) (h : n < cfg2.N), outsAt2 V c n h
    = (Spec.asRow fun q => pre (fun a => blkSum (V c main_v17) a q) n (lt20 h),
       Spec.asRow fun q => pre (fun a => blkSq (V c main_v17) a q) n (lt20 h))
  | 0, h => by
    refine (stepA V c ⟨0, h⟩ rfl).trans ?_
    refine congrArg₂ Prod.mk (congrArg Spec.asRow (funext fun q => ?_)) (congrArg Spec.asRow (funext fun q => ?_))
    · rw [zero_add, pre_zero]
    · rw [zero_add, pre_zero]
  | n + 1, h => by
    have hB : ¬(⟨n + 1, h⟩ : Fin cfg2.N).val % 20 = 0 := by have := lt20 h; dsimp only; omega
    have ih := outsAt2_eq c n (Nat.lt_of_succ_lt h)
    refine (stepB V c ⟨n + 1, h⟩ hB
      (fun q => pre (fun a => blkSum (V c main_v17) a q) n (lt20 (Nat.lt_of_succ_lt h)))
      (fun q => pre (fun a => blkSq (V c main_v17) a q) n (lt20 (Nat.lt_of_succ_lt h)))
      (congrArg Prod.fst ih) (congrArg Prod.snd ih)).trans ?_
    refine congrArg₂ Prod.mk (congrArg Spec.asRow (funext fun q => ?_)) (congrArg Spec.asRow (funext fun q => ?_))
    · exact (pre_succ _ n (lt20 h)).symm
    · exact (pre_succ _ n (lt20 h)).symm

/-! ## From the last point to the arrays -/

theorem t19lt : 19 < cfg2.N := Nat.lt_of_lt_of_eq (by decide : 19 < 20) N_2.symm

/-- The last grid point. -/
abbrev t19 : Fin cfg2.N := ⟨19, t19lt⟩

/-- What the two output arrays end holding. -/
abbrev R1 (c : Dev nD) : Spec.Mat 1 128 := Spec.asRow (Spec.colSum (V c main_v17))
abbrev R2 (c : Dev nD) : Spec.Mat 1 128 := Spec.asRow (Spec.sqSum (V c main_v17))

/-- The last point is the only one that writes output 1 back, and what it writes is the whole row of column sums:
    the row's one block is the row. -/
theorem flushed2_1_eq (c : Dev nD) (t : Fin cfg2.N) (hf : (cfg2.win 1).flush t = true) :
    (dat2 (F := Ideal) V c).flushed 1 t = ((cfg2.win 1).blk t).view.read (Elt Ideal) (R1 V c) := by
  have h19 : t.val = 19 := by have h1 := (flush2_1 t).mp hf; have h2 := lt20 t.isLt; omega
  obtain rfl : t = t19 := Fin.ext h19
  show (cfg2.win 1).cut (grid2.coords t19) ((dat2 V c).after 1 t19) = _
  have e : (dat2 (F := Ideal) V c).after 1 t19 = R1 V c := by
    rw [after2_1]
    refine (congrArg Prod.fst (outsAt2_eq V c 19 t19lt)).trans ?_
    exact congrArg Spec.asRow (funext fun q => pre_blkSum _ q (lt20 t19lt))
  rw [e]
  have hz' : (fun a => win2_1.index t19 a * main_v18_0.ty.shape.size a) = fun _ => 0 :=
    funext fun a => by fin_cases a <;> decide +kernel
  exact (Memref.read_access_unit_zero (Elt Ideal) main_v18_0 hz' (fun a => by rw [congrFun hz' a]; simp) (R1 V c)).symm

/-- The last point's block covers output 1's one row. -/
theorem cover2_1 (i : S1x128.Idx) :
    ∃ t : Fin cfg2.N, (cfg2.win 1).flush t = true ∧ i ∈ ((cfg2.win 1).blk t).view.set := by
  refine ⟨t19, (flush2_1 t19).mpr rfl, ?_⟩
  show i ∈ ((View.whole main_v18_0).slice (win2_1.rect t19)).set
  rw [View.set_slice_whole, Rect.mem_set_unit]
  intro a
  have h0 : (i 0 : Nat) < 1 := (i 0).isLt
  have h1 : (i 1 : Nat) < 128 := (i 1).isLt
  match a with
  | ⟨0, _⟩ =>
    show win2_1.index t19 0 * win2_1.size 0 ≤ (i 0 : Nat)
      ∧ (i 0 : Nat) < win2_1.index t19 0 * win2_1.size 0 + win2_1.xsize (grid2.coords t19) 0
    rw [show win2_1.index t19 0 * win2_1.size 0 = 0 from by decide +kernel,
      show win2_1.xsize (grid2.coords t19) 0 = 1 from by decide +kernel]
    omega
  | ⟨1, _⟩ =>
    show win2_1.index t19 1 * win2_1.size 1 ≤ (i 1 : Nat)
      ∧ (i 1 : Nat) < win2_1.index t19 1 * win2_1.size 1 + win2_1.xsize (grid2.coords t19) 1
    rw [show win2_1.index t19 1 * win2_1.size 1 = 0 from by decide +kernel,
      show win2_1.xsize (grid2.coords t19) 1 = 128 from by decide +kernel]
    omega

/-- The last point is the only one that writes output 2 back, and what it writes is the whole row of column sums of squares:
    the row's one block is the row. -/
theorem flushed2_2_eq (c : Dev nD) (t : Fin cfg2.N) (hf : (cfg2.win 2).flush t = true) :
    (dat2 (F := Ideal) V c).flushed 2 t = ((cfg2.win 2).blk t).view.read (Elt Ideal) (R2 V c) := by
  have h19 : t.val = 19 := by have h1 := (flush2_2 t).mp hf; have h2 := lt20 t.isLt; omega
  obtain rfl : t = t19 := Fin.ext h19
  show (cfg2.win 2).cut (grid2.coords t19) ((dat2 V c).after 2 t19) = _
  have e : (dat2 (F := Ideal) V c).after 2 t19 = R2 V c := by
    rw [after2_2]
    refine (congrArg Prod.snd (outsAt2_eq V c 19 t19lt)).trans ?_
    exact congrArg Spec.asRow (funext fun q => pre_blkSq _ q (lt20 t19lt))
  rw [e]
  have hz' : (fun a => win2_2.index t19 a * main_v18_1.ty.shape.size a) = fun _ => 0 :=
    funext fun a => by fin_cases a <;> decide +kernel
  exact (Memref.read_access_unit_zero (Elt Ideal) main_v18_1 hz' (fun a => by rw [congrFun hz' a]; simp) (R2 V c)).symm

/-- The last point's block covers output 2's one row. -/
theorem cover2_2 (i : S1x128.Idx) :
    ∃ t : Fin cfg2.N, (cfg2.win 2).flush t = true ∧ i ∈ ((cfg2.win 2).blk t).view.set := by
  refine ⟨t19, (flush2_2 t19).mpr rfl, ?_⟩
  show i ∈ ((View.whole main_v18_1).slice (win2_2.rect t19)).set
  rw [View.set_slice_whole, Rect.mem_set_unit]
  intro a
  have h0 : (i 0 : Nat) < 1 := (i 0).isLt
  have h1 : (i 1 : Nat) < 128 := (i 1).isLt
  match a with
  | ⟨0, _⟩ =>
    show win2_2.index t19 0 * win2_2.size 0 ≤ (i 0 : Nat)
      ∧ (i 0 : Nat) < win2_2.index t19 0 * win2_2.size 0 + win2_2.xsize (grid2.coords t19) 0
    rw [show win2_2.index t19 0 * win2_2.size 0 = 0 from by decide +kernel,
      show win2_2.xsize (grid2.coords t19) 0 = 1 from by decide +kernel]
    omega
  | ⟨1, _⟩ =>
    show win2_2.index t19 1 * win2_2.size 1 ≤ (i 1 : Nat)
      ∧ (i 1 : Nat) < win2_2.index t19 1 * win2_2.size 1 + win2_2.xsize (grid2.coords t19) 1
    rw [show win2_2.index t19 1 * win2_2.size 1 = 0 from by decide +kernel,
      show win2_2.xsize (grid2.coords t19) 1 = 128 from by decide +kernel]
    omega

/-- THE ARRAYS after region 2: the row of the column sums over the 60000 rows, and the row of the column sums of
    squares. -/
theorem region2_value (c : Dev nD) :
    (dat2 (F := Ideal) V c).arrAt 1 cfg2.N = Spec.asRow (Spec.colSum (V c main_v17))
    ∧ (dat2 (F := Ideal) V c).arrAt 2 cfg2.N = Spec.asRow (Spec.sqSum (V c main_v17)) :=
  ⟨(dat2 (F := Ideal) V c).arrAt_eq_of_cover 1 (R1 V c) (flushed2_1_eq V c) (cover2_1),
   (dat2 (F := Ideal) V c).arrAt_eq_of_cover 2 (R2 V c) (flushed2_2_eq V c) (cover2_2)⟩

end Cert.KernelIdeal.Val

end
-- ==== Proof.KerValue.lean ====
/-
  The kernel program computes the specification's network: every weakly fair execution of the program on the
  TensorCores ends, nothing faulting, with the result buffer holding `Spec.GK` of the argument arrays as launched and the
  argument arrays unchanged. The six regions' values (two projections, the two joined linear maps, the column sums, the
  normalisation) are put into the walk through the program's boundaries.
-/
import proofs.«178630_j29162827940511_2_alg».proof.Proof.KerRunOf
import proofs.«178630_j29162827940511_2_alg».proof.Proof.KerDense
import proofs.«178630_j29162827940511_2_alg».proof.Proof.KerNorm
import proofs.«178630_j29162827940511_2_alg».proof.Proof.KerJoin
import proofs.«178630_j29162827940511_2_alg».proof.Proof.KerStats

set_option maxRecDepth 16384

noncomputable section

namespace Cert.KernelIdeal.Val

open Idealize.ShloMosaic Idealize.ShloMosaic.TcCoe Idealize.SL.Sem Cert.KernelIdeal Cert.KernelIdeal.Gen

/-- The six regions' values, together. -/
theorem regionFacts : RegionFacts :=
  ⟨region0_value, region1_value, region2_value, region3_value, region4_value, region5_value⟩

theorem run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v57) = Spec.GK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_of regionFacts m ρ

end Cert.KernelIdeal.Val

end
-- ==== Proof.RefTerm.lean ====
import proofs.«178630_j29162827940511_2_alg».proof.Proof.Gen.ReferenceIdeal
import Idealize.ShloMosaic.PureOps.Ideal

/-! # The reference's result as a pure term of its arguments

The reference computes two graph-network layers. A layer maps every node's feature row through a linear
map and a rectifier, gathers for each output node the rows of its sampled neighbours and takes their
entrywise maximum, joins the node's own gathered row to that maximum, and applies a second linear map;
between the layers the rows are rectified, normalised over the batch (mean and biased variance per column,
a reciprocal square root, a scale and a shift) and divided by their Euclidean length plus a small constant.

Each definition below is one operation of that program applied to the definitions of its operands, in the
program's order, as a function of exactly the argument arrays it depends on; `out` is the last one. -/

noncomputable section

namespace Cert.ReferenceIdeal.Val

open Idealize.ShloMosaic Idealize.SL.Sem Cert.ReferenceIdeal Cert.ReferenceIdeal.Facts₀

noncomputable def t_v0 (a1 : FVec Ideal S128x128 .f32) : FVec Ideal S128x128 .f32 :=
  (transpose S128x128 [1, 0] · transposes_S128x128_S128x128_1_0) a1

noncomputable def t_v1 (a0 : FVec Ideal S100000x128 .f32) (a1 : FVec Ideal S128x128 .f32) : FVec Ideal S100000x128 .f32 :=
  (fun l r => Host.dotGeneral (F := Ideal) dot_S100000x128_S128x128_S100000x128_1_0_0_1_n_n none l r) a0 (t_v0 a1)

noncomputable def t_v2 (a2 : FVec Ideal S128 .f32) : FVec Ideal S1x128 .f32 :=
  (broadcastInDim S1x128 ![1] bcast_S128_S1x128_1) a2

noncomputable def t_v3 (a2 : FVec Ideal S128 .f32) : FVec Ideal S100000x128 .f32 :=
  (broadcastInDim S100000x128 ![0, 1] bcast_S1x128_S100000x128_0_1) (t_v2 a2)

noncomputable def t_v4 (a0 : FVec Ideal S100000x128 .f32) (a1 : FVec Ideal S128x128 .f32) (a2 : FVec Ideal S128 .f32) : FVec Ideal S100000x128 .f32 :=
  (addf (F := Ideal)) (t_v1 a0 a1) (t_v3 a2)

noncomputable def t_call0_cst : FVec Ideal S_ .f32 :=
  constant (F := Ideal) S_ .f32 0x00000000#32

noncomputable def t_call0_v0 : FVec Ideal S100000x128 .f32 :=
  (broadcastInDim S100000x128 ![] bcast_S_S100000x128) t_call0_cst

noncomputable def t_v5 (a0 : FVec Ideal S100000x128 .f32) (a1 : FVec Ideal S128x128 .f32) (a2 : FVec Ideal S128 .f32) : FVec Ideal S100000x128 .f32 :=
  (maximumf (F := Ideal)) (t_v4 a0 a1 a2) t_call0_v0

noncomputable def t_c : IVec S_ 32 :=
  constantI S_ 32 0#32

noncomputable def t_v6 : IVec S60000x25 32 :=
  (broadcastInDim S60000x25 ![] bcast_S_S60000x25) t_c

noncomputable def t_v7 (a11 : IVec S60000x25 32) : IVec S60000x25 1 :=
  (cmpi .slt) a11 t_v6

noncomputable def t_c_0 : IVec S_ 32 :=
  constantI S_ 32 100000#32

noncomputable def t_v8 : IVec S60000x25 32 :=
  (broadcastInDim S60000x25 ![] bcast_S_S60000x25) t_c_0

noncomputable def t_v9 (a11 : IVec S60000x25 32) : IVec S60000x25 32 :=
  addi a11 t_v8

noncomputable def t_v10 (a11 : IVec S60000x25 32) : IVec S60000x25 32 :=
  select (t_v7 a11) (t_v9 a11) a11

noncomputable def t_v11 (a11 : IVec S60000x25 32) : IVec S60000x25x1 32 :=
  (broadcastInDim S60000x25x1 ![0, 1] bcast_S60000x25_S60000x25x1_0_1) (t_v10 a11)

noncomputable def t_v12 (a0 : FVec Ideal S100000x128 .f32) (a1 : FVec Ideal S128x128 .f32) (a2 : FVec Ideal S128 .f32) (a11 : IVec S60000x25 32) : FVec Ideal S60000x25x128 .f32 :=
  (fun x i => Host.gather gather_S100000x128_S60000x25x1_S60000x25x128_2_0_n_n_0_2_1128 x i) (t_v5 a0 a1 a2) (t_v11 a11)

noncomputable def t_cst : FVec Ideal S_ .f32 :=
  constant (F := Ideal) S_ .f32 0xFF800000#32

noncomputable def t_v13 (a0 : FVec Ideal S100000x128 .f32) (a1 : FVec Ideal S128x128 .f32) (a2 : FVec Ideal S128 .f32) (a11 : IVec S60000x25 32) : FVec Ideal S60000x128 .f32 :=
  (fun x v => Host.reduce (FloatOps.maximumf (F := Ideal) (φ := .f32)) x v reducesTo_S60000x25x128_S60000x128_d1 h_S_) (t_v12 a0 a1 a2 a11) t_cst

noncomputable def t_c_1 : IVec S_ 32 :=
  constantI S_ 32 0#32

noncomputable def t_v14 : IVec S60000 32 :=
  (broadcastInDim S60000 ![] bcast_S_S60000) t_c_1

noncomputable def t_v15 (a12 : IVec S60000 32) : IVec S60000 1 :=
  (cmpi .slt) a12 t_v14

noncomputable def t_c_2 : IVec S_ 32 :=
  constantI S_ 32 100000#32

noncomputable def t_v16 : IVec S60000 32 :=
  (broadcastInDim S60000 ![] bcast_S_S60000) t_c_2

noncomputable def t_v17 (a12 : IVec S60000 32) : IVec S60000 32 :=
  addi a12 t_v16

noncomputable def t_v18 (a12 : IVec S60000 32) : IVec S60000 32 :=
  select (t_v15 a12) (t_v17 a12) a12

noncomputable def t_v19 (a12 : IVec S60000 32) : IVec S60000x1 32 :=
  (broadcastInDim S60000x1 ![0] bcast_S60000_S60000x1_0) (t_v18 a12)

noncomputable def t_v20 (a0 : FVec Ideal S100000x128 .f32) (a12 : IVec S60000 32) : FVec Ideal S60000x128 .f32 :=
  (fun x i => Host.gather gather_S100000x128_S60000x1_S60000x128_1_0_n_n_0_1_1128 x i) a0 (t_v19 a12)

noncomputable def t_v21 (a0 : FVec Ideal S100000x128 .f32) (a1 : FVec Ideal S128x128 .f32) (a2 : FVec Ideal S128 .f32) (a11 : IVec S60000x25 32) (a12 : IVec S60000 32) : FVec Ideal S60000x256 .f32 :=
  (fun a b => concatenate S60000x256 1 [⟨S60000x128, a⟩, ⟨S60000x128, b⟩] concatenates_S60000x128_S60000x128_S60000x256_d1) (t_v20 a0 a12) (t_v13 a0 a1 a2 a11)

noncomputable def t_v22 (a5 : FVec Ideal S128x256 .f32) : FVec Ideal S256x128 .f32 :=
  (transpose S256x128 [1, 0] · transposes_S128x256_S256x128_1_0) a5

noncomputable def t_v23 (a0 : FVec Ideal S100000x128 .f32) (a1 : FVec Ideal S128x128 .f32) (a2 : FVec Ideal S128 .f32) (a5 : FVec Ideal S128x256 .f32) (a11 : IVec S60000x25 32) (a12 : IVec S60000 32) : FVec Ideal S60000x128 .f32 :=
  (fun l r => Host.dotGeneral (F := Ideal) dot_S60000x256_S256x128_S60000x128_1_0_0_1_n_n none l r) (t_v21 a0 a1 a2 a11 a12) (t_v22 a5)

noncomputable def t_v24 (a6 : FVec Ideal S128 .f32) : FVec Ideal S1x128 .f32 :=
  (broadcastInDim S1x128 ![1] bcast_S128_S1x128_1) a6

noncomputable def t_v25 (a6 : FVec Ideal S128 .f32) : FVec Ideal S60000x128 .f32 :=
  (broadcastInDim S60000x128 ![0, 1] bcast_S1x128_S60000x128_0_1) (t_v24 a6)

noncomputable def t_v26 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (addf (F := Ideal)) (t_v23 a0 a1 a2 a5 a11 a12) (t_v25 a6)

noncomputable def t_call1_cst : FVec Ideal S_ .f32 :=
  constant (F := Ideal) S_ .f32 0x00000000#32

noncomputable def t_call1_v0 : FVec Ideal S60000x128 .f32 :=
  (broadcastInDim S60000x128 ![] bcast_S_S60000x128) t_call1_cst

noncomputable def t_v27 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (maximumf (F := Ideal)) (t_v26 a0 a1 a2 a5 a6 a11 a12) t_call1_v0

noncomputable def t_cst_3 : FVec Ideal S_ .f32 :=
  constant (F := Ideal) S_ .f32 0x00000000#32

noncomputable def t_v28 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S128 .f32 :=
  (fun x v => Host.reduceAdd (F := Ideal) x v reducesTo_S60000x128_S128_d0 h_S_) (t_v27 a0 a1 a2 a5 a6 a11 a12) t_cst_3

noncomputable def t_cst_4 : FVec Ideal S_ .f32 :=
  constant (F := Ideal) S_ .f32 0x476A6000#32

noncomputable def t_v29 : FVec Ideal S128 .f32 :=
  (broadcastInDim S128 ![] bcast_S_S128) t_cst_4

noncomputable def t_v30 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S128 .f32 :=
  (Host.divf (F := Ideal)) (t_v28 a0 a1 a2 a5 a6 a11 a12) t_v29

noncomputable def t_c_5 : IVec S_ 32 :=
  constantI S_ 32 0#32

noncomputable def t_call2_cst : FVec Ideal S_ .f32 :=
  constant (F := Ideal) S_ .f32 0x00000000#32

noncomputable def t_call2_v0 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S128 .f32 :=
  (fun x v => Host.reduceAdd (F := Ideal) x v reducesTo_S60000x128_S128_d0 h_S_) (t_v27 a0 a1 a2 a5 a6 a11 a12) t_call2_cst

noncomputable def t_call2_v1 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S1x128 .f32 :=
  (broadcastInDim S1x128 ![1] bcast_S128_S1x128_1) (t_call2_v0 a0 a1 a2 a5 a6 a11 a12)

noncomputable def t_call2_cst_0 : FVec Ideal S_ .f32 :=
  constant (F := Ideal) S_ .f32 0x476A6000#32

noncomputable def t_call2_v2 : FVec Ideal S1x128 .f32 :=
  (broadcastInDim S1x128 ![] bcast_S_S1x128) t_call2_cst_0

noncomputable def t_call2_v3 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S1x128 .f32 :=
  (Host.divf (F := Ideal)) (t_call2_v1 a0 a1 a2 a5 a6 a11 a12) t_call2_v2

noncomputable def t_call2_v4 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (broadcastInDim S60000x128 ![0, 1] bcast_S1x128_S60000x128_0_1) (t_call2_v3 a0 a1 a2 a5 a6 a11 a12)

noncomputable def t_call2_v5 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (subf (F := Ideal)) (t_v27 a0 a1 a2 a5 a6 a11 a12) (t_call2_v4 a0 a1 a2 a5 a6 a11 a12)

noncomputable def t_call2_v6 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (mulf (F := Ideal)) (t_call2_v5 a0 a1 a2 a5 a6 a11 a12) (t_call2_v5 a0 a1 a2 a5 a6 a11 a12)

noncomputable def t_call2_v7 : FVec Ideal S_ .f32 :=
  (sitofp (F := Ideal) .f32) t_c_5

noncomputable def t_call2_cst_1 : FVec Ideal S_ .f32 :=
  constant (F := Ideal) S_ .f32 0x476A6000#32

noncomputable def t_call2_v8 : FVec Ideal S_ .f32 :=
  (subf (F := Ideal)) t_call2_cst_1 t_call2_v7

noncomputable def t_call2_cst_2 : FVec Ideal S_ .f32 :=
  constant (F := Ideal) S_ .f32 0x00000000#32

noncomputable def t_call2_v9 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S128 .f32 :=
  (fun x v => Host.reduceAdd (F := Ideal) x v reducesTo_S60000x128_S128_d0 h_S_) (t_call2_v6 a0 a1 a2 a5 a6 a11 a12) t_call2_cst_2

noncomputable def t_call2_v10 : FVec Ideal S128 .f32 :=
  (broadcastInDim S128 ![] bcast_S_S128) t_call2_v8

noncomputable def t_call2_v11 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S128 .f32 :=
  (Host.divf (F := Ideal)) (t_call2_v9 a0 a1 a2 a5 a6 a11 a12) t_call2_v10

noncomputable def t_call2_cst_3 : FVec Ideal S_ .f32 :=
  constant (F := Ideal) S_ .f32 0x00000000#32

noncomputable def t_call2_v12 : IVec S_ 1 :=
  (cmpf (F := Ideal) .ogt) t_call2_v8 t_call2_cst_3

noncomputable def t_call2_cst_4 : FVec Ideal S_ .f32 :=
  constant (F := Ideal) S_ .f32 0x7FC00000#32

noncomputable def t_call2_call0_v0 : FVec Ideal S_ .f32 :=
  id t_call2_cst_4

noncomputable def t_call2_call0_v1 : FVec Ideal S128 .f32 :=
  (broadcastInDim S128 ![] bcast_S_S128) t_call2_call0_v0

noncomputable def t_v31 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S128 .f32 :=
  (fun p a b => select (broadcastInDim S128 ![] bcast_S_S128 p) a b) t_call2_v12 (t_call2_v11 a0 a1 a2 a5 a6 a11 a12) t_call2_call0_v1

noncomputable def t_v32 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S1x128 .f32 :=
  (broadcastInDim S1x128 ![1] bcast_S128_S1x128_1) (t_v30 a0 a1 a2 a5 a6 a11 a12)

noncomputable def t_v33 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (broadcastInDim S60000x128 ![0, 1] bcast_S1x128_S60000x128_0_1) (t_v32 a0 a1 a2 a5 a6 a11 a12)

noncomputable def t_v34 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (subf (F := Ideal)) (t_v27 a0 a1 a2 a5 a6 a11 a12) (t_v33 a0 a1 a2 a5 a6 a11 a12)

noncomputable def t_cst_6 : FVec Ideal S_ .f32 :=
  constant (F := Ideal) S_ .f32 0x3727C5AC#32

noncomputable def t_v35 : FVec Ideal S128 .f32 :=
  (broadcastInDim S128 ![] bcast_S_S128) t_cst_6

noncomputable def t_v36 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S128 .f32 :=
  (addf (F := Ideal)) (t_v31 a0 a1 a2 a5 a6 a11 a12) t_v35

noncomputable def t_v37 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S128 .f32 :=
  (Host.rsqrt (F := Ideal)) (t_v36 a0 a1 a2 a5 a6 a11 a12)

noncomputable def t_v38 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S1x128 .f32 :=
  (broadcastInDim S1x128 ![1] bcast_S128_S1x128_1) (t_v37 a0 a1 a2 a5 a6 a11 a12)

noncomputable def t_v39 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (broadcastInDim S60000x128 ![0, 1] bcast_S1x128_S60000x128_0_1) (t_v38 a0 a1 a2 a5 a6 a11 a12)

noncomputable def t_v40 (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : FVec Ideal S60000x128 .f32 :=
  (mulf (F := Ideal)) (t_v34 a0 a1 a2 a5 a6 a11 a12) (t_v39 a0 a1 a2 a5 a6 a11 a12)

noncomputable def t_v41 (a9 : FVec Ideal S128 .f32) : FVec Ideal S1x128 .f32 :=
  (broadcastInDim S1x128 ![1] bcast_S128_S1x128_1) a9

noncomputable def t_v42 (a9 : FVec Ideal S128 .f32) : FVec Ideal S60000x128 .f32 :=
  (broadcastInDim S60000x128 ![0, 1] bcast_S1x128_S60000x128_0_1) (t_v41 a9)

noncomputable def t_v43 (a0 : FVec Ideal S100000x128 .f32) (a1 : FVec Ideal S128x128 .f32) (a2 : FVec Ideal S128 .f32) (a5 : FVec Ideal S128x256 .f32) (a6 : FVec Ideal S128 .f32) (a9 : FVec Ideal S128 .f32) (a11 : IVec S60000x25 32) (a12 : IVec S60000 32) : FVec Ideal S60000x128 .f32 :=
  (mulf (F := Ideal)) (t_v40 a0 a1 a2 a5 a6 a11 a12) (t_v42 a9)

noncomputable def t_v44 (a10 : FVec Ideal S128 .f32) : FVec Ideal S1x128 .f32 :=
  (broadcastInDim S1x128 ![1] bcast_S128_S1x128_1) a10

noncomputable def t_v45 (a10 : FVec Ideal S128 .f32) : FVec Ideal S60000x128 .f32 :=
  (broadcastInDim S60000x128 ![0, 1] bcast_S1x128_S60000x128_0_1) (t_v44 a10)

noncomputable def t_v46 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x128 .f32 :=
  (addf (F := Ideal)) (t_v43 a0 a1 a2 a5 a6 a9 a11 a12) (t_v45 a10)

noncomputable def t_call3_v0 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x128 .f32 :=
  (mulf (F := Ideal)) (t_v46 a0 a1 a2 a5 a6 a9 a10 a11 a12) (t_v46 a0 a1 a2 a5 a6 a9 a10 a11 a12)

noncomputable def t_call3_cst : FVec Ideal S_ .f32 :=
  constant (F := Ideal) S_ .f32 0x00000000#32

noncomputable def t_call3_v1 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000 .f32 :=
  (fun x v => Host.reduceAdd (F := Ideal) x v reducesTo_S60000x128_S60000_d1 h_S_) (t_call3_v0 a0 a1 a2 a5 a6 a9 a10 a11 a12) t_call3_cst

noncomputable def t_call3_v2 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x1 .f32 :=
  (broadcastInDim S60000x1 ![0] bcast_S60000_S60000x1_0) (t_call3_v1 a0 a1 a2 a5 a6 a9 a10 a11 a12)

noncomputable def t_v47 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x1 .f32 :=
  (Host.sqrt (F := Ideal)) (t_call3_v2 a0 a1 a2 a5 a6 a9 a10 a11 a12)

noncomputable def t_cst_7 : FVec Ideal S_ .f32 :=
  constant (F := Ideal) S_ .f32 0x358637BD#32

noncomputable def t_v48 : FVec Ideal S60000x1 .f32 :=
  (broadcastInDim S60000x1 ![] bcast_S_S60000x1) t_cst_7

noncomputable def t_v49 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x1 .f32 :=
  (addf (F := Ideal)) (t_v47 a0 a1 a2 a5 a6 a9 a10 a11 a12) t_v48

noncomputable def t_v50 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x128 .f32 :=
  (broadcastInDim S60000x128 ![0, 1] bcast_S60000x1_S60000x128_0_1) (t_v49 a0 a1 a2 a5 a6 a9 a10 a11 a12)

noncomputable def t_v51 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x128 .f32 :=
  (Host.divf (F := Ideal)) (t_v46 a0 a1 a2 a5 a6 a9 a10 a11 a12) (t_v50 a0 a1 a2 a5 a6 a9 a10 a11 a12)

noncomputable def t_v52 (a3 : FVec Ideal S128x128 .f32) : FVec Ideal S128x128 .f32 :=
  (transpose S128x128 [1, 0] · transposes_S128x128_S128x128_1_0) a3

noncomputable def t_v53 (a0 : FVec Ideal S100000x128 .f32) (a1 : FVec Ideal S128x128 .f32) (a2 : FVec Ideal S128 .f32) (a3 : FVec Ideal S128x128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x128 .f32 :=
  (fun l r => Host.dotGeneral (F := Ideal) dot_S60000x128_S128x128_S60000x128_1_0_0_1_n_n none l r) (t_v51 a0 a1 a2 a5 a6 a9 a10 a11 a12) (t_v52 a3)

noncomputable def t_v54 (a4 : FVec Ideal S128 .f32) : FVec Ideal S1x128 .f32 :=
  (broadcastInDim S1x128 ![1] bcast_S128_S1x128_1) a4

noncomputable def t_v55 (a4 : FVec Ideal S128 .f32) : FVec Ideal S60000x128 .f32 :=
  (broadcastInDim S60000x128 ![0, 1] bcast_S1x128_S60000x128_0_1) (t_v54 a4)

noncomputable def t_v56 (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x128 .f32 :=
  (addf (F := Ideal)) (t_v53 a0 a1 a2 a3 a5 a6 a9 a10 a11 a12) (t_v55 a4)

noncomputable def t_call4_cst : FVec Ideal S_ .f32 :=
  constant (F := Ideal) S_ .f32 0x00000000#32

noncomputable def t_call4_v0 : FVec Ideal S60000x128 .f32 :=
  (broadcastInDim S60000x128 ![] bcast_S_S60000x128) t_call4_cst

noncomputable def t_v57 (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : FVec Ideal S60000x128 .f32 :=
  (maximumf (F := Ideal)) (t_v56 a0 a1 a2 a3 a4 a5 a6 a9 a10 a11 a12) t_call4_v0

noncomputable def t_c_8 : IVec S_ 32 :=
  constantI S_ 32 0#32

noncomputable def t_v58 : IVec S30000x25 32 :=
  (broadcastInDim S30000x25 ![] bcast_S_S30000x25) t_c_8

noncomputable def t_v59 (a13 : IVec S30000x25 32) : IVec S30000x25 1 :=
  (cmpi .slt) a13 t_v58

noncomputable def t_c_9 : IVec S_ 32 :=
  constantI S_ 32 60000#32

noncomputable def t_v60 : IVec S30000x25 32 :=
  (broadcastInDim S30000x25 ![] bcast_S_S30000x25) t_c_9

noncomputable def t_v61 (a13 : IVec S30000x25 32) : IVec S30000x25 32 :=
  addi a13 t_v60

noncomputable def t_v62 (a13 : IVec S30000x25 32) : IVec S30000x25 32 :=
  select (t_v59 a13) (t_v61 a13) a13

noncomputable def t_v63 (a13 : IVec S30000x25 32) : IVec S30000x25x1 32 :=
  (broadcastInDim S30000x25x1 ![0, 1] bcast_S30000x25_S30000x25x1_0_1) (t_v62 a13)

noncomputable def t_v64 (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a9 : FVec Ideal S128 .f32) (a10 : FVec Ideal S128 .f32) (a11 : IVec S60000x25 32) (a12 : IVec S60000 32) (a13 : IVec S30000x25 32) : FVec Ideal S30000x25x128 .f32 :=
  (fun x i => Host.gather gather_S60000x128_S30000x25x1_S30000x25x128_2_0_n_n_0_2_1128 x i) (t_v57 a0 a1 a2 a3 a4 a5 a6 a9 a10 a11 a12) (t_v63 a13)

noncomputable def t_cst_10 : FVec Ideal S_ .f32 :=
  constant (F := Ideal) S_ .f32 0xFF800000#32

noncomputable def t_v65 (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a9 : FVec Ideal S128 .f32) (a10 : FVec Ideal S128 .f32) (a11 : IVec S60000x25 32) (a12 : IVec S60000 32) (a13 : IVec S30000x25 32) : FVec Ideal S30000x128 .f32 :=
  (fun x v => Host.reduce (FloatOps.maximumf (F := Ideal) (φ := .f32)) x v reducesTo_S30000x25x128_S30000x128_d1 h_S_) (t_v64 a0 a1 a2 a3 a4 a5 a6 a9 a10 a11 a12 a13) t_cst_10

noncomputable def t_c_11 : IVec S_ 32 :=
  constantI S_ 32 0#32

noncomputable def t_v66 : IVec S30000 32 :=
  (broadcastInDim S30000 ![] bcast_S_S30000) t_c_11

noncomputable def t_v67 (a14 : IVec S30000 32) : IVec S30000 1 :=
  (cmpi .slt) a14 t_v66

noncomputable def t_c_12 : IVec S_ 32 :=
  constantI S_ 32 60000#32

noncomputable def t_v68 : IVec S30000 32 :=
  (broadcastInDim S30000 ![] bcast_S_S30000) t_c_12

noncomputable def t_v69 (a14 : IVec S30000 32) : IVec S30000 32 :=
  addi a14 t_v68

noncomputable def t_v70 (a14 : IVec S30000 32) : IVec S30000 32 :=
  select (t_v67 a14) (t_v69 a14) a14

noncomputable def t_v71 (a14 : IVec S30000 32) : IVec S30000x1 32 :=
  (broadcastInDim S30000x1 ![0] bcast_S30000_S30000x1_0) (t_v70 a14)

noncomputable def t_v72 (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) (a14 : IVec S30000 32) : FVec Ideal S30000x128 .f32 :=
  (fun x i => Host.gather gather_S60000x128_S30000x1_S30000x128_1_0_n_n_0_1_1128 x i) (t_v51 a0 a1 a2 a5 a6 a9 a10 a11 a12) (t_v71 a14)

noncomputable def t_v73 (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a9 : FVec Ideal S128 .f32) (a10 : FVec Ideal S128 .f32) (a11 : IVec S60000x25 32) (a12 : IVec S60000 32) (a13 : IVec S30000x25 32) (a14 : IVec S30000 32) : FVec Ideal S30000x256 .f32 :=
  (fun a b => concatenate S30000x256 1 [⟨S30000x128, a⟩, ⟨S30000x128, b⟩] concatenates_S30000x128_S30000x128_S30000x256_d1) (t_v72 a0 a1 a2 a5 a6 a9 a10 a11 a12 a14) (t_v65 a0 a1 a2 a3 a4 a5 a6 a9 a10 a11 a12 a13)

noncomputable def t_v74 (a7 : FVec Ideal S128x256 .f32) : FVec Ideal S256x128 .f32 :=
  (transpose S256x128 [1, 0] · transposes_S128x256_S256x128_1_0) a7

noncomputable def t_v75 (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a7 : FVec Ideal S128x256 .f32) (a9 : FVec Ideal S128 .f32) (a10 : FVec Ideal S128 .f32) (a11 : IVec S60000x25 32) (a12 : IVec S60000 32) (a13 : IVec S30000x25 32) (a14 : IVec S30000 32) : FVec Ideal S30000x128 .f32 :=
  (fun l r => Host.dotGeneral (F := Ideal) dot_S30000x256_S256x128_S30000x128_1_0_0_1_n_n none l r) (t_v73 a0 a1 a2 a3 a4 a5 a6 a9 a10 a11 a12 a13 a14) (t_v74 a7)

noncomputable def t_v76 (a8 : FVec Ideal S128 .f32) : FVec Ideal S1x128 .f32 :=
  (broadcastInDim S1x128 ![1] bcast_S128_S1x128_1) a8

noncomputable def t_v77 (a8 : FVec Ideal S128 .f32) : FVec Ideal S30000x128 .f32 :=
  (broadcastInDim S30000x128 ![0, 1] bcast_S1x128_S30000x128_0_1) (t_v76 a8)

noncomputable def t_v78 (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a7 : FVec Ideal S128x256 .f32) (a8 : FVec Ideal S128 .f32) (a9 : FVec Ideal S128 .f32) (a10 : FVec Ideal S128 .f32) (a11 : IVec S60000x25 32) (a12 : IVec S60000 32) (a13 : IVec S30000x25 32) (a14 : IVec S30000 32) : FVec Ideal S30000x128 .f32 :=
  (addf (F := Ideal)) (t_v75 a0 a1 a2 a3 a4 a5 a6 a7 a9 a10 a11 a12 a13 a14) (t_v77 a8)

/-- The reference's result: the second layer's output rows. -/
noncomputable def out (a0 : FVec Ideal S100000x128 .f32) (a1 : FVec Ideal S128x128 .f32) (a2 : FVec Ideal S128 .f32) (a3 : FVec Ideal S128x128 .f32) (a4 : FVec Ideal S128 .f32)
    (a5 : FVec Ideal S128x256 .f32) (a6 : FVec Ideal S128 .f32) (a7 : FVec Ideal S128x256 .f32) (a8 : FVec Ideal S128 .f32) (a9 : FVec Ideal S128 .f32) (a10 : FVec Ideal S128 .f32)
    (a11 : IVec S60000x25 32) (a12 : IVec S60000 32) (a13 : IVec S30000x25 32) (a14 : IVec S30000 32) : FVec Ideal S30000x128 .f32 := t_v78 a0 a1 a2 a3 a4 a5 a6 a7 a8 a9 a10 a11 a12 a13 a14

end Cert.ReferenceIdeal.Val

end
-- ==== Proof.RefRunOps.lean ====
import proofs.«178630_j29162827940511_2_alg».proof.Proof.RefTerm
import Idealize.ShloMosaic.Lib.StableHlo.Run

noncomputable section

namespace Cert.ReferenceIdeal.Val

open Idealize.ShloMosaic Idealize.ShloMosaic.TcCoe Idealize.SL.Sem Idealize.ShloMosaic.StableHlo Cert.ReferenceIdeal Cert.ReferenceIdeal.Facts₀

/-! # The reference program as a straight line of operations

Every statement of the reference's entry function, with each called function's statements standing in the
call's place over that call's own buffers, is one operation writing one buffer from the buffers it reads.
`opK` is the K-th of them in program order and `PK V` the buffers' contents after the first K have run
from contents `V`. Each step changes only the buffer it writes (`keepK`), and no step writes an argument
array (`argsK`). -/

abbrev op1 : HloOp τ sig (Elt Ideal) := unary main_arg1 main_v0 ((transpose S128x128 [1, 0] · transposes_S128x128_S128x128_1_0) : FVec Ideal S128x128 .f32 → FVec Ideal S128x128 .f32)
abbrev op2 : HloOp τ sig (Elt Ideal) := binary main_arg0 main_v0 main_v1 ((fun l r => Host.dotGeneral (F := Ideal) dot_S100000x128_S128x128_S100000x128_1_0_0_1_n_n none l r) : FVec Ideal S100000x128 .f32 → FVec Ideal S128x128 .f32 → FVec Ideal S100000x128 .f32)
abbrev op3 : HloOp τ sig (Elt Ideal) := unary main_arg2 main_v2 ((broadcastInDim S1x128 ![1] bcast_S128_S1x128_1) : FVec Ideal S128 .f32 → FVec Ideal S1x128 .f32)
abbrev op4 : HloOp τ sig (Elt Ideal) := unary main_v2 main_v3 ((broadcastInDim S100000x128 ![0, 1] bcast_S1x128_S100000x128_0_1) : FVec Ideal S1x128 .f32 → FVec Ideal S100000x128 .f32)
abbrev op5 : HloOp τ sig (Elt Ideal) := binary main_v1 main_v3 main_v4 ((addf (F := Ideal)) : FVec Ideal S100000x128 .f32 → FVec Ideal S100000x128 .f32 → FVec Ideal S100000x128 .f32)
abbrev op6 : HloOp τ sig (Elt Ideal) := nullary main_call0_cst (constant (F := Ideal) S_ .f32 0x00000000#32)
abbrev op7 : HloOp τ sig (Elt Ideal) := unary main_call0_cst main_call0_v0 ((broadcastInDim S100000x128 ![] bcast_S_S100000x128) : FVec Ideal S_ .f32 → FVec Ideal S100000x128 .f32)
abbrev op8 : HloOp τ sig (Elt Ideal) := binary main_v4 main_call0_v0 main_v5 ((maximumf (F := Ideal)) : FVec Ideal S100000x128 .f32 → FVec Ideal S100000x128 .f32 → FVec Ideal S100000x128 .f32)
abbrev op9 : HloOp τ sig (Elt Ideal) := nullary main_c (constantI S_ 32 0#32)
abbrev op10 : HloOp τ sig (Elt Ideal) := unary main_c main_v6 ((broadcastInDim S60000x25 ![] bcast_S_S60000x25) : IVec S_ 32 → IVec S60000x25 32)
abbrev op11 : HloOp τ sig (Elt Ideal) := binary main_arg11 main_v6 main_v7 ((cmpi .slt) : IVec S60000x25 32 → IVec S60000x25 32 → IVec S60000x25 1)
abbrev op12 : HloOp τ sig (Elt Ideal) := nullary main_c_0 (constantI S_ 32 100000#32)
abbrev op13 : HloOp τ sig (Elt Ideal) := unary main_c_0 main_v8 ((broadcastInDim S60000x25 ![] bcast_S_S60000x25) : IVec S_ 32 → IVec S60000x25 32)
abbrev op14 : HloOp τ sig (Elt Ideal) := binary main_arg11 main_v8 main_v9 ((addi) : IVec S60000x25 32 → IVec S60000x25 32 → IVec S60000x25 32)
abbrev op15 : HloOp τ sig (Elt Ideal) := ternary main_v7 main_v9 main_arg11 main_v10 ((select) : IVec S60000x25 1 → IVec S60000x25 32 → IVec S60000x25 32 → IVec S60000x25 32)
abbrev op16 : HloOp τ sig (Elt Ideal) := unary main_v10 main_v11 ((broadcastInDim S60000x25x1 ![0, 1] bcast_S60000x25_S60000x25x1_0_1) : IVec S60000x25 32 → IVec S60000x25x1 32)
abbrev op17 : HloOp τ sig (Elt Ideal) := binary main_v5 main_v11 main_v12 ((fun x i => Host.gather gather_S100000x128_S60000x25x1_S60000x25x128_2_0_n_n_0_2_1128 x i) : FVec Ideal S100000x128 .f32 → IVec S60000x25x1 32 → FVec Ideal S60000x25x128 .f32)
abbrev op18 : HloOp τ sig (Elt Ideal) := nullary main_cst (constant (F := Ideal) S_ .f32 0xFF800000#32)
abbrev op19 : HloOp τ sig (Elt Ideal) := binary main_v12 main_cst main_v13 ((fun x v => Host.reduce (FloatOps.maximumf (F := Ideal) (φ := .f32)) x v reducesTo_S60000x25x128_S60000x128_d1 h_S_) : FVec Ideal S60000x25x128 .f32 → FVec Ideal S_ .f32 → FVec Ideal S60000x128 .f32)
abbrev op20 : HloOp τ sig (Elt Ideal) := nullary main_c_1 (constantI S_ 32 0#32)
abbrev op21 : HloOp τ sig (Elt Ideal) := unary main_c_1 main_v14 ((broadcastInDim S60000 ![] bcast_S_S60000) : IVec S_ 32 → IVec S60000 32)
abbrev op22 : HloOp τ sig (Elt Ideal) := binary main_arg12 main_v14 main_v15 ((cmpi .slt) : IVec S60000 32 → IVec S60000 32 → IVec S60000 1)
abbrev op23 : HloOp τ sig (Elt Ideal) := nullary main_c_2 (constantI S_ 32 100000#32)
abbrev op24 : HloOp τ sig (Elt Ideal) := unary main_c_2 main_v16 ((broadcastInDim S60000 ![] bcast_S_S60000) : IVec S_ 32 → IVec S60000 32)
abbrev op25 : HloOp τ sig (Elt Ideal) := binary main_arg12 main_v16 main_v17 ((addi) : IVec S60000 32 → IVec S60000 32 → IVec S60000 32)
abbrev op26 : HloOp τ sig (Elt Ideal) := ternary main_v15 main_v17 main_arg12 main_v18 ((select) : IVec S60000 1 → IVec S60000 32 → IVec S60000 32 → IVec S60000 32)
abbrev op27 : HloOp τ sig (Elt Ideal) := unary main_v18 main_v19 ((broadcastInDim S60000x1 ![0] bcast_S60000_S60000x1_0) : IVec S60000 32 → IVec S60000x1 32)
abbrev op28 : HloOp τ sig (Elt Ideal) := binary main_arg0 main_v19 main_v20 ((fun x i => Host.gather gather_S100000x128_S60000x1_S60000x128_1_0_n_n_0_1_1128 x i) : FVec Ideal S100000x128 .f32 → IVec S60000x1 32 → FVec Ideal S60000x128 .f32)
abbrev op29 : HloOp τ sig (Elt Ideal) := binary main_v20 main_v13 main_v21 ((fun a b => concatenate S60000x256 1 [⟨S60000x128, a⟩, ⟨S60000x128, b⟩] concatenates_S60000x128_S60000x128_S60000x256_d1) : FVec Ideal S60000x128 .f32 → FVec Ideal S60000x128 .f32 → FVec Ideal S60000x256 .f32)
abbrev op30 : HloOp τ sig (Elt Ideal) := unary main_arg5 main_v22 ((transpose S256x128 [1, 0] · transposes_S128x256_S256x128_1_0) : FVec Ideal S128x256 .f32 → FVec Ideal S256x128 .f32)
abbrev op31 : HloOp τ sig (Elt Ideal) := binary main_v21 main_v22 main_v23 ((fun l r => Host.dotGeneral (F := Ideal) dot_S60000x256_S256x128_S60000x128_1_0_0_1_n_n none l r) : FVec Ideal S60000x256 .f32 → FVec Ideal S256x128 .f32 → FVec Ideal S60000x128 .f32)
abbrev op32 : HloOp τ sig (Elt Ideal) := unary main_arg6 main_v24 ((broadcastInDim S1x128 ![1] bcast_S128_S1x128_1) : FVec Ideal S128 .f32 → FVec Ideal S1x128 .f32)
abbrev op33 : HloOp τ sig (Elt Ideal) := unary main_v24 main_v25 ((broadcastInDim S60000x128 ![0, 1] bcast_S1x128_S60000x128_0_1) : FVec Ideal S1x128 .f32 → FVec Ideal S60000x128 .f32)
abbrev op34 : HloOp τ sig (Elt Ideal) := binary main_v23 main_v25 main_v26 ((addf (F := Ideal)) : FVec Ideal S60000x128 .f32 → FVec Ideal S60000x128 .f32 → FVec Ideal S60000x128 .f32)
abbrev op35 : HloOp τ sig (Elt Ideal) := nullary main_call1_cst (constant (F := Ideal) S_ .f32 0x00000000#32)
abbrev op36 : HloOp τ sig (Elt Ideal) := unary main_call1_cst main_call1_v0 ((broadcastInDim S60000x128 ![] bcast_S_S60000x128) : FVec Ideal S_ .f32 → FVec Ideal S60000x128 .f32)
abbrev op37 : HloOp τ sig (Elt Ideal) := binary main_v26 main_call1_v0 main_v27 ((maximumf (F := Ideal)) : FVec Ideal S60000x128 .f32 → FVec Ideal S60000x128 .f32 → FVec Ideal S60000x128 .f32)
abbrev op38 : HloOp τ sig (Elt Ideal) := nullary main_cst_3 (constant (F := Ideal) S_ .f32 0x00000000#32)
abbrev op39 : HloOp τ sig (Elt Ideal) := binary main_v27 main_cst_3 main_v28 ((fun x v => Host.reduceAdd (F := Ideal) x v reducesTo_S60000x128_S128_d0 h_S_) : FVec Ideal S60000x128 .f32 → FVec Ideal S_ .f32 → FVec Ideal S128 .f32)
abbrev op40 : HloOp τ sig (Elt Ideal) := nullary main_cst_4 (constant (F := Ideal) S_ .f32 0x476A6000#32)
abbrev op41 : HloOp τ sig (Elt Ideal) := unary main_cst_4 main_v29 ((broadcastInDim S128 ![] bcast_S_S128) : FVec Ideal S_ .f32 → FVec Ideal S128 .f32)
abbrev op42 : HloOp τ sig (Elt Ideal) := binary main_v28 main_v29 main_v30 ((Host.divf (F := Ideal)) : FVec Ideal S128 .f32 → FVec Ideal S128 .f32 → FVec Ideal S128 .f32)
abbrev op43 : HloOp τ sig (Elt Ideal) := nullary main_c_5 (constantI S_ 32 0#32)
abbrev op44 : HloOp τ sig (Elt Ideal) := nullary main_call2_cst (constant (F := Ideal) S_ .f32 0x00000000#32)
abbrev op45 : HloOp τ sig (Elt Ideal) := binary main_v27 main_call2_cst main_call2_v0 ((fun x v => Host.reduceAdd (F := Ideal) x v reducesTo_S60000x128_S128_d0 h_S_) : FVec Ideal S60000x128 .f32 → FVec Ideal S_ .f32 → FVec Ideal S128 .f32)
abbrev op46 : HloOp τ sig (Elt Ideal) := unary main_call2_v0 main_call2_v1 ((broadcastInDim S1x128 ![1] bcast_S128_S1x128_1) : FVec Ideal S128 .f32 → FVec Ideal S1x128 .f32)
abbrev op47 : HloOp τ sig (Elt Ideal) := nullary main_call2_cst_0 (constant (F := Ideal) S_ .f32 0x476A6000#32)
abbrev op48 : HloOp τ sig (Elt Ideal) := unary main_call2_cst_0 main_call2_v2 ((broadcastInDim S1x128 ![] bcast_S_S1x128) : FVec Ideal S_ .f32 → FVec Ideal S1x128 .f32)
abbrev op49 : HloOp τ sig (Elt Ideal) := binary main_call2_v1 main_call2_v2 main_call2_v3 ((Host.divf (F := Ideal)) : FVec Ideal S1x128 .f32 → FVec Ideal S1x128 .f32 → FVec Ideal S1x128 .f32)
abbrev op50 : HloOp τ sig (Elt Ideal) := unary main_call2_v3 main_call2_v4 ((broadcastInDim S60000x128 ![0, 1] bcast_S1x128_S60000x128_0_1) : FVec Ideal S1x128 .f32 → FVec Ideal S60000x128 .f32)
abbrev op51 : HloOp τ sig (Elt Ideal) := binary main_v27 main_call2_v4 main_call2_v5 ((subf (F := Ideal)) : FVec Ideal S60000x128 .f32 → FVec Ideal S60000x128 .f32 → FVec Ideal S60000x128 .f32)
abbrev op52 : HloOp τ sig (Elt Ideal) := binary main_call2_v5 main_call2_v5 main_call2_v6 ((mulf (F := Ideal)) : FVec Ideal S60000x128 .f32 → FVec Ideal S60000x128 .f32 → FVec Ideal S60000x128 .f32)
abbrev op53 : HloOp τ sig (Elt Ideal) := unary main_c_5 main_call2_v7 ((sitofp (F := Ideal) .f32) : IVec S_ 32 → FVec Ideal S_ .f32)
abbrev op54 : HloOp τ sig (Elt Ideal) := nullary main_call2_cst_1 (constant (F := Ideal) S_ .f32 0x476A6000#32)
abbrev op55 : HloOp τ sig (Elt Ideal) := binary main_call2_cst_1 main_call2_v7 main_call2_v8 ((subf (F := Ideal)) : FVec Ideal S_ .f32 → FVec Ideal S_ .f32 → FVec Ideal S_ .f32)
abbrev op56 : HloOp τ sig (Elt Ideal) := nullary main_call2_cst_2 (constant (F := Ideal) S_ .f32 0x00000000#32)
abbrev op57 : HloOp τ sig (Elt Ideal) := binary main_call2_v6 main_call2_cst_2 main_call2_v9 ((fun x v => Host.reduceAdd (F := Ideal) x v reducesTo_S60000x128_S128_d0 h_S_) : FVec Ideal S60000x128 .f32 → FVec Ideal S_ .f32 → FVec Ideal S128 .f32)
abbrev op58 : HloOp τ sig (Elt Ideal) := unary main_call2_v8 main_call2_v10 ((broadcastInDim S128 ![] bcast_S_S128) : FVec Ideal S_ .f32 → FVec Ideal S128 .f32)
abbrev op59 : HloOp τ sig (Elt Ideal) := binary main_call2_v9 main_call2_v10 main_call2_v11 ((Host.divf (F := Ideal)) : FVec Ideal S128 .f32 → FVec Ideal S128 .f32 → FVec Ideal S128 .f32)
abbrev op60 : HloOp τ sig (Elt Ideal) := nullary main_call2_cst_3 (constant (F := Ideal) S_ .f32 0x00000000#32)
abbrev op61 : HloOp τ sig (Elt Ideal) := binary main_call2_v8 main_call2_cst_3 main_call2_v12 ((cmpf (F := Ideal) .ogt) : FVec Ideal S_ .f32 → FVec Ideal S_ .f32 → IVec S_ 1)
abbrev op62 : HloOp τ sig (Elt Ideal) := nullary main_call2_cst_4 (constant (F := Ideal) S_ .f32 0x7FC00000#32)
abbrev op63 : HloOp τ sig (Elt Ideal) := unary main_call2_cst_4 main_call2_call0_v0 ((id) : FVec Ideal S_ .f32 → FVec Ideal S_ .f32)
abbrev op64 : HloOp τ sig (Elt Ideal) := unary main_call2_call0_v0 main_call2_call0_v1 ((broadcastInDim S128 ![] bcast_S_S128) : FVec Ideal S_ .f32 → FVec Ideal S128 .f32)
abbrev op65 : HloOp τ sig (Elt Ideal) := ternary main_call2_v12 main_call2_v11 main_call2_call0_v1 main_v31 ((fun p a b => select (broadcastInDim S128 ![] bcast_S_S128 p) a b) : IVec S_ 1 → FVec Ideal S128 .f32 → FVec Ideal S128 .f32 → FVec Ideal S128 .f32)
abbrev op66 : HloOp τ sig (Elt Ideal) := unary main_v30 main_v32 ((broadcastInDim S1x128 ![1] bcast_S128_S1x128_1) : FVec Ideal S128 .f32 → FVec Ideal S1x128 .f32)
abbrev op67 : HloOp τ sig (Elt Ideal) := unary main_v32 main_v33 ((broadcastInDim S60000x128 ![0, 1] bcast_S1x128_S60000x128_0_1) : FVec Ideal S1x128 .f32 → FVec Ideal S60000x128 .f32)
abbrev op68 : HloOp τ sig (Elt Ideal) := binary main_v27 main_v33 main_v34 ((subf (F := Ideal)) : FVec Ideal S60000x128 .f32 → FVec Ideal S60000x128 .f32 → FVec Ideal S60000x128 .f32)
abbrev op69 : HloOp τ sig (Elt Ideal) := nullary main_cst_6 (constant (F := Ideal) S_ .f32 0x3727C5AC#32)
abbrev op70 : HloOp τ sig (Elt Ideal) := unary main_cst_6 main_v35 ((broadcastInDim S128 ![] bcast_S_S128) : FVec Ideal S_ .f32 → FVec Ideal S128 .f32)
abbrev op71 : HloOp τ sig (Elt Ideal) := binary main_v31 main_v35 main_v36 ((addf (F := Ideal)) : FVec Ideal S128 .f32 → FVec Ideal S128 .f32 → FVec Ideal S128 .f32)
abbrev op72 : HloOp τ sig (Elt Ideal) := unary main_v36 main_v37 ((Host.rsqrt (F := Ideal)) : FVec Ideal S128 .f32 → FVec Ideal S128 .f32)
abbrev op73 : HloOp τ sig (Elt Ideal) := unary main_v37 main_v38 ((broadcastInDim S1x128 ![1] bcast_S128_S1x128_1) : FVec Ideal S128 .f32 → FVec Ideal S1x128 .f32)
abbrev op74 : HloOp τ sig (Elt Ideal) := unary main_v38 main_v39 ((broadcastInDim S60000x128 ![0, 1] bcast_S1x128_S60000x128_0_1) : FVec Ideal S1x128 .f32 → FVec Ideal S60000x128 .f32)
abbrev op75 : HloOp τ sig (Elt Ideal) := binary main_v34 main_v39 main_v40 ((mulf (F := Ideal)) : FVec Ideal S60000x128 .f32 → FVec Ideal S60000x128 .f32 → FVec Ideal S60000x128 .f32)
abbrev op76 : HloOp τ sig (Elt Ideal) := unary main_arg9 main_v41 ((broadcastInDim S1x128 ![1] bcast_S128_S1x128_1) : FVec Ideal S128 .f32 → FVec Ideal S1x128 .f32)
abbrev op77 : HloOp τ sig (Elt Ideal) := unary main_v41 main_v42 ((broadcastInDim S60000x128 ![0, 1] bcast_S1x128_S60000x128_0_1) : FVec Ideal S1x128 .f32 → FVec Ideal S60000x128 .f32)
abbrev op78 : HloOp τ sig (Elt Ideal) := binary main_v40 main_v42 main_v43 ((mulf (F := Ideal)) : FVec Ideal S60000x128 .f32 → FVec Ideal S60000x128 .f32 → FVec Ideal S60000x128 .f32)
abbrev op79 : HloOp τ sig (Elt Ideal) := unary main_arg10 main_v44 ((broadcastInDim S1x128 ![1] bcast_S128_S1x128_1) : FVec Ideal S128 .f32 → FVec Ideal S1x128 .f32)
abbrev op80 : HloOp τ sig (Elt Ideal) := unary main_v44 main_v45 ((broadcastInDim S60000x128 ![0, 1] bcast_S1x128_S60000x128_0_1) : FVec Ideal S1x128 .f32 → FVec Ideal S60000x128 .f32)
abbrev op81 : HloOp τ sig (Elt Ideal) := binary main_v43 main_v45 main_v46 ((addf (F := Ideal)) : FVec Ideal S60000x128 .f32 → FVec Ideal S60000x128 .f32 → FVec Ideal S60000x128 .f32)
abbrev op82 : HloOp τ sig (Elt Ideal) := binary main_v46 main_v46 main_call3_v0 ((mulf (F := Ideal)) : FVec Ideal S60000x128 .f32 → FVec Ideal S60000x128 .f32 → FVec Ideal S60000x128 .f32)
abbrev op83 : HloOp τ sig (Elt Ideal) := nullary main_call3_cst (constant (F := Ideal) S_ .f32 0x00000000#32)
abbrev op84 : HloOp τ sig (Elt Ideal) := binary main_call3_v0 main_call3_cst main_call3_v1 ((fun x v => Host.reduceAdd (F := Ideal) x v reducesTo_S60000x128_S60000_d1 h_S_) : FVec Ideal S60000x128 .f32 → FVec Ideal S_ .f32 → FVec Ideal S60000 .f32)
abbrev op85 : HloOp τ sig (Elt Ideal) := unary main_call3_v1 main_call3_v2 ((broadcastInDim S60000x1 ![0] bcast_S60000_S60000x1_0) : FVec Ideal S60000 .f32 → FVec Ideal S60000x1 .f32)
abbrev op86 : HloOp τ sig (Elt Ideal) := unary main_call3_v2 main_v47 ((Host.sqrt (F := Ideal)) : FVec Ideal S60000x1 .f32 → FVec Ideal S60000x1 .f32)
abbrev op87 : HloOp τ sig (Elt Ideal) := nullary main_cst_7 (constant (F := Ideal) S_ .f32 0x358637BD#32)
abbrev op88 : HloOp τ sig (Elt Ideal) := unary main_cst_7 main_v48 ((broadcastInDim S60000x1 ![] bcast_S_S60000x1) : FVec Ideal S_ .f32 → FVec Ideal S60000x1 .f32)
abbrev op89 : HloOp τ sig (Elt Ideal) := binary main_v47 main_v48 main_v49 ((addf (F := Ideal)) : FVec Ideal S60000x1 .f32 → FVec Ideal S60000x1 .f32 → FVec Ideal S60000x1 .f32)
abbrev op90 : HloOp τ sig (Elt Ideal) := unary main_v49 main_v50 ((broadcastInDim S60000x128 ![0, 1] bcast_S60000x1_S60000x128_0_1) : FVec Ideal S60000x1 .f32 → FVec Ideal S60000x128 .f32)
abbrev op91 : HloOp τ sig (Elt Ideal) := binary main_v46 main_v50 main_v51 ((Host.divf (F := Ideal)) : FVec Ideal S60000x128 .f32 → FVec Ideal S60000x128 .f32 → FVec Ideal S60000x128 .f32)
abbrev op92 : HloOp τ sig (Elt Ideal) := unary main_arg3 main_v52 ((transpose S128x128 [1, 0] · transposes_S128x128_S128x128_1_0) : FVec Ideal S128x128 .f32 → FVec Ideal S128x128 .f32)
abbrev op93 : HloOp τ sig (Elt Ideal) := binary main_v51 main_v52 main_v53 ((fun l r => Host.dotGeneral (F := Ideal) dot_S60000x128_S128x128_S60000x128_1_0_0_1_n_n none l r) : FVec Ideal S60000x128 .f32 → FVec Ideal S128x128 .f32 → FVec Ideal S60000x128 .f32)
abbrev op94 : HloOp τ sig (Elt Ideal) := unary main_arg4 main_v54 ((broadcastInDim S1x128 ![1] bcast_S128_S1x128_1) : FVec Ideal S128 .f32 → FVec Ideal S1x128 .f32)
abbrev op95 : HloOp τ sig (Elt Ideal) := unary main_v54 main_v55 ((broadcastInDim S60000x128 ![0, 1] bcast_S1x128_S60000x128_0_1) : FVec Ideal S1x128 .f32 → FVec Ideal S60000x128 .f32)
abbrev op96 : HloOp τ sig (Elt Ideal) := binary main_v53 main_v55 main_v56 ((addf (F := Ideal)) : FVec Ideal S60000x128 .f32 → FVec Ideal S60000x128 .f32 → FVec Ideal S60000x128 .f32)
abbrev op97 : HloOp τ sig (Elt Ideal) := nullary main_call4_cst (constant (F := Ideal) S_ .f32 0x00000000#32)
abbrev op98 : HloOp τ sig (Elt Ideal) := unary main_call4_cst main_call4_v0 ((broadcastInDim S60000x128 ![] bcast_S_S60000x128) : FVec Ideal S_ .f32 → FVec Ideal S60000x128 .f32)
abbrev op99 : HloOp τ sig (Elt Ideal) := binary main_v56 main_call4_v0 main_v57 ((maximumf (F := Ideal)) : FVec Ideal S60000x128 .f32 → FVec Ideal S60000x128 .f32 → FVec Ideal S60000x128 .f32)
abbrev op100 : HloOp τ sig (Elt Ideal) := nullary main_c_8 (constantI S_ 32 0#32)
abbrev op101 : HloOp τ sig (Elt Ideal) := unary main_c_8 main_v58 ((broadcastInDim S30000x25 ![] bcast_S_S30000x25) : IVec S_ 32 → IVec S30000x25 32)
abbrev op102 : HloOp τ sig (Elt Ideal) := binary main_arg13 main_v58 main_v59 ((cmpi .slt) : IVec S30000x25 32 → IVec S30000x25 32 → IVec S30000x25 1)
abbrev op103 : HloOp τ sig (Elt Ideal) := nullary main_c_9 (constantI S_ 32 60000#32)
abbrev op104 : HloOp τ sig (Elt Ideal) := unary main_c_9 main_v60 ((broadcastInDim S30000x25 ![] bcast_S_S30000x25) : IVec S_ 32 → IVec S30000x25 32)
abbrev op105 : HloOp τ sig (Elt Ideal) := binary main_arg13 main_v60 main_v61 ((addi) : IVec S30000x25 32 → IVec S30000x25 32 → IVec S30000x25 32)
abbrev op106 : HloOp τ sig (Elt Ideal) := ternary main_v59 main_v61 main_arg13 main_v62 ((select) : IVec S30000x25 1 → IVec S30000x25 32 → IVec S30000x25 32 → IVec S30000x25 32)
abbrev op107 : HloOp τ sig (Elt Ideal) := unary main_v62 main_v63 ((broadcastInDim S30000x25x1 ![0, 1] bcast_S30000x25_S30000x25x1_0_1) : IVec S30000x25 32 → IVec S30000x25x1 32)
abbrev op108 : HloOp τ sig (Elt Ideal) := binary main_v57 main_v63 main_v64 ((fun x i => Host.gather gather_S60000x128_S30000x25x1_S30000x25x128_2_0_n_n_0_2_1128 x i) : FVec Ideal S60000x128 .f32 → IVec S30000x25x1 32 → FVec Ideal S30000x25x128 .f32)
abbrev op109 : HloOp τ sig (Elt Ideal) := nullary main_cst_10 (constant (F := Ideal) S_ .f32 0xFF800000#32)
abbrev op110 : HloOp τ sig (Elt Ideal) := binary main_v64 main_cst_10 main_v65 ((fun x v => Host.reduce (FloatOps.maximumf (F := Ideal) (φ := .f32)) x v reducesTo_S30000x25x128_S30000x128_d1 h_S_) : FVec Ideal S30000x25x128 .f32 → FVec Ideal S_ .f32 → FVec Ideal S30000x128 .f32)
abbrev op111 : HloOp τ sig (Elt Ideal) := nullary main_c_11 (constantI S_ 32 0#32)
abbrev op112 : HloOp τ sig (Elt Ideal) := unary main_c_11 main_v66 ((broadcastInDim S30000 ![] bcast_S_S30000) : IVec S_ 32 → IVec S30000 32)
abbrev op113 : HloOp τ sig (Elt Ideal) := binary main_arg14 main_v66 main_v67 ((cmpi .slt) : IVec S30000 32 → IVec S30000 32 → IVec S30000 1)
abbrev op114 : HloOp τ sig (Elt Ideal) := nullary main_c_12 (constantI S_ 32 60000#32)
abbrev op115 : HloOp τ sig (Elt Ideal) := unary main_c_12 main_v68 ((broadcastInDim S30000 ![] bcast_S_S30000) : IVec S_ 32 → IVec S30000 32)
abbrev op116 : HloOp τ sig (Elt Ideal) := binary main_arg14 main_v68 main_v69 ((addi) : IVec S30000 32 → IVec S30000 32 → IVec S30000 32)
abbrev op117 : HloOp τ sig (Elt Ideal) := ternary main_v67 main_v69 main_arg14 main_v70 ((select) : IVec S30000 1 → IVec S30000 32 → IVec S30000 32 → IVec S30000 32)
abbrev op118 : HloOp τ sig (Elt Ideal) := unary main_v70 main_v71 ((broadcastInDim S30000x1 ![0] bcast_S30000_S30000x1_0) : IVec S30000 32 → IVec S30000x1 32)
abbrev op119 : HloOp τ sig (Elt Ideal) := binary main_v51 main_v71 main_v72 ((fun x i => Host.gather gather_S60000x128_S30000x1_S30000x128_1_0_n_n_0_1_1128 x i) : FVec Ideal S60000x128 .f32 → IVec S30000x1 32 → FVec Ideal S30000x128 .f32)
abbrev op120 : HloOp τ sig (Elt Ideal) := binary main_v72 main_v65 main_v73 ((fun a b => concatenate S30000x256 1 [⟨S30000x128, a⟩, ⟨S30000x128, b⟩] concatenates_S30000x128_S30000x128_S30000x256_d1) : FVec Ideal S30000x128 .f32 → FVec Ideal S30000x128 .f32 → FVec Ideal S30000x256 .f32)
abbrev op121 : HloOp τ sig (Elt Ideal) := unary main_arg7 main_v74 ((transpose S256x128 [1, 0] · transposes_S128x256_S256x128_1_0) : FVec Ideal S128x256 .f32 → FVec Ideal S256x128 .f32)
abbrev op122 : HloOp τ sig (Elt Ideal) := binary main_v73 main_v74 main_v75 ((fun l r => Host.dotGeneral (F := Ideal) dot_S30000x256_S256x128_S30000x128_1_0_0_1_n_n none l r) : FVec Ideal S30000x256 .f32 → FVec Ideal S256x128 .f32 → FVec Ideal S30000x128 .f32)
abbrev op123 : HloOp τ sig (Elt Ideal) := unary main_arg8 main_v76 ((broadcastInDim S1x128 ![1] bcast_S128_S1x128_1) : FVec Ideal S128 .f32 → FVec Ideal S1x128 .f32)
abbrev op124 : HloOp τ sig (Elt Ideal) := unary main_v76 main_v77 ((broadcastInDim S30000x128 ![0, 1] bcast_S1x128_S30000x128_0_1) : FVec Ideal S1x128 .f32 → FVec Ideal S30000x128 .f32)
abbrev op125 : HloOp τ sig (Elt Ideal) := binary main_v75 main_v77 main_v78 ((addf (F := Ideal)) : FVec Ideal S30000x128 .f32 → FVec Ideal S30000x128 .f32 → FVec Ideal S30000x128 .f32)

/-- The operations of the first part of the entry function, the called functions' bodies in place. -/
abbrev ops0 : List (HloOp τ sig (Elt Ideal)) :=
  [op1, op2, op3, op4, op5, op6, op7, op8, op9, op10, op11, op12,
   op13, op14, op15, op16, op17, op18, op19, op20, op21, op22, op23, op24,
   op25, op26, op27, op28, op29, op30, op31, op32, op33, op34, op35, op36,
   op37, op38, op39, op40, op41, op42, op43, op44, op45, op46, op47, op48,
   op49, op50, op51, op52, op53, op54, op55, op56, op57, op58, op59, op60,
   op61, op62, op63, op64, op65, op66, op67, op68, op69, op70, op71, op72,
   op73, op74, op75, op76, op77, op78, op79, op80, op81, op82, op83, op84,
   op85, op86, op87, op88, op89]

/-- The operations of the second part. -/
abbrev ops1 : List (HloOp τ sig (Elt Ideal)) :=
  [op90, op91, op92, op93, op94, op95, op96, op97, op98, op99, op100, op101,
   op102, op103, op104, op105, op106, op107, op108, op109, op110, op111, op112, op113,
   op114, op115, op116, op117, op118, op119, op120, op121, op122, op123, op124, op125]

/-- All of them, in order. -/
abbrev ops : List (HloOp τ sig (Elt Ideal)) :=
  [op1, op2, op3, op4, op5, op6, op7, op8, op9, op10, op11, op12,
   op13, op14, op15, op16, op17, op18, op19, op20, op21, op22, op23, op24,
   op25, op26, op27, op28, op29, op30, op31, op32, op33, op34, op35, op36,
   op37, op38, op39, op40, op41, op42, op43, op44, op45, op46, op47, op48,
   op49, op50, op51, op52, op53, op54, op55, op56, op57, op58, op59, op60,
   op61, op62, op63, op64, op65, op66, op67, op68, op69, op70, op71, op72,
   op73, op74, op75, op76, op77, op78, op79, op80, op81, op82, op83, op84,
   op85, op86, op87, op88, op89, op90, op91, op92, op93, op94, op95, op96,
   op97, op98, op99, op100, op101, op102, op103, op104, op105, op106, op107, op108,
   op109, op110, op111, op112, op113, op114, op115, op116, op117, op118, op119, op120,
   op121, op122, op123, op124, op125]

/-- The argument arrays' buffers. -/
abbrev argRef : Fin 15 → Ref sig .tc :=
  ![main_arg0, main_arg1, main_arg2, main_arg3, main_arg4, main_arg5, main_arg6, main_arg7, main_arg8, main_arg9, main_arg10, main_arg11, main_arg12, main_arg13, main_arg14]

def P1 (V : Valuation τ sig (Elt Ideal)) : Valuation τ sig (Elt Ideal) := op1.result V
theorem keep1 (V : Valuation τ sig (Elt Ideal)) (r : Ref sig .tc) (h : r ≠ main_v0) : P1 V (Proc.devRef .tc r) = V (Proc.devRef .tc r) := by
  unfold P1; rw [unary_result_ne]; exact h
theorem args1 (V : Valuation τ sig (Elt Ideal)) (i : Fin 15) : P1 V (Proc.devRef .tc (argRef i)) = V (Proc.devRef .tc (argRef i)) :=
  keep1 V (argRef i) (by revert i; decide)
def P2 (V : Valuation τ sig (Elt Ideal)) : Valuation τ sig (Elt Ideal) := op2.result (P1 V)
theorem keep2 (V : Valuation τ sig (Elt Ideal)) (r : Ref sig .tc) (h : r ≠ main_v1) : P2 V (Proc.devRef .tc r) = (P1 V) (Proc.devRef .tc r) := by
  unfold P2; rw [binary_result_ne]; exact h
theorem args2 (V : Valuation τ sig (Elt Ideal)) (i : Fin 15) : P2 V (Proc.devRef .tc (argRef i)) = V (Proc.devRef .tc (argRef i)) :=
  (keep2 V (argRef i) (by revert i; decide)).trans (args1 V i)
def P3 (V : Valuation τ sig (Elt Ideal)) : Valuation τ sig (Elt Ideal) := op3.result (P2 V)
theorem keep3 (V : Valuation τ sig (Elt Ideal)) (r : Ref sig .tc) (h : r ≠ main_v2) : P3 V (Proc.devRef .tc r) = (P2 V) (Proc.devRef .tc r) := by
  unfold P3; rw [unary_result_ne]; exact h
theorem args3 (V : Valuation τ sig (Elt Ideal)) (i : Fin 15) : P3 V (Proc.devRef .tc (argRef i)) = V (Proc.devRef .tc (argRef i)) :=
  (keep3 V (argRef i) (by revert i; decide)).trans (args2 V i)
def P4 (V : Valuation τ sig (Elt Ideal)) : Valuation τ sig (Elt Ideal) := op4.result (P3 V)
theorem keep4 (V : Valuation τ sig (Elt Ideal)) (r : Ref sig .tc) (h : r ≠ main_v3) : P4 V (Proc.devRef .tc r) = (P3 V) (Proc.devRef .tc r) := by
  unfold P4; rw [unary_result_ne]; exact h
theorem args4 (V : Valuation τ sig (Elt Ideal)) (i : Fin 15) : P4 V (Proc.devRef .tc (argRef i)) = V (Proc.devRef .tc (argRef i)) :=
  (keep4 V (argRef i) (by revert i; decide)).trans (args3 V i)
def P5 (V : Valuation τ sig (Elt Ideal)) : Valuation τ sig (Elt Ideal) := op5.result (P4 V)
theorem keep5 (V : Valuation τ sig (Elt Ideal)) (r : Ref sig .tc) (h : r ≠ main_v4) : P5 V (Proc.devRef .tc r) = (P4 V) (Proc.devRef .tc r) := by
  unfold P5; rw [binary_result_ne]; exact h
theorem args5 (V : Valuation τ sig (Elt Ideal)) (i : Fin 15) : P5 V (Proc.devRef .tc (argRef i)) = V (Proc.devRef .tc (argRef i)) :=
  (keep5 V (argRef i) (by revert i; decide)).trans (args4 V i)
def P6 (V : Valuation τ sig (Elt Ideal)) : Valuation τ sig (Elt Ideal) := op6.result (P5 V)
theorem keep6 (V : Valuation τ sig (Elt Ideal)) (r : Ref sig .tc) (h : r ≠ main_call0_cst) : P6 V (Proc.devRef .tc r) = (P5 V) (Proc.devRef .tc r) := by
  unfold P6; rw [nullary_result_ne]; exact h
theorem args6 (V : Valuation τ sig (Elt Ideal)) (i : Fin 15) : P6 V (Proc.devRef .tc (argRef i)) = V (Proc.devRef .tc (argRef i)) :=
  (keep6 V (argRef i) (by revert i; decide)).trans (args5 V i)
def P7 (V : Valuation τ sig (Elt Ideal)) : Valuation τ sig (Elt Ideal) := op7.result (P6 V)
theorem keep7 (V : Valuation τ sig (Elt Ideal)) (r : Ref sig .tc) (h : r ≠ main_call0_v0) : P7 V (Proc.devRef .tc r) = (P6 V) (Proc.devRef .tc r) := by
  unfold P7; rw [unary_result_ne]; exact h
theorem args7 (V : Valuation τ sig (Elt Ideal)) (i : Fin 15) : P7 V (Proc.devRef .tc (argRef i)) = V (Proc.devRef .tc (argRef i)) :=
  (keep7 V (argRef i) (by revert i; decide)).trans (args6 V i)
def P8 (V : Valuation τ sig (Elt Ideal)) : Valuation τ sig (Elt Ideal) := op8.result (P7 V)
theorem keep8 (V : Valuation τ sig (Elt Ideal)) (r : Ref sig .tc) (h : r ≠ main_v5) : P8 V (Proc.devRef .tc r) = (P7 V) (Proc.devRef .tc r) := by
  unfold P8; rw [binary_result_ne]; exact h
theorem args8 (V : Valuation τ sig (Elt Ideal)) (i : Fin 15) : P8 V (Proc.devRef .tc (argRef i)) = V (Proc.devRef .tc (argRef i)) :=
  (keep8 V (argRef i) (by revert i; decide)).trans (args7 V i)
def P9 (V : Valuation τ sig (Elt Ideal)) : Valuation τ sig (Elt Ideal) := op9.result (P8 V)
theorem keep9 (V : Valuation τ sig (Elt Ideal)) (r : Ref sig .tc) (h : r ≠ main_c) : P9 V (Proc.devRef .tc r) = (P8 V) (Proc.devRef .tc r) := by
  unfold P9; rw [nullary_result_ne]; exact h
theorem args9 (V : Valuation τ sig (Elt Ideal)) (i : Fin 15) : P9 V (Proc.devRef .tc (argRef i)) = V (Proc.devRef .tc (argRef i)) :=
  (keep9 V (argRef i) (by revert i; decide)).trans (args8 V i)
def P10 (V : Valuation τ sig (Elt Ideal)) : Valuation τ sig (Elt Ideal) := op10.result (P9 V)
theorem keep10 (V : Valuation τ sig (Elt Ideal)) (r : Ref sig .tc) (h : r ≠ main_v6) : P10 V (Proc.devRef .tc r) = (P9 V) (Proc.devRef .tc r) := by
  unfold P10; rw [unary_result_ne]; exact h
theorem args10 (V : Valuation τ sig (Elt Ideal)) (i : Fin 15) : P10 V (Proc.devRef .tc (argRef i)) = V (Proc.devRef .tc (argRef i)) :=
  (keep10 V (argRef i) (by revert i; decide)).trans (args9 V i)
def P11 (V : Valuation τ sig (Elt Ideal)) : Valuation τ sig (Elt Ideal) := op11.result (P10 V)
theorem keep11 (V : Valuation τ sig (Elt Ideal)) (r : Ref sig .tc) (h : r ≠ main_v7) : P11 V (Proc.devRef .tc r) = (P10 V) (Proc.devRef .tc r) := by
  unfold P11; rw [binary_result_ne]; exact h
theorem args11 (V : Valuation τ sig (Elt Ideal)) (i : Fin 15) : P11 V (Proc.devRef .tc (argRef i)) = V (Proc.devRef .tc (argRef i)) :=
  (keep11 V (argRef i) (by revert i; decide)).trans (args10 V i)
def P12 (V : Valuation τ sig (Elt Ideal)) : Valuation τ sig (Elt Ideal) := op12.result (P11 V)
theorem keep12 (V : Valuation τ sig (Elt Ideal)) (r : Ref sig .tc) (h : r ≠ main_c_0) : P12 V (Proc.devRef .tc r) = (P11 V) (Proc.devRef .tc r) := by
  unfold P12; rw [nullary_result_ne]; exact h
theorem args12 (V : Valuation τ sig (Elt Ideal)) (i : Fin 15) : P12 V (Proc.devRef .tc (argRef i)) = V (Proc.devRef .tc (argRef i)) :=
  (keep12 V (argRef i) (by revert i; decide)).trans (args11 V i)
def P13 (V : Valuation τ sig (Elt Ideal)) : Valuation τ sig (Elt Ideal) := op13.result (P12 V)
theorem keep13 (V : Valuation τ sig (Elt Ideal)) (r : Ref sig .tc) (h : r ≠ main_v8) : P13 V (Proc.devRef .tc r) = (P12 V) (Proc.devRef .tc r) := by
  unfold P13; rw [unary_result_ne]; exact h
theorem args13 (V : Valuation τ sig (Elt Ideal)) (i : Fin 15) : P13 V (Proc.devRef .tc (argRef i)) = V (Proc.devRef .tc (argRef i)) :=
  (keep13 V (argRef i) (by revert i; decide)).trans (args12 V i)
def P14 (V : Valuation τ sig (Elt Ideal)) : Valuation τ sig (Elt Ideal) := op14.result (P13 V)
theorem keep14 (V : Valuation τ sig (Elt Ideal)) (r : Ref sig .tc) (h : r ≠ main_v9) : P14 V (Proc.devRef .tc r) = (P13 V) (Proc.devRef .tc r) := by
  unfold P14; rw [binary_result_ne]; exact h
theorem args14 (V : Valuation τ sig (Elt Ideal)) (i : Fin 15) : P14 V (Proc.devRef .tc (argRef i)) = V (Proc.devRef .tc (argRef i)) :=
  (keep14 V (argRef i) (by revert i; decide)).trans (args13 V i)
def P15 (V : Valuation τ sig (Elt Ideal)) : Valuation τ sig (Elt Ideal) := op15.result (P14 V)
theorem keep15 (V : Valuation τ sig (Elt Ideal)) (r : Ref sig .tc) (h : r ≠ main_v10) : P15 V (Proc.devRef .tc r) = (P14 V) (Proc.devRef .tc r) := by
  unfold P15; rw [ternary_result_ne]; exact h
theorem args15 (V : Valuation τ sig (Elt Ideal)) (i : Fin 15) : P15 V (Proc.devRef .tc (argRef i)) = V (Proc.devRef .tc (argRef i)) :=
  (keep15 V (argRef i) (by revert i; decide)).trans (args14 V i)
def P16 (V : Valuation τ sig (Elt Ideal)) : Valuation τ sig (Elt Ideal) := op16.result (P15 V)
theorem keep16 (V : Valuation τ sig (Elt Ideal)) (r : Ref sig .tc) (h : r ≠ main_v11) : P16 V (Proc.devRef .tc r) = (P15 V) (Proc.devRef .tc r) := by
  unfold P16; rw [unary_result_ne]; exact h
theorem args16 (V : Valuation τ sig (Elt Ideal)) (i : Fin 15) : P16 V (Proc.devRef .tc (argRef i)) = V (Proc.devRef .tc (argRef i)) :=
  (keep16 V (argRef i) (by revert i; decide)).trans (args15 V i)
def P17 (V : Valuation τ sig (Elt Ideal)) : Valuation τ sig (Elt Ideal) := op17.result (P16 V)
theorem keep17 (V : Valuation τ sig (Elt Ideal)) (r : Ref sig .tc) (h : r ≠ main_v12) : P17 V (Proc.devRef .tc r) = (P16 V) (Proc.devRef .tc r) := by
  unfold P17; rw [binary_result_ne]; exact h
theorem args17 (V : Valuation τ sig (Elt Ideal)) (i : Fin 15) : P17 V (Proc.devRef .tc (argRef i)) = V (Proc.devRef .tc (argRef i)) :=
  (keep17 V (argRef i) (by revert i; decide)).trans (args16 V i)
def P18 (V : Valuation τ sig (Elt Ideal)) : Valuation τ sig (Elt Ideal) := op18.result (P17 V)
theorem keep18 (V : Valuation τ sig (Elt Ideal)) (r : Ref sig .tc) (h : r ≠ main_cst) : P18 V (Proc.devRef .tc r) = (P17 V) (Proc.devRef .tc r) := by
  unfold P18; rw [nullary_result_ne]; exact h
theorem args18 (V : Valuation τ sig (Elt Ideal)) (i : Fin 15) : P18 V (Proc.devRef .tc (argRef i)) = V (Proc.devRef .tc (argRef i)) :=
  (keep18 V (argRef i) (by revert i; decide)).trans (args17 V i)
def P19 (V : Valuation τ sig (Elt Ideal)) : Valuation τ sig (Elt Ideal) := op19.result (P18 V)
theorem keep19 (V : Valuation τ sig (Elt Ideal)) (r : Ref sig .tc) (h : r ≠ main_v13) : P19 V (Proc.devRef .tc r) = (P18 V) (Proc.devRef .tc r) := by
  unfold P19; rw [binary_result_ne]; exact h
theorem args19 (V : Valuation τ sig (Elt Ideal)) (i : Fin 15) : P19 V (Proc.devRef .tc (argRef i)) = V (Proc.devRef .tc (argRef i)) :=
  (keep19 V (argRef i) (by revert i; decide)).trans (args18 V i)
def P20 (V : Valuation τ sig (Elt Ideal)) : Valuation τ sig (Elt Ideal) := op20.result (P19 V)
theorem keep20 (V : Valuation τ sig (Elt Ideal)) (r : Ref sig .tc) (h : r ≠ main_c_1) : P20 V (Proc.devRef .tc r) = (P19 V) (Proc.devRef .tc r) := by
  unfold P20; rw [nullary_result_ne]; exact h
theorem args20 (V : Valuation τ sig (Elt Ideal)) (i : Fin 15) : P20 V (Proc.devRef .tc (argRef i)) = V (Proc.devRef .tc (argRef i)) :=
  (keep20 V (argRef i) (by revert i; decide)).trans (args19 V i)
def P21 (V : Valuation τ sig (Elt Ideal)) : Valuation τ sig (Elt Ideal) := op21.result (P20 V)
theorem keep21 (V : Valuation τ sig (Elt Ideal)) (r : Ref sig .tc) (h : r ≠ main_v14) : P21 V (Proc.devRef .tc r) = (P20 V) (Proc.devRef .tc r) := by
  unfold P21; rw [unary_result_ne]; exact h
theorem args21 (V : Valuation τ sig (Elt Ideal)) (i : Fin 15) : P21 V (Proc.devRef .tc (argRef i)) = V (Proc.devRef .tc (argRef i)) :=
  (keep21 V (argRef i) (by revert i; decide)).trans (args20 V i)
def P22 (V : Valuation τ sig (Elt Ideal)) : Valuation τ sig (Elt Ideal) := op22.result (P21 V)
theorem keep22 (V : Valuation τ sig (Elt Ideal)) (r : Ref sig .tc) (h : r ≠ main_v15) : P22 V (Proc.devRef .tc r) = (P21 V) (Proc.devRef .tc r) := by
  unfold P22; rw [binary_result_ne]; exact h
theorem args22 (V : Valuation τ sig (Elt Ideal)) (i : Fin 15) : P22 V (Proc.devRef .tc (argRef i)) = V (Proc.devRef .tc (argRef i)) :=
  (keep22 V (argRef i) (by revert i; decide)).trans (args21 V i)
def P23 (V : Valuation τ sig (Elt Ideal)) : Valuation τ sig (Elt Ideal) := op23.result (P22 V)
theorem keep23 (V : Valuation τ sig (Elt Ideal)) (r : Ref sig .tc) (h : r ≠ main_c_2) : P23 V (Proc.devRef .tc r) = (P22 V) (Proc.devRef .tc r) := by
  unfold P23; rw [nullary_result_ne]; exact h
theorem args23 (V : Valuation τ sig (Elt Ideal)) (i : Fin 15) : P23 V (Proc.devRef .tc (argRef i)) = V (Proc.devRef .tc (argRef i)) :=
  (keep23 V (argRef i) (by revert i; decide)).trans (args22 V i)
def P24 (V : Valuation τ sig (Elt Ideal)) : Valuation τ sig (Elt Ideal) := op24.result (P23 V)
theorem keep24 (V : Valuation τ sig (Elt Ideal)) (r : Ref sig .tc) (h : r ≠ main_v16) : P24 V (Proc.devRef .tc r) = (P23 V) (Proc.devRef .tc r) := by
  unfold P24; rw [unary_result_ne]; exact h
theorem args24 (V : Valuation τ sig (Elt Ideal)) (i : Fin 15) : P24 V (Proc.devRef .tc (argRef i)) = V (Proc.devRef .tc (argRef i)) :=
  (keep24 V (argRef i) (by revert i; decide)).trans (args23 V i)
def P25 (V : Valuation τ sig (Elt Ideal)) : Valuation τ sig (Elt Ideal) := op25.result (P24 V)
theorem keep25 (V : Valuation τ sig (Elt Ideal)) (r : Ref sig .tc) (h : r ≠ main_v17) : P25 V (Proc.devRef .tc r) = (P24 V) (Proc.devRef .tc r) := by
  unfold P25; rw [binary_result_ne]; exact h
theorem args25 (V : Valuation τ sig (Elt Ideal)) (i : Fin 15) : P25 V (Proc.devRef .tc (argRef i)) = V (Proc.devRef .tc (argRef i)) :=
  (keep25 V (argRef i) (by revert i; decide)).trans (args24 V i)
def P26 (V : Valuation τ sig (Elt Ideal)) : Valuation τ sig (Elt Ideal) := op26.result (P25 V)
theorem keep26 (V : Valuation τ sig (Elt Ideal)) (r : Ref sig .tc) (h : r ≠ main_v18) : P26 V (Proc.devRef .tc r) = (P25 V) (Proc.devRef .tc r) := by
  unfold P26; rw [ternary_result_ne]; exact h
theorem args26 (V : Valuation τ sig (Elt Ideal)) (i : Fin 15) : P26 V (Proc.devRef .tc (argRef i)) = V (Proc.devRef .tc (argRef i)) :=
  (keep26 V (argRef i) (by revert i; decide)).trans (args25 V i)
def P27 (V : Valuation τ sig (Elt Ideal)) : Valuation τ sig (Elt Ideal) := op27.result (P26 V)
theorem keep27 (V : Valuation τ sig (Elt Ideal)) (r : Ref sig .tc) (h : r ≠ main_v19) : P27 V (Proc.devRef .tc r) = (P26 V) (Proc.devRef .tc r) := by
  unfold P27; rw [unary_result_ne]; exact h
theorem args27 (V : Valuation τ sig (Elt Ideal)) (i : Fin 15) : P27 V (Proc.devRef .tc (argRef i)) = V (Proc.devRef .tc (argRef i)) :=
  (keep27 V (argRef i) (by revert i; decide)).trans (args26 V i)
def P28 (V : Valuation τ sig (Elt Ideal)) : Valuation τ sig (Elt Ideal) := op28.result (P27 V)
theorem keep28 (V : Valuation τ sig (Elt Ideal)) (r : Ref sig .tc) (h : r ≠ main_v20) : P28 V (Proc.devRef .tc r) = (P27 V) (Proc.devRef .tc r) := by
  unfold P28; rw [binary_result_ne]; exact h
theorem args28 (V : Valuation τ sig (Elt Ideal)) (i : Fin 15) : P28 V (Proc.devRef .tc (argRef i)) = V (Proc.devRef .tc (argRef i)) :=
  (keep28 V (argRef i) (by revert i; decide)).trans (args27 V i)
def P29 (V : Valuation τ sig (Elt Ideal)) : Valuation τ sig (Elt Ideal) := op29.result (P28 V)
theorem keep29 (V : Valuation τ sig (Elt Ideal)) (r : Ref sig .tc) (h : r ≠ main_v21) : P29 V (Proc.devRef .tc r) = (P28 V) (Proc.devRef .tc r) := by
  unfold P29; rw [binary_result_ne]; exact h
theorem args29 (V : Valuation τ sig (Elt Ideal)) (i : Fin 15) : P29 V (Proc.devRef .tc (argRef i)) = V (Proc.devRef .tc (argRef i)) :=
  (keep29 V (argRef i) (by revert i; decide)).trans (args28 V i)
def P30 (V : Valuation τ sig (Elt Ideal)) : Valuation τ sig (Elt Ideal) := op30.result (P29 V)
theorem keep30 (V : Valuation τ sig (Elt Ideal)) (r : Ref sig .tc) (h : r ≠ main_v22) : P30 V (Proc.devRef .tc r) = (P29 V) (Proc.devRef .tc r) := by
  unfold P30; rw [unary_result_ne]; exact h
theorem args30 (V : Valuation τ sig (Elt Ideal)) (i : Fin 15) : P30 V (Proc.devRef .tc (argRef i)) = V (Proc.devRef .tc (argRef i)) :=
  (keep30 V (argRef i) (by revert i; decide)).trans (args29 V i)
def P31 (V : Valuation τ sig (Elt Ideal)) : Valuation τ sig (Elt Ideal) := op31.result (P30 V)
theorem keep31 (V : Valuation τ sig (Elt Ideal)) (r : Ref sig .tc) (h : r ≠ main_v23) : P31 V (Proc.devRef .tc r) = (P30 V) (Proc.devRef .tc r) := by
  unfold P31; rw [binary_result_ne]; exact h
theorem args31 (V : Valuation τ sig (Elt Ideal)) (i : Fin 15) : P31 V (Proc.devRef .tc (argRef i)) = V (Proc.devRef .tc (argRef i)) :=
  (keep31 V (argRef i) (by revert i; decide)).trans (args30 V i)
def P32 (V : Valuation τ sig (Elt Ideal)) : Valuation τ sig (Elt Ideal) := op32.result (P31 V)
theorem keep32 (V : Valuation τ sig (Elt Ideal)) (r : Ref sig .tc) (h : r ≠ main_v24) : P32 V (Proc.devRef .tc r) = (P31 V) (Proc.devRef .tc r) := by
  unfold P32; rw [unary_result_ne]; exact h
theorem args32 (V : Valuation τ sig (Elt Ideal)) (i : Fin 15) : P32 V (Proc.devRef .tc (argRef i)) = V (Proc.devRef .tc (argRef i)) :=
  (keep32 V (argRef i) (by revert i; decide)).trans (args31 V i)
def P33 (V : Valuation τ sig (Elt Ideal)) : Valuation τ sig (Elt Ideal) := op33.result (P32 V)
theorem keep33 (V : Valuation τ sig (Elt Ideal)) (r : Ref sig .tc) (h : r ≠ main_v25) : P33 V (Proc.devRef .tc r) = (P32 V) (Proc.devRef .tc r) := by
  unfold P33; rw [unary_result_ne]; exact h
theorem args33 (V : Valuation τ sig (Elt Ideal)) (i : Fin 15) : P33 V (Proc.devRef .tc (argRef i)) = V (Proc.devRef .tc (argRef i)) :=
  (keep33 V (argRef i) (by revert i; decide)).trans (args32 V i)
def P34 (V : Valuation τ sig (Elt Ideal)) : Valuation τ sig (Elt Ideal) := op34.result (P33 V)
theorem keep34 (V : Valuation τ sig (Elt Ideal)) (r : Ref sig .tc) (h : r ≠ main_v26) : P34 V (Proc.devRef .tc r) = (P33 V) (Proc.devRef .tc r) := by
  unfold P34; rw [binary_result_ne]; exact h
theorem args34 (V : Valuation τ sig (Elt Ideal)) (i : Fin 15) : P34 V (Proc.devRef .tc (argRef i)) = V (Proc.devRef .tc (argRef i)) :=
  (keep34 V (argRef i) (by revert i; decide)).trans (args33 V i)
def P35 (V : Valuation τ sig (Elt Ideal)) : Valuation τ sig (Elt Ideal) := op35.result (P34 V)
theorem keep35 (V : Valuation τ sig (Elt Ideal)) (r : Ref sig .tc) (h : r ≠ main_call1_cst) : P35 V (Proc.devRef .tc r) = (P34 V) (Proc.devRef .tc r) := by
  unfold P35; rw [nullary_result_ne]; exact h
theorem args35 (V : Valuation τ sig (Elt Ideal)) (i : Fin 15) : P35 V (Proc.devRef .tc (argRef i)) = V (Proc.devRef .tc (argRef i)) :=
  (keep35 V (argRef i) (by revert i; decide)).trans (args34 V i)
def P36 (V : Valuation τ sig (Elt Ideal)) : Valuation τ sig (Elt Ideal) := op36.result (P35 V)
theorem keep36 (V : Valuation τ sig (Elt Ideal)) (r : Ref sig .tc) (h : r ≠ main_call1_v0) : P36 V (Proc.devRef .tc r) = (P35 V) (Proc.devRef .tc r) := by
  unfold P36; rw [unary_result_ne]; exact h
theorem args36 (V : Valuation τ sig (Elt Ideal)) (i : Fin 15) : P36 V (Proc.devRef .tc (argRef i)) = V (Proc.devRef .tc (argRef i)) :=
  (keep36 V (argRef i) (by revert i; decide)).trans (args35 V i)
def P37 (V : Valuation τ sig (Elt Ideal)) : Valuation τ sig (Elt Ideal) := op37.result (P36 V)
theorem keep37 (V : Valuation τ sig (Elt Ideal)) (r : Ref sig .tc) (h : r ≠ main_v27) : P37 V (Proc.devRef .tc r) = (P36 V) (Proc.devRef .tc r) := by
  unfold P37; rw [binary_result_ne]; exact h
theorem args37 (V : Valuation τ sig (Elt Ideal)) (i : Fin 15) : P37 V (Proc.devRef .tc (argRef i)) = V (Proc.devRef .tc (argRef i)) :=
  (keep37 V (argRef i) (by revert i; decide)).trans (args36 V i)
def P38 (V : Valuation τ sig (Elt Ideal)) : Valuation τ sig (Elt Ideal) := op38.result (P37 V)
theorem keep38 (V : Valuation τ sig (Elt Ideal)) (r : Ref sig .tc) (h : r ≠ main_cst_3) : P38 V (Proc.devRef .tc r) = (P37 V) (Proc.devRef .tc r) := by
  unfold P38; rw [nullary_result_ne]; exact h
theorem args38 (V : Valuation τ sig (Elt Ideal)) (i : Fin 15) : P38 V (Proc.devRef .tc (argRef i)) = V (Proc.devRef .tc (argRef i)) :=
  (keep38 V (argRef i) (by revert i; decide)).trans (args37 V i)
def P39 (V : Valuation τ sig (Elt Ideal)) : Valuation τ sig (Elt Ideal) := op39.result (P38 V)
theorem keep39 (V : Valuation τ sig (Elt Ideal)) (r : Ref sig .tc) (h : r ≠ main_v28) : P39 V (Proc.devRef .tc r) = (P38 V) (Proc.devRef .tc r) := by
  unfold P39; rw [binary_result_ne]; exact h
theorem args39 (V : Valuation τ sig (Elt Ideal)) (i : Fin 15) : P39 V (Proc.devRef .tc (argRef i)) = V (Proc.devRef .tc (argRef i)) :=
  (keep39 V (argRef i) (by revert i; decide)).trans (args38 V i)
def P40 (V : Valuation τ sig (Elt Ideal)) : Valuation τ sig (Elt Ideal) := op40.result (P39 V)
theorem keep40 (V : Valuation τ sig (Elt Ideal)) (r : Ref sig .tc) (h : r ≠ main_cst_4) : P40 V (Proc.devRef .tc r) = (P39 V) (Proc.devRef .tc r) := by
  unfold P40; rw [nullary_result_ne]; exact h
theorem args40 (V : Valuation τ sig (Elt Ideal)) (i : Fin 15) : P40 V (Proc.devRef .tc (argRef i)) = V (Proc.devRef .tc (argRef i)) :=
  (keep40 V (argRef i) (by revert i; decide)).trans (args39 V i)
def P41 (V : Valuation τ sig (Elt Ideal)) : Valuation τ sig (Elt Ideal) := op41.result (P40 V)
theorem keep41 (V : Valuation τ sig (Elt Ideal)) (r : Ref sig .tc) (h : r ≠ main_v29) : P41 V (Proc.devRef .tc r) = (P40 V) (Proc.devRef .tc r) := by
  unfold P41; rw [unary_result_ne]; exact h
theorem args41 (V : Valuation τ sig (Elt Ideal)) (i : Fin 15) : P41 V (Proc.devRef .tc (argRef i)) = V (Proc.devRef .tc (argRef i)) :=
  (keep41 V (argRef i) (by revert i; decide)).trans (args40 V i)
def P42 (V : Valuation τ sig (Elt Ideal)) : Valuation τ sig (Elt Ideal) := op42.result (P41 V)
theorem keep42 (V : Valuation τ sig (Elt Ideal)) (r : Ref sig .tc) (h : r ≠ main_v30) : P42 V (Proc.devRef .tc r) = (P41 V) (Proc.devRef .tc r) := by
  unfold P42; rw [binary_result_ne]; exact h
theorem args42 (V : Valuation τ sig (Elt Ideal)) (i : Fin 15) : P42 V (Proc.devRef .tc (argRef i)) = V (Proc.devRef .tc (argRef i)) :=
  (keep42 V (argRef i) (by revert i; decide)).trans (args41 V i)
def P43 (V : Valuation τ sig (Elt Ideal)) : Valuation τ sig (Elt Ideal) := op43.result (P42 V)
theorem keep43 (V : Valuation τ sig (Elt Ideal)) (r : Ref sig .tc) (h : r ≠ main_c_5) : P43 V (Proc.devRef .tc r) = (P42 V) (Proc.devRef .tc r) := by
  unfold P43; rw [nullary_result_ne]; exact h
theorem args43 (V : Valuation τ sig (Elt Ideal)) (i : Fin 15) : P43 V (Proc.devRef .tc (argRef i)) = V (Proc.devRef .tc (argRef i)) :=
  (keep43 V (argRef i) (by revert i; decide)).trans (args42 V i)
def P44 (V : Valuation τ sig (Elt Ideal)) : Valuation τ sig (Elt Ideal) := op44.result (P43 V)
theorem keep44 (V : Valuation τ sig (Elt Ideal)) (r : Ref sig .tc) (h : r ≠ main_call2_cst) : P44 V (Proc.devRef .tc r) = (P43 V) (Proc.devRef .tc r) := by
  unfold P44; rw [nullary_result_ne]; exact h
theorem args44 (V : Valuation τ sig (Elt Ideal)) (i : Fin 15) : P44 V (Proc.devRef .tc (argRef i)) = V (Proc.devRef .tc (argRef i)) :=
  (keep44 V (argRef i) (by revert i; decide)).trans (args43 V i)
def P45 (V : Valuation τ sig (Elt Ideal)) : Valuation τ sig (Elt Ideal) := op45.result (P44 V)
theorem keep45 (V : Valuation τ sig (Elt Ideal)) (r : Ref sig .tc) (h : r ≠ main_call2_v0) : P45 V (Proc.devRef .tc r) = (P44 V) (Proc.devRef .tc r) := by
  unfold P45; rw [binary_result_ne]; exact h
theorem args45 (V : Valuation τ sig (Elt Ideal)) (i : Fin 15) : P45 V (Proc.devRef .tc (argRef i)) = V (Proc.devRef .tc (argRef i)) :=
  (keep45 V (argRef i) (by revert i; decide)).trans (args44 V i)
def P46 (V : Valuation τ sig (Elt Ideal)) : Valuation τ sig (Elt Ideal) := op46.result (P45 V)
theorem keep46 (V : Valuation τ sig (Elt Ideal)) (r : Ref sig .tc) (h : r ≠ main_call2_v1) : P46 V (Proc.devRef .tc r) = (P45 V) (Proc.devRef .tc r) := by
  unfold P46; rw [unary_result_ne]; exact h
theorem args46 (V : Valuation τ sig (Elt Ideal)) (i : Fin 15) : P46 V (Proc.devRef .tc (argRef i)) = V (Proc.devRef .tc (argRef i)) :=
  (keep46 V (argRef i) (by revert i; decide)).trans (args45 V i)
def P47 (V : Valuation τ sig (Elt Ideal)) : Valuation τ sig (Elt Ideal) := op47.result (P46 V)
theorem keep47 (V : Valuation τ sig (Elt Ideal)) (r : Ref sig .tc) (h : r ≠ main_call2_cst_0) : P47 V (Proc.devRef .tc r) = (P46 V) (Proc.devRef .tc r) := by
  unfold P47; rw [nullary_result_ne]; exact h
theorem args47 (V : Valuation τ sig (Elt Ideal)) (i : Fin 15) : P47 V (Proc.devRef .tc (argRef i)) = V (Proc.devRef .tc (argRef i)) :=
  (keep47 V (argRef i) (by revert i; decide)).trans (args46 V i)
def P48 (V : Valuation τ sig (Elt Ideal)) : Valuation τ sig (Elt Ideal) := op48.result (P47 V)
theorem keep48 (V : Valuation τ sig (Elt Ideal)) (r : Ref sig .tc) (h : r ≠ main_call2_v2) : P48 V (Proc.devRef .tc r) = (P47 V) (Proc.devRef .tc r) := by
  unfold P48; rw [unary_result_ne]; exact h
theorem args48 (V : Valuation τ sig (Elt Ideal)) (i : Fin 15) : P48 V (Proc.devRef .tc (argRef i)) = V (Proc.devRef .tc (argRef i)) :=
  (keep48 V (argRef i) (by revert i; decide)).trans (args47 V i)
def P49 (V : Valuation τ sig (Elt Ideal)) : Valuation τ sig (Elt Ideal) := op49.result (P48 V)
theorem keep49 (V : Valuation τ sig (Elt Ideal)) (r : Ref sig .tc) (h : r ≠ main_call2_v3) : P49 V (Proc.devRef .tc r) = (P48 V) (Proc.devRef .tc r) := by
  unfold P49; rw [binary_result_ne]; exact h
theorem args49 (V : Valuation τ sig (Elt Ideal)) (i : Fin 15) : P49 V (Proc.devRef .tc (argRef i)) = V (Proc.devRef .tc (argRef i)) :=
  (keep49 V (argRef i) (by revert i; decide)).trans (args48 V i)
def P50 (V : Valuation τ sig (Elt Ideal)) : Valuation τ sig (Elt Ideal) := op50.result (P49 V)
theorem keep50 (V : Valuation τ sig (Elt Ideal)) (r : Ref sig .tc) (h : r ≠ main_call2_v4) : P50 V (Proc.devRef .tc r) = (P49 V) (Proc.devRef .tc r) := by
  unfold P50; rw [unary_result_ne]; exact h
theorem args50 (V : Valuation τ sig (Elt Ideal)) (i : Fin 15) : P50 V (Proc.devRef .tc (argRef i)) = V (Proc.devRef .tc (argRef i)) :=
  (keep50 V (argRef i) (by revert i; decide)).trans (args49 V i)
def P51 (V : Valuation τ sig (Elt Ideal)) : Valuation τ sig (Elt Ideal) := op51.result (P50 V)
theorem keep51 (V : Valuation τ sig (Elt Ideal)) (r : Ref sig .tc) (h : r ≠ main_call2_v5) : P51 V (Proc.devRef .tc r) = (P50 V) (Proc.devRef .tc r) := by
  unfold P51; rw [binary_result_ne]; exact h
theorem args51 (V : Valuation τ sig (Elt Ideal)) (i : Fin 15) : P51 V (Proc.devRef .tc (argRef i)) = V (Proc.devRef .tc (argRef i)) :=
  (keep51 V (argRef i) (by revert i; decide)).trans (args50 V i)
def P52 (V : Valuation τ sig (Elt Ideal)) : Valuation τ sig (Elt Ideal) := op52.result (P51 V)
theorem keep52 (V : Valuation τ sig (Elt Ideal)) (r : Ref sig .tc) (h : r ≠ main_call2_v6) : P52 V (Proc.devRef .tc r) = (P51 V) (Proc.devRef .tc r) := by
  unfold P52; rw [binary_result_ne]; exact h
theorem args52 (V : Valuation τ sig (Elt Ideal)) (i : Fin 15) : P52 V (Proc.devRef .tc (argRef i)) = V (Proc.devRef .tc (argRef i)) :=
  (keep52 V (argRef i) (by revert i; decide)).trans (args51 V i)
def P53 (V : Valuation τ sig (Elt Ideal)) : Valuation τ sig (Elt Ideal) := op53.result (P52 V)
theorem keep53 (V : Valuation τ sig (Elt Ideal)) (r : Ref sig .tc) (h : r ≠ main_call2_v7) : P53 V (Proc.devRef .tc r) = (P52 V) (Proc.devRef .tc r) := by
  unfold P53; rw [unary_result_ne]; exact h
theorem args53 (V : Valuation τ sig (Elt Ideal)) (i : Fin 15) : P53 V (Proc.devRef .tc (argRef i)) = V (Proc.devRef .tc (argRef i)) :=
  (keep53 V (argRef i) (by revert i; decide)).trans (args52 V i)
def P54 (V : Valuation τ sig (Elt Ideal)) : Valuation τ sig (Elt Ideal) := op54.result (P53 V)
theorem keep54 (V : Valuation τ sig (Elt Ideal)) (r : Ref sig .tc) (h : r ≠ main_call2_cst_1) : P54 V (Proc.devRef .tc r) = (P53 V) (Proc.devRef .tc r) := by
  unfold P54; rw [nullary_result_ne]; exact h
theorem args54 (V : Valuation τ sig (Elt Ideal)) (i : Fin 15) : P54 V (Proc.devRef .tc (argRef i)) = V (Proc.devRef .tc (argRef i)) :=
  (keep54 V (argRef i) (by revert i; decide)).trans (args53 V i)
def P55 (V : Valuation τ sig (Elt Ideal)) : Valuation τ sig (Elt Ideal) := op55.result (P54 V)
theorem keep55 (V : Valuation τ sig (Elt Ideal)) (r : Ref sig .tc) (h : r ≠ main_call2_v8) : P55 V (Proc.devRef .tc r) = (P54 V) (Proc.devRef .tc r) := by
  unfold P55; rw [binary_result_ne]; exact h
theorem args55 (V : Valuation τ sig (Elt Ideal)) (i : Fin 15) : P55 V (Proc.devRef .tc (argRef i)) = V (Proc.devRef .tc (argRef i)) :=
  (keep55 V (argRef i) (by revert i; decide)).trans (args54 V i)
def P56 (V : Valuation τ sig (Elt Ideal)) : Valuation τ sig (Elt Ideal) := op56.result (P55 V)
theorem keep56 (V : Valuation τ sig (Elt Ideal)) (r : Ref sig .tc) (h : r ≠ main_call2_cst_2) : P56 V (Proc.devRef .tc r) = (P55 V) (Proc.devRef .tc r) := by
  unfold P56; rw [nullary_result_ne]; exact h
theorem args56 (V : Valuation τ sig (Elt Ideal)) (i : Fin 15) : P56 V (Proc.devRef .tc (argRef i)) = V (Proc.devRef .tc (argRef i)) :=
  (keep56 V (argRef i) (by revert i; decide)).trans (args55 V i)
def P57 (V : Valuation τ sig (Elt Ideal)) : Valuation τ sig (Elt Ideal) := op57.result (P56 V)
theorem keep57 (V : Valuation τ sig (Elt Ideal)) (r : Ref sig .tc) (h : r ≠ main_call2_v9) : P57 V (Proc.devRef .tc r) = (P56 V) (Proc.devRef .tc r) := by
  unfold P57; rw [binary_result_ne]; exact h
theorem args57 (V : Valuation τ sig (Elt Ideal)) (i : Fin 15) : P57 V (Proc.devRef .tc (argRef i)) = V (Proc.devRef .tc (argRef i)) :=
  (keep57 V (argRef i) (by revert i; decide)).trans (args56 V i)
def P58 (V : Valuation τ sig (Elt Ideal)) : Valuation τ sig (Elt Ideal) := op58.result (P57 V)
theorem keep58 (V : Valuation τ sig (Elt Ideal)) (r : Ref sig .tc) (h : r ≠ main_call2_v10) : P58 V (Proc.devRef .tc r) = (P57 V) (Proc.devRef .tc r) := by
  unfold P58; rw [unary_result_ne]; exact h
theorem args58 (V : Valuation τ sig (Elt Ideal)) (i : Fin 15) : P58 V (Proc.devRef .tc (argRef i)) = V (Proc.devRef .tc (argRef i)) :=
  (keep58 V (argRef i) (by revert i; decide)).trans (args57 V i)
def P59 (V : Valuation τ sig (Elt Ideal)) : Valuation τ sig (Elt Ideal) := op59.result (P58 V)
theorem keep59 (V : Valuation τ sig (Elt Ideal)) (r : Ref sig .tc) (h : r ≠ main_call2_v11) : P59 V (Proc.devRef .tc r) = (P58 V) (Proc.devRef .tc r) := by
  unfold P59; rw [binary_result_ne]; exact h
theorem args59 (V : Valuation τ sig (Elt Ideal)) (i : Fin 15) : P59 V (Proc.devRef .tc (argRef i)) = V (Proc.devRef .tc (argRef i)) :=
  (keep59 V (argRef i) (by revert i; decide)).trans (args58 V i)
def P60 (V : Valuation τ sig (Elt Ideal)) : Valuation τ sig (Elt Ideal) := op60.result (P59 V)
theorem keep60 (V : Valuation τ sig (Elt Ideal)) (r : Ref sig .tc) (h : r ≠ main_call2_cst_3) : P60 V (Proc.devRef .tc r) = (P59 V) (Proc.devRef .tc r) := by
  unfold P60; rw [nullary_result_ne]; exact h
theorem args60 (V : Valuation τ sig (Elt Ideal)) (i : Fin 15) : P60 V (Proc.devRef .tc (argRef i)) = V (Proc.devRef .tc (argRef i)) :=
  (keep60 V (argRef i) (by revert i; decide)).trans (args59 V i)
def P61 (V : Valuation τ sig (Elt Ideal)) : Valuation τ sig (Elt Ideal) := op61.result (P60 V)
theorem keep61 (V : Valuation τ sig (Elt Ideal)) (r : Ref sig .tc) (h : r ≠ main_call2_v12) : P61 V (Proc.devRef .tc r) = (P60 V) (Proc.devRef .tc r) := by
  unfold P61; rw [binary_result_ne]; exact h
theorem args61 (V : Valuation τ sig (Elt Ideal)) (i : Fin 15) : P61 V (Proc.devRef .tc (argRef i)) = V (Proc.devRef .tc (argRef i)) :=
  (keep61 V (argRef i) (by revert i; decide)).trans (args60 V i)
def P62 (V : Valuation τ sig (Elt Ideal)) : Valuation τ sig (Elt Ideal) := op62.result (P61 V)
theorem keep62 (V : Valuation τ sig (Elt Ideal)) (r : Ref sig .tc) (h : r ≠ main_call2_cst_4) : P62 V (Proc.devRef .tc r) = (P61 V) (Proc.devRef .tc r) := by
  unfold P62; rw [nullary_result_ne]; exact h
theorem args62 (V : Valuation τ sig (Elt Ideal)) (i : Fin 15) : P62 V (Proc.devRef .tc (argRef i)) = V (Proc.devRef .tc (argRef i)) :=
  (keep62 V (argRef i) (by revert i; decide)).trans (args61 V i)
def P63 (V : Valuation τ sig (Elt Ideal)) : Valuation τ sig (Elt Ideal) := op63.result (P62 V)
theorem keep63 (V : Valuation τ sig (Elt Ideal)) (r : Ref sig .tc) (h : r ≠ main_call2_call0_v0) : P63 V (Proc.devRef .tc r) = (P62 V) (Proc.devRef .tc r) := by
  unfold P63; rw [unary_result_ne]; exact h
theorem args63 (V : Valuation τ sig (Elt Ideal)) (i : Fin 15) : P63 V (Proc.devRef .tc (argRef i)) = V (Proc.devRef .tc (argRef i)) :=
  (keep63 V (argRef i) (by revert i; decide)).trans (args62 V i)
def P64 (V : Valuation τ sig (Elt Ideal)) : Valuation τ sig (Elt Ideal) := op64.result (P63 V)
theorem keep64 (V : Valuation τ sig (Elt Ideal)) (r : Ref sig .tc) (h : r ≠ main_call2_call0_v1) : P64 V (Proc.devRef .tc r) = (P63 V) (Proc.devRef .tc r) := by
  unfold P64; rw [unary_result_ne]; exact h
theorem args64 (V : Valuation τ sig (Elt Ideal)) (i : Fin 15) : P64 V (Proc.devRef .tc (argRef i)) = V (Proc.devRef .tc (argRef i)) :=
  (keep64 V (argRef i) (by revert i; decide)).trans (args63 V i)
def P65 (V : Valuation τ sig (Elt Ideal)) : Valuation τ sig (Elt Ideal) := op65.result (P64 V)
theorem keep65 (V : Valuation τ sig (Elt Ideal)) (r : Ref sig .tc) (h : r ≠ main_v31) : P65 V (Proc.devRef .tc r) = (P64 V) (Proc.devRef .tc r) := by
  unfold P65; rw [ternary_result_ne]; exact h
theorem args65 (V : Valuation τ sig (Elt Ideal)) (i : Fin 15) : P65 V (Proc.devRef .tc (argRef i)) = V (Proc.devRef .tc (argRef i)) :=
  (keep65 V (argRef i) (by revert i; decide)).trans (args64 V i)
def P66 (V : Valuation τ sig (Elt Ideal)) : Valuation τ sig (Elt Ideal) := op66.result (P65 V)
theorem keep66 (V : Valuation τ sig (Elt Ideal)) (r : Ref sig .tc) (h : r ≠ main_v32) : P66 V (Proc.devRef .tc r) = (P65 V) (Proc.devRef .tc r) := by
  unfold P66; rw [unary_result_ne]; exact h
theorem args66 (V : Valuation τ sig (Elt Ideal)) (i : Fin 15) : P66 V (Proc.devRef .tc (argRef i)) = V (Proc.devRef .tc (argRef i)) :=
  (keep66 V (argRef i) (by revert i; decide)).trans (args65 V i)
def P67 (V : Valuation τ sig (Elt Ideal)) : Valuation τ sig (Elt Ideal) := op67.result (P66 V)
theorem keep67 (V : Valuation τ sig (Elt Ideal)) (r : Ref sig .tc) (h : r ≠ main_v33) : P67 V (Proc.devRef .tc r) = (P66 V) (Proc.devRef .tc r) := by
  unfold P67; rw [unary_result_ne]; exact h
theorem args67 (V : Valuation τ sig (Elt Ideal)) (i : Fin 15) : P67 V (Proc.devRef .tc (argRef i)) = V (Proc.devRef .tc (argRef i)) :=
  (keep67 V (argRef i) (by revert i; decide)).trans (args66 V i)
def P68 (V : Valuation τ sig (Elt Ideal)) : Valuation τ sig (Elt Ideal) := op68.result (P67 V)
theorem keep68 (V : Valuation τ sig (Elt Ideal)) (r : Ref sig .tc) (h : r ≠ main_v34) : P68 V (Proc.devRef .tc r) = (P67 V) (Proc.devRef .tc r) := by
  unfold P68; rw [binary_result_ne]; exact h
theorem args68 (V : Valuation τ sig (Elt Ideal)) (i : Fin 15) : P68 V (Proc.devRef .tc (argRef i)) = V (Proc.devRef .tc (argRef i)) :=
  (keep68 V (argRef i) (by revert i; decide)).trans (args67 V i)
def P69 (V : Valuation τ sig (Elt Ideal)) : Valuation τ sig (Elt Ideal) := op69.result (P68 V)
theorem keep69 (V : Valuation τ sig (Elt Ideal)) (r : Ref sig .tc) (h : r ≠ main_cst_6) : P69 V (Proc.devRef .tc r) = (P68 V) (Proc.devRef .tc r) := by
  unfold P69; rw [nullary_result_ne]; exact h
theorem args69 (V : Valuation τ sig (Elt Ideal)) (i : Fin 15) : P69 V (Proc.devRef .tc (argRef i)) = V (Proc.devRef .tc (argRef i)) :=
  (keep69 V (argRef i) (by revert i; decide)).trans (args68 V i)
def P70 (V : Valuation τ sig (Elt Ideal)) : Valuation τ sig (Elt Ideal) := op70.result (P69 V)
theorem keep70 (V : Valuation τ sig (Elt Ideal)) (r : Ref sig .tc) (h : r ≠ main_v35) : P70 V (Proc.devRef .tc r) = (P69 V) (Proc.devRef .tc r) := by
  unfold P70; rw [unary_result_ne]; exact h
theorem args70 (V : Valuation τ sig (Elt Ideal)) (i : Fin 15) : P70 V (Proc.devRef .tc (argRef i)) = V (Proc.devRef .tc (argRef i)) :=
  (keep70 V (argRef i) (by revert i; decide)).trans (args69 V i)
def P71 (V : Valuation τ sig (Elt Ideal)) : Valuation τ sig (Elt Ideal) := op71.result (P70 V)
theorem keep71 (V : Valuation τ sig (Elt Ideal)) (r : Ref sig .tc) (h : r ≠ main_v36) : P71 V (Proc.devRef .tc r) = (P70 V) (Proc.devRef .tc r) := by
  unfold P71; rw [binary_result_ne]; exact h
theorem args71 (V : Valuation τ sig (Elt Ideal)) (i : Fin 15) : P71 V (Proc.devRef .tc (argRef i)) = V (Proc.devRef .tc (argRef i)) :=
  (keep71 V (argRef i) (by revert i; decide)).trans (args70 V i)
def P72 (V : Valuation τ sig (Elt Ideal)) : Valuation τ sig (Elt Ideal) := op72.result (P71 V)
theorem keep72 (V : Valuation τ sig (Elt Ideal)) (r : Ref sig .tc) (h : r ≠ main_v37) : P72 V (Proc.devRef .tc r) = (P71 V) (Proc.devRef .tc r) := by
  unfold P72; rw [unary_result_ne]; exact h
theorem args72 (V : Valuation τ sig (Elt Ideal)) (i : Fin 15) : P72 V (Proc.devRef .tc (argRef i)) = V (Proc.devRef .tc (argRef i)) :=
  (keep72 V (argRef i) (by revert i; decide)).trans (args71 V i)
def P73 (V : Valuation τ sig (Elt Ideal)) : Valuation τ sig (Elt Ideal) := op73.result (P72 V)
theorem keep73 (V : Valuation τ sig (Elt Ideal)) (r : Ref sig .tc) (h : r ≠ main_v38) : P73 V (Proc.devRef .tc r) = (P72 V) (Proc.devRef .tc r) := by
  unfold P73; rw [unary_result_ne]; exact h
theorem args73 (V : Valuation τ sig (Elt Ideal)) (i : Fin 15) : P73 V (Proc.devRef .tc (argRef i)) = V (Proc.devRef .tc (argRef i)) :=
  (keep73 V (argRef i) (by revert i; decide)).trans (args72 V i)
def P74 (V : Valuation τ sig (Elt Ideal)) : Valuation τ sig (Elt Ideal) := op74.result (P73 V)
theorem keep74 (V : Valuation τ sig (Elt Ideal)) (r : Ref sig .tc) (h : r ≠ main_v39) : P74 V (Proc.devRef .tc r) = (P73 V) (Proc.devRef .tc r) := by
  unfold P74; rw [unary_result_ne]; exact h
theorem args74 (V : Valuation τ sig (Elt Ideal)) (i : Fin 15) : P74 V (Proc.devRef .tc (argRef i)) = V (Proc.devRef .tc (argRef i)) :=
  (keep74 V (argRef i) (by revert i; decide)).trans (args73 V i)
def P75 (V : Valuation τ sig (Elt Ideal)) : Valuation τ sig (Elt Ideal) := op75.result (P74 V)
theorem keep75 (V : Valuation τ sig (Elt Ideal)) (r : Ref sig .tc) (h : r ≠ main_v40) : P75 V (Proc.devRef .tc r) = (P74 V) (Proc.devRef .tc r) := by
  unfold P75; rw [binary_result_ne]; exact h
theorem args75 (V : Valuation τ sig (Elt Ideal)) (i : Fin 15) : P75 V (Proc.devRef .tc (argRef i)) = V (Proc.devRef .tc (argRef i)) :=
  (keep75 V (argRef i) (by revert i; decide)).trans (args74 V i)
def P76 (V : Valuation τ sig (Elt Ideal)) : Valuation τ sig (Elt Ideal) := op76.result (P75 V)
theorem keep76 (V : Valuation τ sig (Elt Ideal)) (r : Ref sig .tc) (h : r ≠ main_v41) : P76 V (Proc.devRef .tc r) = (P75 V) (Proc.devRef .tc r) := by
  unfold P76; rw [unary_result_ne]; exact h
theorem args76 (V : Valuation τ sig (Elt Ideal)) (i : Fin 15) : P76 V (Proc.devRef .tc (argRef i)) = V (Proc.devRef .tc (argRef i)) :=
  (keep76 V (argRef i) (by revert i; decide)).trans (args75 V i)
def P77 (V : Valuation τ sig (Elt Ideal)) : Valuation τ sig (Elt Ideal) := op77.result (P76 V)
theorem keep77 (V : Valuation τ sig (Elt Ideal)) (r : Ref sig .tc) (h : r ≠ main_v42) : P77 V (Proc.devRef .tc r) = (P76 V) (Proc.devRef .tc r) := by
  unfold P77; rw [unary_result_ne]; exact h
theorem args77 (V : Valuation τ sig (Elt Ideal)) (i : Fin 15) : P77 V (Proc.devRef .tc (argRef i)) = V (Proc.devRef .tc (argRef i)) :=
  (keep77 V (argRef i) (by revert i; decide)).trans (args76 V i)
def P78 (V : Valuation τ sig (Elt Ideal)) : Valuation τ sig (Elt Ideal) := op78.result (P77 V)
theorem keep78 (V : Valuation τ sig (Elt Ideal)) (r : Ref sig .tc) (h : r ≠ main_v43) : P78 V (Proc.devRef .tc r) = (P77 V) (Proc.devRef .tc r) := by
  unfold P78; rw [binary_result_ne]; exact h
theorem args78 (V : Valuation τ sig (Elt Ideal)) (i : Fin 15) : P78 V (Proc.devRef .tc (argRef i)) = V (Proc.devRef .tc (argRef i)) :=
  (keep78 V (argRef i) (by revert i; decide)).trans (args77 V i)
def P79 (V : Valuation τ sig (Elt Ideal)) : Valuation τ sig (Elt Ideal) := op79.result (P78 V)
theorem keep79 (V : Valuation τ sig (Elt Ideal)) (r : Ref sig .tc) (h : r ≠ main_v44) : P79 V (Proc.devRef .tc r) = (P78 V) (Proc.devRef .tc r) := by
  unfold P79; rw [unary_result_ne]; exact h
theorem args79 (V : Valuation τ sig (Elt Ideal)) (i : Fin 15) : P79 V (Proc.devRef .tc (argRef i)) = V (Proc.devRef .tc (argRef i)) :=
  (keep79 V (argRef i) (by revert i; decide)).trans (args78 V i)
def P80 (V : Valuation τ sig (Elt Ideal)) : Valuation τ sig (Elt Ideal) := op80.result (P79 V)
theorem keep80 (V : Valuation τ sig (Elt Ideal)) (r : Ref sig .tc) (h : r ≠ main_v45) : P80 V (Proc.devRef .tc r) = (P79 V) (Proc.devRef .tc r) := by
  unfold P80; rw [unary_result_ne]; exact h
theorem args80 (V : Valuation τ sig (Elt Ideal)) (i : Fin 15) : P80 V (Proc.devRef .tc (argRef i)) = V (Proc.devRef .tc (argRef i)) :=
  (keep80 V (argRef i) (by revert i; decide)).trans (args79 V i)
def P81 (V : Valuation τ sig (Elt Ideal)) : Valuation τ sig (Elt Ideal) := op81.result (P80 V)
theorem keep81 (V : Valuation τ sig (Elt Ideal)) (r : Ref sig .tc) (h : r ≠ main_v46) : P81 V (Proc.devRef .tc r) = (P80 V) (Proc.devRef .tc r) := by
  unfold P81; rw [binary_result_ne]; exact h
theorem args81 (V : Valuation τ sig (Elt Ideal)) (i : Fin 15) : P81 V (Proc.devRef .tc (argRef i)) = V (Proc.devRef .tc (argRef i)) :=
  (keep81 V (argRef i) (by revert i; decide)).trans (args80 V i)
def P82 (V : Valuation τ sig (Elt Ideal)) : Valuation τ sig (Elt Ideal) := op82.result (P81 V)
theorem keep82 (V : Valuation τ sig (Elt Ideal)) (r : Ref sig .tc) (h : r ≠ main_call3_v0) : P82 V (Proc.devRef .tc r) = (P81 V) (Proc.devRef .tc r) := by
  unfold P82; rw [binary_result_ne]; exact h
theorem args82 (V : Valuation τ sig (Elt Ideal)) (i : Fin 15) : P82 V (Proc.devRef .tc (argRef i)) = V (Proc.devRef .tc (argRef i)) :=
  (keep82 V (argRef i) (by revert i; decide)).trans (args81 V i)
def P83 (V : Valuation τ sig (Elt Ideal)) : Valuation τ sig (Elt Ideal) := op83.result (P82 V)
theorem keep83 (V : Valuation τ sig (Elt Ideal)) (r : Ref sig .tc) (h : r ≠ main_call3_cst) : P83 V (Proc.devRef .tc r) = (P82 V) (Proc.devRef .tc r) := by
  unfold P83; rw [nullary_result_ne]; exact h
theorem args83 (V : Valuation τ sig (Elt Ideal)) (i : Fin 15) : P83 V (Proc.devRef .tc (argRef i)) = V (Proc.devRef .tc (argRef i)) :=
  (keep83 V (argRef i) (by revert i; decide)).trans (args82 V i)
def P84 (V : Valuation τ sig (Elt Ideal)) : Valuation τ sig (Elt Ideal) := op84.result (P83 V)
theorem keep84 (V : Valuation τ sig (Elt Ideal)) (r : Ref sig .tc) (h : r ≠ main_call3_v1) : P84 V (Proc.devRef .tc r) = (P83 V) (Proc.devRef .tc r) := by
  unfold P84; rw [binary_result_ne]; exact h
theorem args84 (V : Valuation τ sig (Elt Ideal)) (i : Fin 15) : P84 V (Proc.devRef .tc (argRef i)) = V (Proc.devRef .tc (argRef i)) :=
  (keep84 V (argRef i) (by revert i; decide)).trans (args83 V i)
def P85 (V : Valuation τ sig (Elt Ideal)) : Valuation τ sig (Elt Ideal) := op85.result (P84 V)
theorem keep85 (V : Valuation τ sig (Elt Ideal)) (r : Ref sig .tc) (h : r ≠ main_call3_v2) : P85 V (Proc.devRef .tc r) = (P84 V) (Proc.devRef .tc r) := by
  unfold P85; rw [unary_result_ne]; exact h
theorem args85 (V : Valuation τ sig (Elt Ideal)) (i : Fin 15) : P85 V (Proc.devRef .tc (argRef i)) = V (Proc.devRef .tc (argRef i)) :=
  (keep85 V (argRef i) (by revert i; decide)).trans (args84 V i)
def P86 (V : Valuation τ sig (Elt Ideal)) : Valuation τ sig (Elt Ideal) := op86.result (P85 V)
theorem keep86 (V : Valuation τ sig (Elt Ideal)) (r : Ref sig .tc) (h : r ≠ main_v47) : P86 V (Proc.devRef .tc r) = (P85 V) (Proc.devRef .tc r) := by
  unfold P86; rw [unary_result_ne]; exact h
theorem args86 (V : Valuation τ sig (Elt Ideal)) (i : Fin 15) : P86 V (Proc.devRef .tc (argRef i)) = V (Proc.devRef .tc (argRef i)) :=
  (keep86 V (argRef i) (by revert i; decide)).trans (args85 V i)
def P87 (V : Valuation τ sig (Elt Ideal)) : Valuation τ sig (Elt Ideal) := op87.result (P86 V)
theorem keep87 (V : Valuation τ sig (Elt Ideal)) (r : Ref sig .tc) (h : r ≠ main_cst_7) : P87 V (Proc.devRef .tc r) = (P86 V) (Proc.devRef .tc r) := by
  unfold P87; rw [nullary_result_ne]; exact h
theorem args87 (V : Valuation τ sig (Elt Ideal)) (i : Fin 15) : P87 V (Proc.devRef .tc (argRef i)) = V (Proc.devRef .tc (argRef i)) :=
  (keep87 V (argRef i) (by revert i; decide)).trans (args86 V i)
def P88 (V : Valuation τ sig (Elt Ideal)) : Valuation τ sig (Elt Ideal) := op88.result (P87 V)
theorem keep88 (V : Valuation τ sig (Elt Ideal)) (r : Ref sig .tc) (h : r ≠ main_v48) : P88 V (Proc.devRef .tc r) = (P87 V) (Proc.devRef .tc r) := by
  unfold P88; rw [unary_result_ne]; exact h
theorem args88 (V : Valuation τ sig (Elt Ideal)) (i : Fin 15) : P88 V (Proc.devRef .tc (argRef i)) = V (Proc.devRef .tc (argRef i)) :=
  (keep88 V (argRef i) (by revert i; decide)).trans (args87 V i)
def P89 (V : Valuation τ sig (Elt Ideal)) : Valuation τ sig (Elt Ideal) := op89.result (P88 V)
theorem keep89 (V : Valuation τ sig (Elt Ideal)) (r : Ref sig .tc) (h : r ≠ main_v49) : P89 V (Proc.devRef .tc r) = (P88 V) (Proc.devRef .tc r) := by
  unfold P89; rw [binary_result_ne]; exact h
theorem args89 (V : Valuation τ sig (Elt Ideal)) (i : Fin 15) : P89 V (Proc.devRef .tc (argRef i)) = V (Proc.devRef .tc (argRef i)) :=
  (keep89 V (argRef i) (by revert i; decide)).trans (args88 V i)
def P90 (V : Valuation τ sig (Elt Ideal)) : Valuation τ sig (Elt Ideal) := op90.result (P89 V)
theorem keep90 (V : Valuation τ sig (Elt Ideal)) (r : Ref sig .tc) (h : r ≠ main_v50) : P90 V (Proc.devRef .tc r) = (P89 V) (Proc.devRef .tc r) := by
  unfold P90; rw [unary_result_ne]; exact h
theorem args90 (V : Valuation τ sig (Elt Ideal)) (i : Fin 15) : P90 V (Proc.devRef .tc (argRef i)) = V (Proc.devRef .tc (argRef i)) :=
  (keep90 V (argRef i) (by revert i; decide)).trans (args89 V i)
def P91 (V : Valuation τ sig (Elt Ideal)) : Valuation τ sig (Elt Ideal) := op91.result (P90 V)
theorem keep91 (V : Valuation τ sig (Elt Ideal)) (r : Ref sig .tc) (h : r ≠ main_v51) : P91 V (Proc.devRef .tc r) = (P90 V) (Proc.devRef .tc r) := by
  unfold P91; rw [binary_result_ne]; exact h
theorem args91 (V : Valuation τ sig (Elt Ideal)) (i : Fin 15) : P91 V (Proc.devRef .tc (argRef i)) = V (Proc.devRef .tc (argRef i)) :=
  (keep91 V (argRef i) (by revert i; decide)).trans (args90 V i)
def P92 (V : Valuation τ sig (Elt Ideal)) : Valuation τ sig (Elt Ideal) := op92.result (P91 V)
theorem keep92 (V : Valuation τ sig (Elt Ideal)) (r : Ref sig .tc) (h : r ≠ main_v52) : P92 V (Proc.devRef .tc r) = (P91 V) (Proc.devRef .tc r) := by
  unfold P92; rw [unary_result_ne]; exact h
theorem args92 (V : Valuation τ sig (Elt Ideal)) (i : Fin 15) : P92 V (Proc.devRef .tc (argRef i)) = V (Proc.devRef .tc (argRef i)) :=
  (keep92 V (argRef i) (by revert i; decide)).trans (args91 V i)
def P93 (V : Valuation τ sig (Elt Ideal)) : Valuation τ sig (Elt Ideal) := op93.result (P92 V)
theorem keep93 (V : Valuation τ sig (Elt Ideal)) (r : Ref sig .tc) (h : r ≠ main_v53) : P93 V (Proc.devRef .tc r) = (P92 V) (Proc.devRef .tc r) := by
  unfold P93; rw [binary_result_ne]; exact h
theorem args93 (V : Valuation τ sig (Elt Ideal)) (i : Fin 15) : P93 V (Proc.devRef .tc (argRef i)) = V (Proc.devRef .tc (argRef i)) :=
  (keep93 V (argRef i) (by revert i; decide)).trans (args92 V i)
def P94 (V : Valuation τ sig (Elt Ideal)) : Valuation τ sig (Elt Ideal) := op94.result (P93 V)
theorem keep94 (V : Valuation τ sig (Elt Ideal)) (r : Ref sig .tc) (h : r ≠ main_v54) : P94 V (Proc.devRef .tc r) = (P93 V) (Proc.devRef .tc r) := by
  unfold P94; rw [unary_result_ne]; exact h
theorem args94 (V : Valuation τ sig (Elt Ideal)) (i : Fin 15) : P94 V (Proc.devRef .tc (argRef i)) = V (Proc.devRef .tc (argRef i)) :=
  (keep94 V (argRef i) (by revert i; decide)).trans (args93 V i)
def P95 (V : Valuation τ sig (Elt Ideal)) : Valuation τ sig (Elt Ideal) := op95.result (P94 V)
theorem keep95 (V : Valuation τ sig (Elt Ideal)) (r : Ref sig .tc) (h : r ≠ main_v55) : P95 V (Proc.devRef .tc r) = (P94 V) (Proc.devRef .tc r) := by
  unfold P95; rw [unary_result_ne]; exact h
theorem args95 (V : Valuation τ sig (Elt Ideal)) (i : Fin 15) : P95 V (Proc.devRef .tc (argRef i)) = V (Proc.devRef .tc (argRef i)) :=
  (keep95 V (argRef i) (by revert i; decide)).trans (args94 V i)
def P96 (V : Valuation τ sig (Elt Ideal)) : Valuation τ sig (Elt Ideal) := op96.result (P95 V)
theorem keep96 (V : Valuation τ sig (Elt Ideal)) (r : Ref sig .tc) (h : r ≠ main_v56) : P96 V (Proc.devRef .tc r) = (P95 V) (Proc.devRef .tc r) := by
  unfold P96; rw [binary_result_ne]; exact h
theorem args96 (V : Valuation τ sig (Elt Ideal)) (i : Fin 15) : P96 V (Proc.devRef .tc (argRef i)) = V (Proc.devRef .tc (argRef i)) :=
  (keep96 V (argRef i) (by revert i; decide)).trans (args95 V i)
def P97 (V : Valuation τ sig (Elt Ideal)) : Valuation τ sig (Elt Ideal) := op97.result (P96 V)
theorem keep97 (V : Valuation τ sig (Elt Ideal)) (r : Ref sig .tc) (h : r ≠ main_call4_cst) : P97 V (Proc.devRef .tc r) = (P96 V) (Proc.devRef .tc r) := by
  unfold P97; rw [nullary_result_ne]; exact h
theorem args97 (V : Valuation τ sig (Elt Ideal)) (i : Fin 15) : P97 V (Proc.devRef .tc (argRef i)) = V (Proc.devRef .tc (argRef i)) :=
  (keep97 V (argRef i) (by revert i; decide)).trans (args96 V i)
def P98 (V : Valuation τ sig (Elt Ideal)) : Valuation τ sig (Elt Ideal) := op98.result (P97 V)
theorem keep98 (V : Valuation τ sig (Elt Ideal)) (r : Ref sig .tc) (h : r ≠ main_call4_v0) : P98 V (Proc.devRef .tc r) = (P97 V) (Proc.devRef .tc r) := by
  unfold P98; rw [unary_result_ne]; exact h
theorem args98 (V : Valuation τ sig (Elt Ideal)) (i : Fin 15) : P98 V (Proc.devRef .tc (argRef i)) = V (Proc.devRef .tc (argRef i)) :=
  (keep98 V (argRef i) (by revert i; decide)).trans (args97 V i)
def P99 (V : Valuation τ sig (Elt Ideal)) : Valuation τ sig (Elt Ideal) := op99.result (P98 V)
theorem keep99 (V : Valuation τ sig (Elt Ideal)) (r : Ref sig .tc) (h : r ≠ main_v57) : P99 V (Proc.devRef .tc r) = (P98 V) (Proc.devRef .tc r) := by
  unfold P99; rw [binary_result_ne]; exact h
theorem args99 (V : Valuation τ sig (Elt Ideal)) (i : Fin 15) : P99 V (Proc.devRef .tc (argRef i)) = V (Proc.devRef .tc (argRef i)) :=
  (keep99 V (argRef i) (by revert i; decide)).trans (args98 V i)
def P100 (V : Valuation τ sig (Elt Ideal)) : Valuation τ sig (Elt Ideal) := op100.result (P99 V)
theorem keep100 (V : Valuation τ sig (Elt Ideal)) (r : Ref sig .tc) (h : r ≠ main_c_8) : P100 V (Proc.devRef .tc r) = (P99 V) (Proc.devRef .tc r) := by
  unfold P100; rw [nullary_result_ne]; exact h
theorem args100 (V : Valuation τ sig (Elt Ideal)) (i : Fin 15) : P100 V (Proc.devRef .tc (argRef i)) = V (Proc.devRef .tc (argRef i)) :=
  (keep100 V (argRef i) (by revert i; decide)).trans (args99 V i)
def P101 (V : Valuation τ sig (Elt Ideal)) : Valuation τ sig (Elt Ideal) := op101.result (P100 V)
theorem keep101 (V : Valuation τ sig (Elt Ideal)) (r : Ref sig .tc) (h : r ≠ main_v58) : P101 V (Proc.devRef .tc r) = (P100 V) (Proc.devRef .tc r) := by
  unfold P101; rw [unary_result_ne]; exact h
theorem args101 (V : Valuation τ sig (Elt Ideal)) (i : Fin 15) : P101 V (Proc.devRef .tc (argRef i)) = V (Proc.devRef .tc (argRef i)) :=
  (keep101 V (argRef i) (by revert i; decide)).trans (args100 V i)
def P102 (V : Valuation τ sig (Elt Ideal)) : Valuation τ sig (Elt Ideal) := op102.result (P101 V)
theorem keep102 (V : Valuation τ sig (Elt Ideal)) (r : Ref sig .tc) (h : r ≠ main_v59) : P102 V (Proc.devRef .tc r) = (P101 V) (Proc.devRef .tc r) := by
  unfold P102; rw [binary_result_ne]; exact h
theorem args102 (V : Valuation τ sig (Elt Ideal)) (i : Fin 15) : P102 V (Proc.devRef .tc (argRef i)) = V (Proc.devRef .tc (argRef i)) :=
  (keep102 V (argRef i) (by revert i; decide)).trans (args101 V i)
def P103 (V : Valuation τ sig (Elt Ideal)) : Valuation τ sig (Elt Ideal) := op103.result (P102 V)
theorem keep103 (V : Valuation τ sig (Elt Ideal)) (r : Ref sig .tc) (h : r ≠ main_c_9) : P103 V (Proc.devRef .tc r) = (P102 V) (Proc.devRef .tc r) := by
  unfold P103; rw [nullary_result_ne]; exact h
theorem args103 (V : Valuation τ sig (Elt Ideal)) (i : Fin 15) : P103 V (Proc.devRef .tc (argRef i)) = V (Proc.devRef .tc (argRef i)) :=
  (keep103 V (argRef i) (by revert i; decide)).trans (args102 V i)
def P104 (V : Valuation τ sig (Elt Ideal)) : Valuation τ sig (Elt Ideal) := op104.result (P103 V)
theorem keep104 (V : Valuation τ sig (Elt Ideal)) (r : Ref sig .tc) (h : r ≠ main_v60) : P104 V (Proc.devRef .tc r) = (P103 V) (Proc.devRef .tc r) := by
  unfold P104; rw [unary_result_ne]; exact h
theorem args104 (V : Valuation τ sig (Elt Ideal)) (i : Fin 15) : P104 V (Proc.devRef .tc (argRef i)) = V (Proc.devRef .tc (argRef i)) :=
  (keep104 V (argRef i) (by revert i; decide)).trans (args103 V i)
def P105 (V : Valuation τ sig (Elt Ideal)) : Valuation τ sig (Elt Ideal) := op105.result (P104 V)
theorem keep105 (V : Valuation τ sig (Elt Ideal)) (r : Ref sig .tc) (h : r ≠ main_v61) : P105 V (Proc.devRef .tc r) = (P104 V) (Proc.devRef .tc r) := by
  unfold P105; rw [binary_result_ne]; exact h
theorem args105 (V : Valuation τ sig (Elt Ideal)) (i : Fin 15) : P105 V (Proc.devRef .tc (argRef i)) = V (Proc.devRef .tc (argRef i)) :=
  (keep105 V (argRef i) (by revert i; decide)).trans (args104 V i)
def P106 (V : Valuation τ sig (Elt Ideal)) : Valuation τ sig (Elt Ideal) := op106.result (P105 V)
theorem keep106 (V : Valuation τ sig (Elt Ideal)) (r : Ref sig .tc) (h : r ≠ main_v62) : P106 V (Proc.devRef .tc r) = (P105 V) (Proc.devRef .tc r) := by
  unfold P106; rw [ternary_result_ne]; exact h
theorem args106 (V : Valuation τ sig (Elt Ideal)) (i : Fin 15) : P106 V (Proc.devRef .tc (argRef i)) = V (Proc.devRef .tc (argRef i)) :=
  (keep106 V (argRef i) (by revert i; decide)).trans (args105 V i)
def P107 (V : Valuation τ sig (Elt Ideal)) : Valuation τ sig (Elt Ideal) := op107.result (P106 V)
theorem keep107 (V : Valuation τ sig (Elt Ideal)) (r : Ref sig .tc) (h : r ≠ main_v63) : P107 V (Proc.devRef .tc r) = (P106 V) (Proc.devRef .tc r) := by
  unfold P107; rw [unary_result_ne]; exact h
theorem args107 (V : Valuation τ sig (Elt Ideal)) (i : Fin 15) : P107 V (Proc.devRef .tc (argRef i)) = V (Proc.devRef .tc (argRef i)) :=
  (keep107 V (argRef i) (by revert i; decide)).trans (args106 V i)
def P108 (V : Valuation τ sig (Elt Ideal)) : Valuation τ sig (Elt Ideal) := op108.result (P107 V)
theorem keep108 (V : Valuation τ sig (Elt Ideal)) (r : Ref sig .tc) (h : r ≠ main_v64) : P108 V (Proc.devRef .tc r) = (P107 V) (Proc.devRef .tc r) := by
  unfold P108; rw [binary_result_ne]; exact h
theorem args108 (V : Valuation τ sig (Elt Ideal)) (i : Fin 15) : P108 V (Proc.devRef .tc (argRef i)) = V (Proc.devRef .tc (argRef i)) :=
  (keep108 V (argRef i) (by revert i; decide)).trans (args107 V i)
def P109 (V : Valuation τ sig (Elt Ideal)) : Valuation τ sig (Elt Ideal) := op109.result (P108 V)
theorem keep109 (V : Valuation τ sig (Elt Ideal)) (r : Ref sig .tc) (h : r ≠ main_cst_10) : P109 V (Proc.devRef .tc r) = (P108 V) (Proc.devRef .tc r) := by
  unfold P109; rw [nullary_result_ne]; exact h
theorem args109 (V : Valuation τ sig (Elt Ideal)) (i : Fin 15) : P109 V (Proc.devRef .tc (argRef i)) = V (Proc.devRef .tc (argRef i)) :=
  (keep109 V (argRef i) (by revert i; decide)).trans (args108 V i)
def P110 (V : Valuation τ sig (Elt Ideal)) : Valuation τ sig (Elt Ideal) := op110.result (P109 V)
theorem keep110 (V : Valuation τ sig (Elt Ideal)) (r : Ref sig .tc) (h : r ≠ main_v65) : P110 V (Proc.devRef .tc r) = (P109 V) (Proc.devRef .tc r) := by
  unfold P110; rw [binary_result_ne]; exact h
theorem args110 (V : Valuation τ sig (Elt Ideal)) (i : Fin 15) : P110 V (Proc.devRef .tc (argRef i)) = V (Proc.devRef .tc (argRef i)) :=
  (keep110 V (argRef i) (by revert i; decide)).trans (args109 V i)
def P111 (V : Valuation τ sig (Elt Ideal)) : Valuation τ sig (Elt Ideal) := op111.result (P110 V)
theorem keep111 (V : Valuation τ sig (Elt Ideal)) (r : Ref sig .tc) (h : r ≠ main_c_11) : P111 V (Proc.devRef .tc r) = (P110 V) (Proc.devRef .tc r) := by
  unfold P111; rw [nullary_result_ne]; exact h
theorem args111 (V : Valuation τ sig (Elt Ideal)) (i : Fin 15) : P111 V (Proc.devRef .tc (argRef i)) = V (Proc.devRef .tc (argRef i)) :=
  (keep111 V (argRef i) (by revert i; decide)).trans (args110 V i)
def P112 (V : Valuation τ sig (Elt Ideal)) : Valuation τ sig (Elt Ideal) := op112.result (P111 V)
theorem keep112 (V : Valuation τ sig (Elt Ideal)) (r : Ref sig .tc) (h : r ≠ main_v66) : P112 V (Proc.devRef .tc r) = (P111 V) (Proc.devRef .tc r) := by
  unfold P112; rw [unary_result_ne]; exact h
theorem args112 (V : Valuation τ sig (Elt Ideal)) (i : Fin 15) : P112 V (Proc.devRef .tc (argRef i)) = V (Proc.devRef .tc (argRef i)) :=
  (keep112 V (argRef i) (by revert i; decide)).trans (args111 V i)
def P113 (V : Valuation τ sig (Elt Ideal)) : Valuation τ sig (Elt Ideal) := op113.result (P112 V)
theorem keep113 (V : Valuation τ sig (Elt Ideal)) (r : Ref sig .tc) (h : r ≠ main_v67) : P113 V (Proc.devRef .tc r) = (P112 V) (Proc.devRef .tc r) := by
  unfold P113; rw [binary_result_ne]; exact h
theorem args113 (V : Valuation τ sig (Elt Ideal)) (i : Fin 15) : P113 V (Proc.devRef .tc (argRef i)) = V (Proc.devRef .tc (argRef i)) :=
  (keep113 V (argRef i) (by revert i; decide)).trans (args112 V i)
def P114 (V : Valuation τ sig (Elt Ideal)) : Valuation τ sig (Elt Ideal) := op114.result (P113 V)
theorem keep114 (V : Valuation τ sig (Elt Ideal)) (r : Ref sig .tc) (h : r ≠ main_c_12) : P114 V (Proc.devRef .tc r) = (P113 V) (Proc.devRef .tc r) := by
  unfold P114; rw [nullary_result_ne]; exact h
theorem args114 (V : Valuation τ sig (Elt Ideal)) (i : Fin 15) : P114 V (Proc.devRef .tc (argRef i)) = V (Proc.devRef .tc (argRef i)) :=
  (keep114 V (argRef i) (by revert i; decide)).trans (args113 V i)
def P115 (V : Valuation τ sig (Elt Ideal)) : Valuation τ sig (Elt Ideal) := op115.result (P114 V)
theorem keep115 (V : Valuation τ sig (Elt Ideal)) (r : Ref sig .tc) (h : r ≠ main_v68) : P115 V (Proc.devRef .tc r) = (P114 V) (Proc.devRef .tc r) := by
  unfold P115; rw [unary_result_ne]; exact h
theorem args115 (V : Valuation τ sig (Elt Ideal)) (i : Fin 15) : P115 V (Proc.devRef .tc (argRef i)) = V (Proc.devRef .tc (argRef i)) :=
  (keep115 V (argRef i) (by revert i; decide)).trans (args114 V i)
def P116 (V : Valuation τ sig (Elt Ideal)) : Valuation τ sig (Elt Ideal) := op116.result (P115 V)
theorem keep116 (V : Valuation τ sig (Elt Ideal)) (r : Ref sig .tc) (h : r ≠ main_v69) : P116 V (Proc.devRef .tc r) = (P115 V) (Proc.devRef .tc r) := by
  unfold P116; rw [binary_result_ne]; exact h
theorem args116 (V : Valuation τ sig (Elt Ideal)) (i : Fin 15) : P116 V (Proc.devRef .tc (argRef i)) = V (Proc.devRef .tc (argRef i)) :=
  (keep116 V (argRef i) (by revert i; decide)).trans (args115 V i)
def P117 (V : Valuation τ sig (Elt Ideal)) : Valuation τ sig (Elt Ideal) := op117.result (P116 V)
theorem keep117 (V : Valuation τ sig (Elt Ideal)) (r : Ref sig .tc) (h : r ≠ main_v70) : P117 V (Proc.devRef .tc r) = (P116 V) (Proc.devRef .tc r) := by
  unfold P117; rw [ternary_result_ne]; exact h
theorem args117 (V : Valuation τ sig (Elt Ideal)) (i : Fin 15) : P117 V (Proc.devRef .tc (argRef i)) = V (Proc.devRef .tc (argRef i)) :=
  (keep117 V (argRef i) (by revert i; decide)).trans (args116 V i)
def P118 (V : Valuation τ sig (Elt Ideal)) : Valuation τ sig (Elt Ideal) := op118.result (P117 V)
theorem keep118 (V : Valuation τ sig (Elt Ideal)) (r : Ref sig .tc) (h : r ≠ main_v71) : P118 V (Proc.devRef .tc r) = (P117 V) (Proc.devRef .tc r) := by
  unfold P118; rw [unary_result_ne]; exact h
theorem args118 (V : Valuation τ sig (Elt Ideal)) (i : Fin 15) : P118 V (Proc.devRef .tc (argRef i)) = V (Proc.devRef .tc (argRef i)) :=
  (keep118 V (argRef i) (by revert i; decide)).trans (args117 V i)
def P119 (V : Valuation τ sig (Elt Ideal)) : Valuation τ sig (Elt Ideal) := op119.result (P118 V)
theorem keep119 (V : Valuation τ sig (Elt Ideal)) (r : Ref sig .tc) (h : r ≠ main_v72) : P119 V (Proc.devRef .tc r) = (P118 V) (Proc.devRef .tc r) := by
  unfold P119; rw [binary_result_ne]; exact h
theorem args119 (V : Valuation τ sig (Elt Ideal)) (i : Fin 15) : P119 V (Proc.devRef .tc (argRef i)) = V (Proc.devRef .tc (argRef i)) :=
  (keep119 V (argRef i) (by revert i; decide)).trans (args118 V i)
def P120 (V : Valuation τ sig (Elt Ideal)) : Valuation τ sig (Elt Ideal) := op120.result (P119 V)
theorem keep120 (V : Valuation τ sig (Elt Ideal)) (r : Ref sig .tc) (h : r ≠ main_v73) : P120 V (Proc.devRef .tc r) = (P119 V) (Proc.devRef .tc r) := by
  unfold P120; rw [binary_result_ne]; exact h
theorem args120 (V : Valuation τ sig (Elt Ideal)) (i : Fin 15) : P120 V (Proc.devRef .tc (argRef i)) = V (Proc.devRef .tc (argRef i)) :=
  (keep120 V (argRef i) (by revert i; decide)).trans (args119 V i)
def P121 (V : Valuation τ sig (Elt Ideal)) : Valuation τ sig (Elt Ideal) := op121.result (P120 V)
theorem keep121 (V : Valuation τ sig (Elt Ideal)) (r : Ref sig .tc) (h : r ≠ main_v74) : P121 V (Proc.devRef .tc r) = (P120 V) (Proc.devRef .tc r) := by
  unfold P121; rw [unary_result_ne]; exact h
theorem args121 (V : Valuation τ sig (Elt Ideal)) (i : Fin 15) : P121 V (Proc.devRef .tc (argRef i)) = V (Proc.devRef .tc (argRef i)) :=
  (keep121 V (argRef i) (by revert i; decide)).trans (args120 V i)
def P122 (V : Valuation τ sig (Elt Ideal)) : Valuation τ sig (Elt Ideal) := op122.result (P121 V)
theorem keep122 (V : Valuation τ sig (Elt Ideal)) (r : Ref sig .tc) (h : r ≠ main_v75) : P122 V (Proc.devRef .tc r) = (P121 V) (Proc.devRef .tc r) := by
  unfold P122; rw [binary_result_ne]; exact h
theorem args122 (V : Valuation τ sig (Elt Ideal)) (i : Fin 15) : P122 V (Proc.devRef .tc (argRef i)) = V (Proc.devRef .tc (argRef i)) :=
  (keep122 V (argRef i) (by revert i; decide)).trans (args121 V i)
def P123 (V : Valuation τ sig (Elt Ideal)) : Valuation τ sig (Elt Ideal) := op123.result (P122 V)
theorem keep123 (V : Valuation τ sig (Elt Ideal)) (r : Ref sig .tc) (h : r ≠ main_v76) : P123 V (Proc.devRef .tc r) = (P122 V) (Proc.devRef .tc r) := by
  unfold P123; rw [unary_result_ne]; exact h
theorem args123 (V : Valuation τ sig (Elt Ideal)) (i : Fin 15) : P123 V (Proc.devRef .tc (argRef i)) = V (Proc.devRef .tc (argRef i)) :=
  (keep123 V (argRef i) (by revert i; decide)).trans (args122 V i)
def P124 (V : Valuation τ sig (Elt Ideal)) : Valuation τ sig (Elt Ideal) := op124.result (P123 V)
theorem keep124 (V : Valuation τ sig (Elt Ideal)) (r : Ref sig .tc) (h : r ≠ main_v77) : P124 V (Proc.devRef .tc r) = (P123 V) (Proc.devRef .tc r) := by
  unfold P124; rw [unary_result_ne]; exact h
theorem args124 (V : Valuation τ sig (Elt Ideal)) (i : Fin 15) : P124 V (Proc.devRef .tc (argRef i)) = V (Proc.devRef .tc (argRef i)) :=
  (keep124 V (argRef i) (by revert i; decide)).trans (args123 V i)
def P125 (V : Valuation τ sig (Elt Ideal)) : Valuation τ sig (Elt Ideal) := op125.result (P124 V)
theorem keep125 (V : Valuation τ sig (Elt Ideal)) (r : Ref sig .tc) (h : r ≠ main_v78) : P125 V (Proc.devRef .tc r) = (P124 V) (Proc.devRef .tc r) := by
  unfold P125; rw [binary_result_ne]; exact h
theorem args125 (V : Valuation τ sig (Elt Ideal)) (i : Fin 15) : P125 V (Proc.devRef .tc (argRef i)) = V (Proc.devRef .tc (argRef i)) :=
  (keep125 V (argRef i) (by revert i; decide)).trans (args124 V i)

end Cert.ReferenceIdeal.Val

end
-- ==== Proof.RefRunVals.lean ====
import proofs.«178630_j29162827940511_2_alg».proof.Proof.RefRunOps

noncomputable section

namespace Cert.ReferenceIdeal.Val

open Idealize.ShloMosaic Idealize.ShloMosaic.TcCoe Idealize.SL.Sem Idealize.ShloMosaic.StableHlo Cert.ReferenceIdeal Cert.ReferenceIdeal.Facts₀

/-! # What each buffer holds once it is written

For every operation: the buffer it writes holds, from that step on, the term of the argument arrays that
the program's text gives it — the operation's function applied to its operands' terms. An operand written
at an earlier step still holds its term because the steps between write other buffers; an operand that is
an argument array still holds what it held at the start. -/

theorem val_v0 (V : Valuation τ sig (Elt Ideal)) : P1 V (Proc.devRef .tc main_v0) = t_v0 (V (Proc.devRef .tc main_arg1)) := by
  unfold P1; rw [unary_result]; rfl

theorem val_v1 (V : Valuation τ sig (Elt Ideal)) : P2 V (Proc.devRef .tc main_v1) = t_v1 (V (Proc.devRef .tc main_arg0)) (V (Proc.devRef .tc main_arg1)) := by
  have e0 : (P1 V) (Proc.devRef .tc main_arg0) = V (Proc.devRef .tc main_arg0) := args1 V 0
  have e1 : (P1 V) (Proc.devRef .tc main_v0) = (t_v0 (V (Proc.devRef .tc main_arg1))) := val_v0 V
  unfold P2; rw [binary_result, e0, e1]; rfl

theorem val_v2 (V : Valuation τ sig (Elt Ideal)) : P3 V (Proc.devRef .tc main_v2) = t_v2 (V (Proc.devRef .tc main_arg2)) := by
  have e0 : (P2 V) (Proc.devRef .tc main_arg2) = V (Proc.devRef .tc main_arg2) := args2 V 2
  unfold P3; rw [unary_result, e0]; rfl

theorem val_v3 (V : Valuation τ sig (Elt Ideal)) : P4 V (Proc.devRef .tc main_v3) = t_v3 (V (Proc.devRef .tc main_arg2)) := by
  have e0 : (P3 V) (Proc.devRef .tc main_v2) = (t_v2 (V (Proc.devRef .tc main_arg2))) := val_v2 V
  unfold P4; rw [unary_result, e0]; rfl

theorem val_v4 (V : Valuation τ sig (Elt Ideal)) : P5 V (Proc.devRef .tc main_v4) = t_v4 (V (Proc.devRef .tc main_arg0)) (V (Proc.devRef .tc main_arg1)) (V (Proc.devRef .tc main_arg2)) := by
  have e0 : (P4 V) (Proc.devRef .tc main_v1) = (t_v1 (V (Proc.devRef .tc main_arg0)) (V (Proc.devRef .tc main_arg1))) := (keep4 V main_v1 (by decide)).trans ((keep3 V main_v1 (by decide)).trans (val_v1 V))
  have e1 : (P4 V) (Proc.devRef .tc main_v3) = (t_v3 (V (Proc.devRef .tc main_arg2))) := val_v3 V
  unfold P5; rw [binary_result, e0, e1]; rfl

theorem val_call0_cst (V : Valuation τ sig (Elt Ideal)) : P6 V (Proc.devRef .tc main_call0_cst) = t_call0_cst := by
  unfold P6; rw [nullary_result]; rfl

theorem val_call0_v0 (V : Valuation τ sig (Elt Ideal)) : P7 V (Proc.devRef .tc main_call0_v0) = t_call0_v0 := by
  have e0 : (P6 V) (Proc.devRef .tc main_call0_cst) = t_call0_cst := val_call0_cst V
  unfold P7; rw [unary_result, e0]; rfl

theorem val_v5 (V : Valuation τ sig (Elt Ideal)) : P8 V (Proc.devRef .tc main_v5) = t_v5 (V (Proc.devRef .tc main_arg0)) (V (Proc.devRef .tc main_arg1)) (V (Proc.devRef .tc main_arg2)) := by
  have e0 : (P7 V) (Proc.devRef .tc main_v4) = (t_v4 (V (Proc.devRef .tc main_arg0)) (V (Proc.devRef .tc main_arg1)) (V (Proc.devRef .tc main_arg2))) := (keep7 V main_v4 (by decide)).trans ((keep6 V main_v4 (by decide)).trans (val_v4 V))
  have e1 : (P7 V) (Proc.devRef .tc main_call0_v0) = t_call0_v0 := val_call0_v0 V
  unfold P8; rw [binary_result, e0, e1]; rfl

theorem val_c (V : Valuation τ sig (Elt Ideal)) : P9 V (Proc.devRef .tc main_c) = t_c := by
  unfold P9; rw [nullary_result]; rfl

theorem val_v6 (V : Valuation τ sig (Elt Ideal)) : P10 V (Proc.devRef .tc main_v6) = t_v6 := by
  have e0 : (P9 V) (Proc.devRef .tc main_c) = t_c := val_c V
  unfold P10; rw [unary_result, e0]; rfl

theorem val_v7 (V : Valuation τ sig (Elt Ideal)) : P11 V (Proc.devRef .tc main_v7) = t_v7 (V (Proc.devRef .tc main_arg11)) := by
  have e0 : (P10 V) (Proc.devRef .tc main_arg11) = V (Proc.devRef .tc main_arg11) := args10 V 11
  have e1 : (P10 V) (Proc.devRef .tc main_v6) = t_v6 := val_v6 V
  unfold P11; rw [binary_result, e0, e1]; rfl

theorem val_c_0 (V : Valuation τ sig (Elt Ideal)) : P12 V (Proc.devRef .tc main_c_0) = t_c_0 := by
  unfold P12; rw [nullary_result]; rfl

theorem val_v8 (V : Valuation τ sig (Elt Ideal)) : P13 V (Proc.devRef .tc main_v8) = t_v8 := by
  have e0 : (P12 V) (Proc.devRef .tc main_c_0) = t_c_0 := val_c_0 V
  unfold P13; rw [unary_result, e0]; rfl

theorem val_v9 (V : Valuation τ sig (Elt Ideal)) : P14 V (Proc.devRef .tc main_v9) = t_v9 (V (Proc.devRef .tc main_arg11)) := by
  have e0 : (P13 V) (Proc.devRef .tc main_arg11) = V (Proc.devRef .tc main_arg11) := args13 V 11
  have e1 : (P13 V) (Proc.devRef .tc main_v8) = t_v8 := val_v8 V
  unfold P14; rw [binary_result, e0, e1]; rfl

theorem val_v10 (V : Valuation τ sig (Elt Ideal)) : P15 V (Proc.devRef .tc main_v10) = t_v10 (V (Proc.devRef .tc main_arg11)) := by
  have e0 : (P14 V) (Proc.devRef .tc main_v7) = (t_v7 (V (Proc.devRef .tc main_arg11))) := (keep14 V main_v7 (by decide)).trans ((keep13 V main_v7 (by decide)).trans ((keep12 V main_v7 (by decide)).trans (val_v7 V)))
  have e1 : (P14 V) (Proc.devRef .tc main_v9) = (t_v9 (V (Proc.devRef .tc main_arg11))) := val_v9 V
  have e2 : (P14 V) (Proc.devRef .tc main_arg11) = V (Proc.devRef .tc main_arg11) := args14 V 11
  unfold P15; rw [ternary_result, e0, e1, e2]; rfl

theorem val_v11 (V : Valuation τ sig (Elt Ideal)) : P16 V (Proc.devRef .tc main_v11) = t_v11 (V (Proc.devRef .tc main_arg11)) := by
  have e0 : (P15 V) (Proc.devRef .tc main_v10) = (t_v10 (V (Proc.devRef .tc main_arg11))) := val_v10 V
  unfold P16; rw [unary_result, e0]; rfl

theorem val_v12 (V : Valuation τ sig (Elt Ideal)) : P17 V (Proc.devRef .tc main_v12) = t_v12 (V (Proc.devRef .tc main_arg0)) (V (Proc.devRef .tc main_arg1)) (V (Proc.devRef .tc main_arg2)) (V (Proc.devRef .tc main_arg11)) := by
  have e0 : (P16 V) (Proc.devRef .tc main_v5) = (t_v5 (V (Proc.devRef .tc main_arg0)) (V (Proc.devRef .tc main_arg1)) (V (Proc.devRef .tc main_arg2))) := (keep16 V main_v5 (by decide)).trans ((keep15 V main_v5 (by decide)).trans ((keep14 V main_v5 (by decide)).trans ((keep13 V main_v5 (by decide)).trans ((keep12 V main_v5 (by decide)).trans ((keep11 V main_v5 (by decide)).trans ((keep10 V main_v5 (by decide)).trans ((keep9 V main_v5 (by decide)).trans (val_v5 V))))))))
  have e1 : (P16 V) (Proc.devRef .tc main_v11) = (t_v11 (V (Proc.devRef .tc main_arg11))) := val_v11 V
  unfold P17; rw [binary_result, e0, e1]; rfl

theorem val_cst (V : Valuation τ sig (Elt Ideal)) : P18 V (Proc.devRef .tc main_cst) = t_cst := by
  unfold P18; rw [nullary_result]; rfl

theorem val_v13 (V : Valuation τ sig (Elt Ideal)) : P19 V (Proc.devRef .tc main_v13) = t_v13 (V (Proc.devRef .tc main_arg0)) (V (Proc.devRef .tc main_arg1)) (V (Proc.devRef .tc main_arg2)) (V (Proc.devRef .tc main_arg11)) := by
  have e0 : (P18 V) (Proc.devRef .tc main_v12) = (t_v12 (V (Proc.devRef .tc main_arg0)) (V (Proc.devRef .tc main_arg1)) (V (Proc.devRef .tc main_arg2)) (V (Proc.devRef .tc main_arg11))) := (keep18 V main_v12 (by decide)).trans (val_v12 V)
  have e1 : (P18 V) (Proc.devRef .tc main_cst) = t_cst := val_cst V
  unfold P19; rw [binary_result, e0, e1]; rfl

theorem val_c_1 (V : Valuation τ sig (Elt Ideal)) : P20 V (Proc.devRef .tc main_c_1) = t_c_1 := by
  unfold P20; rw [nullary_result]; rfl

theorem val_v14 (V : Valuation τ sig (Elt Ideal)) : P21 V (Proc.devRef .tc main_v14) = t_v14 := by
  have e0 : (P20 V) (Proc.devRef .tc main_c_1) = t_c_1 := val_c_1 V
  unfold P21; rw [unary_result, e0]; rfl

theorem val_v15 (V : Valuation τ sig (Elt Ideal)) : P22 V (Proc.devRef .tc main_v15) = t_v15 (V (Proc.devRef .tc main_arg12)) := by
  have e0 : (P21 V) (Proc.devRef .tc main_arg12) = V (Proc.devRef .tc main_arg12) := args21 V 12
  have e1 : (P21 V) (Proc.devRef .tc main_v14) = t_v14 := val_v14 V
  unfold P22; rw [binary_result, e0, e1]; rfl

theorem val_c_2 (V : Valuation τ sig (Elt Ideal)) : P23 V (Proc.devRef .tc main_c_2) = t_c_2 := by
  unfold P23; rw [nullary_result]; rfl

theorem val_v16 (V : Valuation τ sig (Elt Ideal)) : P24 V (Proc.devRef .tc main_v16) = t_v16 := by
  have e0 : (P23 V) (Proc.devRef .tc main_c_2) = t_c_2 := val_c_2 V
  unfold P24; rw [unary_result, e0]; rfl

theorem val_v17 (V : Valuation τ sig (Elt Ideal)) : P25 V (Proc.devRef .tc main_v17) = t_v17 (V (Proc.devRef .tc main_arg12)) := by
  have e0 : (P24 V) (Proc.devRef .tc main_arg12) = V (Proc.devRef .tc main_arg12) := args24 V 12
  have e1 : (P24 V) (Proc.devRef .tc main_v16) = t_v16 := val_v16 V
  unfold P25; rw [binary_result, e0, e1]; rfl

theorem val_v18 (V : Valuation τ sig (Elt Ideal)) : P26 V (Proc.devRef .tc main_v18) = t_v18 (V (Proc.devRef .tc main_arg12)) := by
  have e0 : (P25 V) (Proc.devRef .tc main_v15) = (t_v15 (V (Proc.devRef .tc main_arg12))) := (keep25 V main_v15 (by decide)).trans ((keep24 V main_v15 (by decide)).trans ((keep23 V main_v15 (by decide)).trans (val_v15 V)))
  have e1 : (P25 V) (Proc.devRef .tc main_v17) = (t_v17 (V (Proc.devRef .tc main_arg12))) := val_v17 V
  have e2 : (P25 V) (Proc.devRef .tc main_arg12) = V (Proc.devRef .tc main_arg12) := args25 V 12
  unfold P26; rw [ternary_result, e0, e1, e2]; rfl

theorem val_v19 (V : Valuation τ sig (Elt Ideal)) : P27 V (Proc.devRef .tc main_v19) = t_v19 (V (Proc.devRef .tc main_arg12)) := by
  have e0 : (P26 V) (Proc.devRef .tc main_v18) = (t_v18 (V (Proc.devRef .tc main_arg12))) := val_v18 V
  unfold P27; rw [unary_result, e0]; rfl

theorem val_v20 (V : Valuation τ sig (Elt Ideal)) : P28 V (Proc.devRef .tc main_v20) = t_v20 (V (Proc.devRef .tc main_arg0)) (V (Proc.devRef .tc main_arg12)) := by
  have e0 : (P27 V) (Proc.devRef .tc main_arg0) = V (Proc.devRef .tc main_arg0) := args27 V 0
  have e1 : (P27 V) (Proc.devRef .tc main_v19) = (t_v19 (V (Proc.devRef .tc main_arg12))) := val_v19 V
  unfold P28; rw [binary_result, e0, e1]; rfl

theorem val_v21 (V : Valuation τ sig (Elt Ideal)) : P29 V (Proc.devRef .tc main_v21) = t_v21 (V (Proc.devRef .tc main_arg0)) (V (Proc.devRef .tc main_arg1)) (V (Proc.devRef .tc main_arg2)) (V (Proc.devRef .tc main_arg11)) (V (Proc.devRef .tc main_arg12)) := by
  have e0 : (P28 V) (Proc.devRef .tc main_v20) = (t_v20 (V (Proc.devRef .tc main_arg0)) (V (Proc.devRef .tc main_arg12))) := val_v20 V
  have e1 : (P28 V) (Proc.devRef .tc main_v13) = (t_v13 (V (Proc.devRef .tc main_arg0)) (V (Proc.devRef .tc main_arg1)) (V (Proc.devRef .tc main_arg2)) (V (Proc.devRef .tc main_arg11))) := (keep28 V main_v13 (by decide)).trans ((keep27 V main_v13 (by decide)).trans ((keep26 V main_v13 (by decide)).trans ((keep25 V main_v13 (by decide)).trans ((keep24 V main_v13 (by decide)).trans ((keep23 V main_v13 (by decide)).trans ((keep22 V main_v13 (by decide)).trans ((keep21 V main_v13 (by decide)).trans ((keep20 V main_v13 (by decide)).trans (val_v13 V)))))))))
  unfold P29; rw [binary_result, e0, e1]; rfl

theorem val_v22 (V : Valuation τ sig (Elt Ideal)) : P30 V (Proc.devRef .tc main_v22) = t_v22 (V (Proc.devRef .tc main_arg5)) := by
  have e0 : (P29 V) (Proc.devRef .tc main_arg5) = V (Proc.devRef .tc main_arg5) := args29 V 5
  unfold P30; rw [unary_result, e0]; rfl

theorem val_v23 (V : Valuation τ sig (Elt Ideal)) : P31 V (Proc.devRef .tc main_v23) = t_v23 (V (Proc.devRef .tc main_arg0)) (V (Proc.devRef .tc main_arg1)) (V (Proc.devRef .tc main_arg2)) (V (Proc.devRef .tc main_arg5)) (V (Proc.devRef .tc main_arg11)) (V (Proc.devRef .tc main_arg12)) := by
  have e0 : (P30 V) (Proc.devRef .tc main_v21) = (t_v21 (V (Proc.devRef .tc main_arg0)) (V (Proc.devRef .tc main_arg1)) (V (Proc.devRef .tc main_arg2)) (V (Proc.devRef .tc main_arg11)) (V (Proc.devRef .tc main_arg12))) := (keep30 V main_v21 (by decide)).trans (val_v21 V)
  have e1 : (P30 V) (Proc.devRef .tc main_v22) = (t_v22 (V (Proc.devRef .tc main_arg5))) := val_v22 V
  unfold P31; rw [binary_result, e0, e1]; rfl

theorem val_v24 (V : Valuation τ sig (Elt Ideal)) : P32 V (Proc.devRef .tc main_v24) = t_v24 (V (Proc.devRef .tc main_arg6)) := by
  have e0 : (P31 V) (Proc.devRef .tc main_arg6) = V (Proc.devRef .tc main_arg6) := args31 V 6
  unfold P32; rw [unary_result, e0]; rfl

theorem val_v25 (V : Valuation τ sig (Elt Ideal)) : P33 V (Proc.devRef .tc main_v25) = t_v25 (V (Proc.devRef .tc main_arg6)) := by
  have e0 : (P32 V) (Proc.devRef .tc main_v24) = (t_v24 (V (Proc.devRef .tc main_arg6))) := val_v24 V
  unfold P33; rw [unary_result, e0]; rfl

theorem val_v26 (V : Valuation τ sig (Elt Ideal)) : P34 V (Proc.devRef .tc main_v26) = t_v26 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P33 V) (Proc.devRef .tc main_v23) = (t_v23 (V (Proc.devRef .tc main_arg0)) (V (Proc.devRef .tc main_arg1)) (V (Proc.devRef .tc main_arg2)) (V (Proc.devRef .tc main_arg5)) (V (Proc.devRef .tc main_arg11)) (V (Proc.devRef .tc main_arg12))) := (keep33 V main_v23 (by decide)).trans ((keep32 V main_v23 (by decide)).trans (val_v23 V))
  have e1 : (P33 V) (Proc.devRef .tc main_v25) = (t_v25 (V (Proc.devRef .tc main_arg6))) := val_v25 V
  unfold P34; rw [binary_result, e0, e1]; rfl

theorem val_call1_cst (V : Valuation τ sig (Elt Ideal)) : P35 V (Proc.devRef .tc main_call1_cst) = t_call1_cst := by
  unfold P35; rw [nullary_result]; rfl

theorem val_call1_v0 (V : Valuation τ sig (Elt Ideal)) : P36 V (Proc.devRef .tc main_call1_v0) = t_call1_v0 := by
  have e0 : (P35 V) (Proc.devRef .tc main_call1_cst) = t_call1_cst := val_call1_cst V
  unfold P36; rw [unary_result, e0]; rfl

theorem val_v27 (V : Valuation τ sig (Elt Ideal)) : P37 V (Proc.devRef .tc main_v27) = t_v27 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P36 V) (Proc.devRef .tc main_v26) = (t_v26 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep36 V main_v26 (by decide)).trans ((keep35 V main_v26 (by decide)).trans (val_v26 V))
  have e1 : (P36 V) (Proc.devRef .tc main_call1_v0) = t_call1_v0 := val_call1_v0 V
  unfold P37; rw [binary_result, e0, e1]; rfl

theorem val_cst_3 (V : Valuation τ sig (Elt Ideal)) : P38 V (Proc.devRef .tc main_cst_3) = t_cst_3 := by
  unfold P38; rw [nullary_result]; rfl

theorem val_v28 (V : Valuation τ sig (Elt Ideal)) : P39 V (Proc.devRef .tc main_v28) = t_v28 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P38 V) (Proc.devRef .tc main_v27) = (t_v27 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep38 V main_v27 (by decide)).trans (val_v27 V)
  have e1 : (P38 V) (Proc.devRef .tc main_cst_3) = t_cst_3 := val_cst_3 V
  unfold P39; rw [binary_result, e0, e1]; rfl

theorem val_cst_4 (V : Valuation τ sig (Elt Ideal)) : P40 V (Proc.devRef .tc main_cst_4) = t_cst_4 := by
  unfold P40; rw [nullary_result]; rfl

theorem val_v29 (V : Valuation τ sig (Elt Ideal)) : P41 V (Proc.devRef .tc main_v29) = t_v29 := by
  have e0 : (P40 V) (Proc.devRef .tc main_cst_4) = t_cst_4 := val_cst_4 V
  unfold P41; rw [unary_result, e0]; rfl

theorem val_v30 (V : Valuation τ sig (Elt Ideal)) : P42 V (Proc.devRef .tc main_v30) = t_v30 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P41 V) (Proc.devRef .tc main_v28) = (t_v28 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep41 V main_v28 (by decide)).trans ((keep40 V main_v28 (by decide)).trans (val_v28 V))
  have e1 : (P41 V) (Proc.devRef .tc main_v29) = t_v29 := val_v29 V
  unfold P42; rw [binary_result, e0, e1]; rfl

theorem val_c_5 (V : Valuation τ sig (Elt Ideal)) : P43 V (Proc.devRef .tc main_c_5) = t_c_5 := by
  unfold P43; rw [nullary_result]; rfl

theorem val_call2_cst (V : Valuation τ sig (Elt Ideal)) : P44 V (Proc.devRef .tc main_call2_cst) = t_call2_cst := by
  unfold P44; rw [nullary_result]; rfl

theorem val_call2_v0 (V : Valuation τ sig (Elt Ideal)) : P45 V (Proc.devRef .tc main_call2_v0) = t_call2_v0 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P44 V) (Proc.devRef .tc main_v27) = (t_v27 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep44 V main_v27 (by decide)).trans ((keep43 V main_v27 (by decide)).trans ((keep42 V main_v27 (by decide)).trans ((keep41 V main_v27 (by decide)).trans ((keep40 V main_v27 (by decide)).trans ((keep39 V main_v27 (by decide)).trans ((keep38 V main_v27 (by decide)).trans (val_v27 V)))))))
  have e1 : (P44 V) (Proc.devRef .tc main_call2_cst) = t_call2_cst := val_call2_cst V
  unfold P45; rw [binary_result, e0, e1]; rfl

theorem val_call2_v1 (V : Valuation τ sig (Elt Ideal)) : P46 V (Proc.devRef .tc main_call2_v1) = t_call2_v1 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P45 V) (Proc.devRef .tc main_call2_v0) = (t_call2_v0 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_call2_v0 V
  unfold P46; rw [unary_result, e0]; rfl

theorem val_call2_cst_0 (V : Valuation τ sig (Elt Ideal)) : P47 V (Proc.devRef .tc main_call2_cst_0) = t_call2_cst_0 := by
  unfold P47; rw [nullary_result]; rfl

theorem val_call2_v2 (V : Valuation τ sig (Elt Ideal)) : P48 V (Proc.devRef .tc main_call2_v2) = t_call2_v2 := by
  have e0 : (P47 V) (Proc.devRef .tc main_call2_cst_0) = t_call2_cst_0 := val_call2_cst_0 V
  unfold P48; rw [unary_result, e0]; rfl

theorem val_call2_v3 (V : Valuation τ sig (Elt Ideal)) : P49 V (Proc.devRef .tc main_call2_v3) = t_call2_v3 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P48 V) (Proc.devRef .tc main_call2_v1) = (t_call2_v1 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep48 V main_call2_v1 (by decide)).trans ((keep47 V main_call2_v1 (by decide)).trans (val_call2_v1 V))
  have e1 : (P48 V) (Proc.devRef .tc main_call2_v2) = t_call2_v2 := val_call2_v2 V
  unfold P49; rw [binary_result, e0, e1]; rfl

theorem val_call2_v4 (V : Valuation τ sig (Elt Ideal)) : P50 V (Proc.devRef .tc main_call2_v4) = t_call2_v4 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P49 V) (Proc.devRef .tc main_call2_v3) = (t_call2_v3 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_call2_v3 V
  unfold P50; rw [unary_result, e0]; rfl

theorem val_call2_v5 (V : Valuation τ sig (Elt Ideal)) : P51 V (Proc.devRef .tc main_call2_v5) = t_call2_v5 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P50 V) (Proc.devRef .tc main_v27) = (t_v27 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep50 V main_v27 (by decide)).trans ((keep49 V main_v27 (by decide)).trans ((keep48 V main_v27 (by decide)).trans ((keep47 V main_v27 (by decide)).trans ((keep46 V main_v27 (by decide)).trans ((keep45 V main_v27 (by decide)).trans ((keep44 V main_v27 (by decide)).trans ((keep43 V main_v27 (by decide)).trans ((keep42 V main_v27 (by decide)).trans ((keep41 V main_v27 (by decide)).trans ((keep40 V main_v27 (by decide)).trans ((keep39 V main_v27 (by decide)).trans ((keep38 V main_v27 (by decide)).trans (val_v27 V)))))))))))))
  have e1 : (P50 V) (Proc.devRef .tc main_call2_v4) = (t_call2_v4 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_call2_v4 V
  unfold P51; rw [binary_result, e0, e1]; rfl

theorem val_call2_v6 (V : Valuation τ sig (Elt Ideal)) : P52 V (Proc.devRef .tc main_call2_v6) = t_call2_v6 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P51 V) (Proc.devRef .tc main_call2_v5) = (t_call2_v5 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_call2_v5 V
  unfold P52; rw [binary_result, e0]; rfl

theorem val_call2_v7 (V : Valuation τ sig (Elt Ideal)) : P53 V (Proc.devRef .tc main_call2_v7) = t_call2_v7 := by
  have e0 : (P52 V) (Proc.devRef .tc main_c_5) = t_c_5 := (keep52 V main_c_5 (by decide)).trans ((keep51 V main_c_5 (by decide)).trans ((keep50 V main_c_5 (by decide)).trans ((keep49 V main_c_5 (by decide)).trans ((keep48 V main_c_5 (by decide)).trans ((keep47 V main_c_5 (by decide)).trans ((keep46 V main_c_5 (by decide)).trans ((keep45 V main_c_5 (by decide)).trans ((keep44 V main_c_5 (by decide)).trans (val_c_5 V)))))))))
  unfold P53; rw [unary_result, e0]; rfl

theorem val_call2_cst_1 (V : Valuation τ sig (Elt Ideal)) : P54 V (Proc.devRef .tc main_call2_cst_1) = t_call2_cst_1 := by
  unfold P54; rw [nullary_result]; rfl

theorem val_call2_v8 (V : Valuation τ sig (Elt Ideal)) : P55 V (Proc.devRef .tc main_call2_v8) = t_call2_v8 := by
  have e0 : (P54 V) (Proc.devRef .tc main_call2_cst_1) = t_call2_cst_1 := val_call2_cst_1 V
  have e1 : (P54 V) (Proc.devRef .tc main_call2_v7) = t_call2_v7 := (keep54 V main_call2_v7 (by decide)).trans (val_call2_v7 V)
  unfold P55; rw [binary_result, e0, e1]; rfl

theorem val_call2_cst_2 (V : Valuation τ sig (Elt Ideal)) : P56 V (Proc.devRef .tc main_call2_cst_2) = t_call2_cst_2 := by
  unfold P56; rw [nullary_result]; rfl

theorem val_call2_v9 (V : Valuation τ sig (Elt Ideal)) : P57 V (Proc.devRef .tc main_call2_v9) = t_call2_v9 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P56 V) (Proc.devRef .tc main_call2_v6) = (t_call2_v6 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep56 V main_call2_v6 (by decide)).trans ((keep55 V main_call2_v6 (by decide)).trans ((keep54 V main_call2_v6 (by decide)).trans ((keep53 V main_call2_v6 (by decide)).trans (val_call2_v6 V))))
  have e1 : (P56 V) (Proc.devRef .tc main_call2_cst_2) = t_call2_cst_2 := val_call2_cst_2 V
  unfold P57; rw [binary_result, e0, e1]; rfl

theorem val_call2_v10 (V : Valuation τ sig (Elt Ideal)) : P58 V (Proc.devRef .tc main_call2_v10) = t_call2_v10 := by
  have e0 : (P57 V) (Proc.devRef .tc main_call2_v8) = t_call2_v8 := (keep57 V main_call2_v8 (by decide)).trans ((keep56 V main_call2_v8 (by decide)).trans (val_call2_v8 V))
  unfold P58; rw [unary_result, e0]; rfl

theorem val_call2_v11 (V : Valuation τ sig (Elt Ideal)) : P59 V (Proc.devRef .tc main_call2_v11) = t_call2_v11 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P58 V) (Proc.devRef .tc main_call2_v9) = (t_call2_v9 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep58 V main_call2_v9 (by decide)).trans (val_call2_v9 V)
  have e1 : (P58 V) (Proc.devRef .tc main_call2_v10) = t_call2_v10 := val_call2_v10 V
  unfold P59; rw [binary_result, e0, e1]; rfl

theorem val_call2_cst_3 (V : Valuation τ sig (Elt Ideal)) : P60 V (Proc.devRef .tc main_call2_cst_3) = t_call2_cst_3 := by
  unfold P60; rw [nullary_result]; rfl

theorem val_call2_v12 (V : Valuation τ sig (Elt Ideal)) : P61 V (Proc.devRef .tc main_call2_v12) = t_call2_v12 := by
  have e0 : (P60 V) (Proc.devRef .tc main_call2_v8) = t_call2_v8 := (keep60 V main_call2_v8 (by decide)).trans ((keep59 V main_call2_v8 (by decide)).trans ((keep58 V main_call2_v8 (by decide)).trans ((keep57 V main_call2_v8 (by decide)).trans ((keep56 V main_call2_v8 (by decide)).trans (val_call2_v8 V)))))
  have e1 : (P60 V) (Proc.devRef .tc main_call2_cst_3) = t_call2_cst_3 := val_call2_cst_3 V
  unfold P61; rw [binary_result, e0, e1]; rfl

theorem val_call2_cst_4 (V : Valuation τ sig (Elt Ideal)) : P62 V (Proc.devRef .tc main_call2_cst_4) = t_call2_cst_4 := by
  unfold P62; rw [nullary_result]; rfl

theorem val_call2_call0_v0 (V : Valuation τ sig (Elt Ideal)) : P63 V (Proc.devRef .tc main_call2_call0_v0) = t_call2_call0_v0 := by
  have e0 : (P62 V) (Proc.devRef .tc main_call2_cst_4) = t_call2_cst_4 := val_call2_cst_4 V
  unfold P63; rw [unary_result, e0]; rfl

theorem val_call2_call0_v1 (V : Valuation τ sig (Elt Ideal)) : P64 V (Proc.devRef .tc main_call2_call0_v1) = t_call2_call0_v1 := by
  have e0 : (P63 V) (Proc.devRef .tc main_call2_call0_v0) = t_call2_call0_v0 := val_call2_call0_v0 V
  unfold P64; rw [unary_result, e0]; rfl

theorem val_v31 (V : Valuation τ sig (Elt Ideal)) : P65 V (Proc.devRef .tc main_v31) = t_v31 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P64 V) (Proc.devRef .tc main_call2_v12) = t_call2_v12 := (keep64 V main_call2_v12 (by decide)).trans ((keep63 V main_call2_v12 (by decide)).trans ((keep62 V main_call2_v12 (by decide)).trans (val_call2_v12 V)))
  have e1 : (P64 V) (Proc.devRef .tc main_call2_v11) = (t_call2_v11 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep64 V main_call2_v11 (by decide)).trans ((keep63 V main_call2_v11 (by decide)).trans ((keep62 V main_call2_v11 (by decide)).trans ((keep61 V main_call2_v11 (by decide)).trans ((keep60 V main_call2_v11 (by decide)).trans (val_call2_v11 V)))))
  have e2 : (P64 V) (Proc.devRef .tc main_call2_call0_v1) = t_call2_call0_v1 := val_call2_call0_v1 V
  unfold P65; rw [ternary_result, e0, e1, e2]; rfl

theorem val_v32 (V : Valuation τ sig (Elt Ideal)) : P66 V (Proc.devRef .tc main_v32) = t_v32 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P65 V) (Proc.devRef .tc main_v30) = (t_v30 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep65 V main_v30 (by decide)).trans ((keep64 V main_v30 (by decide)).trans ((keep63 V main_v30 (by decide)).trans ((keep62 V main_v30 (by decide)).trans ((keep61 V main_v30 (by decide)).trans ((keep60 V main_v30 (by decide)).trans ((keep59 V main_v30 (by decide)).trans ((keep58 V main_v30 (by decide)).trans ((keep57 V main_v30 (by decide)).trans ((keep56 V main_v30 (by decide)).trans ((keep55 V main_v30 (by decide)).trans ((keep54 V main_v30 (by decide)).trans ((keep53 V main_v30 (by decide)).trans ((keep52 V main_v30 (by decide)).trans ((keep51 V main_v30 (by decide)).trans ((keep50 V main_v30 (by decide)).trans ((keep49 V main_v30 (by decide)).trans ((keep48 V main_v30 (by decide)).trans ((keep47 V main_v30 (by decide)).trans ((keep46 V main_v30 (by decide)).trans ((keep45 V main_v30 (by decide)).trans ((keep44 V main_v30 (by decide)).trans ((keep43 V main_v30 (by decide)).trans (val_v30 V)))))))))))))))))))))))
  unfold P66; rw [unary_result, e0]; rfl

theorem val_v33 (V : Valuation τ sig (Elt Ideal)) : P67 V (Proc.devRef .tc main_v33) = t_v33 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P66 V) (Proc.devRef .tc main_v32) = (t_v32 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_v32 V
  unfold P67; rw [unary_result, e0]; rfl

theorem val_v34 (V : Valuation τ sig (Elt Ideal)) : P68 V (Proc.devRef .tc main_v34) = t_v34 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P67 V) (Proc.devRef .tc main_v27) = (t_v27 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep67 V main_v27 (by decide)).trans ((keep66 V main_v27 (by decide)).trans ((keep65 V main_v27 (by decide)).trans ((keep64 V main_v27 (by decide)).trans ((keep63 V main_v27 (by decide)).trans ((keep62 V main_v27 (by decide)).trans ((keep61 V main_v27 (by decide)).trans ((keep60 V main_v27 (by decide)).trans ((keep59 V main_v27 (by decide)).trans ((keep58 V main_v27 (by decide)).trans ((keep57 V main_v27 (by decide)).trans ((keep56 V main_v27 (by decide)).trans ((keep55 V main_v27 (by decide)).trans ((keep54 V main_v27 (by decide)).trans ((keep53 V main_v27 (by decide)).trans ((keep52 V main_v27 (by decide)).trans ((keep51 V main_v27 (by decide)).trans ((keep50 V main_v27 (by decide)).trans ((keep49 V main_v27 (by decide)).trans ((keep48 V main_v27 (by decide)).trans ((keep47 V main_v27 (by decide)).trans ((keep46 V main_v27 (by decide)).trans ((keep45 V main_v27 (by decide)).trans ((keep44 V main_v27 (by decide)).trans ((keep43 V main_v27 (by decide)).trans ((keep42 V main_v27 (by decide)).trans ((keep41 V main_v27 (by decide)).trans ((keep40 V main_v27 (by decide)).trans ((keep39 V main_v27 (by decide)).trans ((keep38 V main_v27 (by decide)).trans (val_v27 V))))))))))))))))))))))))))))))
  have e1 : (P67 V) (Proc.devRef .tc main_v33) = (t_v33 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_v33 V
  unfold P68; rw [binary_result, e0, e1]; rfl

theorem val_cst_6 (V : Valuation τ sig (Elt Ideal)) : P69 V (Proc.devRef .tc main_cst_6) = t_cst_6 := by
  unfold P69; rw [nullary_result]; rfl

theorem val_v35 (V : Valuation τ sig (Elt Ideal)) : P70 V (Proc.devRef .tc main_v35) = t_v35 := by
  have e0 : (P69 V) (Proc.devRef .tc main_cst_6) = t_cst_6 := val_cst_6 V
  unfold P70; rw [unary_result, e0]; rfl

theorem val_v36 (V : Valuation τ sig (Elt Ideal)) : P71 V (Proc.devRef .tc main_v36) = t_v36 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P70 V) (Proc.devRef .tc main_v31) = (t_v31 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep70 V main_v31 (by decide)).trans ((keep69 V main_v31 (by decide)).trans ((keep68 V main_v31 (by decide)).trans ((keep67 V main_v31 (by decide)).trans ((keep66 V main_v31 (by decide)).trans (val_v31 V)))))
  have e1 : (P70 V) (Proc.devRef .tc main_v35) = t_v35 := val_v35 V
  unfold P71; rw [binary_result, e0, e1]; rfl

theorem val_v37 (V : Valuation τ sig (Elt Ideal)) : P72 V (Proc.devRef .tc main_v37) = t_v37 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P71 V) (Proc.devRef .tc main_v36) = (t_v36 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_v36 V
  unfold P72; rw [unary_result, e0]; rfl

theorem val_v38 (V : Valuation τ sig (Elt Ideal)) : P73 V (Proc.devRef .tc main_v38) = t_v38 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P72 V) (Proc.devRef .tc main_v37) = (t_v37 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_v37 V
  unfold P73; rw [unary_result, e0]; rfl

theorem val_v39 (V : Valuation τ sig (Elt Ideal)) : P74 V (Proc.devRef .tc main_v39) = t_v39 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P73 V) (Proc.devRef .tc main_v38) = (t_v38 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_v38 V
  unfold P74; rw [unary_result, e0]; rfl

theorem val_v40 (V : Valuation τ sig (Elt Ideal)) : P75 V (Proc.devRef .tc main_v40) = t_v40 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12)) := by
  have e0 : (P74 V) (Proc.devRef .tc main_v34) = (t_v34 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep74 V main_v34 (by decide)).trans ((keep73 V main_v34 (by decide)).trans ((keep72 V main_v34 (by decide)).trans ((keep71 V main_v34 (by decide)).trans ((keep70 V main_v34 (by decide)).trans ((keep69 V main_v34 (by decide)).trans (val_v34 V))))))
  have e1 : (P74 V) (Proc.devRef .tc main_v39) = (t_v39 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := val_v39 V
  unfold P75; rw [binary_result, e0, e1]; rfl

theorem val_v41 (V : Valuation τ sig (Elt Ideal)) : P76 V (Proc.devRef .tc main_v41) = t_v41 (V (Proc.devRef .tc main_arg9)) := by
  have e0 : (P75 V) (Proc.devRef .tc main_arg9) = V (Proc.devRef .tc main_arg9) := args75 V 9
  unfold P76; rw [unary_result, e0]; rfl

theorem val_v42 (V : Valuation τ sig (Elt Ideal)) : P77 V (Proc.devRef .tc main_v42) = t_v42 (V (Proc.devRef .tc main_arg9)) := by
  have e0 : (P76 V) (Proc.devRef .tc main_v41) = (t_v41 (V (Proc.devRef .tc main_arg9))) := val_v41 V
  unfold P77; rw [unary_result, e0]; rfl

theorem val_v43 (V : Valuation τ sig (Elt Ideal)) : P78 V (Proc.devRef .tc main_v43) = t_v43 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg11)) (V (Proc.devRef .tc main_arg12)) := by
  have e0 : (P77 V) (Proc.devRef .tc main_v40) = (t_v40 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) := (keep77 V main_v40 (by decide)).trans ((keep76 V main_v40 (by decide)).trans (val_v40 V))
  have e1 : (P77 V) (Proc.devRef .tc main_v42) = (t_v42 (V (Proc.devRef .tc main_arg9))) := val_v42 V
  unfold P78; rw [binary_result, e0, e1]; rfl

theorem val_v44 (V : Valuation τ sig (Elt Ideal)) : P79 V (Proc.devRef .tc main_v44) = t_v44 (V (Proc.devRef .tc main_arg10)) := by
  have e0 : (P78 V) (Proc.devRef .tc main_arg10) = V (Proc.devRef .tc main_arg10) := args78 V 10
  unfold P79; rw [unary_result, e0]; rfl

theorem val_v45 (V : Valuation τ sig (Elt Ideal)) : P80 V (Proc.devRef .tc main_v45) = t_v45 (V (Proc.devRef .tc main_arg10)) := by
  have e0 : (P79 V) (Proc.devRef .tc main_v44) = (t_v44 (V (Proc.devRef .tc main_arg10))) := val_v44 V
  unfold P80; rw [unary_result, e0]; rfl

theorem val_v46 (V : Valuation τ sig (Elt Ideal)) : P81 V (Proc.devRef .tc main_v46) = t_v46 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P80 V) (Proc.devRef .tc main_v43) = (t_v43 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg11)) (V (Proc.devRef .tc main_arg12))) := (keep80 V main_v43 (by decide)).trans ((keep79 V main_v43 (by decide)).trans (val_v43 V))
  have e1 : (P80 V) (Proc.devRef .tc main_v45) = (t_v45 (V (Proc.devRef .tc main_arg10))) := val_v45 V
  unfold P81; rw [binary_result, e0, e1]; rfl

theorem val_call3_v0 (V : Valuation τ sig (Elt Ideal)) : P82 V (Proc.devRef .tc main_call3_v0) = t_call3_v0 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P81 V) (Proc.devRef .tc main_v46) = (t_v46 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := val_v46 V
  unfold P82; rw [binary_result, e0]; rfl

theorem val_call3_cst (V : Valuation τ sig (Elt Ideal)) : P83 V (Proc.devRef .tc main_call3_cst) = t_call3_cst := by
  unfold P83; rw [nullary_result]; rfl

theorem val_call3_v1 (V : Valuation τ sig (Elt Ideal)) : P84 V (Proc.devRef .tc main_call3_v1) = t_call3_v1 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P83 V) (Proc.devRef .tc main_call3_v0) = (t_call3_v0 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := (keep83 V main_call3_v0 (by decide)).trans (val_call3_v0 V)
  have e1 : (P83 V) (Proc.devRef .tc main_call3_cst) = t_call3_cst := val_call3_cst V
  unfold P84; rw [binary_result, e0, e1]; rfl

theorem val_call3_v2 (V : Valuation τ sig (Elt Ideal)) : P85 V (Proc.devRef .tc main_call3_v2) = t_call3_v2 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P84 V) (Proc.devRef .tc main_call3_v1) = (t_call3_v1 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := val_call3_v1 V
  unfold P85; rw [unary_result, e0]; rfl

theorem val_v47 (V : Valuation τ sig (Elt Ideal)) : P86 V (Proc.devRef .tc main_v47) = t_v47 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P85 V) (Proc.devRef .tc main_call3_v2) = (t_call3_v2 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := val_call3_v2 V
  unfold P86; rw [unary_result, e0]; rfl

theorem val_cst_7 (V : Valuation τ sig (Elt Ideal)) : P87 V (Proc.devRef .tc main_cst_7) = t_cst_7 := by
  unfold P87; rw [nullary_result]; rfl

theorem val_v48 (V : Valuation τ sig (Elt Ideal)) : P88 V (Proc.devRef .tc main_v48) = t_v48 := by
  have e0 : (P87 V) (Proc.devRef .tc main_cst_7) = t_cst_7 := val_cst_7 V
  unfold P88; rw [unary_result, e0]; rfl

theorem val_v49 (V : Valuation τ sig (Elt Ideal)) : P89 V (Proc.devRef .tc main_v49) = t_v49 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P88 V) (Proc.devRef .tc main_v47) = (t_v47 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := (keep88 V main_v47 (by decide)).trans ((keep87 V main_v47 (by decide)).trans (val_v47 V))
  have e1 : (P88 V) (Proc.devRef .tc main_v48) = t_v48 := val_v48 V
  unfold P89; rw [binary_result, e0, e1]; rfl

theorem val_v50 (V : Valuation τ sig (Elt Ideal)) : P90 V (Proc.devRef .tc main_v50) = t_v50 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P89 V) (Proc.devRef .tc main_v49) = (t_v49 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := val_v49 V
  unfold P90; rw [unary_result, e0]; rfl

theorem val_v51 (V : Valuation τ sig (Elt Ideal)) : P91 V (Proc.devRef .tc main_v51) = t_v51 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P90 V) (Proc.devRef .tc main_v46) = (t_v46 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := (keep90 V main_v46 (by decide)).trans ((keep89 V main_v46 (by decide)).trans ((keep88 V main_v46 (by decide)).trans ((keep87 V main_v46 (by decide)).trans ((keep86 V main_v46 (by decide)).trans ((keep85 V main_v46 (by decide)).trans ((keep84 V main_v46 (by decide)).trans ((keep83 V main_v46 (by decide)).trans ((keep82 V main_v46 (by decide)).trans (val_v46 V)))))))))
  have e1 : (P90 V) (Proc.devRef .tc main_v50) = (t_v50 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := val_v50 V
  unfold P91; rw [binary_result, e0, e1]; rfl

theorem val_v52 (V : Valuation τ sig (Elt Ideal)) : P92 V (Proc.devRef .tc main_v52) = t_v52 (V (Proc.devRef .tc main_arg3)) := by
  have e0 : (P91 V) (Proc.devRef .tc main_arg3) = V (Proc.devRef .tc main_arg3) := args91 V 3
  unfold P92; rw [unary_result, e0]; rfl

theorem val_v53 (V : Valuation τ sig (Elt Ideal)) : P93 V (Proc.devRef .tc main_v53) = t_v53 (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P92 V) (Proc.devRef .tc main_v51) = (t_v51 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := (keep92 V main_v51 (by decide)).trans (val_v51 V)
  have e1 : (P92 V) (Proc.devRef .tc main_v52) = (t_v52 (V (Proc.devRef .tc main_arg3))) := val_v52 V
  unfold P93; rw [binary_result, e0, e1]; rfl

theorem val_v54 (V : Valuation τ sig (Elt Ideal)) : P94 V (Proc.devRef .tc main_v54) = t_v54 (V (Proc.devRef .tc main_arg4)) := by
  have e0 : (P93 V) (Proc.devRef .tc main_arg4) = V (Proc.devRef .tc main_arg4) := args93 V 4
  unfold P94; rw [unary_result, e0]; rfl

theorem val_v55 (V : Valuation τ sig (Elt Ideal)) : P95 V (Proc.devRef .tc main_v55) = t_v55 (V (Proc.devRef .tc main_arg4)) := by
  have e0 : (P94 V) (Proc.devRef .tc main_v54) = (t_v54 (V (Proc.devRef .tc main_arg4))) := val_v54 V
  unfold P95; rw [unary_result, e0]; rfl

theorem val_v56 (V : Valuation τ sig (Elt Ideal)) : P96 V (Proc.devRef .tc main_v56) = t_v56 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P95 V) (Proc.devRef .tc main_v53) = (t_v53 (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg9)) (V (Proc.devRef .tc main_arg10)) (V (Proc.devRef .tc main_arg11)) (V (Proc.devRef .tc main_arg12))) := (keep95 V main_v53 (by decide)).trans ((keep94 V main_v53 (by decide)).trans (val_v53 V))
  have e1 : (P95 V) (Proc.devRef .tc main_v55) = (t_v55 (V (Proc.devRef .tc main_arg4))) := val_v55 V
  unfold P96; rw [binary_result, e0, e1]; rfl

theorem val_call4_cst (V : Valuation τ sig (Elt Ideal)) : P97 V (Proc.devRef .tc main_call4_cst) = t_call4_cst := by
  unfold P97; rw [nullary_result]; rfl

theorem val_call4_v0 (V : Valuation τ sig (Elt Ideal)) : P98 V (Proc.devRef .tc main_call4_v0) = t_call4_v0 := by
  have e0 : (P97 V) (Proc.devRef .tc main_call4_cst) = t_call4_cst := val_call4_cst V
  unfold P98; rw [unary_result, e0]; rfl

theorem val_v57 (V : Valuation τ sig (Elt Ideal)) : P99 V (Proc.devRef .tc main_v57) = t_v57 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) := by
  have e0 : (P98 V) (Proc.devRef .tc main_v56) = (t_v56 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12))) := (keep98 V main_v56 (by decide)).trans ((keep97 V main_v56 (by decide)).trans (val_v56 V))
  have e1 : (P98 V) (Proc.devRef .tc main_call4_v0) = t_call4_v0 := val_call4_v0 V
  unfold P99; rw [binary_result, e0, e1]; rfl

theorem val_c_8 (V : Valuation τ sig (Elt Ideal)) : P100 V (Proc.devRef .tc main_c_8) = t_c_8 := by
  unfold P100; rw [nullary_result]; rfl

theorem val_v58 (V : Valuation τ sig (Elt Ideal)) : P101 V (Proc.devRef .tc main_v58) = t_v58 := by
  have e0 : (P100 V) (Proc.devRef .tc main_c_8) = t_c_8 := val_c_8 V
  unfold P101; rw [unary_result, e0]; rfl

theorem val_v59 (V : Valuation τ sig (Elt Ideal)) : P102 V (Proc.devRef .tc main_v59) = t_v59 (V (Proc.devRef .tc main_arg13)) := by
  have e0 : (P101 V) (Proc.devRef .tc main_arg13) = V (Proc.devRef .tc main_arg13) := args101 V 13
  have e1 : (P101 V) (Proc.devRef .tc main_v58) = t_v58 := val_v58 V
  unfold P102; rw [binary_result, e0, e1]; rfl

theorem val_c_9 (V : Valuation τ sig (Elt Ideal)) : P103 V (Proc.devRef .tc main_c_9) = t_c_9 := by
  unfold P103; rw [nullary_result]; rfl

theorem val_v60 (V : Valuation τ sig (Elt Ideal)) : P104 V (Proc.devRef .tc main_v60) = t_v60 := by
  have e0 : (P103 V) (Proc.devRef .tc main_c_9) = t_c_9 := val_c_9 V
  unfold P104; rw [unary_result, e0]; rfl

theorem val_v61 (V : Valuation τ sig (Elt Ideal)) : P105 V (Proc.devRef .tc main_v61) = t_v61 (V (Proc.devRef .tc main_arg13)) := by
  have e0 : (P104 V) (Proc.devRef .tc main_arg13) = V (Proc.devRef .tc main_arg13) := args104 V 13
  have e1 : (P104 V) (Proc.devRef .tc main_v60) = t_v60 := val_v60 V
  unfold P105; rw [binary_result, e0, e1]; rfl

theorem val_v62 (V : Valuation τ sig (Elt Ideal)) : P106 V (Proc.devRef .tc main_v62) = t_v62 (V (Proc.devRef .tc main_arg13)) := by
  have e0 : (P105 V) (Proc.devRef .tc main_v59) = (t_v59 (V (Proc.devRef .tc main_arg13))) := (keep105 V main_v59 (by decide)).trans ((keep104 V main_v59 (by decide)).trans ((keep103 V main_v59 (by decide)).trans (val_v59 V)))
  have e1 : (P105 V) (Proc.devRef .tc main_v61) = (t_v61 (V (Proc.devRef .tc main_arg13))) := val_v61 V
  have e2 : (P105 V) (Proc.devRef .tc main_arg13) = V (Proc.devRef .tc main_arg13) := args105 V 13
  unfold P106; rw [ternary_result, e0, e1, e2]; rfl

theorem val_v63 (V : Valuation τ sig (Elt Ideal)) : P107 V (Proc.devRef .tc main_v63) = t_v63 (V (Proc.devRef .tc main_arg13)) := by
  have e0 : (P106 V) (Proc.devRef .tc main_v62) = (t_v62 (V (Proc.devRef .tc main_arg13))) := val_v62 V
  unfold P107; rw [unary_result, e0]; rfl

theorem val_v64 (V : Valuation τ sig (Elt Ideal)) : P108 V (Proc.devRef .tc main_v64) = t_v64 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) := by
  have e0 : (P107 V) (Proc.devRef .tc main_v57) = (t_v57 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12))) := (keep107 V main_v57 (by decide)).trans ((keep106 V main_v57 (by decide)).trans ((keep105 V main_v57 (by decide)).trans ((keep104 V main_v57 (by decide)).trans ((keep103 V main_v57 (by decide)).trans ((keep102 V main_v57 (by decide)).trans ((keep101 V main_v57 (by decide)).trans ((keep100 V main_v57 (by decide)).trans (val_v57 V))))))))
  have e1 : (P107 V) (Proc.devRef .tc main_v63) = (t_v63 (V (Proc.devRef .tc main_arg13))) := val_v63 V
  unfold P108; rw [binary_result, e0, e1]; rfl

theorem val_cst_10 (V : Valuation τ sig (Elt Ideal)) : P109 V (Proc.devRef .tc main_cst_10) = t_cst_10 := by
  unfold P109; rw [nullary_result]; rfl

theorem val_v65 (V : Valuation τ sig (Elt Ideal)) : P110 V (Proc.devRef .tc main_v65) = t_v65 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) := by
  have e0 : (P109 V) (Proc.devRef .tc main_v64) = (t_v64 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13))) := (keep109 V main_v64 (by decide)).trans (val_v64 V)
  have e1 : (P109 V) (Proc.devRef .tc main_cst_10) = t_cst_10 := val_cst_10 V
  unfold P110; rw [binary_result, e0, e1]; rfl

theorem val_c_11 (V : Valuation τ sig (Elt Ideal)) : P111 V (Proc.devRef .tc main_c_11) = t_c_11 := by
  unfold P111; rw [nullary_result]; rfl

theorem val_v66 (V : Valuation τ sig (Elt Ideal)) : P112 V (Proc.devRef .tc main_v66) = t_v66 := by
  have e0 : (P111 V) (Proc.devRef .tc main_c_11) = t_c_11 := val_c_11 V
  unfold P112; rw [unary_result, e0]; rfl

theorem val_v67 (V : Valuation τ sig (Elt Ideal)) : P113 V (Proc.devRef .tc main_v67) = t_v67 (V (Proc.devRef .tc main_arg14)) := by
  have e0 : (P112 V) (Proc.devRef .tc main_arg14) = V (Proc.devRef .tc main_arg14) := args112 V 14
  have e1 : (P112 V) (Proc.devRef .tc main_v66) = t_v66 := val_v66 V
  unfold P113; rw [binary_result, e0, e1]; rfl

theorem val_c_12 (V : Valuation τ sig (Elt Ideal)) : P114 V (Proc.devRef .tc main_c_12) = t_c_12 := by
  unfold P114; rw [nullary_result]; rfl

theorem val_v68 (V : Valuation τ sig (Elt Ideal)) : P115 V (Proc.devRef .tc main_v68) = t_v68 := by
  have e0 : (P114 V) (Proc.devRef .tc main_c_12) = t_c_12 := val_c_12 V
  unfold P115; rw [unary_result, e0]; rfl

theorem val_v69 (V : Valuation τ sig (Elt Ideal)) : P116 V (Proc.devRef .tc main_v69) = t_v69 (V (Proc.devRef .tc main_arg14)) := by
  have e0 : (P115 V) (Proc.devRef .tc main_arg14) = V (Proc.devRef .tc main_arg14) := args115 V 14
  have e1 : (P115 V) (Proc.devRef .tc main_v68) = t_v68 := val_v68 V
  unfold P116; rw [binary_result, e0, e1]; rfl

theorem val_v70 (V : Valuation τ sig (Elt Ideal)) : P117 V (Proc.devRef .tc main_v70) = t_v70 (V (Proc.devRef .tc main_arg14)) := by
  have e0 : (P116 V) (Proc.devRef .tc main_v67) = (t_v67 (V (Proc.devRef .tc main_arg14))) := (keep116 V main_v67 (by decide)).trans ((keep115 V main_v67 (by decide)).trans ((keep114 V main_v67 (by decide)).trans (val_v67 V)))
  have e1 : (P116 V) (Proc.devRef .tc main_v69) = (t_v69 (V (Proc.devRef .tc main_arg14))) := val_v69 V
  have e2 : (P116 V) (Proc.devRef .tc main_arg14) = V (Proc.devRef .tc main_arg14) := args116 V 14
  unfold P117; rw [ternary_result, e0, e1, e2]; rfl

theorem val_v71 (V : Valuation τ sig (Elt Ideal)) : P118 V (Proc.devRef .tc main_v71) = t_v71 (V (Proc.devRef .tc main_arg14)) := by
  have e0 : (P117 V) (Proc.devRef .tc main_v70) = (t_v70 (V (Proc.devRef .tc main_arg14))) := val_v70 V
  unfold P118; rw [unary_result, e0]; rfl

theorem val_v72 (V : Valuation τ sig (Elt Ideal)) : P119 V (Proc.devRef .tc main_v72) = t_v72 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg14)) := by
  have e0 : (P118 V) (Proc.devRef .tc main_v51) = (t_v51 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12))) := (keep118 V main_v51 (by decide)).trans ((keep117 V main_v51 (by decide)).trans ((keep116 V main_v51 (by decide)).trans ((keep115 V main_v51 (by decide)).trans ((keep114 V main_v51 (by decide)).trans ((keep113 V main_v51 (by decide)).trans ((keep112 V main_v51 (by decide)).trans ((keep111 V main_v51 (by decide)).trans ((keep110 V main_v51 (by decide)).trans ((keep109 V main_v51 (by decide)).trans ((keep108 V main_v51 (by decide)).trans ((keep107 V main_v51 (by decide)).trans ((keep106 V main_v51 (by decide)).trans ((keep105 V main_v51 (by decide)).trans ((keep104 V main_v51 (by decide)).trans ((keep103 V main_v51 (by decide)).trans ((keep102 V main_v51 (by decide)).trans ((keep101 V main_v51 (by decide)).trans ((keep100 V main_v51 (by decide)).trans ((keep99 V main_v51 (by decide)).trans ((keep98 V main_v51 (by decide)).trans ((keep97 V main_v51 (by decide)).trans ((keep96 V main_v51 (by decide)).trans ((keep95 V main_v51 (by decide)).trans ((keep94 V main_v51 (by decide)).trans ((keep93 V main_v51 (by decide)).trans ((keep92 V main_v51 (by decide)).trans (val_v51 V)))))))))))))))))))))))))))
  have e1 : (P118 V) (Proc.devRef .tc main_v71) = (t_v71 (V (Proc.devRef .tc main_arg14))) := val_v71 V
  unfold P119; rw [binary_result, e0, e1]; rfl

theorem val_v73 (V : Valuation τ sig (Elt Ideal)) : P120 V (Proc.devRef .tc main_v73) = t_v73 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  have e0 : (P119 V) (Proc.devRef .tc main_v72) = (t_v72 (V (Proc.devRef .tc main_arg0)) (V (Proc.devRef .tc main_arg1)) (V (Proc.devRef .tc main_arg2)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg14))) := val_v72 V
  have e1 : (P119 V) (Proc.devRef .tc main_v65) = (t_v65 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13))) := (keep119 V main_v65 (by decide)).trans ((keep118 V main_v65 (by decide)).trans ((keep117 V main_v65 (by decide)).trans ((keep116 V main_v65 (by decide)).trans ((keep115 V main_v65 (by decide)).trans ((keep114 V main_v65 (by decide)).trans ((keep113 V main_v65 (by decide)).trans ((keep112 V main_v65 (by decide)).trans ((keep111 V main_v65 (by decide)).trans (val_v65 V)))))))))
  unfold P120; rw [binary_result, e0, e1]; rfl

theorem val_v74 (V : Valuation τ sig (Elt Ideal)) : P121 V (Proc.devRef .tc main_v74) = t_v74 (V (Proc.devRef .tc main_arg7)) := by
  have e0 : (P120 V) (Proc.devRef .tc main_arg7) = V (Proc.devRef .tc main_arg7) := args120 V 7
  unfold P121; rw [unary_result, e0]; rfl

theorem val_v75 (V : Valuation τ sig (Elt Ideal)) : P122 V (Proc.devRef .tc main_v75) = t_v75 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  have e0 : (P121 V) (Proc.devRef .tc main_v73) = (t_v73 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg9)) (V (Proc.devRef .tc main_arg10)) (V (Proc.devRef .tc main_arg11)) (V (Proc.devRef .tc main_arg12)) (V (Proc.devRef .tc main_arg13)) (V (Proc.devRef .tc main_arg14))) := (keep121 V main_v73 (by decide)).trans (val_v73 V)
  have e1 : (P121 V) (Proc.devRef .tc main_v74) = (t_v74 (V (Proc.devRef .tc main_arg7))) := val_v74 V
  unfold P122; rw [binary_result, e0, e1]; rfl

theorem val_v76 (V : Valuation τ sig (Elt Ideal)) : P123 V (Proc.devRef .tc main_v76) = t_v76 (V (Proc.devRef .tc main_arg8)) := by
  have e0 : (P122 V) (Proc.devRef .tc main_arg8) = V (Proc.devRef .tc main_arg8) := args122 V 8
  unfold P123; rw [unary_result, e0]; rfl

theorem val_v77 (V : Valuation τ sig (Elt Ideal)) : P124 V (Proc.devRef .tc main_v77) = t_v77 (V (Proc.devRef .tc main_arg8)) := by
  have e0 : (P123 V) (Proc.devRef .tc main_v76) = (t_v76 (V (Proc.devRef .tc main_arg8))) := val_v76 V
  unfold P124; rw [unary_result, e0]; rfl

theorem val_v78 (V : Valuation τ sig (Elt Ideal)) : P125 V (Proc.devRef .tc main_v78) = t_v78 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  have e0 : (P124 V) (Proc.devRef .tc main_v75) = (t_v75 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg9)) (V (Proc.devRef .tc main_arg10)) (V (Proc.devRef .tc main_arg11)) (V (Proc.devRef .tc main_arg12)) (V (Proc.devRef .tc main_arg13)) (V (Proc.devRef .tc main_arg14))) := (keep124 V main_v75 (by decide)).trans ((keep123 V main_v75 (by decide)).trans (val_v75 V))
  have e1 : (P124 V) (Proc.devRef .tc main_v77) = (t_v77 (V (Proc.devRef .tc main_arg8))) := val_v77 V
  unfold P125; rw [binary_result, e0, e1]; rfl

end Cert.ReferenceIdeal.Val

end
-- ==== Proof.RefRunSeq.lean ====
import proofs.«178630_j29162827940511_2_alg».proof.Proof.RefRunOps

noncomputable section

namespace Cert.ReferenceIdeal.Val

open Idealize.ShloMosaic Idealize.ShloMosaic.TcCoe Idealize.SL.Sem Idealize.ShloMosaic.StableHlo Cert.ReferenceIdeal Cert.ReferenceIdeal.Facts₀

/-! # The entry function is that straight line

The entry function runs its two parts in order; each part is its statements one after the other, a called
function's body being its own statements over the call's buffers. So the whole is the sequence of the
operations `ops`. None of them allocates, each touches only buffers of the tensor core, nothing in the
signature is scoped, and the contents after all of them are `P125`. -/

set_option maxRecDepth 8192 in
set_option maxHeartbeats 4000000 in
theorem main_part0_eq (c : Dev nD) : main_part0 (F := Ideal) c = seq ops0 := rfl

set_option maxRecDepth 8192 in
set_option maxHeartbeats 4000000 in
theorem main_part1_eq (c : Dev nD) : main_part1 (F := Ideal) c = seq ops1 := rfl

set_option maxRecDepth 8192 in
theorem main_eq (c : Dev nD) : main (F := Ideal) c = seq ops := by
  have h : (ops : List (HloOp τ sig (Elt Ideal))) = ops0 ++ ops1 := rfl
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt Ideal))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub .., ternary_bufs_sub .., unary_bufs_sub ..,
    binary_bufs_sub .., nullary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub .., binary_bufs_sub .., unary_bufs_sub ..,
    unary_bufs_sub .., binary_bufs_sub .., nullary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub .., unary_bufs_sub .., unary_bufs_sub ..,
    binary_bufs_sub .., binary_bufs_sub .., nullary_bufs_sub .., binary_bufs_sub .., unary_bufs_sub .., unary_bufs_sub .., nullary_bufs_sub .., unary_bufs_sub ..,
    binary_bufs_sub .., unary_bufs_sub .., binary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub .., nullary_bufs_sub .., unary_bufs_sub ..,
    binary_bufs_sub .., nullary_bufs_sub .., unary_bufs_sub .., binary_bufs_sub .., ternary_bufs_sub .., unary_bufs_sub .., binary_bufs_sub .., binary_bufs_sub ..,
    unary_bufs_sub .., binary_bufs_sub .., unary_bufs_sub .., unary_bufs_sub .., binary_bufs_sub ..⟩

set_option maxRecDepth 8192 in
theorem ops_fresh : ∀ op ∈ (ops : List (HloOp τ sig (Elt Ideal))), op.fresh = ∅ :=
  List.forall_iff_forall_mem.mp
    (⟨rfl, rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl, rfl, rfl, rfl, rfl, rfl⟩ :
      (ops : List (HloOp τ sig (Elt Ideal))).Forall fun op => op.fresh = ∅)

set_option maxRecDepth 8192 in
set_option maxHeartbeats 4000000 in
/-- Running the operations in order from `V` leaves the contents `P125 V`. -/
theorem after_eq (V : Valuation τ sig (Elt Ideal)) : after ops V = P125 V := rfl

end Cert.ReferenceIdeal.Val

end
-- ==== Proof.RefRun.lean ====
import proofs.«178630_j29162827940511_2_alg».proof.Proof.RefRunVals
import proofs.«178630_j29162827940511_2_alg».proof.Proof.RefRunSeq

noncomputable section

namespace Cert.ReferenceIdeal.Val

open Idealize.ShloMosaic Idealize.ShloMosaic.TcCoe Idealize.SL.Sem Idealize.ShloMosaic.StableHlo Cert.ReferenceIdeal Cert.ReferenceIdeal.Facts₀

/-! # The reference's run

Every weakly fair execution of the reference program ends; its result buffer then holds `out` of the
argument arrays as they were at the start, and the argument arrays are unchanged: the program is a
straight line of operations, the result buffer holds its term once the last operation has written it, and
no operation writes an argument. -/

theorem run_term (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v78) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (Cert.ReferenceIdeal.defs (F := Ideal)) _ _).mono (fun _ h c => ⟨
      (h c main_v78).trans ((congrFun (after_eq _) _).trans (val_v78 (launchContents m c))),
      (h c main_arg0).trans ((congrFun (after_eq _) _).trans (args125 (launchContents m c) 0)),
      (h c main_arg1).trans ((congrFun (after_eq _) _).trans (args125 (launchContents m c) 1)),
      (h c main_arg2).trans ((congrFun (after_eq _) _).trans (args125 (launchContents m c) 2)),
      (h c main_arg3).trans ((congrFun (after_eq _) _).trans (args125 (launchContents m c) 3)),
      (h c main_arg4).trans ((congrFun (after_eq _) _).trans (args125 (launchContents m c) 4)),
      (h c main_arg5).trans ((congrFun (after_eq _) _).trans (args125 (launchContents m c) 5)),
      (h c main_arg6).trans ((congrFun (after_eq _) _).trans (args125 (launchContents m c) 6)),
      (h c main_arg7).trans ((congrFun (after_eq _) _).trans (args125 (launchContents m c) 7)),
      (h c main_arg8).trans ((congrFun (after_eq _) _).trans (args125 (launchContents m c) 8)),
      (h c main_arg9).trans ((congrFun (after_eq _) _).trans (args125 (launchContents m c) 9)),
      (h c main_arg10).trans ((congrFun (after_eq _) _).trans (args125 (launchContents m c) 10)),
      (h c main_arg11).trans ((congrFun (after_eq _) _).trans (args125 (launchContents m c) 11)),
      (h c main_arg12).trans ((congrFun (after_eq _) _).trans (args125 (launchContents m c) 12)),
      (h c main_arg13).trans ((congrFun (after_eq _) _).trans (args125 (launchContents m c) 13)),
      (h c main_arg14).trans ((congrFun (after_eq _) _).trans (args125 (launchContents m c) 14))⟩)
    (run_seq scopedRefs_eq scopedSems_eq (Cert.ReferenceIdeal.defs (F := Ideal)) (main (F := Ideal)) (fun _ => ops) main_eq (fun _ => ops_sub) m ρ (fun _ => ops_fresh))

end Cert.ReferenceIdeal.Val

end
-- ==== Proof.RefReadConsts.lean ====
/-
  The two float literals of the reference whose values matter: the word of −∞, from which the maximum over the sampled
  neighbours starts, denotes the least extended real; the row count's word denotes the real number 60000.
-/
import proofs.«178630_j29162827940511_2_alg».proof.Proof.Spec
import proofs.«178630_j29162827940511_2_alg».proof.Proof.Consts

noncomputable section

namespace Cert.RefRead

open Idealize.ShloMosaic

/-- The word of −∞ denotes the least extended real. -/
theorem ofBits_neg_inf : Ideal.ofBits .f32 0xFF800000#32 = ⊥ := Cert.Consts.ofBits_neg_inf

/-- The row count's word denotes the real number 60000. -/
theorem cnt_val : Spec.cnt = ((60000 : ℝ) : EReal) := Cert.Consts.ofBits_60000

end Cert.RefRead

end
-- ==== Proof.LibHostMidMax.lean ====
/-
  A host reduction by maximum along the middle axis of a three-axis array, read at an entry.

  For any extents: the one-operand host reduction of an `[m, s, c]` array along its second axis with the maximum as its
  body is, at `(r, k)`, the fold of the maximum from the initial value over the `s` entries `(r, ·, k)`; when the initial
  value is the least extended real this is the supremum of those entries.
-/
import Idealize.ShloMosaic.PureOps.Ideal.Laws
import Idealize.ShloMosaic.PureOps.Reduce
import Idealize.ShloMosaic.Lib.ValueIdx

noncomputable section

namespace Cert.LibHostMidMax

open Idealize.ShloMosaic Idealize.ShloMosaic.ValueIdx

/-- Entry `(r, k)` with the middle coordinate `j` inserted is the entry `(r, j, k)`. -/
theorem lift_mid {m s c : ℕ} (hR : (⟨3, ![m, s, c]⟩ : Shape).Reduces [1] ⟨2, ![m, c]⟩) (r : Fin m) (k : Fin c) (j : Fin s) :
    hR.lift (ix2 r k) j = ix3 r j k := by
  funext a
  match a with
  | ⟨0, _⟩ => rfl
  | ⟨1, _⟩ => rfl
  | ⟨2, _⟩ => rfl

/-- A fold of the maximum from the least element is the supremum. -/
theorem fold_max_bot_eq_sup {ι : Type} (t : Finset ι) (f : ι → EReal) : t.fold max ⊥ f = t.sup f := by
  classical
  refine Finset.induction_on t (by simp) fun a t ha ih => ?_
  rw [Finset.fold_insert ha, Finset.sup_insert, ih]

/-- The host's maximum along the middle axis at `(r, k)`: the fold of the maximum from the initial value. -/
theorem reduce_max_mid {m s c : ℕ} {u : Shape} (A : (⟨3, ![m, s, c]⟩ : Shape).Idx → EReal) (init : u.Idx → EReal)
    (h' : (⟨3, ![m, s, c]⟩ : Shape).ReducesTo [1] ⟨2, ![m, c]⟩) (hR : (⟨3, ![m, s, c]⟩ : Shape).Reduces [1] ⟨2, ![m, c]⟩)
    (hu : 0 < u.numel) (r : Fin m) (k : Fin c) :
    Host.reduce (FloatOps.maximumf (F := Ideal) (φ := .f32)) A init h' hu (ix2 r k)
      = (Finset.univ : Finset (Fin s)).fold max (init (Shape.Idx.first hu)) fun j => A (ix3 r j k) := by
  refine (Host.reduce_eq_fold_single (α := Ideal .f32) FloatOps.maximumf A init h' hR hu (ix2 r k)).trans ?_
  refine congrArg (Finset.fold max (init (Shape.Idx.first hu)) · Finset.univ) ?_
  funext j
  exact congrArg A (lift_mid hR r k j)

/-- From the least extended real: the supremum of the entries `(r, ·, k)`. -/
theorem reduce_max_mid_bot {m s c : ℕ} {u : Shape} (A : (⟨3, ![m, s, c]⟩ : Shape).Idx → EReal) (init : u.Idx → EReal)
    (h' : (⟨3, ![m, s, c]⟩ : Shape).ReducesTo [1] ⟨2, ![m, c]⟩) (hR : (⟨3, ![m, s, c]⟩ : Shape).Reduces [1] ⟨2, ![m, c]⟩)
    (hu : 0 < u.numel) (hinit : init (Shape.Idx.first hu) = ⊥) (r : Fin m) (k : Fin c) :
    Host.reduce (FloatOps.maximumf (F := Ideal) (φ := .f32)) A init h' hu (ix2 r k)
      = Finset.univ.sup fun j : Fin s => A (ix3 r j k) := by
  rw [reduce_max_mid A init h' hR hu r k, hinit]
  exact fold_max_bot_eq_sup _ _

end Cert.LibHostMidMax

end
-- ==== Proof.RefReadLayer.lean ====
/-
  One layer of the network as the host writes it, operation by operation, read index by index.

  Each lemma takes the host operations of one stage exactly as a program spells them — a transpose and a plain
  product for `x · Wᵀ`, two broadcasts for a bias row, a maximum with a splat zero for the clip, a compare / add / select
  for the wrap of a negative node number, a gather of whole rows, a maximum along the sample axis from −∞, a join of two
  matrices along the columns — for any number of table rows `N` and of output nodes `M`, and identifies the stage with
  the corresponding function of the specification. Nothing here needs an entry to be finite.
-/
import proofs.«178630_j29162827940511_2_alg».proof.Proof.Spec
import proofs.«178630_j29162827940511_2_alg».proof.Proof.LibPlainDot
import proofs.«178630_j29162827940511_2_alg».proof.Proof.LibHostRow
import proofs.«178630_j29162827940511_2_alg».proof.Proof.LibHostColumn
import proofs.«178630_j29162827940511_2_alg».proof.Proof.LibGatherRows
import proofs.«178630_j29162827940511_2_alg».proof.Proof.LibGatherSampled
import proofs.«178630_j29162827940511_2_alg».proof.Proof.LibUnitLast
import proofs.«178630_j29162827940511_2_alg».proof.Proof.RefReadConsts
import proofs.«178630_j29162827940511_2_alg».proof.Proof.LibHostMidMax
import proofs.«178630_j29162827940511_2_alg».proof.Proof.LibJoins
import Idealize.ShloMosaic.Lib.Pipeline.Value

noncomputable section

open scoped BigOperators

namespace Cert.RefRead

open Idealize.ShloMosaic Idealize.ShloMosaic.ValueIdx

/-- `x · Wᵀ + b` at entry `(r, c)`: the weight is transposed first, the bias is spread over the rows. -/
theorem linT_apply {n K d : ℕ} (D : DotDims ⟨2, ![n, K]⟩ ⟨2, ![K, d]⟩ ⟨2, ![n, d]⟩) (hD : D = DotDims.plain n K d)
    (ht : (⟨2, ![d, K]⟩ : Shape).Transposes [1, 0] ⟨2, ![K, d]⟩)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2))
    (x : FVec Ideal ⟨2, ![n, K]⟩ .f32) (W : FVec Ideal ⟨2, ![d, K]⟩ .f32) (b : FVec Ideal ⟨1, ![d]⟩ .f32)
    (r : Fin n) (c : Fin d) :
    addf (Host.dotGeneral D none x (transpose ⟨2, ![K, d]⟩ [1, 0] W ht))
        (broadcastInDim ⟨2, ![n, d]⟩ ![0, 1] h2 (broadcastInDim ⟨2, ![1, d]⟩ ![1] h1 b)) (ix2 r c)
      = (∑ k : Fin K, x (ix2 r k) * W (ix2 c k)) + b (ix1 c) := by
  subst hD
  show FloatOps.dotGeneral (DotDims.plain n K d) none .single x (transpose ⟨2, ![K, d]⟩ [1, 0] W ht) (ix2 r c)
      + broadcastInDim ⟨2, ![n, d]⟩ ![0, 1] h2 (broadcastInDim ⟨2, ![1, d]⟩ ![1] h1 b) (ix2 r c) = _
  rw [Cert.Sage.dotGeneral_plain_apply, Cert.LibHostRow.rows_apply, Cert.LibHostRow.row_apply]
  refine congrArg (· + b (ix1 c)) (Finset.sum_congr rfl fun k _ => ?_)
  rw [transpose_apply [1, 0] W ht (ix2 k c) (ix2 c k) (fun a => by
    match a with
    | ⟨0, _⟩ => rfl
    | ⟨1, _⟩ => rfl)]

/-- The clip at zero: a maximum with the splat of the zero word. -/
theorem relu_apply {t : Shape} (h0 : (⟨0, ![]⟩ : Shape).BroadcastsInDim t (![] : Fin 0 → Fin t.rank))
    (v : FVec Ideal t .f32) (i : t.Idx) :
    maximumf v (broadcastInDim t ![] h0 (constant (F := Ideal) ⟨0, ![]⟩ .f32 0x00000000#32)) i = max (v i) Spec.zero := by
  show max (v i) (broadcastInDim t ![] h0 (constant (F := Ideal) ⟨0, ![]⟩ .f32 0x00000000#32) i) = _
  rw [Cert.LibHostRow.scalar_apply]
  rfl

/-- The clip of a whole matrix is the specification's `relu`. -/
theorem relu_ops {n d : ℕ} (h0 : (⟨0, ![]⟩ : Shape).BroadcastsInDim ⟨2, ![n, d]⟩ (![] : Fin 0 → Fin 2))
    (v : FVec Ideal ⟨2, ![n, d]⟩ .f32) :
    maximumf v (broadcastInDim ⟨2, ![n, d]⟩ ![] h0 (constant (F := Ideal) ⟨0, ![]⟩ .f32 0x00000000#32)) = Spec.relu v :=
  funext fun i => relu_apply h0 v i

/-- The projection of every node, `max (x · Wpᵀ + bp) 0`. -/
theorem proj_ops {n : ℕ} (D : DotDims ⟨2, ![n, 128]⟩ ⟨2, ![128, 128]⟩ ⟨2, ![n, 128]⟩) (hD : D = DotDims.plain n 128 128)
    (ht : (⟨2, ![128, 128]⟩ : Shape).Transposes [1, 0] ⟨2, ![128, 128]⟩)
    (h1 : (⟨1, ![128]⟩ : Shape).BroadcastsInDim ⟨2, ![1, 128]⟩ (![1] : Fin 1 → Fin 2))
    (h2 : (⟨2, ![1, 128]⟩ : Shape).BroadcastsInDim ⟨2, ![n, 128]⟩ (![0, 1] : Fin 2 → Fin 2))
    (h0 : (⟨0, ![]⟩ : Shape).BroadcastsInDim ⟨2, ![n, 128]⟩ (![] : Fin 0 → Fin 2))
    (x : FVec Ideal ⟨2, ![n, 128]⟩ .f32) (Wp : FVec Ideal ⟨2, ![128, 128]⟩ .f32) (bp : FVec Ideal ⟨1, ![128]⟩ .f32) :
    maximumf (addf (Host.dotGeneral D none x (transpose ⟨2, ![128, 128]⟩ [1, 0] Wp ht))
          (broadcastInDim ⟨2, ![n, 128]⟩ ![0, 1] h2 (broadcastInDim ⟨2, ![1, 128]⟩ ![1] h1 bp)))
        (broadcastInDim ⟨2, ![n, 128]⟩ ![] h0 (constant (F := Ideal) ⟨0, ![]⟩ .f32 0x00000000#32))
      = Spec.proj x Wp bp := by
  funext i
  obtain ⟨r, c, rfl⟩ : ∃ (r : Fin n) (c : Fin 128), i = ix2 r c := ⟨i 0, i 1, eq_ix2 i⟩
  rw [relu_apply, linT_apply D hD]
  rfl

/-- The wrap of a negative node number, entry by entry. -/
theorem wrap_apply {t : Shape} (hb0 hb1 : (⟨0, ![]⟩ : Shape).BroadcastsInDim t (![] : Fin 0 → Fin t.rank)) (Nw : BitVec 32)
    (idx : IVec t 32) (i : t.Idx) :
    select (cmpi .slt idx (broadcastInDim t ![] hb0 (constantI ⟨0, ![]⟩ 32 0#32)))
        (addi idx (broadcastInDim t ![] hb1 (constantI ⟨0, ![]⟩ 32 Nw))) idx i
      = Spec.wrapWord Nw (idx i) := by
  show Scalar.select (IntOp.cmpi .slt (idx i) (broadcastInDim t ![] hb0 (constantI ⟨0, ![]⟩ 32 0#32) i))
      (IntOp.addi (idx i) (broadcastInDim t ![] hb1 (constantI ⟨0, ![]⟩ 32 Nw) i)) (idx i) = _
  rw [Cert.LibHostRow.scalar_apply, Cert.LibHostRow.scalar_apply]
  rfl

/-- The entrywise maximum of the 25 sampled neighbours' rows: wrap, a trailing unit axis, the gather of whole rows, the
    maximum along the sample axis from −∞. -/
theorem nbrMax_ops {N M : ℕ} (hN : 0 < N) (Nw : BitVec 32)
    (wf : GatherDims.WF ⟨2, ![N, 128]⟩ ⟨3, ![M, 25, 1]⟩ ⟨3, ![M, 25, 128]⟩ [2] [0] [] [0] [] 2 ![1, 128])
    (G : GatherDims ⟨2, ![N, 128]⟩ ⟨3, ![M, 25, 1]⟩ ⟨3, ![M, 25, 128]⟩)
    (hG : G = Cert.LibGatherSampled.sampledDims N M 25 128 wf)
    (hb0 hb1 : (⟨0, ![]⟩ : Shape).BroadcastsInDim ⟨2, ![M, 25]⟩ (![] : Fin 0 → Fin 2))
    (h3 : (⟨2, ![M, 25]⟩ : Shape).BroadcastsInDim ⟨3, ![M, 25, 1]⟩ (![0, 1] : Fin 2 → Fin 3))
    (h' : (⟨3, ![M, 25, 128]⟩ : Shape).ReducesTo [1] ⟨2, ![M, 128]⟩)
    (hR : (⟨3, ![M, 25, 128]⟩ : Shape).Reduces [1] ⟨2, ![M, 128]⟩)
    (hu : 0 < (⟨0, ![]⟩ : Shape).numel)
    (h : FVec Ideal ⟨2, ![N, 128]⟩ .f32) (idx : IVec ⟨2, ![M, 25]⟩ 32) :
    Host.reduce (FloatOps.maximumf (F := Ideal) (φ := .f32))
        (Host.gather G h (broadcastInDim ⟨3, ![M, 25, 1]⟩ ![0, 1] h3
          (select (cmpi .slt idx (broadcastInDim ⟨2, ![M, 25]⟩ ![] hb0 (constantI ⟨0, ![]⟩ 32 0#32)))
            (addi idx (broadcastInDim ⟨2, ![M, 25]⟩ ![] hb1 (constantI ⟨0, ![]⟩ 32 Nw))) idx)))
        (constant (F := Ideal) ⟨0, ![]⟩ .f32 0xFF800000#32) h' hu
      = Spec.nbrMax hN Nw h idx := by
  subst hG
  funext i
  obtain ⟨r, c, rfl⟩ : ∃ (r : Fin M) (c : Fin 128), i = ix2 r c := ⟨i 0, i 1, eq_ix2 i⟩
  rw [Cert.LibHostMidMax.reduce_max_mid_bot _ _ h' hR hu ofBits_neg_inf r c]
  show _ = Finset.univ.sup fun s : Fin 25 => h (ix2 (Spec.rowOf N hN (Spec.wrapWord Nw (idx (ix2 r s)))) c)
  refine Finset.sup_congr rfl fun s _ => ?_
  rw [Cert.LibGatherSampled.gather_sampled_apply hN wf]
  have e : broadcastInDim ⟨3, ![M, 25, 1]⟩ ![0, 1] h3
      (select (cmpi .slt idx (broadcastInDim ⟨2, ![M, 25]⟩ ![] hb0 (constantI ⟨0, ![]⟩ 32 0#32)))
        (addi idx (broadcastInDim ⟨2, ![M, 25]⟩ ![] hb1 (constantI ⟨0, ![]⟩ 32 Nw))) idx) (ix3 r s (0 : Fin 1))
      = Spec.wrapWord Nw (idx (ix2 r s)) := by
    rw [Cert.LibUnitLast.unitLast_apply, wrap_apply]
  exact congrArg (fun w => h (ix2 (Spec.rowOf N hN w) c)) e

/-- Every output node's own row: wrap, the row numbers as a column, the gather of whole rows. -/
theorem selfRows_ops {N M : ℕ} (hN : 0 < N) (Nw : BitVec 32)
    (wf : GatherDims.WF ⟨2, ![N, 128]⟩ ⟨2, ![M, 1]⟩ ⟨2, ![M, 128]⟩ [1] [0] [] [0] [] 1 ![1, 128])
    (G : GatherDims ⟨2, ![N, 128]⟩ ⟨2, ![M, 1]⟩ ⟨2, ![M, 128]⟩) (hG : G = Cert.LibGatherRows.rowDims N M 128 wf)
    (hb0 hb1 : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2))
    (x : FVec Ideal ⟨2, ![N, 128]⟩ .f32) (idx : IVec ⟨1, ![M]⟩ 32) :
    Host.gather G x (broadcastInDim ⟨2, ![M, 1]⟩ ![0] hc
        (select (cmpi .slt idx (broadcastInDim ⟨1, ![M]⟩ ![] hb0 (constantI ⟨0, ![]⟩ 32 0#32)))
          (addi idx (broadcastInDim ⟨1, ![M]⟩ ![] hb1 (constantI ⟨0, ![]⟩ 32 Nw))) idx))
      = Spec.selfRows hN Nw x idx := by
  subst hG
  funext i
  obtain ⟨r, c, rfl⟩ : ∃ (r : Fin M) (c : Fin 128), i = ix2 r c := ⟨i 0, i 1, eq_ix2 i⟩
  rw [Cert.LibGatherRows.gather_rows_apply hN wf]
  have e : broadcastInDim ⟨2, ![M, 1]⟩ ![0] hc
      (select (cmpi .slt idx (broadcastInDim ⟨1, ![M]⟩ ![] hb0 (constantI ⟨0, ![]⟩ 32 0#32)))
        (addi idx (broadcastInDim ⟨1, ![M]⟩ ![] hb1 (constantI ⟨0, ![]⟩ 32 Nw))) idx) (ix2 r (0 : Fin 1))
      = Spec.wrapWord Nw (idx (ix1 r)) := by
    rw [Cert.LibHostColumn.column_apply, wrap_apply]
  exact congrArg (fun w => x (ix2 (Spec.rowOf N hN w) c)) e

/-- The second linear map on the two matrices side by side, `[a | b] · Wᵀ + bias`. -/
theorem lin2_ops {M : ℕ} (D : DotDims ⟨2, ![M, 256]⟩ ⟨2, ![256, 128]⟩ ⟨2, ![M, 128]⟩) (hD : D = DotDims.plain M 256 128)
    (hcat : Shape.Concatenates [⟨2, ![M, 128]⟩, ⟨2, ![M, 128]⟩] ⟨2, ![M, 256]⟩ 1)
    (ht : (⟨2, ![128, 256]⟩ : Shape).Transposes [1, 0] ⟨2, ![256, 128]⟩)
    (h1 : (⟨1, ![128]⟩ : Shape).BroadcastsInDim ⟨2, ![1, 128]⟩ (![1] : Fin 1 → Fin 2))
    (h2 : (⟨2, ![1, 128]⟩ : Shape).BroadcastsInDim ⟨2, ![M, 128]⟩ (![0, 1] : Fin 2 → Fin 2))
    (a b : FVec Ideal ⟨2, ![M, 128]⟩ .f32) (W : FVec Ideal ⟨2, ![128, 256]⟩ .f32) (bias : FVec Ideal ⟨1, ![128]⟩ .f32) :
    addf (Host.dotGeneral D none
          (concatenate ⟨2, ![M, 256]⟩ 1 [⟨⟨2, ![M, 128]⟩, a⟩, ⟨⟨2, ![M, 128]⟩, b⟩] hcat)
          (transpose ⟨2, ![256, 128]⟩ [1, 0] W ht))
        (broadcastInDim ⟨2, ![M, 128]⟩ ![0, 1] h2 (broadcastInDim ⟨2, ![1, 128]⟩ ![1] h1 bias))
      = Spec.lin2 a b W bias := by
  funext i
  obtain ⟨r, c, rfl⟩ : ∃ (r : Fin M) (c : Fin 128), i = ix2 r c := ⟨i 0, i 1, eq_ix2 i⟩
  rw [linT_apply D hD]
  show _ = (∑ k : Fin 256, Spec.cat a b r k * W (ix2 c k)) + bias (ix1 c)
  refine congrArg (· + bias (ix1 c)) (Finset.sum_congr rfl fun k _ => ?_)
  refine congrArg (· * W (ix2 c k)) ?_
  unfold Spec.cat
  split
  · next hk =>
    exact Cert.Joins.join_cols_left (n1 := 128) (n2 := 128) a b hcat r k ⟨k.val, hk⟩ rfl
  · next hk =>
    have hk' : k.val - 128 + 128 = k.val := by omega
    exact Cert.Joins.join_cols_right (n1 := 128) (n2 := 128) a b hcat r k ⟨k.val - 128, by omega⟩ hk'

end Cert.RefRead

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«178630_j29162827940511_2_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.LibHostColSum.lean ====
/-
  A host sum down the columns of a matrix, read at a column.

  For any extents: the host reduction of an `[n, d]` array along its first axis with addition as its body is, at column
  `c` and at the exact values, the initial value plus the sum of the column's `n` entries.
-/
import Idealize.ShloMosaic.PureOps.Ideal.Laws
import Idealize.ShloMosaic.Lib.ValueIdx

noncomputable section

namespace Cert.LibHostColSum

open Idealize.ShloMosaic Idealize.ShloMosaic.ValueIdx

/-- Column `c` with the row coordinate `r` inserted is the entry `(r, c)`. -/
theorem lift_col {n d : ℕ} (hR : (⟨2, ![n, d]⟩ : Shape).Reduces [0] ⟨1, ![d]⟩) (c : Fin d) (r : Fin n) :
    hR.lift (ix1 c) r = ix2 r c := by
  funext a
  match a with
  | ⟨0, _⟩ => rfl
  | ⟨1, _⟩ => rfl

/-- The host's column sum at column `c`: the initial value plus the sum down the column. -/
theorem reduceAdd_col {n d : ℕ} {u : Shape} (A : (⟨2, ![n, d]⟩ : Shape).Idx → EReal) (init : u.Idx → EReal)
    (h' : (⟨2, ![n, d]⟩ : Shape).ReducesTo [0] ⟨1, ![d]⟩) (hR : (⟨2, ![n, d]⟩ : Shape).Reduces [0] ⟨1, ![d]⟩)
    (hu : 0 < u.numel) (c : Fin d) :
    Host.reduceAdd (F := Ideal) (φ := .f32) A init h' hu (ix1 c)
      = init (Shape.Idx.first hu) + ∑ r : Fin n, A (ix2 r c) := by
  unfold Host.reduceAdd
  rw [Ideal.hostReduceAdd_def, Ideal.hostReduceAdd_single h' hR]
  refine congrArg (init (Shape.Idx.first hu) + ·) (Finset.sum_congr rfl fun r _ => ?_)
  exact congrArg A (lift_col hR c r)

end Cert.LibHostColSum

end
-- ==== Proof.RefReadNorm.lean ====
/-
  The column normalisation and the row normalisation as the host writes them, operation by operation, read index by index.

  For a `[60000, 128]` array `X`: the column means (a sum down the rows from the zero word, divided by the splat of the row
  count); the column variances as the outlined variance function computes them (the mean kept as a `[1, 128]` row, the
  deviations squared and summed, the divisor `60000 − 0` with the `0` a converted integer zero, and a final choice on
  `60000 − 0 > 0`, which is true); the normalised array (centre, multiply by the reciprocal square root of the variance
  plus a small constant, scale, shift); and every row divided by its Euclidean length plus a small constant. Each is
  identified with the specification's function. Every step is an identity on the extended reals: `0 + s = s`,
  `c − 0 = c`, and the one comparison needs only that the row count's word denotes a positive number.
-/
import proofs.«178630_j29162827940511_2_alg».proof.Proof.Spec
import proofs.«178630_j29162827940511_2_alg».proof.Proof.RefReadConsts
import proofs.«178630_j29162827940511_2_alg».proof.Proof.LibHostRow
import proofs.«178630_j29162827940511_2_alg».proof.Proof.LibHostColumn
import proofs.«178630_j29162827940511_2_alg».proof.Proof.LibHostRowSum
import proofs.«178630_j29162827940511_2_alg».proof.Proof.LibHostColSum
import Idealize.ShloMosaic.Lib.Pipeline.Value
import Idealize.ShloMosaic.Lib.KernelVsHost

noncomputable section

open scoped BigOperators

namespace Cert.RefRead

open Idealize.ShloMosaic Idealize.ShloMosaic.ValueIdx

/-- The host's division, square root and reciprocal square root of arrays, at an entry. -/
theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl

/-- The row count less a converted integer zero is the row count. -/
theorem cnt_sub_zero : Spec.cnt - (Scalar.sitofp .f32 0#32 : Ideal .f32) = Spec.cnt := by
  rw [sitofp_zero]
  exact sub_zero _

/-- The row count is positive: the comparison `60000 − 0 > 0` gives the bit 1. -/
theorem cnt_gt_zero : Ideal.cmp .ogt Spec.cnt Spec.zero = 1#1 := by
  have h : (Spec.zero : EReal) < Spec.cnt := by
    rw [cnt_val]
    show Ideal.ofBits .f32 0x00000000#32 < _
    rw [Ideal.ofBits_zero_f32]
    exact_mod_cast (by norm_num : (0 : ℝ) < 60000)
  show BitVec.ofBool (decide (Spec.zero < Spec.cnt)) = 1#1
  rw [decide_eq_true h]
  rfl

/-- The column sum from the zero word. -/
theorem colSum_apply (h' : (⟨2, ![60000, 128]⟩ : Shape).ReducesTo [0] ⟨1, ![128]⟩)
    (hR : (⟨2, ![60000, 128]⟩ : Shape).Reduces [0] ⟨1, ![128]⟩) (hu : 0 < (⟨0, ![]⟩ : Shape).numel)
    (X : FVec Ideal ⟨2, ![60000, 128]⟩ .f32) (c : Fin 128) :
    Host.reduceAdd X (constant (F := Ideal) ⟨0, ![]⟩ .f32 0x00000000#32) h' hu (ix1 c) = Spec.colSum X c := by
  rw [Cert.LibHostColSum.reduceAdd_col X _ h' hR hu c, constant_apply, Ideal.ofBits_zero_f32, zero_add]
  rfl

/-- The column mean: the column sum divided by the splat of the row count. -/
theorem mean_apply (h' : (⟨2, ![60000, 128]⟩ : Shape).ReducesTo [0] ⟨1, ![128]⟩)
    (hR : (⟨2, ![60000, 128]⟩ : Shape).Reduces [0] ⟨1, ![128]⟩) (hu : 0 < (⟨0, ![]⟩ : Shape).numel)
    (hb : (⟨0, ![]⟩ : Shape).BroadcastsInDim ⟨1, ![128]⟩ (![] : Fin 0 → Fin 1))
    (X : FVec Ideal ⟨2, ![60000, 128]⟩ .f32) (c : Fin 128) :
    Host.divf (Host.reduceAdd X (constant (F := Ideal) ⟨0, ![]⟩ .f32 0x00000000#32) h' hu)
        (broadcastInDim ⟨1, ![128]⟩ ![] hb (constant (F := Ideal) ⟨0, ![]⟩ .f32 0x476A6000#32)) (ix1 c)
      = Spec.meanOf X c := by
  rw [hostDivf_apply, colSum_apply h' hR hu, Cert.LibHostRow.scalar_apply]
  rfl

/-- The column mean kept as a `[1, 128]` row. -/
theorem mean_row_apply (h' : (⟨2, ![60000, 128]⟩ : Shape).ReducesTo [0] ⟨1, ![128]⟩)
    (hR : (⟨2, ![60000, 128]⟩ : Shape).Reduces [0] ⟨1, ![128]⟩) (hu : 0 < (⟨0, ![]⟩ : Shape).numel)
    (h1 : (⟨1, ![128]⟩ : Shape).BroadcastsInDim ⟨2, ![1, 128]⟩ (![1] : Fin 1 → Fin 2))
    (hbr : (⟨0, ![]⟩ : Shape).BroadcastsInDim ⟨2, ![1, 128]⟩ (![] : Fin 0 → Fin 2))
    (X : FVec Ideal ⟨2, ![60000, 128]⟩ .f32) (u : Fin 1) (c : Fin 128) :
    Host.divf (broadcastInDim ⟨2, ![1, 128]⟩ ![1] h1 (Host.reduceAdd X (constant (F := Ideal) ⟨0, ![]⟩ .f32 0x00000000#32) h' hu))
        (broadcastInDim ⟨2, ![1, 128]⟩ ![] hbr (constant (F := Ideal) ⟨0, ![]⟩ .f32 0x476A6000#32)) (ix2 u c)
      = Spec.meanOf X c := by
  rw [hostDivf_apply, Cert.LibHostRow.row_apply, colSum_apply h' hR hu, Cert.LibHostRow.scalar_apply]
  rfl

/-- The column variance as the outlined variance function computes it; `other` is what its final choice would give
    were `60000 − 0 > 0` false. -/
theorem var_apply (h' : (⟨2, ![60000, 128]⟩ : Shape).ReducesTo [0] ⟨1, ![128]⟩)
    (hR : (⟨2, ![60000, 128]⟩ : Shape).Reduces [0] ⟨1, ![128]⟩) (hu : 0 < (⟨0, ![]⟩ : Shape).numel)
    (h1 : (⟨1, ![128]⟩ : Shape).BroadcastsInDim ⟨2, ![1, 128]⟩ (![1] : Fin 1 → Fin 2))
    (hbr : (⟨0, ![]⟩ : Shape).BroadcastsInDim ⟨2, ![1, 128]⟩ (![] : Fin 0 → Fin 2))
    (h2 : (⟨2, ![1, 128]⟩ : Shape).BroadcastsInDim ⟨2, ![60000, 128]⟩ (![0, 1] : Fin 2 → Fin 2))
    (hb hb' : (⟨0, ![]⟩ : Shape).BroadcastsInDim ⟨1, ![128]⟩ (![] : Fin 0 → Fin 1))
    (X : FVec Ideal ⟨2, ![60000, 128]⟩ .f32) (z : IVec ⟨0, ![]⟩ 32) (hz : z ix0 = 0#32)
    (other : FVec Ideal ⟨1, ![128]⟩ .f32) (c : Fin 128) :
    select
        (broadcastInDim ⟨1, ![128]⟩ ![] hb'
          (cmpf .ogt (subf (constant (F := Ideal) ⟨0, ![]⟩ .f32 0x476A6000#32) (sitofp .f32 z))
            (constant (F := Ideal) ⟨0, ![]⟩ .f32 0x00000000#32)))
        (Host.divf
          (Host.reduceAdd
            (mulf
              (subf X (broadcastInDim ⟨2, ![60000, 128]⟩ ![0, 1] h2
                (Host.divf (broadcastInDim ⟨2, ![1, 128]⟩ ![1] h1
                    (Host.reduceAdd X (constant (F := Ideal) ⟨0, ![]⟩ .f32 0x00000000#32) h' hu))
                  (broadcastInDim ⟨2, ![1, 128]⟩ ![] hbr (constant (F := Ideal) ⟨0, ![]⟩ .f32 0x476A6000#32)))))
              (subf X (broadcastInDim ⟨2, ![60000, 128]⟩ ![0, 1] h2
                (Host.divf (broadcastInDim ⟨2, ![1, 128]⟩ ![1] h1
                    (Host.reduceAdd X (constant (F := Ideal) ⟨0, ![]⟩ .f32 0x00000000#32) h' hu))
                  (broadcastInDim ⟨2, ![1, 128]⟩ ![] hbr (constant (F := Ideal) ⟨0, ![]⟩ .f32 0x476A6000#32))))))
            (constant (F := Ideal) ⟨0, ![]⟩ .f32 0x00000000#32) h' hu)
          (broadcastInDim ⟨1, ![128]⟩ ![] hb
            (subf (constant (F := Ideal) ⟨0, ![]⟩ .f32 0x476A6000#32) (sitofp .f32 z))))
        other (ix1 c)
      = Spec.varRef X c := by
  have hd : ∀ j : (⟨0, ![]⟩ : Shape).Idx,
      subf (constant (F := Ideal) ⟨0, ![]⟩ .f32 0x476A6000#32) (sitofp .f32 z) j = Spec.cnt := by
    intro j
    obtain rfl : j = ix0 := eq_ix0 j
    rw [subf_apply, sitofp_apply, constant_apply, hz]
    exact cnt_sub_zero
  have hcmp : cmpf .ogt (subf (constant (F := Ideal) ⟨0, ![]⟩ .f32 0x476A6000#32) (sitofp .f32 z))
      (constant (F := Ideal) ⟨0, ![]⟩ .f32 0x00000000#32) ix0 = 1#1 := by
    rw [cmpf_apply, hd]
    exact cnt_gt_zero
  rw [select_apply, Cert.LibHostRow.scalar_apply, hcmp, select_one, hostDivf_apply, Cert.LibHostRow.scalar_apply, hd,
    Cert.LibHostColSum.reduceAdd_col _ _ h' hR hu c]
  unfold Spec.varRef
  refine congrArg (Ideal.div · Spec.cnt) ?_
  rw [constant_apply, Ideal.ofBits_zero_f32, zero_add]
  refine Finset.sum_congr rfl fun r _ => ?_
  rw [mulf_apply, subf_apply, Cert.LibHostRow.rows_apply, mean_row_apply h' hR hu]

/-- The normalised array: centre by the mean row, multiply by the reciprocal square root of the variance plus the small
    constant, scale by `γ`, shift by `β` — given the mean and variance vectors entry by entry. -/
theorem bn_ops (h1 : (⟨1, ![128]⟩ : Shape).BroadcastsInDim ⟨2, ![1, 128]⟩ (![1] : Fin 1 → Fin 2))
    (h2 : (⟨2, ![1, 128]⟩ : Shape).BroadcastsInDim ⟨2, ![60000, 128]⟩ (![0, 1] : Fin 2 → Fin 2))
    (hb : (⟨0, ![]⟩ : Shape).BroadcastsInDim ⟨1, ![128]⟩ (![] : Fin 0 → Fin 1))
    (X : FVec Ideal ⟨2, ![60000, 128]⟩ .f32) (mu vr γ β : FVec Ideal ⟨1, ![128]⟩ .f32)
    (hmu : ∀ c : Fin 128, mu (ix1 c) = Spec.meanOf X c) (hvr : ∀ c : Fin 128, vr (ix1 c) = Spec.varRef X c) :
    addf
        (mulf
          (mulf (subf X (broadcastInDim ⟨2, ![60000, 128]⟩ ![0, 1] h2 (broadcastInDim ⟨2, ![1, 128]⟩ ![1] h1 mu)))
            (broadcastInDim ⟨2, ![60000, 128]⟩ ![0, 1] h2 (broadcastInDim ⟨2, ![1, 128]⟩ ![1] h1
              (Host.rsqrt (addf vr (broadcastInDim ⟨1, ![128]⟩ ![] hb (constant (F := Ideal) ⟨0, ![]⟩ .f32 0x3727C5AC#32)))))))
          (broadcastInDim ⟨2, ![60000, 128]⟩ ![0, 1] h2 (broadcastInDim ⟨2, ![1, 128]⟩ ![1] h1 γ)))
        (broadcastInDim ⟨2, ![60000, 128]⟩ ![0, 1] h2 (broadcastInDim ⟨2, ![1, 128]⟩ ![1] h1 β))
      = Spec.bnRef X γ β := by
  funext i
  obtain ⟨r, c, rfl⟩ : ∃ (r : Fin 60000) (c : Fin 128), i = ix2 r c := ⟨i 0, i 1, eq_ix2 i⟩
  rw [addf_apply, mulf_apply, mulf_apply, subf_apply,
    Cert.LibHostRow.rows_apply, Cert.LibHostRow.row_apply, Cert.LibHostRow.rows_apply, Cert.LibHostRow.row_apply,
    Cert.LibHostRow.rows_apply, Cert.LibHostRow.row_apply, Cert.LibHostRow.rows_apply, Cert.LibHostRow.row_apply,
    hostRsqrt_apply, addf_apply, Cert.LibHostRow.scalar_apply, hmu, hvr]
  rfl

/-- Every row divided by its Euclidean length plus the small constant. -/
theorem l2n_ops (h'' : (⟨2, ![60000, 128]⟩ : Shape).ReducesTo [1] ⟨1, ![60000]⟩)
    (hR' : (⟨2, ![60000, 128]⟩ : Shape).Reduces [1] ⟨1, ![60000]⟩) (hu : 0 < (⟨0, ![]⟩ : Shape).numel)
    (hc : (⟨1, ![60000]⟩ : Shape).BroadcastsInDim ⟨2, ![60000, 1]⟩ (![0] : Fin 1 → Fin 2))
    (hbc : (⟨0, ![]⟩ : Shape).BroadcastsInDim ⟨2, ![60000, 1]⟩ (![] : Fin 0 → Fin 2))
    (hs : (⟨2, ![60000, 1]⟩ : Shape).BroadcastsInDim ⟨2, ![60000, 128]⟩ (![0, 1] : Fin 2 → Fin 2))
    (Y : FVec Ideal ⟨2, ![60000, 128]⟩ .f32) :
    Host.divf Y
        (broadcastInDim ⟨2, ![60000, 128]⟩ ![0, 1] hs
          (addf
            (Host.sqrt (broadcastInDim ⟨2, ![60000, 1]⟩ ![0] hc
              (Host.reduceAdd (mulf Y Y) (constant (F := Ideal) ⟨0, ![]⟩ .f32 0x00000000#32) h'' hu)))
            (broadcastInDim ⟨2, ![60000, 1]⟩ ![] hbc (constant (F := Ideal) ⟨0, ![]⟩ .f32 0x358637BD#32))))
      = Spec.l2n Y := by
  funext i
  obtain ⟨r, c, rfl⟩ : ∃ (r : Fin 60000) (c : Fin 128), i = ix2 r c := ⟨i 0, i 1, eq_ix2 i⟩
  rw [hostDivf_apply, Cert.LibHostColumn.spread_apply, addf_apply, hostSqrt_apply, Cert.LibHostColumn.column_apply,
    Cert.LibHostRow.scalar_apply, Cert.LibHostRowSum.reduceAdd_row _ _ h'' hR' hu r]
  have h0 : constant (F := Ideal) ⟨0, ![]⟩ .f32 0x00000000#32 (Shape.Idx.first hu) = 0 := Ideal.ofBits_zero_f32
  rw [h0, zero_add]
  rfl

end Cert.RefRead

end
-- ==== Proof.RefRead.lean ====
/-
  The reference's result is the specification's network with the centred normalisation, `Spec.GR`.

  The reference is a chain of host operations, one definition per buffer. The chain is read stage by stage: the
  projection of every node, the maximum over the sampled neighbours' projected rows, the nodes' own rows, the second
  linear map on the two side by side, the clip (the first layer's hidden features); their column means and variances,
  the normalised and then row-normalised features; and the same layer once more on those. Each stage is the
  corresponding lemma about the host's operations applied to the stage before, so no two large terms are ever compared.
-/
import proofs.«178630_j29162827940511_2_alg».proof.Proof.RefTerm
import proofs.«178630_j29162827940511_2_alg».proof.Proof.RefReadLayer
import proofs.«178630_j29162827940511_2_alg».proof.Proof.RefReadNorm

noncomputable section

namespace Cert.ReferenceIdeal.Val

open Idealize.ShloMosaic Idealize.ShloMosaic.TcCoe Cert.ReferenceIdeal
open Idealize.ShloMosaic.ValueIdx Cert.ReferenceIdeal.Facts₀ Cert.RefRead

/-! ## The first layer -/

/-- The projection of every one of the 100000 nodes. -/
theorem v5_eq (a0 : FVec Ideal S100000x128 .f32) (a1 : FVec Ideal S128x128 .f32) (a2 : FVec Ideal S128 .f32) : t_v5 a0 a1 a2 = Spec.proj a0 a1 a2 := by
  unfold t_v5 t_v4 t_v3 t_v2 t_v1 t_v0 t_call0_v0 t_call0_cst
  exact proj_ops dot_S100000x128_S128x128_S100000x128_1_0_0_1_n_n rfl _ _ _ _ a0 a1 a2

/-- The maximum over the 25 sampled neighbours' projected rows. -/
theorem v13_eq (a0 : FVec Ideal S100000x128 .f32) (a1 : FVec Ideal S128x128 .f32) (a2 : FVec Ideal S128 .f32) (a11 : IVec S60000x25 32) :
    t_v13 a0 a1 a2 a11 = Spec.nbrMax (N := 100000) (by norm_num) 100000#32 (Spec.proj a0 a1 a2) a11 := by
  unfold t_v13 t_v12 t_cst t_v11 t_v10 t_v9 t_v8 t_c_0 t_v7 t_v6 t_c
  rw [v5_eq]
  exact nbrMax_ops (N := 100000) (M := 60000) (by norm_num) 100000#32
    gather_S100000x128_S60000x25x1_S60000x25x128_2_0_n_n_0_2_1128_wf
    gather_S100000x128_S60000x25x1_S60000x25x128_2_0_n_n_0_2_1128 rfl _ _ _ _ (by decide) _ (Spec.proj a0 a1 a2) a11

/-- The 60000 output nodes' own feature rows. -/
theorem v20_eq (a0 : FVec Ideal S100000x128 .f32) (a12 : IVec S60000 32) :
    t_v20 a0 a12 = Spec.selfRows (N := 100000) (by norm_num) 100000#32 a0 a12 := by
  unfold t_v20 t_v19 t_v18 t_v17 t_v16 t_c_2 t_v15 t_v14 t_c_1
  exact selfRows_ops (N := 100000) (M := 60000) (by norm_num) 100000#32
    gather_S100000x128_S60000x1_S60000x128_1_0_n_n_0_1_1128_wf
    gather_S100000x128_S60000x1_S60000x128_1_0_n_n_0_1_1128 rfl _ _ _ a0 a12

/-- The first layer's output, clipped at zero. -/
theorem v27_eq (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) : t_v27 a0 a1 a2 a5 a6 a11 a12 = Spec.hidden a0 a1 a2 a5 a6 a11 a12 := by
  unfold t_v27 t_call1_v0 t_call1_cst t_v26 t_v25 t_v24 t_v23 t_v22 t_v21
  rw [v13_eq, v20_eq]
  refine (relu_ops _ _).trans (congrArg Spec.relu ?_)
  exact lin2_ops dot_S60000x256_S256x128_S60000x128_1_0_0_1_n_n rfl _ _ _ _ _ _ a5 a6

/-! ## The two normalisations -/

/-- The column means of the hidden features. -/
theorem v30_apply (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) (c : Fin 128) :
    t_v30 a0 a1 a2 a5 a6 a11 a12 (ix1 c) = Spec.meanOf (Spec.hidden a0 a1 a2 a5 a6 a11 a12) c := by
  unfold t_v30 t_v29 t_cst_4 t_v28 t_cst_3
  rw [v27_eq]
  exact mean_apply _ (by decide) _ _ (Spec.hidden a0 a1 a2 a5 a6 a11 a12) c

/-- The column variances of the hidden features. -/
theorem v31_apply (a0 : FVec Ideal S100000x128 .f32) (a1 : FVec Ideal S128x128 .f32) (a2 : FVec Ideal S128 .f32) (a5 : FVec Ideal S128x256 .f32) (a6 : FVec Ideal S128 .f32) (a11 : IVec S60000x25 32) (a12 : IVec S60000 32) (c : Fin 128) :
    t_v31 a0 a1 a2 a5 a6 a11 a12 (ix1 c) = Spec.varRef (Spec.hidden a0 a1 a2 a5 a6 a11 a12) c := by
  unfold t_v31 t_call2_call0_v1 t_call2_call0_v0 t_call2_cst_4 t_call2_v12 t_call2_cst_3 t_call2_v11 t_call2_v10 t_call2_v9
    t_call2_cst_2 t_call2_v8 t_call2_cst_1 t_call2_v7 t_c_5 t_call2_v6 t_call2_v5 t_call2_v4 t_call2_v3 t_call2_v2
    t_call2_cst_0 t_call2_v1 t_call2_v0 t_call2_cst
  rw [v27_eq]
  exact var_apply _ (by decide) _ _ _ _ _ _ (Spec.hidden a0 a1 a2 a5 a6 a11 a12) (constantI S_ 32 0#32) rfl _ c

/-- The hidden features normalised column by column. -/
theorem v46_eq (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : t_v46 a0 a1 a2 a5 a6 a9 a10 a11 a12 = Spec.bnRef (Spec.hidden a0 a1 a2 a5 a6 a11 a12) a9 a10 := by
  unfold t_v46 t_v45 t_v44 t_v43 t_v42 t_v41 t_v40 t_v39 t_v38 t_v37 t_v36 t_v35 t_cst_6 t_v34 t_v33 t_v32
  rw [v27_eq]
  exact bn_ops _ _ _ (Spec.hidden a0 a1 a2 a5 a6 a11 a12) (t_v30 a0 a1 a2 a5 a6 a11 a12) (t_v31 a0 a1 a2 a5 a6 a11 a12) a9 a10
    (v30_apply a0 a1 a2 a5 a6 a11 a12) (v31_apply a0 a1 a2 a5 a6 a11 a12)

/-- … and then row by row. -/
theorem v51_eq (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) : t_v51 a0 a1 a2 a5 a6 a9 a10 a11 a12 = Spec.l2n (Spec.bnRef (Spec.hidden a0 a1 a2 a5 a6 a11 a12) a9 a10) := by
  unfold t_v51 t_v50 t_v49 t_v48 t_cst_7 t_v47 t_call3_v2 t_call3_v1 t_call3_cst t_call3_v0
  rw [v46_eq]
  exact l2n_ops _ (by decide) _ _ _ _ (Spec.bnRef (Spec.hidden a0 a1 a2 a5 a6 a11 a12) a9 a10)

/-! ## The second layer -/

/-- The projection of every one of the 60000 normalised rows. -/
theorem v57_eq (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a9 : FVec Ideal S128 .f32) (a10 : FVec Ideal S128 .f32) (a11 : IVec S60000x25 32) (a12 : IVec S60000 32) :
    t_v57 a0 a1 a2 a3 a4 a5 a6 a9 a10 a11 a12 = Spec.proj (Spec.l2n (Spec.bnRef (Spec.hidden a0 a1 a2 a5 a6 a11 a12) a9 a10)) a3 a4 := by
  unfold t_v57 t_call4_v0 t_call4_cst t_v56 t_v55 t_v54 t_v53 t_v52
  rw [v51_eq]
  exact proj_ops dot_S60000x128_S128x128_S60000x128_1_0_0_1_n_n rfl _ _ _ _ (Spec.l2n (Spec.bnRef (Spec.hidden a0 a1 a2 a5 a6 a11 a12) a9 a10)) a3 a4

/-- The maximum over the 25 sampled neighbours' projected rows. -/
theorem v65_eq (a0 : FVec Ideal S100000x128 .f32) (a1 : FVec Ideal S128x128 .f32) (a2 : FVec Ideal S128 .f32) (a3 : FVec Ideal S128x128 .f32) (a4 : FVec Ideal S128 .f32) (a5 : FVec Ideal S128x256 .f32) (a6 : FVec Ideal S128 .f32) (a9 : FVec Ideal S128 .f32) (a10 : FVec Ideal S128 .f32) (a11 : IVec S60000x25 32) (a12 : IVec S60000 32) (a13 : IVec S30000x25 32) :
    t_v65 a0 a1 a2 a3 a4 a5 a6 a9 a10 a11 a12 a13
      = Spec.nbrMax (N := 60000) (by norm_num) 60000#32 (Spec.proj (Spec.l2n (Spec.bnRef (Spec.hidden a0 a1 a2 a5 a6 a11 a12) a9 a10)) a3 a4) a13 := by
  unfold t_v65 t_v64 t_cst_10 t_v63 t_v62 t_v61 t_v60 t_c_9 t_v59 t_v58 t_c_8
  rw [v57_eq]
  exact nbrMax_ops (N := 60000) (M := 30000) (by norm_num) 60000#32
    gather_S60000x128_S30000x25x1_S30000x25x128_2_0_n_n_0_2_1128_wf
    gather_S60000x128_S30000x25x1_S30000x25x128_2_0_n_n_0_2_1128 rfl _ _ _ _ (by decide) _
    (Spec.proj (Spec.l2n (Spec.bnRef (Spec.hidden a0 a1 a2 a5 a6 a11 a12) a9 a10)) a3 a4) a13

/-- The 30000 output nodes' own normalised rows. -/
theorem v72_eq (a0 : FVec Ideal S100000x128 .f32) (a1 : FVec Ideal S128x128 .f32) (a2 : FVec Ideal S128 .f32) (a5 : FVec Ideal S128x256 .f32) (a6 : FVec Ideal S128 .f32) (a9 : FVec Ideal S128 .f32) (a10 : FVec Ideal S128 .f32) (a11 : IVec S60000x25 32) (a12 : IVec S60000 32) (a14 : IVec S30000 32) :
    t_v72 a0 a1 a2 a5 a6 a9 a10 a11 a12 a14 = Spec.selfRows (N := 60000) (by norm_num) 60000#32 (Spec.l2n (Spec.bnRef (Spec.hidden a0 a1 a2 a5 a6 a11 a12) a9 a10)) a14 := by
  unfold t_v72 t_v71 t_v70 t_v69 t_v68 t_c_12 t_v67 t_v66 t_c_11
  rw [v51_eq]
  exact selfRows_ops (N := 60000) (M := 30000) (by norm_num) 60000#32
    gather_S60000x128_S30000x1_S30000x128_1_0_n_n_0_1_1128_wf
    gather_S60000x128_S30000x1_S30000x128_1_0_n_n_0_1_1128 rfl _ _ _ (Spec.l2n (Spec.bnRef (Spec.hidden a0 a1 a2 a5 a6 a11 a12) a9 a10)) a14

/-- The reference's result term is the network with the centred normalisation. -/
theorem out_eq_GR (a0 : FVec Ideal S100000x128 .f32) (a1 : FVec Ideal S128x128 .f32) (a2 : FVec Ideal S128 .f32) (a3 : FVec Ideal S128x128 .f32) (a4 : FVec Ideal S128 .f32)
    (a5 : FVec Ideal S128x256 .f32) (a6 : FVec Ideal S128 .f32) (a7 : FVec Ideal S128x256 .f32) (a8 : FVec Ideal S128 .f32) (a9 : FVec Ideal S128 .f32) (a10 : FVec Ideal S128 .f32)
    (a11 : IVec S60000x25 32) (a12 : IVec S60000 32) (a13 : IVec S30000x25 32) (a14 : IVec S30000 32) :
    out a0 a1 a2 a3 a4 a5 a6 a7 a8 a9 a10 a11 a12 a13 a14 = Spec.GR a0 a1 a2 a3 a4 a5 a6 a7 a8 a9 a10 a11 a12 a13 a14 := by
  unfold out t_v78 t_v77 t_v76 t_v75 t_v74 t_v73
  rw [v65_eq, v72_eq]
  exact lin2_ops dot_S30000x256_S256x128_S30000x128_1_0_0_1_n_n rfl _ _ _ _ _ _ a7 a8

end Cert.ReferenceIdeal.Val

end
-- ==== Proof.lean ====
/-
  A two-layer neighbourhood-sampling graph network, computed by a kernel program of six tiled regions among host
  operations and by a plain array program, gives the same result on the extended reals whenever its float inputs are
  finite.

  Both programs project every node's features, take the entrywise maximum over each output node's 25 sampled
  neighbours, join it with the node's own features and apply a linear map; between the two layers they clip at zero,
  normalise every column by its batch mean and variance, scale, shift and divide every row by its Euclidean length plus
  a small constant (Proof/Spec.lean states each stage index by index). They differ in one place only: the column
  variance. The array program centres the column first and averages the squared deviations; the kernel accumulates the
  column's sum and sum of squares block by block and takes the second moment minus the squared mean, kept nonnegative,
  folding mean, variance, scale and shift into one multiplication and one addition per entry. On a column of real
  numbers these are the same number (Proof/Algebra.lean), and a finite input makes every column real: sums, products
  and maxima of real numbers are real, and a gathered row of a real array is real, whatever the node numbers are
  (they are wrapped and clamped into the table the same way by both programs). With an infinite entry the two
  variance formulas part ways (∞ − ∞), which is why the precondition is used, and used only there
  (Proof/PreReal.lean reads it: every float argument has real entries).

  The kernel's value (Proof/KerValue.lean) is read off its run region by region; the array program's value
  (Proof/RefRun.lean, Proof/RefRead.lean) off its run operation by operation; each of the three programs terminates
  without a fault and leaves its arguments unchanged; the idealised kernel is the word-level kernel's own text read on
  the extended reals, nothing rewritten.
-/
import proofs.«178630_j29162827940511_2_alg».proof.Defs
import proofs.«178630_j29162827940511_2_alg».proof.Proof.Gen.Kernel
import proofs.«178630_j29162827940511_2_alg».proof.Proof.KernelFrameP
import proofs.«178630_j29162827940511_2_alg».proof.Proof.Gen.KernelIdeal
import proofs.«178630_j29162827940511_2_alg».proof.Proof.KernelIdealFrameP
import proofs.«178630_j29162827940511_2_alg».proof.Proof.Gen.ReferenceIdeal
import proofs.«178630_j29162827940511_2_alg».proof.Proof.Gen.Pre_finite_inputs
import proofs.«178630_j29162827940511_2_alg».proof.Proof.Spec
import proofs.«178630_j29162827940511_2_alg».proof.Proof.Algebra
import proofs.«178630_j29162827940511_2_alg».proof.Proof.PreReal
import proofs.«178630_j29162827940511_2_alg».proof.Proof.KerValue
import proofs.«178630_j29162827940511_2_alg».proof.Proof.RefRun
import proofs.«178630_j29162827940511_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Val.run_term m ρ)

/-- The idealisation rewrote no operation. -/
theorem preserves : Cert.preserves_Kernel_KernelIdeal := trivial

/-- From memories agreeing on the arguments, the kernel ends at the network with the normalisation from the raw moments
    and the reference at the network with the centred normalisation; the precondition makes every float argument a real
    array, and on real arrays the two normalisations agree. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.KernelIdeal.Val.run m ρ, ?_⟩
  refine (θ_run Cert.ReferenceIdeal.defs _ _).mono (fun _ h c => ⟨(h c).1.trans ?_, (h c).2⟩)
    (Cert.ReferenceIdeal.Val.run_term m' ρ')
  obtain ⟨e0, e1, e2, e3, e4, e5, e6, e7, e8, e9, e10, e11, e12, e13, e14⟩ := hagree c
  rw [e0, e1, e2, e3, e4, e5, e6, e7, e8, e9, e10, e11, e12, e13, e14, Cert.ReferenceIdeal.Val.out_eq_GR]
  obtain ⟨r0, r1, r2, _, _, r5, r6, _, _, r9, r10⟩ := Cert.PreReal.real_args _ _ _ _ _ _ _ _ _ _ _ _ _ _ _ (hpre c)
  exact (Cert.Algebra.GK_eq_GR _ _ _ _ _ _ _ _ _ _ _ _ _ _ _ r0 r1 r2 r5 r6 r9 r10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
